-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v20_1)) (v1 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_1) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S768x32 : Shape := ⟨2, ![768, 32]⟩
abbrev S589824x16 : Shape := ⟨2, ![589824, 16]⟩
abbrev S32x100 : Shape := ⟨2, ![32, 100]⟩
abbrev S100 : Shape := ⟨1, ![100]⟩
abbrev S16x100 : Shape := ⟨2, ![16, 100]⟩
abbrev S100x100 : Shape := ⟨2, ![100, 100]⟩
abbrev S_ : Shape := ⟨0, ![]⟩

class Facts : Prop where
  bcast_S_S768x32 : S_.BroadcastsInDim S768x32 (![] : Fin 0 → Fin S768x32.rank)
  reducesTo_S768x32_S_d0_1 : S768x32.ReducesTo [0, 1] S_
  h_S_ : 0 < S_.numel
  bcast_S_S589824x16 : S_.BroadcastsInDim S589824x16 (![] : Fin 0 → Fin S589824x16.rank)
  reducesTo_S589824x16_S_d0_1 : S589824x16.ReducesTo [0, 1] S_
  bcast_S_S32x100 : S_.BroadcastsInDim S32x100 (![] : Fin 0 → Fin S32x100.rank)
  reducesTo_S32x100_S_d0_1 : S32x100.ReducesTo [0, 1] S_
  bcast_S_S100 : S_.BroadcastsInDim S100 (![] : Fin 0 → Fin S100.rank)
  reducesTo_S100_S_d0 : S100.ReducesTo [0] S_
  bcast_S_S16x100 : S_.BroadcastsInDim S16x100 (![] : Fin 0 → Fin S16x100.rank)
  reducesTo_S16x100_S_d0_1 : S16x100.ReducesTo [0, 1] S_
  bcast_S_S100x100 : S_.BroadcastsInDim S100x100 (![] : Fin 0 → Fin S100x100.rank)
  reducesTo_S100x100_S_d0_1 : S100x100.ReducesTo [0, 1] S_

variable [Facts]

def fn_part4 {F : FTy → Type} [FloatOps F] (main_arg14 : FVec F S100x100 .f32) (main_arg15 : FVec F S100 .f32) (main_v63 : IVec S_ 1) (main_v67 : IVec S_ 1) : IVec S_ 1 :=
  let main_v68 : IVec S_ 1 := andi main_v63 main_v67
  let main_v69 : FVec F S100x100 .f32 := Host.absf main_arg14
  let main_cst_26 : FVec F S_ .f32 := constant S_ .f32 0x7F800000#32
  let main_v70 : FVec F S100x100 .f32 := broadcastInDim S100x100 ![] bcast_S_S100x100 main_cst_26
  let main_v71 : IVec S100x100 1 := cmpf .olt main_v69 main_v70
  let main_c_27 : IVec S_ 1 := constantI S_ 1 1#1
  let main_v72 : IVec S_ 1 := (fun x v => Host.reduce IntOp.andi x v reducesTo_S100x100_S_d0_1 h_S_) main_v71 main_c_27
  let main_v73 : IVec S_ 1 := andi main_v68 main_v72
  let main_v74 : FVec F S100 .f32 := Host.absf main_arg15
  let main_cst_28 : FVec F S_ .f32 := constant S_ .f32 0x7F800000#32
  let main_v75 : FVec F S100 .f32 := broadcastInDim S100 ![] bcast_S_S100 main_cst_28
  let main_v76 : IVec S100 1 := cmpf .olt main_v74 main_v75
  let main_c_29 : IVec S_ 1 := constantI S_ 1 1#1
  let main_v77 : IVec S_ 1 := (fun x v => Host.reduce IntOp.andi x v reducesTo_S100_S_d0 h_S_) main_v76 main_c_29
  let main_v78 : IVec S_ 1 := andi main_v73 main_v77
  main_v78

def fn_part3 {F : FTy → Type} [FloatOps F] (main_arg11 : FVec F S100 .f32) (main_arg12 : FVec F S100x100 .f32) (main_arg13 : FVec F S100 .f32) (main_arg14 : FVec F S100x100 .f32) (main_arg15 : FVec F S100 .f32) (main_v48 : IVec S_ 1) (main_v49 : FVec F S100x100 .f32) (main_v50 : FVec F S100x100 .f32) : IVec S_ 1 :=
  let main_v51 : IVec S100x100 1 := cmpf .olt main_v49 main_v50
  let main_c_19 : IVec S_ 1 := constantI S_ 1 1#1
  let main_v52 : IVec S_ 1 := (fun x v => Host.reduce IntOp.andi x v reducesTo_S100x100_S_d0_1 h_S_) main_v51 main_c_19
  let main_v53 : IVec S_ 1 := andi main_v48 main_v52
  let main_v54 : FVec F S100 .f32 := Host.absf main_arg11
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S100x100 .f32 := Host.absf main_arg12
  let main_cst_22 : FVec F S_ .f32 := constant S_ .f32 0x7F800000#32
  let main_v60 : FVec F S100x100 .f32 := broadcastInDim S100x100 ![] bcast_S_S100x100 main_cst_22
  let main_v61 : IVec S100x100 1 := cmpf .olt main_v59 main_v60
  let main_c_23 : IVec S_ 1 := constantI S_ 1 1#1
  let main_v62 : IVec S_ 1 := (fun x v => Host.reduce IntOp.andi x v reducesTo_S100x100_S_d0_1 h_S_) main_v61 main_c_23
  let main_v63 : IVec S_ 1 := andi main_v58 main_v62
  let main_v64 : FVec F S100 .f32 := Host.absf main_arg13
  let main_cst_24 : FVec F S_ .f32 := constant S_ .f32 0x7F800000#32
  let main_v65 : FVec F S100 .f32 := broadcastInDim S100 ![] bcast_S_S100 main_cst_24
  let main_v66 : IVec S100 1 := cmpf .olt main_v64 main_v65
  let main_c_25 : IVec S_ 1 := constantI S_ 1 1#1
  let main_v67 : IVec S_ 1 := (fun x v => Host.reduce IntOp.andi x v reducesTo_S100_S_d0 h_S_) main_v66 main_c_25
  fn_part4 (F := F) main_arg14 main_arg15 main_v63 main_v67

def fn_part2 {F : FTy → Type} [FloatOps F] (main_arg7 : FVec F S100 .f32) (main_arg8 : FVec F S100x100 .f32) (main_arg9 : FVec F S100x100 .f32) (main_arg10 : FVec F S100x100 .f32) (main_arg11 : FVec F S100 .f32) (main_arg12 : FVec F S100x100 .f32) (main_arg13 : FVec F S100 .f32) (main_arg14 : FVec F S100x100 .f32) (main_arg15 : FVec F S100 .f32) (main_v33 : IVec S_ 1) : IVec S_ 1 :=
  let main_v34 : FVec F S100 .f32 := Host.absf main_arg7
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100x100 .f32 := Host.absf main_arg8
  let main_cst_14 : FVec F S_ .f32 := constant S_ .f32 0x7F800000#32
  let main_v40 : FVec F S100x100 .f32 := broadcastInDim S100x100 ![] bcast_S_S100x100 main_cst_14
  let main_v41 : IVec S100x100 1 := cmpf .olt main_v39 main_v40
  let main_c_15 : IVec S_ 1 := constantI S_ 1 1#1
  let main_v42 : IVec S_ 1 := (fun x v => Host.reduce IntOp.andi x v reducesTo_S100x100_S_d0_1 h_S_) main_v41 main_c_15
  let main_v43 : IVec S_ 1 := andi main_v38 main_v42
  let main_v44 : FVec F S100x100 .f32 := Host.absf main_arg9
  let main_cst_16 : FVec F S_ .f32 := constant S_ .f32 0x7F800000#32
  let main_v45 : FVec F S100x100 .f32 := broadcastInDim S100x100 ![] bcast_S_S100x100 main_cst_16
  let main_v46 : IVec S100x100 1 := cmpf .olt main_v44 main_v45
  let main_c_17 : IVec S_ 1 := constantI S_ 1 1#1
  let main_v47 : IVec S_ 1 := (fun x v => Host.reduce IntOp.andi x v reducesTo_S100x100_S_d0_1 h_S_) main_v46 main_c_17
  let main_v48 : IVec S_ 1 := andi main_v43 main_v47
  let main_v49 : FVec F S100x100 .f32 := Host.absf main_arg10
  let main_cst_18 : FVec F S_ .f32 := constant S_ .f32 0x7F800000#32
  let main_v50 : FVec F S100x100 .f32 := broadcastInDim S100x100 ![] bcast_S_S100x100 main_cst_18
  fn_part3 (F := F) main_arg11 main_arg12 main_arg13 main_arg14 main_arg15 main_v48 main_v49 main_v50

def fn_part1 {F : FTy → Type} [FloatOps F] (main_arg4 : FVec F S16x100 .f32) (main_arg5 : FVec F S100 .f32) (main_arg6 : FVec F S100x100 .f32) (main_arg7 : FVec F S100 .f32) (main_arg8 : FVec F S100x100 .f32) (main_arg9 : FVec F S100x100 .f32) (main_arg10 : FVec F S100x100 .f32) (main_arg11 : FVec F S100 .f32) (main_arg12 : FVec F S100x100 .f32) (main_arg13 : FVec F S100 .f32) (main_arg14 : FVec F S100x100 .f32) (main_arg15 : FVec F S100 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S16x100 .f32 := Host.absf main_arg4
  let main_cst_6 : FVec F S_ .f32 := constant S_ .f32 0x7F800000#32
  let main_v20 : FVec F S16x100 .f32 := broadcastInDim S16x100 ![] bcast_S_S16x100 main_cst_6
  let main_v21 : IVec S16x100 1 := cmpf .olt main_v19 main_v20
  let main_c_7 : IVec S_ 1 := constantI S_ 1 1#1
  let main_v22 : IVec S_ 1 := (fun x v => Host.reduce IntOp.andi x v reducesTo_S16x100_S_d0_1 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100x100 .f32 := Host.absf main_arg6
  let main_cst_10 : FVec F S_ .f32 := constant S_ .f32 0x7F800000#32
  let main_v30 : FVec F S100x100 .f32 := broadcastInDim S100x100 ![] bcast_S_S100x100 main_cst_10
  let main_v31 : IVec S100x100 1 := cmpf .olt main_v29 main_v30
  let main_c_11 : IVec S_ 1 := constantI S_ 1 1#1
  let main_v32 : IVec S_ 1 := (fun x v => Host.reduce IntOp.andi x v reducesTo_S100x100_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S768x32 .f32) (main_arg1 : FVec F S589824x16 .f32) (main_arg2 : FVec F S32x100 .f32) (main_arg3 : FVec F S100 .f32) (main_arg4 : FVec F S16x100 .f32) (main_arg5 : FVec F S100 .f32) (main_arg6 : FVec F S100x100 .f32) (main_arg7 : FVec F S100 .f32) (main_arg8 : FVec F S100x100 .f32) (main_arg9 : FVec F S100x100 .f32) (main_arg10 : FVec F S100x100 .f32) (main_arg11 : FVec F S100 .f32) (main_arg12 : FVec F S100x100 .f32) (main_arg13 : FVec F S100 .f32) (main_arg14 : FVec F S100x100 .f32) (main_arg15 : FVec F S100 .f32) : IVec S_ 1 :=
  let main_v0 : FVec F S768x32 .f32 := Host.absf main_arg0
  let main_cst : FVec F S_ .f32 := constant S_ .f32 0x7F800000#32
  let main_v1 : FVec F S768x32 .f32 := broadcastInDim S768x32 ![] bcast_S_S768x32 main_cst
  let main_v2 : IVec S768x32 1 := cmpf .olt main_v0 main_v1
  let main_c : IVec S_ 1 := constantI S_ 1 1#1
  let main_v3 : IVec S_ 1 := (fun x v => Host.reduce IntOp.andi x v reducesTo_S768x32_S_d0_1 h_S_) main_v2 main_c
  let main_v4 : FVec F S589824x16 .f32 := Host.absf main_arg1
  let main_cst_0 : FVec F S_ .f32 := constant S_ .f32 0x7F800000#32
  let main_v5 : FVec F S589824x16 .f32 := broadcastInDim S589824x16 ![] bcast_S_S589824x16 main_cst_0
  let main_v6 : IVec S589824x16 1 := cmpf .olt main_v4 main_v5
  let main_c_1 : IVec S_ 1 := constantI S_ 1 1#1
  let main_v7 : IVec S_ 1 := (fun x v => Host.reduce IntOp.andi x v reducesTo_S589824x16_S_d0_1 h_S_) main_v6 main_c_1
  let main_v8 : IVec S_ 1 := andi main_v3 main_v7
  let main_v9 : FVec F S32x100 .f32 := Host.absf main_arg2
  let main_cst_2 : FVec F S_ .f32 := constant S_ .f32 0x7F800000#32
  let main_v10 : FVec F S32x100 .f32 := broadcastInDim S32x100 ![] bcast_S_S32x100 main_cst_2
  let main_v11 : IVec S32x100 1 := cmpf .olt main_v9 main_v10
  let main_c_3 : IVec S_ 1 := constantI S_ 1 1#1
  let main_v12 : IVec S_ 1 := (fun x v => Host.reduce IntOp.andi x v reducesTo_S32x100_S_d0_1 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S768x32 : Shape := ⟨2, ![768, 32]⟩
abbrev S589824x16 : Shape := ⟨2, ![589824, 16]⟩
abbrev S32x100 : Shape := ⟨2, ![32, 100]⟩
abbrev S100 : Shape := ⟨1, ![100]⟩
abbrev S16x100 : Shape := ⟨2, ![16, 100]⟩
abbrev S100x100 : Shape := ⟨2, ![100, 100]⟩
abbrev S768x100 : Shape := ⟨2, ![768, 100]⟩
abbrev S1x100 : Shape := ⟨2, ![1, 100]⟩
abbrev S589824x100 : Shape := ⟨2, ![589824, 100]⟩
abbrev S12288x16 : Shape := ⟨2, ![12288, 16]⟩
abbrev S12288x100 : Shape := ⟨2, ![12288, 100]⟩
abbrev S6144x100 : Shape := ⟨2, ![6144, 100]⟩
abbrev S8x100 : Shape := ⟨2, ![8, 100]⟩
abbrev S100x768 : Shape := ⟨2, ![100, 768]⟩
abbrev S8x768 : Shape := ⟨2, ![8, 768]⟩
abbrev S8x768x100 : Shape := ⟨3, ![8, 768, 100]⟩
abbrev S8x768x1 : Shape := ⟨3, ![8, 768, 1]⟩

abbrev nBuf : Space → Nat
  | .hbm => 40
  | .vmem => 63
  | .smem => 0
  | _ => 0

abbrev bufTy : (tb : Table) → Fin (tcTables nBuf tb) → BufTy
  | .hbm, ⟨0, _⟩ => ⟨S768x32, .f32⟩
  | .hbm, ⟨1, _⟩ => ⟨S589824x16, .f32⟩
  | .hbm, ⟨2, _⟩ => ⟨S32x100, .f32⟩
  | .hbm, ⟨3, _⟩ => ⟨S100, .f32⟩
  | .hbm, ⟨4, _⟩ => ⟨S16x100, .f32⟩
  | .hbm, ⟨5, _⟩ => ⟨S100, .f32⟩
  | .hbm, ⟨6, _⟩ => ⟨S100x100, .f32⟩
  | .hbm, ⟨7, _⟩ => ⟨S100, .f32⟩
  | .hbm, ⟨8, _⟩ => ⟨S100x100, .f32⟩
  | .hbm, ⟨9, _⟩ => ⟨S100x100, .f32⟩
  | .hbm, ⟨10, _⟩ => ⟨S100x100, .f32⟩
  | .hbm, ⟨11, _⟩ => ⟨S100, .f32⟩
  | .hbm, ⟨12, _⟩ => ⟨S100x100, .f32⟩
  | .hbm, ⟨13, _⟩ => ⟨S100, .f32⟩
  | .hbm, ⟨14, _⟩ => ⟨S100x100, .f32⟩
  | .hbm, ⟨15, _⟩ => ⟨S100, .f32⟩
  | .hbm, ⟨16, _⟩ => ⟨S768x100, .f32⟩
  | .hbm, ⟨17, _⟩ => ⟨S1x100, .f32⟩
  | .hbm, ⟨18, _⟩ => ⟨S768x100, .f32⟩
  | .hbm, ⟨19, _⟩ => ⟨S768x100, .f32⟩
  | .hbm, ⟨20, _⟩ => ⟨S1x100, .f32⟩
  | .hbm, ⟨21, _⟩ => ⟨S589824x100, .f32⟩
  | .hbm, ⟨22, _⟩ => ⟨S1x100, .f32⟩
  | .hbm, ⟨23, _⟩ => ⟨S1x100, .f32⟩
  | .hbm, ⟨24, _⟩ => ⟨S1x100, .f32⟩
  | .hbm, ⟨25, _⟩ => ⟨S1x100, .f32⟩
  | .hbm, ⟨26, _⟩ => ⟨S589824x100, .f32⟩
  | .hbm, ⟨27, _⟩ => ⟨S768x100, .f32⟩
  | .hbm, ⟨28, _⟩ => ⟨S1x100, .f32⟩
  | .hbm, ⟨29, _⟩ => ⟨S1x100, .f32⟩
  | .hbm, ⟨30, _⟩ => ⟨S1x100, .f32⟩
  | .hbm, ⟨31, _⟩ => ⟨S1x100, .f32⟩
  | .hbm, ⟨32, _⟩ => ⟨S589824x100, .f32⟩
  | .hbm, ⟨33, _⟩ => ⟨S768x100, .f32⟩
  | .hbm, ⟨34, _⟩ => ⟨S1x100, .f32⟩
  | .hbm, ⟨35, _⟩ => ⟨S1x100, .f32⟩
  | .hbm, ⟨36, _⟩ => ⟨S1x100, .f32⟩
  | .hbm, ⟨37, _⟩ => ⟨S1x100, .f32⟩
  | .hbm, ⟨38, _⟩ => ⟨S589824x100, .f32⟩
  | .hbm, ⟨39, _⟩ => ⟨S768x100, .f32⟩
  | .local _ .vmem, ⟨0, _⟩ => ⟨S12288x16, .f32⟩
  | .local _ .vmem, ⟨1, _⟩ => ⟨S12288x16, .f32⟩
  | .local _ .vmem, ⟨2, _⟩ => ⟨S16x100, .f32⟩
  | .local _ .vmem, ⟨3, _⟩ => ⟨S1x100, .f32⟩
  | .local _ .vmem, ⟨4, _⟩ => ⟨S12288x100, .f32⟩
  | .local _ .vmem, ⟨5, _⟩ => ⟨S12288x100, .f32⟩
  | .local _ .vmem, ⟨6, _⟩ => ⟨S6144x100, .f32⟩
  | .local _ .vmem, ⟨7, _⟩ => ⟨S6144x100, .f32⟩
  | .local _ .vmem, ⟨8, _⟩ => ⟨S8x100, .f32⟩
  | .local _ .vmem, ⟨9, _⟩ => ⟨S8x100, .f32⟩
  | .local _ .vmem, ⟨10, _⟩ => ⟨S768x100, .f32⟩
  | .local _ .vmem, ⟨11, _⟩ => ⟨S100x100, .f32⟩
  | .local _ .vmem, ⟨12, _⟩ => ⟨S1x100, .f32⟩
  | .local _ .vmem, ⟨13, _⟩ => ⟨S100x100, .f32⟩
  | .local _ .vmem, ⟨14, _⟩ => ⟨S100x100, .f32⟩
  | .local _ .vmem, ⟨15, _⟩ => ⟨S100x100, .f32⟩
  | .local _ .vmem, ⟨16, _⟩ => ⟨S1x100, .f32⟩
  | .local _ .vmem, ⟨17, _⟩ => ⟨S100x100, .f32⟩
  | .local _ .vmem, ⟨18, _⟩ => ⟨S1x100, .f32⟩
  | .local _ .vmem, ⟨19, _⟩ => ⟨S100x100, .f32⟩
  | .local _ .vmem, ⟨20, _⟩ => ⟨S1x100, .f32⟩
  | .local _ .vmem, ⟨21, _⟩ => ⟨S6144x100, .f32⟩
  | .local _ .vmem, ⟨22, _⟩ => ⟨S6144x100, .f32⟩
  | .local _ .vmem, ⟨23, _⟩ => ⟨S8x100, .f32⟩
  | .local _ .vmem, ⟨24, _⟩ => ⟨S8x100, .f32⟩
  | .local _ .vmem, ⟨25, _⟩ => ⟨S6144x100, .f32⟩
  | .local _ .vmem, ⟨26, _⟩ => ⟨S6144x100, .f32⟩
  | .local _ .vmem, ⟨27, _⟩ => ⟨S8x100, .f32⟩
  | .local _ .vmem, ⟨28, _⟩ => ⟨S8x100, .f32⟩
  | .local _ .vmem, ⟨29, _⟩ => ⟨S768x100, .f32⟩
  | .local _ .vmem, ⟨30, _⟩ => ⟨S100x100, .f32⟩
  | .local _ .vmem, ⟨31, _⟩ => ⟨S1x100, .f32⟩
  | .local _ .vmem, ⟨32, _⟩ => ⟨S100x100, .f32⟩
  | .local _ .vmem, ⟨33, _⟩ => ⟨S100x100, .f32⟩
  | .local _ .vmem, ⟨34, _⟩ => ⟨S100x100, .f32⟩
  | .local _ .vmem, ⟨35, _⟩ => ⟨S1x100, .f32⟩
  | .local _ .vmem, ⟨36, _⟩ => ⟨S100x100, .f32⟩
  | .local _ .vmem, ⟨37, _⟩ => ⟨S1x100, .f32⟩
  | .local _ .vmem, ⟨38, _⟩ => ⟨S100x100, .f32⟩
  | .local _ .vmem, ⟨39, _⟩ => ⟨S1x100, .f32⟩
  | .local _ .vmem, ⟨40, _⟩ => ⟨S6144x100, .f32⟩
  | .local _ .vmem, ⟨41, _⟩ => ⟨S6144x100, .f32⟩
  | .local _ .vmem, ⟨42, _⟩ => ⟨S8x100, .f32⟩
  | .local _ .vmem, ⟨43, _⟩ => ⟨S8x100, .f32⟩
  | .local _ .vmem, ⟨44, _⟩ => ⟨S6144x100, .f32⟩
  | .local _ .vmem, ⟨45, _⟩ => ⟨S6144x100, .f32⟩
  | .local _ .vmem, ⟨46, _⟩ => ⟨S8x100, .f32⟩
  | .local _ .vmem, ⟨47, _⟩ => ⟨S8x100, .f32⟩
  | .local _ .vmem, ⟨48, _⟩ => ⟨S768x100, .f32⟩
  | .local _ .vmem, ⟨49, _⟩ => ⟨S100x100, .f32⟩
  | .local _ .vmem, ⟨50, _⟩ => ⟨S1x100, .f32⟩
  | .local _ .vmem, ⟨51, _⟩ => ⟨S100x100, .f32⟩
  | .local _ .vmem, ⟨52, _⟩ => ⟨S100x100, .f32⟩
  | .local _ .vmem, ⟨53, _⟩ => ⟨S100x100, .f32⟩
  | .local _ .vmem, ⟨54, _⟩ => ⟨S1x100, .f32⟩
  | .local _ .vmem, ⟨55, _⟩ => ⟨S100x100, .f32⟩
  | .local _ .vmem, ⟨56, _⟩ => ⟨S1x100, .f32⟩
  | .local _ .vmem, ⟨57, _⟩ => ⟨S100x100, .f32⟩
  | .local _ .vmem, ⟨58, _⟩ => ⟨S1x100, .f32⟩
  | .local _ .vmem, ⟨59, _⟩ => ⟨S6144x100, .f32⟩
  | .local _ .vmem, ⟨60, _⟩ => ⟨S6144x100, .f32⟩
  | .local _ .vmem, ⟨61, _⟩ => ⟨S8x100, .f32⟩
  | .local _ .vmem, ⟨62, _⟩ => ⟨S8x100, .f32⟩
  | _, _ => ⟨S768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg13_1 : Ref sig .tc := ⟨.vmem, 22, rfl⟩
abbrev cc1_stg14_0 : Ref sig .tc := ⟨.vmem, 23, rfl⟩
abbrev cc1_stg14_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg10_0 : Ref sig .tc := ⟨.vmem, 37, rfl⟩
abbrev cc2_stg11_0 : Ref sig .tc := ⟨.vmem, 38, rfl⟩
abbrev cc2_stg12_0 : Ref sig .tc := ⟨.vmem, 39, rfl⟩
abbrev cc2_stg13_0 : Ref sig .tc := ⟨.vmem, 40, rfl⟩
abbrev cc2_stg13_1 : Ref sig .tc := ⟨.vmem, 41, rfl⟩
abbrev cc2_stg14_0 : Ref sig .tc := ⟨.vmem, 42, rfl⟩
abbrev cc2_stg14_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg8_0 : Ref sig .tc := ⟨.vmem, 54, rfl⟩
abbrev cc3_stg9_0 : Ref sig .tc := ⟨.vmem, 55, rfl⟩
abbrev cc3_stg10_0 : Ref sig .tc := ⟨.vmem, 56, rfl⟩
abbrev cc3_stg11_0 : Ref sig .tc := ⟨.vmem, 57, rfl⟩
abbrev cc3_stg12_0 : Ref sig .tc := ⟨.vmem, 58, rfl⟩
abbrev cc3_stg13_0 : Ref sig .tc := ⟨.vmem, 59, rfl⟩
abbrev cc3_stg13_1 : Ref sig .tc := ⟨.vmem, 60, rfl⟩
abbrev cc3_stg14_0 : Ref sig .tc := ⟨.vmem, 61, rfl⟩
abbrev cc3_stg14_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem13_1 : DmaSem sig := 22
abbrev cc1_sem14_0 : DmaSem sig := 23
abbrev cc1_sem14_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem10_0 : DmaSem sig := 37
abbrev cc2_sem11_0 : DmaSem sig := 38
abbrev cc2_sem12_0 : DmaSem sig := 39
abbrev cc2_sem13_0 : DmaSem sig := 40
abbrev cc2_sem13_1 : DmaSem sig := 41
abbrev cc2_sem14_0 : DmaSem sig := 42
abbrev cc2_sem14_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem3_0 : DmaSem sig := 49
abbrev cc3_sem4_0 : DmaSem sig := 50
abbrev cc3_sem5_0 : DmaSem sig := 51
abbrev cc3_sem6_0 : DmaSem sig := 52
abbrev cc3_sem7_0 : DmaSem sig := 53
abbrev cc3_sem8_0 : DmaSem sig := 54
abbrev cc3_sem9_0 : DmaSem sig := 55
abbrev cc3_sem10_0 : DmaSem sig := 56
abbrev cc3_sem11_0 : DmaSem sig := 57
abbrev cc3_sem12_0 : DmaSem sig := 58
abbrev cc3_sem13_0 : DmaSem sig := 59
abbrev cc3_sem13_1 : DmaSem sig := 60
abbrev cc3_sem14_0 : DmaSem sig := 61
abbrev cc3_sem14_1 : DmaSem sig := 62

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12288x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12288x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6144x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S100x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S100x100 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x100 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S100x100 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x100 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S100x100 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x100 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S6144x100 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S8x100 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![96], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6144x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S100x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S100x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S100x100 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S100x100 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x100 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S100x100 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x100 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S100x100 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x100 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S6144x100 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S8x100 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![96], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6144x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x100 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S768x100 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S100x100 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x100 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S100x100 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S100x100 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S100x100 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x100 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S100x100 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x100 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S100x100 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x100 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S6144x100 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S8x100 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

class Facts₀ : Prop where
  bcast_S100_S1x100_1 : S100.BroadcastsInDim S1x100 (![1] : Fin 1 → Fin S1x100.rank)
  bcast_S1x100_S768x100_0_1 : S1x100.BroadcastsInDim S768x100 (![0, 1] : Fin 2 → Fin S768x100.rank)
  shapeCasts_S100_S1x100 : S100.ShapeCasts S1x100
  inb_S12288x16_S12288x16_0_0 : ∀ a, (![0, 0] : Fin 2 → Nat) a + S12288x16.size a ≤ S12288x16.size a
  h_S12288x16 : 0 < S12288x16.numel
  bitsLt_bf16_f32 : FTy.bits .bf16 < FTy.bits .f32
  inb_S16x100_S16x100_0_0 : ∀ a, (![0, 0] : Fin 2 → Nat) a + S16x100.size a ≤ S16x100.size a
  h_S16x100 : 0 < S16x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S12288x100 : S1x100.Broadcasts S12288x100
  inb_S12288x100_S12288x100_0_0 : ∀ a, (![0, 0] : Fin 2 → Nat) a + S12288x100.size a ≤ S12288x100.size a
  h_S12288x100 : 0 < S12288x100.numel
  inb_S6144x100_S6144x100_0_0 : ∀ a, (![0, 0] : Fin 2 → Nat) a + S6144x100.size a ≤ S6144x100.size a
  h_S6144x100 : 0 < S6144x100.numel
  shapeCasts_S6144x100_S6144x100 : S6144x100.ShapeCasts S6144x100
  inb_S100x100_S100x100_0_0 : ∀ a, (![0, 0] : Fin 2 → Nat) a + S100x100.size a ≤ S100x100.size a
  h_S100x100 : 0 < S100x100.numel
  broadcasts_S1x100_S6144x100 : S1x100.Broadcasts S6144x100
  inb_S8x100_S8x100_0_0 : ∀ a, (![0, 0] : Fin 2 → Nat) a + S8x100.size a ≤ S8x100.size a
  h_S8x100 : 0 < S8x100.numel
  shapeCasts_S8x100_S8x100 : S8x100.ShapeCasts S8x100
  inb_S768x100_S768x100_0_0 : ∀ a, (![0, 0] : Fin 2 → Nat) a + S768x100.size a ≤ S768x100.size a
  h_S768x100 : 0 < S768x100.numel
  shapeCasts_S768x100_S768x100 : S768x100.ShapeCasts S768x100
  transposes_S768x100_p1_0_S100x768 : S768x100.Transposes [1, 0] S100x768
  shapeCasts_S6144x100_S8x768x100 : S6144x100.ShapeCasts S8x768x100
  shapeCasts_S8x768_S8x768x1 : S8x768.ShapeCasts S8x768x1
  broadcasts_S8x768x1_S8x768x100 : S8x768x1.Broadcasts S8x768x100
  shapeCasts_S8x768x100_S6144x100 : S8x768x100.ShapeCasts S6144x100
  reduces_S8x768x100_S8x100 : S8x768x100.Reduces [1] S8x100
  broadcasts_S1x100_S8x100 : S1x100.Broadcasts S8x100
  dot_S768x32_S32x100_S768x100_1_0_0_1_n_n_wf : DotDims.WF S768x32 S32x100 S768x100 [1] [0] [0] [1] [] []
  dot_S12288x16_S16x100_S12288x100_1_0_0_1_n_n_wf : DotDims.WF S12288x16 S16x100 S12288x100 [1] [0] [0] [1] [] []
  dot_S6144x100_S100x100_S6144x100_1_0_0_1_n_n_wf : DotDims.WF S6144x100 S100x100 S6144x100 [1] [0] [0] [1] [] []
  dot_S8x100_S100x100_S8x100_1_0_0_1_n_n_wf : DotDims.WF S8x100 S100x100 S8x100 [1] [0] [0] [1] [] []
  dot_S768x100_S100x100_S768x100_1_0_0_1_n_n_wf : DotDims.WF S768x100 S100x100 S768x100 [1] [0] [0] [1] [] []
  dot_S8x100_S100x768_S8x768_1_0_0_1_n_n_wf : DotDims.WF S8x100 S100x768 S8x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12288x16.size a ≤ S589824x16.size a
  hwx0_0 : ∀ i : grid0.Coords, EltTy.bits .f32 = 32 ∨ (Rect.block (s := S589824x16) S12288x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x100.size a ≤ S16x100.size a
  hwx0_1 : ∀ i : grid0.Coords, EltTy.bits .f32 = 32 ∨ (Rect.block (s := S16x100) S16x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12288x100.size a ≤ S589824x100.size a
  hwx0_3 : ∀ i : grid0.Coords, EltTy.bits .f32 = 32 ∨ (Rect.block (s := S589824x100) S12288x100.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6144x100.size a ≤ S589824x100.size a
  hwx1_0 : ∀ i : grid1.Coords, EltTy.bits .f32 = 32 ∨ (Rect.block (s := S589824x100) S6144x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x100.size a ≤ S768x100.size a
  hwx1_1 : ∀ i : grid1.Coords, EltTy.bits .f32 = 32 ∨ (Rect.block (s := S768x100) S8x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x100.size a ≤ S768x100.size a
  hwx1_2 : ∀ i : grid1.Coords, EltTy.bits .f32 = 32 ∨ (Rect.block (s := S768x100) S768x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100x100.size a ≤ S100x100.size a
  hwx1_3 : ∀ i : grid1.Coords, EltTy.bits .f32 = 32 ∨ (Rect.block (s := S100x100) S100x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100x100.size a ≤ S100x100.size a
  hwx1_5 : ∀ i : grid1.Coords, EltTy.bits .f32 = 32 ∨ (Rect.block (s := S100x100) S100x100.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S100x100.size a ≤ S100x100.size a
  hwx1_6 : ∀ i : grid1.Coords, EltTy.bits .f32 = 32 ∨ (Rect.block (s := S100x100) S100x100.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S100x100.size a ≤ S100x100.size a
  hwx1_7 : ∀ i : grid1.Coords, EltTy.bits .f32 = 32 ∨ (Rect.block (s := S100x100) S100x100.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x100.size a ≤ S1x100.size a
  hwx1_8 : ∀ i : grid1.Coords, EltTy.bits .f32 = 32 ∨ (Rect.block (s := S1x100) S1x100.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S100x100.size a ≤ S100x100.size a
  hwx1_9 : ∀ i : grid1.Coords, EltTy.bits .f32 = 32 ∨ (Rect.block (s := S100x100) S100x100.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x100.size a ≤ S1x100.size a
  hwx1_10 : ∀ i : grid1.Coords, EltTy.bits .f32 = 32 ∨ (Rect.block (s := S1x100) S1x100.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S100x100.size a ≤ S100x100.size a
  hwx1_11 : ∀ i : grid1.Coords, EltTy.bits .f32 = 32 ∨ (Rect.block (s := S100x100) S100x100.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x100.size a ≤ S1x100.size a
  hwx1_12 : ∀ i : grid1.Coords, EltTy.bits .f32 = 32 ∨ (Rect.block (s := S1x100) S1x100.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S6144x100.size a ≤ S589824x100.size a
  hwx1_13 : ∀ i : grid1.Coords, EltTy.bits .f32 = 32 ∨ (Rect.block (s := S589824x100) S6144x100.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S8x100.size a ≤ S768x100.size a
  hwx1_14 : ∀ i : grid1.Coords, EltTy.bits .f32 = 32 ∨ (Rect.block (s := S768x100) S8x100.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6144x100.size a ≤ S589824x100.size a
  hwx2_0 : ∀ i : grid2.Coords, EltTy.bits .f32 = 32 ∨ (Rect.block (s := S589824x100) S6144x100.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x100.size a ≤ S768x100.size a
  hwx2_1 : ∀ i : grid2.Coords, EltTy.bits .f32 = 32 ∨ (Rect.block (s := S768x100) S8x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x100.size a ≤ S768x100.size a
  hwx2_2 : ∀ i : grid2.Coords, EltTy.bits .f32 = 32 ∨ (Rect.block (s := S768x100) S768x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S100x100.size a ≤ S100x100.size a
  hwx2_3 : ∀ i : grid2.Coords, EltTy.bits .f32 = 32 ∨ (Rect.block (s := S100x100) S100x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x100.size a ≤ S1x100.size a
  hwx2_4 : ∀ i : grid2.Coords, EltTy.bits .f32 = 32 ∨ (Rect.block (s := S1x100) S1x100.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S100x100.size a ≤ S100x100.size a
  hwx2_5 : ∀ i : grid2.Coords, EltTy.bits .f32 = 32 ∨ (Rect.block (s := S100x100) S100x100.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S100x100.size a ≤ S100x100.size a
  hwx2_6 : ∀ i : grid2.Coords, EltTy.bits .f32 = 32 ∨ (Rect.block (s := S100x100) S100x100.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S100x100.size a ≤ S100x100.size a
  hwx2_7 : ∀ i : grid2.Coords, EltTy.bits .f32 = 32 ∨ (Rect.block (s := S100x100) S100x100.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x100.size a ≤ S1x100.size a
  hwx2_8 : ∀ i : grid2.Coords, EltTy.bits .f32 = 32 ∨ (Rect.block (s := S1x100) S1x100.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S100x100.size a ≤ S100x100.size a
  hwx2_9 : ∀ i : grid2.Coords, EltTy.bits .f32 = 32 ∨ (Rect.block (s := S100x100) S100x100.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x100.size a ≤ S1x100.size a
  hwx2_10 : ∀ i : grid2.Coords, EltTy.bits .f32 = 32 ∨ (Rect.block (s := S1x100) S1x100.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S100x100.size a ≤ S100x100.size a
  hwx2_11 : ∀ i : grid2.Coords, EltTy.bits .f32 = 32 ∨ (Rect.block (s := S100x100) S100x100.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x100.size a ≤ S1x100.size a
  hwx2_12 : ∀ i : grid2.Coords, EltTy.bits .f32 = 32 ∨ (Rect.block (s := S1x100) S1x100.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S6144x100.size a ≤ S589824x100.size a
  hwx2_13 : ∀ i : grid2.Coords, EltTy.bits .f32 = 32 ∨ (Rect.block (s := S589824x100) S6144x100.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S8x100.size a ≤ S768x100.size a
  hwx2_14 : ∀ i : grid2.Coords, EltTy.bits .f32 = 32 ∨ (Rect.block (s := S768x100) S8x100.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6144x100.size a ≤ S589824x100.size a
  hwx3_0 : ∀ i : grid3.Coords, EltTy.bits .f32 = 32 ∨ (Rect.block (s := S589824x100) S6144x100.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x100.size a ≤ S768x100.size a
  hwx3_1 : ∀ i : grid3.Coords, EltTy.bits .f32 = 32 ∨ (Rect.block (s := S768x100) S8x100.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S768x100.size a ≤ S768x100.size a
  hwx3_2 : ∀ i : grid3.Coords, EltTy.bits .f32 = 32 ∨ (Rect.block (s := S768x100) S768x100.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S100x100.size a ≤ S100x100.size a
  hwx3_3 : ∀ i : grid3.Coords, EltTy.bits .f32 = 32 ∨ (Rect.block (s := S100x100) S100x100.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x100.size a ≤ S1x100.size a
  hwx3_4 : ∀ i : grid3.Coords, EltTy.bits .f32 = 32 ∨ (Rect.block (s := S1x100) S1x100.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S100x100.size a ≤ S100x100.size a
  hwx3_5 : ∀ i : grid3.Coords, EltTy.bits .f32 = 32 ∨ (Rect.block (s := S100x100) S100x100.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S100x100.size a ≤ S100x100.size a
  hwx3_6 : ∀ i : grid3.Coords, EltTy.bits .f32 = 32 ∨ (Rect.block (s := S100x100) S100x100.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S100x100.size a ≤ S100x100.size a
  hwx3_7 : ∀ i : grid3.Coords, EltTy.bits .f32 = 32 ∨ (Rect.block (s := S100x100) S100x100.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x100.size a ≤ S1x100.size a
  hwx3_8 : ∀ i : grid3.Coords, EltTy.bits .f32 = 32 ∨ (Rect.block (s := S1x100) S1x100.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S100x100.size a ≤ S100x100.size a
  hwx3_9 : ∀ i : grid3.Coords, EltTy.bits .f32 = 32 ∨ (Rect.block (s := S100x100) S100x100.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x100.size a ≤ S1x100.size a
  hwx3_10 : ∀ i : grid3.Coords, EltTy.bits .f32 = 32 ∨ (Rect.block (s := S1x100) S1x100.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S100x100.size a ≤ S100x100.size a
  hwx3_11 : ∀ i : grid3.Coords, EltTy.bits .f32 = 32 ∨ (Rect.block (s := S100x100) S100x100.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x100.size a ≤ S1x100.size a
  hwx3_12 : ∀ i : grid3.Coords, EltTy.bits .f32 = 32 ∨ (Rect.block (s := S1x100) S1x100.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S6144x100.size a ≤ S589824x100.size a
  hwx3_13 : ∀ i : grid3.Coords, EltTy.bits .f32 = 32 ∨ (Rect.block (s := S589824x100) S6144x100.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S8x100.size a ≤ S768x100.size a
  hwx3_14 : ∀ i : grid3.Coords, EltTy.bits .f32 = 32 ∨ (Rect.block (s := S768x100) S8x100.size (cc3_transform_14 i) (hinb3_14 i)).WholeWords (EltTy.packing .f32)

variable [Facts₀]

def dot_S768x32_S32x100_S768x100_1_0_0_1_n_n : DotDims S768x32 S32x100 S768x100 where
  lhsContracting := [1]
  rhsContracting := [0]
  lhsNonContracting := [0]
  rhsNonContracting := [1]
  lhsBatch := []
  rhsBatch := []
  wf := dot_S768x32_S32x100_S768x100_1_0_0_1_n_n_wf
def dot_S12288x16_S16x100_S12288x100_1_0_0_1_n_n : DotDims S12288x16 S16x100 S12288x100 where
  lhsContracting := [1]
  rhsContracting := [0]
  lhsNonContracting := [0]
  rhsNonContracting := [1]
  lhsBatch := []
  rhsBatch := []
  wf := dot_S12288x16_S16x100_S12288x100_1_0_0_1_n_n_wf
def dot_S6144x100_S100x100_S6144x100_1_0_0_1_n_n : DotDims S6144x100 S100x100 S6144x100 where
  lhsContracting := [1]
  rhsContracting := [0]
  lhsNonContracting := [0]
  rhsNonContracting := [1]
  lhsBatch := []
  rhsBatch := []
  wf := dot_S6144x100_S100x100_S6144x100_1_0_0_1_n_n_wf
def dot_S8x100_S100x100_S8x100_1_0_0_1_n_n : DotDims S8x100 S100x100 S8x100 where
  lhsContracting := [1]
  rhsContracting := [0]
  lhsNonContracting := [0]
  rhsNonContracting := [1]
  lhsBatch := []
  rhsBatch := []
  wf := dot_S8x100_S100x100_S8x100_1_0_0_1_n_n_wf
def dot_S768x100_S100x100_S768x100_1_0_0_1_n_n : DotDims S768x100 S100x100 S768x100 where
  lhsContracting := [1]
  rhsContracting := [0]
  lhsNonContracting := [0]
  rhsNonContracting := [1]
  lhsBatch := []
  rhsBatch := []
  wf := dot_S768x100_S100x100_S768x100_1_0_0_1_n_n_wf
def dot_S8x100_S100x768_S8x768_1_0_0_1_n_n : DotDims S8x100 S100x768 S8x768 where
  lhsContracting := [1]
  rhsContracting := [0]
  lhsNonContracting := [0]
  rhsNonContracting := [1]
  lhsBatch := []
  rhsBatch := []
  wf := dot_S8x100_S100x768_S8x768_1_0_0_1_n_n_wf

abbrev win0_0 : Pipeline.Window sig grid0 :=
  Pipeline.Window.ofSpec (Memref.whole main_arg1) S12288x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S12288x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S6144x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S768x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S100x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S100x100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S100x100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S100x100.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S1x100.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S100x100.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v8) S1x100.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg14) S100x100.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v9) S1x100.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v10_0) S6144x100.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v10_1) S8x100.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v10_0) S6144x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10_1) S8x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10_1) S768x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S100x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S100x100.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S100x100.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S100x100.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v12) S1x100.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg12) S100x100.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v13) S1x100.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg14) S100x100.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v14) S1x100.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v15_0) S6144x100.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v15_1) S8x100.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v15_0) S6144x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15_1) S8x100.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15_1) S768x100.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S100x100.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S1x100.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S100x100.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S100x100.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg10) S100x100.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v17) S1x100.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg12) S100x100.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v18) S1x100.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg14) S100x100.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v19) S1x100.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v20_0) S6144x100.size cc3_transform_13 reads3_13 true false 2 stage3_13 sem3_13
    hrank3 hreads3_13 hinb3_13 nbuf3_13 (Memref.isWhole_whole _) hwx3_13 hstage3_13

abbrev win3_14 : Pipeline.Window sig grid3 :=
  Pipeline.Window.ofSpec (Memref.whole main_v20_1) S8x100.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

class Facts : Prop extends Facts₀ where

variable [Facts]
-- ==== ReferenceIdeal.lean ====
abbrev S768x32 : Shape := ⟨2, ![768, 32]⟩
abbrev S589824x16 : Shape := ⟨2, ![589824, 16]⟩
abbrev S32x100 : Shape := ⟨2, ![32, 100]⟩
abbrev S100 : Shape := ⟨1, ![100]⟩
abbrev S16x100 : Shape := ⟨2, ![16, 100]⟩
abbrev S100x100 : Shape := ⟨2, ![100, 100]⟩
abbrev S768x100 : Shape := ⟨2, ![768, 100]⟩
abbrev S1x100 : Shape := ⟨2, ![1, 100]⟩
abbrev S589824x100 : Shape := ⟨2, ![589824, 100]⟩
abbrev S100x768 : Shape := ⟨2, ![100, 768]⟩
abbrev S768x768 : Shape := ⟨2, ![768, 768]⟩
abbrev S589824x1 : Shape := ⟨2, ![589824, 1]⟩
abbrev S_ : Shape := ⟨0, ![]⟩
abbrev S768x768x100 : Shape := ⟨3, ![768, 768, 100]⟩

abbrev nBuf : Space → Nat
  | .hbm => 117
  | .vmem => 0
  | .smem => 0
  | _ => 0

abbrev bufTy : (tb : Table) → Fin (tcTables nBuf tb) → BufTy
  | .hbm, ⟨0, _⟩ => ⟨S768x32, .f32⟩
  | .hbm, ⟨1, _⟩ => ⟨S589824x16, .f32⟩
  | .hbm, ⟨2, _⟩ => ⟨S32x100, .f32⟩
  | .hbm, ⟨3, _⟩ => ⟨S100, .f32⟩
  | .hbm, ⟨4, _⟩ => ⟨S16x100, .f32⟩
  | .hbm, ⟨5, _⟩ => ⟨S100, .f32⟩
  | .hbm, ⟨6, _⟩ => ⟨S100x100, .f32⟩
  | .hbm, ⟨7, _⟩ => ⟨S100, .f32⟩
  | .hbm, ⟨8, _⟩ => ⟨S100x100, .f32⟩
  | .hbm, ⟨9, _⟩ => ⟨S100x100, .f32⟩
  | .hbm, ⟨10, _⟩ => ⟨S100x100, .f32⟩
  | .hbm, ⟨11, _⟩ => ⟨S100, .f32⟩
  | .hbm, ⟨12, _⟩ => ⟨S100x100, .f32⟩
  | .hbm, ⟨13, _⟩ => ⟨S100, .f32⟩
  | .hbm, ⟨14, _⟩ => ⟨S100x100, .f32⟩
  | .hbm, ⟨15, _⟩ => ⟨S100, .f32⟩
  | .hbm, ⟨16, _⟩ => ⟨S768x100, .f32⟩
  | .hbm, ⟨17, _⟩ => ⟨S1x100, .f32⟩
  | .hbm, ⟨18, _⟩ => ⟨S768x100, .f32⟩
  | .hbm, ⟨19, _⟩ => ⟨S768x100, .f32⟩
  | .hbm, ⟨20, _⟩ => ⟨S589824x100, .f32⟩
  | .hbm, ⟨21, _⟩ => ⟨S1x100, .f32⟩
  | .hbm, ⟨22, _⟩ => ⟨S589824x100, .f32⟩
  | .hbm, ⟨23, _⟩ => ⟨S589824x100, .f32⟩
  | .hbm, ⟨24, _⟩ => ⟨S589824x100, .f32⟩
  | .hbm, ⟨25, _⟩ => ⟨S1x100, .f32⟩
  | .hbm, ⟨26, _⟩ => ⟨S589824x100, .f32⟩
  | .hbm, ⟨27, _⟩ => ⟨S589824x100, .f32⟩
  | .hbm, ⟨28, _⟩ => ⟨S768x100, .f32⟩
  | .hbm, ⟨29, _⟩ => ⟨S768x100, .f32⟩
  | .hbm, ⟨30, _⟩ => ⟨S100x768, .f32⟩
  | .hbm, ⟨31, _⟩ => ⟨S768x768, .f32⟩
  | .hbm, ⟨32, _⟩ => ⟨S589824x1, .f32⟩
  | .hbm, ⟨33, _⟩ => ⟨S589824x100, .f32⟩
  | .hbm, ⟨34, _⟩ => ⟨S589824x100, .f32⟩
  | .hbm, ⟨35, _⟩ => ⟨S_, .f32⟩
  | .hbm, ⟨36, _⟩ => ⟨S589824x100, .f32⟩
  | .hbm, ⟨37, _⟩ => ⟨S589824x100, .f32⟩
  | .hbm, ⟨38, _⟩ => ⟨S589824x100, .f32⟩
  | .hbm, ⟨39, _⟩ => ⟨S1x100, .f32⟩
  | .hbm, ⟨40, _⟩ => ⟨S589824x100, .f32⟩
  | .hbm, ⟨41, _⟩ => ⟨S589824x100, .f32⟩
  | .hbm, ⟨42, _⟩ => ⟨S589824x100, .f32⟩
  | .hbm, ⟨43, _⟩ => ⟨S589824x100, .f32⟩
  | .hbm, ⟨44, _⟩ => ⟨S1x100, .f32⟩
  | .hbm, ⟨45, _⟩ => ⟨S589824x100, .f32⟩
  | .hbm, ⟨46, _⟩ => ⟨S589824x100, .f32⟩
  | .hbm, ⟨47, _⟩ => ⟨S768x768x100, .f32⟩
  | .hbm, ⟨48, _⟩ => ⟨S_, .f32⟩
  | .hbm, ⟨49, _⟩ => ⟨S768x100, .f32⟩
  | .hbm, ⟨50, _⟩ => ⟨S768x100, .f32⟩
  | .hbm, ⟨51, _⟩ => ⟨S1x100, .f32⟩
  | .hbm, ⟨52, _⟩ => ⟨S768x100, .f32⟩
  | .hbm, ⟨53, _⟩ => ⟨S768x100, .f32⟩
  | .hbm, ⟨54, _⟩ => ⟨S768x100, .f32⟩
  | .hbm, ⟨55, _⟩ => ⟨S589824x100, .f32⟩
  | .hbm, ⟨56, _⟩ => ⟨S1x100, .f32⟩
  | .hbm, ⟨57, _⟩ => ⟨S589824x100, .f32⟩
  | .hbm, ⟨58, _⟩ => ⟨S589824x100, .f32⟩
  | .hbm, ⟨59, _⟩ => ⟨S768x100, .f32⟩
  | .hbm, ⟨60, _⟩ => ⟨S768x100, .f32⟩
  | .hbm, ⟨61, _⟩ => ⟨S100x768, .f32⟩
  | .hbm, ⟨62, _⟩ => ⟨S768x768, .f32⟩
  | .hbm, ⟨63, _⟩ => ⟨S589824x1, .f32⟩
  | .hbm, ⟨64, _⟩ => ⟨S589824x100, .f32⟩
  | .hbm, ⟨65, _⟩ => ⟨S589824x100, .f32⟩
  | .hbm, ⟨66, _⟩ => ⟨S_, .f32⟩
  | .hbm, ⟨67, _⟩ => ⟨S589824x100, .f32⟩
  | .hbm, ⟨68, _⟩ => ⟨S589824x100, .f32⟩
  | .hbm, ⟨69, _⟩ => ⟨S589824x100, .f32⟩
  | .hbm, ⟨70, _⟩ => ⟨S1x100, .f32⟩
  | .hbm, ⟨71, _⟩ => ⟨S589824x100, .f32⟩
  | .hbm, ⟨72, _⟩ => ⟨S589824x100, .f32⟩
  | .hbm, ⟨73, _⟩ => ⟨S589824x100, .f32⟩
  | .hbm, ⟨74, _⟩ => ⟨S589824x100, .f32⟩
  | .hbm, ⟨75, _⟩ => ⟨S1x100, .f32⟩
  | .hbm, ⟨76, _⟩ => ⟨S589824x100, .f32⟩
  | .hbm, ⟨77, _⟩ => ⟨S589824x100, .f32⟩
  | .hbm, ⟨78, _⟩ => ⟨S768x768x100, .f32⟩
  | .hbm, ⟨79, _⟩ => ⟨S_, .f32⟩
  | .hbm, ⟨80, _⟩ => ⟨S768x100, .f32⟩
  | .hbm, ⟨81, _⟩ => ⟨S768x100, .f32⟩
  | .hbm, ⟨82, _⟩ => ⟨S1x100, .f32⟩
  | .hbm, ⟨83, _⟩ => ⟨S768x100, .f32⟩
  | .hbm, ⟨84, _⟩ => ⟨S768x100, .f32⟩
  | .hbm, ⟨85, _⟩ => ⟨S768x100, .f32⟩
  | .hbm, ⟨86, _⟩ => ⟨S589824x100, .f32⟩
  | .hbm, ⟨87, _⟩ => ⟨S1x100, .f32⟩
  | .hbm, ⟨88, _⟩ => ⟨S589824x100, .f32⟩
  | .hbm, ⟨89, _⟩ => ⟨S589824x100, .f32⟩
  | .hbm, ⟨90, _⟩ => ⟨S768x100, .f32⟩
  | .hbm, ⟨91, _⟩ => ⟨S768x100, .f32⟩
  | .hbm, ⟨92, _⟩ => ⟨S100x768, .f32⟩
  | .hbm, ⟨93, _⟩ => ⟨S768x768, .f32⟩
  | .hbm, ⟨94, _⟩ => ⟨S589824x1, .f32⟩
  | .hbm, ⟨95, _⟩ => ⟨S589824x100, .f32⟩
  | .hbm, ⟨96, _⟩ => ⟨S589824x100, .f32⟩
  | .hbm, ⟨97, _⟩ => ⟨S_, .f32⟩
  | .hbm, ⟨98, _⟩ => ⟨S589824x100, .f32⟩
  | .hbm, ⟨99, _⟩ => ⟨S589824x100, .f32⟩
  | .hbm, ⟨100, _⟩ => ⟨S589824x100, .f32⟩
  | .hbm, ⟨101, _⟩ => ⟨S1x100, .f32⟩
  | .hbm, ⟨102, _⟩ => ⟨S589824x100, .f32⟩
  | .hbm, ⟨103, _⟩ => ⟨S589824x100, .f32⟩
  | .hbm, ⟨104, _⟩ => ⟨S589824x100, .f32⟩
  | .hbm, ⟨105, _⟩ => ⟨S589824x100, .f32⟩
  | .hbm, ⟨106, _⟩ => ⟨S1x100, .f32⟩
  | .hbm, ⟨107, _⟩ => ⟨S589824x100, .f32⟩
  | .hbm, ⟨108, _⟩ => ⟨S589824x100, .f32⟩
  | .hbm, ⟨109, _⟩ => ⟨S768x768x100, .f32⟩
  | .hbm, ⟨110, _⟩ => ⟨S_, .f32⟩
  | .hbm, ⟨111, _⟩ => ⟨S768x100, .f32⟩
  | .hbm, ⟨112, _⟩ => ⟨S768x100, .f32⟩
  | .hbm, ⟨113, _⟩ => ⟨S1x100, .f32⟩
  | .hbm, ⟨114, _⟩ => ⟨S768x100, .f32⟩
  | .hbm, ⟨115, _⟩ => ⟨S768x100, .f32⟩
  | .hbm, ⟨116, _⟩ => ⟨S768x100, .f32⟩
  | _, _ => ⟨S768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_0 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call2_cst : Ref sig .tc := ⟨.hbm, 97, rfl⟩
abbrev main_call2_v0 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_1 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]

class Facts₀ : Prop where
  bcast_S100_S1x100_1 : S100.BroadcastsInDim S1x100 (![1] : Fin 1 → Fin S1x100.rank)
  bcast_S1x100_S768x100_0_1 : S1x100.BroadcastsInDim S768x100 (![0, 1] : Fin 2 → Fin S768x100.rank)
  bcast_S1x100_S589824x100_0_1 : S1x100.BroadcastsInDim S589824x100 (![0, 1] : Fin 2 → Fin S589824x100.rank)
  transposes_S768x100_S100x768_1_0 : S768x100.Transposes [1, 0] S100x768
  shapeCasts_S768x768_S589824x1 : S768x768.ShapeCasts S589824x1
  bcast_S589824x1_S589824x100_0_1 : S589824x1.BroadcastsInDim S589824x100 (![0, 1] : Fin 2 → Fin S589824x100.rank)
  bcast_S_S589824x100 : S_.BroadcastsInDim S589824x100 (![] : Fin 0 → Fin S589824x100.rank)
  shapeCasts_S589824x100_S768x768x100 : S589824x100.ShapeCasts S768x768x100
  reducesTo_S768x768x100_S768x100_d1 : S768x768x100.ReducesTo [1] S768x100
  h_S_ : 0 < S_.numel
  dot_S768x32_S32x100_S768x100_1_0_0_1_n_n_wf : DotDims.WF S768x32 S32x100 S768x100 [1] [0] [0] [1] [] []
  dot_S589824x16_S16x100_S589824x100_1_0_0_1_n_n_wf : DotDims.WF S589824x16 S16x100 S589824x100 [1] [0] [0] [1] [] []
  dot_S589824x100_S100x100_S589824x100_1_0_0_1_n_n_wf : DotDims.WF S589824x100 S100x100 S589824x100 [1] [0] [0] [1] [] []
  dot_S768x100_S100x100_S768x100_1_0_0_1_n_n_wf : DotDims.WF S768x100 S100x100 S768x100 [1] [0] [0] [1] [] []
  dot_S768x100_S100x768_S768x768_1_0_0_1_n_n_wf : DotDims.WF S768x100 S100x768 S768x768 [1] [0] [0] [1] [] []

variable [Facts₀]

def dot_S768x32_S32x100_S768x100_1_0_0_1_n_n : DotDims S768x32 S32x100 S768x100 where
  lhsContracting := [1]
  rhsContracting := [0]
  lhsNonContracting := [0]
  rhsNonContracting := [1]
  lhsBatch := []
  rhsBatch := []
  wf := dot_S768x32_S32x100_S768x100_1_0_0_1_n_n_wf
def dot_S589824x16_S16x100_S589824x100_1_0_0_1_n_n : DotDims S589824x16 S16x100 S589824x100 where
  lhsContracting := [1]
  rhsContracting := [0]
  lhsNonContracting := [0]
  rhsNonContracting := [1]
  lhsBatch := []
  rhsBatch := []
  wf := dot_S589824x16_S16x100_S589824x100_1_0_0_1_n_n_wf
def dot_S589824x100_S100x100_S589824x100_1_0_0_1_n_n : DotDims S589824x100 S100x100 S589824x100 where
  lhsContracting := [1]
  rhsContracting := [0]
  lhsNonContracting := [0]
  rhsNonContracting := [1]
  lhsBatch := []
  rhsBatch := []
  wf := dot_S589824x100_S100x100_S589824x100_1_0_0_1_n_n_wf
def dot_S768x100_S100x100_S768x100_1_0_0_1_n_n : DotDims S768x100 S100x100 S768x100 where
  lhsContracting := [1]
  rhsContracting := [0]
  lhsNonContracting := [0]
  rhsNonContracting := [1]
  lhsBatch := []
  rhsBatch := []
  wf := dot_S768x100_S100x100_S768x100_1_0_0_1_n_n_wf
def dot_S768x100_S100x768_S768x768_1_0_0_1_n_n : DotDims S768x100 S100x768 S768x768 where
  lhsContracting := [1]
  rhsContracting := [0]
  lhsNonContracting := [0]
  rhsNonContracting := [1]
  lhsBatch := []
  rhsBatch := []
  wf := dot_S768x100_S100x768_S768x768_1_0_0_1_n_n_wf

class Facts : Prop extends Facts₀ where

variable [Facts]
-- ==== Proof.K.EncodeBody.lean ====
/-
  The edge-encode kernel's body, on whole staging buffers: from a block of 12288 edge rows, the 16×100 weight and the
  1×100 bias it leaves in the output buffer the block's rows times the weight plus the bias — one store that covers
  the whole buffer, so the buffer afterwards is that one value.
-/
import proofs.«143411_j23983097381472_2_alg».proof.Proof.Gen.Kernel.Launch
import proofs.«143411_j23983097381472_2_alg».proof.Proof.Gen.Kernel.Skeleton
import proofs.«143411_j23983097381472_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Enc

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rEdge : Rect S12288x16 := Rect.unit (s := S12288x16) ![0, 0] S12288x16.size inb_S12288x16_S12288x16_0_0
abbrev rW : Rect S16x100 := Rect.unit (s := S16x100) ![0, 0] S16x100.size inb_S16x100_S16x100_0_0
abbrev rB : Rect S1x100 := Rect.unit (s := S1x100) ![0, 0] S1x100.size inb_S1x100_S1x100_0_0
abbrev rOut : Rect S12288x100 := Rect.unit (s := S12288x100) ![0, 0] S12288x100.size inb_S12288x100_S12288x100_0_0

/-- What the output buffer holds after the body: rows·weight + bias of the three input buffers. -/
def encOut (x0 : Vec F S12288x16 .f32) (x1 : Vec F S16x100 .f32) (x2 : Vec F S1x100 .f32) : Vec F S12288x100 .f32 :=
  View.canon [⟨rOut, k0_pay1 (View.ld x0 rEdge) (View.ld x1 rW) (View.ld x2 rB)⟩]

/-- The one store covers the output buffer. -/
theorem encCover (p0 : Vec F S12288x100 .f32) (y : S12288x100.Idx) :
    ∃ pc ∈ ([⟨rOut, p0⟩] : List (View.Piece (Elt F) S12288x100 .f32)), y ∈ pc.1.set :=
  View.cover_of_tiled [⟨rOut, p0⟩] S12288x100.size (by rfl) y

set_option maxHeartbeats 1000000 in
/-- The body's triple: inputs kept, the output buffer at `encOut` of them. -/
theorem sound_enc (c : Dev nD) (E : Set ℕ) (i : grid0.Coords)
    (a1 : Memref sig .tc .vmem S12288x16 .f32) (h1 : a1.IsWhole) (a2 : Memref sig .tc .vmem S16x100 .f32) (h2 : a2.IsWhole)
    (a3 : Memref sig .tc .vmem S1x100 .f32) (h3 : a3.IsWhole) (a4 : Memref sig .tc .vmem S12288x100 .f32) (h4 : a4.IsWhole)
    (x0 : Vec F S12288x16 .f32) (x1 : Vec F S16x100 .f32) (x2 : Vec F S1x100 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (encOut x0 x1 x2)) -∗ K ⟨⟩))
      ⊢ wp frame (wpE (defs₀ (F := F)) Variants.none c none) E (cc0__encode_e_kernel i a1 h1 a2 h2 a3 h3 a4 h4) K := by
  simp only [cc0__encode_e_kernel_eq_skeleton]; unfold cc0__encode_e_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (encCover _)

end Cert.Kernel.Enc

end
-- ==== Proof.K.EncodeDat.lean ====
/-
  The edge-encode region's proof data: each window's block at a grid point read off the contents `V` the region is
  entered from, every input's staging buffer holding its block at every point, the output's buffer after the body at
  the block's rows times the weight plus the bias, and the body's obligation at a generic point.
-/
import proofs.«143411_j23983097381472_2_alg».proof.Proof.K.EncodeBody

set_option maxRecDepth 16384

noncomputable section

namespace Cert.Kernel.Enc

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => encOut (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = encOut (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 1000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_enc c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.Kernel.Enc

end
-- ==== Proof.K.UpdBody1.lean ====
/-
  One message-passing step's kernel body, on whole staging buffers. From a block of 8·768 edge rows `e`, the block's 8
  node rows `h_i`, all 768 node rows `h`, and the step's weights and biases it leaves
    e' = e + relu(e·W_eij + b_eij + (h_i·W_i)(h·W_j)ᵀ spread along the feature axis)·W_de + b_de
  in the edge output buffer and
    h_i' = h_i + (Σ_j (e'·W_dv1 + b_dv1))·W_dv2 + b_dv2
  in the node output buffer; each output is one store covering its whole buffer.
-/
import proofs.«143411_j23983097381472_2_alg».proof.Proof.Gen.Kernel.Launch
import proofs.«143411_j23983097381472_2_alg».proof.Proof.Gen.Kernel.Skeleton
import proofs.«143411_j23983097381472_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Upd1

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through, one per buffer shape. -/
abbrev rE : Rect S6144x100 := Rect.unit (s := S6144x100) ![0, 0] S6144x100.size inb_S6144x100_S6144x100_0_0
abbrev rH : Rect S8x100 := Rect.unit (s := S8x100) ![0, 0] S8x100.size inb_S8x100_S8x100_0_0
abbrev rN : Rect S768x100 := Rect.unit (s := S768x100) ![0, 0] S768x100.size inb_S768x100_S768x100_0_0
abbrev rM : Rect S100x100 := Rect.unit (s := S100x100) ![0, 0] S100x100.size inb_S100x100_S100x100_0_0
abbrev rB : Rect S1x100 := Rect.unit (s := S1x100) ![0, 0] S1x100.size inb_S1x100_S1x100_0_0

/-- The edge output buffer after the body: the updated edge rows `e'` of the thirteen input buffers. -/
def outE (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S6144x100 .f32 :=
  View.canon [⟨rE, k1_pay1 (k1_pay3 (View.ld x0 rE)) (k1_pay5 (View.ld x0 rE) (View.ld x3 rM) (View.ld x4 rB) (View.ld x1 rH) (View.ld x2 rN) (View.ld x5 rM) (View.ld x6 rM) (View.ld x7 rM)) (View.ld x8 rB)⟩]

/-- The node output buffer after the body: the updated node rows `h_i'`. -/
def outH (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S8x100 .f32 :=
  View.canon [⟨rH, k1_pay2 (k1_pay3 (View.ld x0 rE)) (k1_pay4 (View.ld x1 rH)) (k1_pay5 (View.ld x0 rE) (View.ld x3 rM) (View.ld x4 rB) (View.ld x1 rH) (View.ld x2 rN) (View.ld x5 rM) (View.ld x6 rM) (View.ld x7 rM)) (View.ld x8 rB) (View.ld x9 rM) (View.ld x10 rB) (View.ld x11 rM) (View.ld x12 rB)⟩]

/-- Each output's one store covers its buffer. -/
theorem coverE (p0 : Vec F S6144x100 .f32) (y : S6144x100.Idx) :
    ∃ pc ∈ ([⟨rE, p0⟩] : List (View.Piece (Elt F) S6144x100 .f32)), y ∈ pc.1.set :=
  View.cover_of_tiled [⟨rE, p0⟩] S6144x100.size (by rfl) y
theorem coverH (p0 : Vec F S8x100 .f32) (y : S8x100.Idx) :
    ∃ pc ∈ ([⟨rH, p0⟩] : List (View.Piece (Elt F) S8x100 .f32)), y ∈ pc.1.set :=
  View.cover_of_tiled [⟨rH, p0⟩] S8x100.size (by rfl) y

set_option maxHeartbeats 4000000 in
/-- The body's triple: the thirteen inputs kept, the two output buffers at `outE` and `outH` of them. -/
theorem sound_upd (c : Dev nD) (E : Set ℕ) (i : grid1.Coords)
    (a1 : Memref sig .tc .vmem S6144x100 .f32) (h1 : a1.IsWhole)
    (a2 : Memref sig .tc .vmem S8x100 .f32) (h2 : a2.IsWhole)
    (a3 : Memref sig .tc .vmem S768x100 .f32) (h3 : a3.IsWhole)
    (a4 : Memref sig .tc .vmem S100x100 .f32) (h4 : a4.IsWhole)
    (a5 : Memref sig .tc .vmem S1x100 .f32) (h5 : a5.IsWhole)
    (a6 : Memref sig .tc .vmem S100x100 .f32) (h6 : a6.IsWhole)
    (a7 : Memref sig .tc .vmem S100x100 .f32) (h7 : a7.IsWhole)
    (a8 : Memref sig .tc .vmem S100x100 .f32) (h8 : a8.IsWhole)
    (a9 : Memref sig .tc .vmem S1x100 .f32) (h9 : a9.IsWhole)
    (a10 : Memref sig .tc .vmem S100x100 .f32) (h10 : a10.IsWhole)
    (a11 : Memref sig .tc .vmem S1x100 .f32) (h11 : a11.IsWhole)
    (a12 : Memref sig .tc .vmem S100x100 .f32) (h12 : a12.IsWhole)
    (a13 : Memref sig .tc .vmem S1x100 .f32) (h13 : a13.IsWhole)
    (a14 : Memref sig .tc .vmem S6144x100 .f32) (h14 : a14.IsWhole)
    (a15 : Memref sig .tc .vmem S8x100 .f32) (h15 : a15.IsWhole)
    (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
        ∗ (∃ d, owns (c : Thread nD τ) a14 fullShare d) ∗ (∃ d, owns (c : Thread nD τ) a15 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
            ∗ owns (c : Thread nD τ) a14 fullShare (outE x0 x1 x2 x3 x4 x5 x6 x7 x8 x9 x10 x11 x12) ∗ owns (c : Thread nD τ) a15 fullShare (outH x0 x1 x2 x3 x4 x5 x6 x7 x8 x9 x10 x11 x12)) -∗ K ⟨⟩))
      ⊢ wp frame (wpE (defs₀ (F := F)) Variants.none c none) E (cc1__update_kernel i a1 h1 a2 h2 a3 h3 a4 h4 a5 h5 a6 h6 a7 h7 a8 h8 a9 h9 a10 h10 a11 h11 a12 h12 a13 h13 a14 h14 a15 h15) K := by
  simp only [cc1__update_kernel_eq_skeleton]; unfold cc1__update_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverE _)
  iexists _; isplitr
  swap; · iexact H14
  ipureintro
  exact View.read_writes_eq_canon _ _ _ (coverH _)

end Cert.Kernel.Upd1

end
-- ==== Proof.K.UpdDat1.lean ====
/-
  The first message-passing step's proof data: at the contents `V` the region is entered from, each window's block at a
  grid point, every input window's staging buffer holding its block at every point (fetched there or kept from the
  point before), each output's buffer after the body at the body's value of the input blocks, and the body's obligation
  at a generic point. The node array is read by two input windows (its 8-row block and the whole of it); each holds
  half of it.
-/
import proofs.«143411_j23983097381472_2_alg».proof.Proof.K.UpdBody1

set_option maxRecDepth 16384

noncomputable section

namespace Cert.Kernel.Upd1

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg1 c) (hA : dat.A 11 = V c (Pipeline.arrRef spec1 11))
    (hafter : ∀ t, dat.after 11 t = iblk V c 11 t) (t : Fin cfg1.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg1 c) (hA : dat.A 12 = V c (Pipeline.arrRef spec1 12))
    (hafter : ∀ t, dat.after 12 t = iblk V c 12 t) (t : Fin cfg1.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as entered; after the body each input's buffer at its block, the two outputs'
    at the body's values of the input blocks; the scoped rest and the generator register untouched; nothing owed; the
    node array's two readers at half each. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
    | ⟨14, _⟩ => outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec1 c
  q w := if w = 1 then fullShare.left else if w = 2 then fullShare.right else fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]
theorem after_14 (c : Dev nD) (t : Fin cfg1.N) : (dat V c).after 14 t = outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d
theorem before_7 (c : Dev nD) (t : Fin cfg1.N) (d) : (dat V c).before 7 t d = iblk V c 7 t :=
  before_7_of V (dat V c) (A_eq V c 7) (after_7 V c) t d
theorem before_8 (c : Dev nD) (t : Fin cfg1.N) (d) : (dat V c).before 8 t d = iblk V c 8 t :=
  before_8_of V (dat V c) (A_eq V c 8) (after_8 V c) t d
theorem before_9 (c : Dev nD) (t : Fin cfg1.N) (d) : (dat V c).before 9 t d = iblk V c 9 t :=
  before_9_of V (dat V c) (A_eq V c 9) (after_9 V c) t d
theorem before_10 (c : Dev nD) (t : Fin cfg1.N) (d) : (dat V c).before 10 t d = iblk V c 10 t :=
  before_10_of V (dat V c) (A_eq V c 10) (after_10 V c) t d
theorem before_11 (c : Dev nD) (t : Fin cfg1.N) (d) : (dat V c).before 11 t d = iblk V c 11 t :=
  before_11_of V (dat V c) (A_eq V c 11) (after_11 V c) t d
theorem before_12 (c : Dev nD) (t : Fin cfg1.N) (d) : (dat V c).before 12 t d = iblk V c 12 t :=
  before_12_of V (dat V c) (A_eq V c 12) (after_12 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t))

set_option maxHeartbeats 4000000 in
/-- The body at any point: the inputs' buffers hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_upd c Set.univ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dat (F := F) V c) (defs₀ (F := F)) Variants.none () Set.univ := fun t => by
  rw [bigSep_W1, bigSep_W1]
  exact sound_body V c t

end Cert.Kernel.Upd1

end
-- ==== Proof.K.UpdArr1.lean ====
/-
  The first message-passing step's arrays in and out of the core's unscoped buffers. Fourteen distinct buffers stand
  behind the fifteen windows: the node array is read through two of them. Entering, that buffer's ownership is split in
  two halves, one per reader; leaving, the halves are joined again, the thirteen inputs are as they were, and the two
  outputs hold what the write-backs left.
-/
import proofs.«143411_j23983097381472_2_alg».proof.Proof.K.UpdDat1

set_option maxRecDepth 16384

noncomputable section

namespace Cert.Kernel.Upd1

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays. -/
theorem arr_image : Finset.univ.image (Pipeline.arrRef spec1) = ([main_v5, main_v3, main_arg6, main_v6, main_arg8, main_arg9, main_arg10, main_v7, main_arg12, main_v8, main_arg14, main_v9, main_v10_0, main_v10_1] : List (Ref sig .tc)).toFinset := by decide

/-- The share each window holds its array at: the node array's two readers a half each, every other window all of it. -/
theorem share_eq (c : Dev nD) : ∀ w : Fin cfg1.W, (dat V c).share w = if w = 1 then fullShare.left else if w = 2 then fullShare.right else fullShare
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl

/-- Every window's array is a whole buffer: the arrays as points-tos of whole buffers, each at its window's share. -/
theorem arrays_whole (c : Dev nD) (G : (w : Fin cfg1.W) → Buf (Elt F) ((cfg1.win w).arr.view.loc (c : Thread nD τ))) :
    ((dat V c).arrays G : sProp 𝕄)
      = bigSep Finset.univ fun w : Fin cfg1.W => ((((c : Thread nD τ).loc (Pipeline.arrRef spec1 w)) ↦{(dat V c).share w} G w : sProp 𝕄)) := by
  unfold Dat.arrays
  exact bigSep_congr fun w _ => by rw [(arr_whole1 w).set_eq_univ]

/-- The windows' arrays as points-tos of whole buffers, window by window. -/
theorem arrays_chain (c : Dev nD) (G : (w : Fin cfg1.W) → Buf (Elt F) ((cfg1.win w).arr.view.loc (c : Thread nD τ))) :
    ((dat V c).arrays G : sProp 𝕄) = iprop(
      (((c : Thread nD τ).loc main_v5) ↦{fullShare} G 0) ∗
      (((c : Thread nD τ).loc main_v3) ↦{fullShare.left} G 1) ∗
      (((c : Thread nD τ).loc main_v3) ↦{fullShare.right} G 2) ∗
      (((c : Thread nD τ).loc main_arg6) ↦{fullShare} G 3) ∗
      (((c : Thread nD τ).loc main_v6) ↦{fullShare} G 4) ∗
      (((c : Thread nD τ).loc main_arg8) ↦{fullShare} G 5) ∗
      (((c : Thread nD τ).loc main_arg9) ↦{fullShare} G 6) ∗
      (((c : Thread nD τ).loc main_arg10) ↦{fullShare} G 7) ∗
      (((c : Thread nD τ).loc main_v7) ↦{fullShare} G 8) ∗
      (((c : Thread nD τ).loc main_arg12) ↦{fullShare} G 9) ∗
      (((c : Thread nD τ).loc main_v8) ↦{fullShare} G 10) ∗
      (((c : Thread nD τ).loc main_arg14) ↦{fullShare} G 11) ∗
      (((c : Thread nD τ).loc main_v9) ↦{fullShare} G 12) ∗
      (((c : Thread nD τ).loc main_v10_0) ↦{fullShare} G 13) ∗
      (((c : Thread nD τ).loc main_v10_1) ↦{fullShare} G 14)) := by
  rw [arrays_whole, bigSep_W1]
  rfl

/-- The distinct buffers behind the arrays, each wholly owned, one by one. -/
theorem arrBufs_chain (c : Dev nD) (W : (b : Ref sig .tc) → Buf (Elt F) ((c : Thread nD τ).loc b)) :
    (Pipeline.arrBufs spec1 c W : sProp 𝕄) = iprop(
      (((c : Thread nD τ).loc main_v5) ↦{fullShare} W main_v5) ∗
      (((c : Thread nD τ).loc main_v3) ↦{fullShare} W main_v3) ∗
      (((c : Thread nD τ).loc main_arg6) ↦{fullShare} W main_arg6) ∗
      (((c : Thread nD τ).loc main_v6) ↦{fullShare} W main_v6) ∗
      (((c : Thread nD τ).loc main_arg8) ↦{fullShare} W main_arg8) ∗
      (((c : Thread nD τ).loc main_arg9) ↦{fullShare} W main_arg9) ∗
      (((c : Thread nD τ).loc main_arg10) ↦{fullShare} W main_arg10) ∗
      (((c : Thread nD τ).loc main_v7) ↦{fullShare} W main_v7) ∗
      (((c : Thread nD τ).loc main_arg12) ↦{fullShare} W main_arg12) ∗
      (((c : Thread nD τ).loc main_v8) ↦{fullShare} W main_v8) ∗
      (((c : Thread nD τ).loc main_arg14) ↦{fullShare} W main_arg14) ∗
      (((c : Thread nD τ).loc main_v9) ↦{fullShare} W main_v9) ∗
      (((c : Thread nD τ).loc main_v10_0) ↦{fullShare} W main_v10_0) ∗
      (((c : Thread nD τ).loc main_v10_1) ↦{fullShare} W main_v10_1)) := by
  unfold Pipeline.arrBufs
  rw [bigSep_eq_bigSepL_of_eq _ arr_image (by decide)]
  rfl

/-- ENTERING: the core's unscoped buffers at `V` give the windows' arrays at their entry contents — the node array's
    ownership split in halves between its two readers — and the buffers no window touches. -/
theorem entry (c : Dev nD) :
    (unscopedBufs c (V c) : sProp 𝕄) ⊢ iprop((dat V c).arrays ((dat V c).arrAt · 0) ∗ Pipeline.unscopedRest spec1 c (V c)) := by
  rw [Pipeline.unscopedBufs_split₀ cfgs 1 winFacts₀1.arr_unscoped c (V c)]
  refine sep_mono ?_ .rfl
  show (Pipeline.arrBufs spec1 c (V c) : sProp 𝕄) ⊢ _
  rw [arrBufs_chain, arrays_chain]
  have hsp : ((((c : Thread nD τ).loc main_v3) ↦{fullShare} V c main_v3 : sProp 𝕄))
      ⊢ iprop((((c : Thread nD τ).loc main_v3) ↦{fullShare.left} V c main_v3) ∗ (((c : Thread nD τ).loc main_v3) ↦{fullShare.right} V c main_v3)) :=
    (pointsTo_share (PosShare.mem_left_op_right fullShare)).1
  iintro ⟨H0, H1, H3, H4, H5, H6, H7, H8, H9, H10, H11, H12, H13, H14⟩
  ihave Hs := hsp $$ H1
  icases Hs with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
/-- LEAVING, for any contents `G` of the arrays that has every input as entered: the arrays at `G` and the untouched
    buffers give the core's unscoped buffers at any contents `V'` that has the two outputs at `G`'s and agrees with `V`
    elsewhere; the node array's two halves are joined again. -/
theorem exit_gen (c : Dev nD) (G : (w : Fin cfg1.W) → Buf (Elt F) ((cfg1.win w).arr.view.loc (c : Thread nD τ)))
    (V' : (b : Ref sig .tc) → Buf (Elt F) ((c : Thread nD τ).loc b))
    (hin : ∀ w : Fin cfg1.W, (cfg1.win w).isOut = false → G w = V c (Pipeline.arrRef spec1 w))
    (hE : V' main_v10_0 = G 13) (hH : V' main_v10_1 = G 14)
    (hrest : ∀ b : Ref sig .tc, b ≠ main_v10_0 → b ≠ main_v10_1 → V' b = V c b) :
    iprop((dat V c).arrays G ∗ Pipeline.unscopedRest spec1 c (V c)) ⊢ (unscopedBufs c V' : sProp 𝕄) := by
  rw [Pipeline.unscopedBufs_split₀ cfgs 1 winFacts₀1.arr_unscoped c V']
  refine sep_mono ?_ (Entails.of_eq ?_)
  · show _ ⊢ (Pipeline.arrBufs spec1 c V' : sProp 𝕄)
    rw [arrBufs_chain, arrays_chain, hE, hH, hrest main_v5 (by decide) (by decide), hrest main_v3 (by decide) (by decide), hrest main_arg6 (by decide) (by decide), hrest main_v6 (by decide) (by decide), hrest main_arg8 (by decide) (by decide), hrest main_arg9 (by decide) (by decide), hrest main_arg10 (by decide) (by decide), hrest main_v7 (by decide) (by decide), hrest main_arg12 (by decide) (by decide), hrest main_v8 (by decide) (by decide), hrest main_arg14 (by decide) (by decide), hrest main_v9 (by decide) (by decide)]
    rw [hin 0 rfl, hin 1 rfl, hin 2 rfl, hin 3 rfl, hin 4 rfl, hin 5 rfl, hin 6 rfl, hin 7 rfl, hin 8 rfl, hin 9 rfl, hin 10 rfl, hin 11 rfl, hin 12 rfl]
    have hsp : iprop((((c : Thread nD τ).loc main_v3) ↦{fullShare.left} V c main_v3) ∗ (((c : Thread nD τ).loc main_v3) ↦{fullShare.right} V c main_v3))
        ⊢ ((((c : Thread nD τ).loc main_v3) ↦{fullShare} V c main_v3 : sProp 𝕄)) :=
      (pointsTo_share (PosShare.mem_left_op_right fullShare)).2
    iintro ⟨H0, H1, H2, H3, H4, H5, H6, H7, H8, H9, H10, H11, H12, H13, H14⟩
    ihave Hj := hsp $$ [H1 H2]
    · isplitl [H1] <;> iassumption
    isplitl [H0]; · iexact H0
    isplitl [Hj]; · iexact Hj
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · unfold Pipeline.unscopedRest
    refine bigSep_congr fun b hb => ?_
    have hb' : b ∉ Finset.univ.image (Pipeline.arrRef spec1) := (Finset.mem_sdiff.mp hb).2
    rw [hrest b (fun e => hb' (by rw [e, arr_image]; decide)) (fun e => hb' (by rw [e, arr_image]; decide))]

/-- LEAVING: at what the write-backs left (an input array is never written back). -/
theorem exit (c : Dev nD) (V' : (b : Ref sig .tc) → Buf (Elt F) ((c : Thread nD τ).loc b))
    (hE : V' main_v10_0 = (dat V c).arrAt 13 cfg1.N) (hH : V' main_v10_1 = (dat V c).arrAt 14 cfg1.N)
    (hrest : ∀ b : Ref sig .tc, b ≠ main_v10_0 → b ≠ main_v10_1 → V' b = V c b) :
    iprop((dat V c).arrays ((dat V c).arrAt · cfg1.N) ∗ Pipeline.unscopedRest spec1 c (V c)) ⊢ (unscopedBufs c V' : sProp 𝕄) :=
  exit_gen V c ((dat V c).arrAt · cfg1.N) V' (fun w hw => ((dat V c).arrAt_in w hw cfg1.N).trans (A_eq V c w)) hE hH hrest

end Cert.Kernel.Upd1

end
-- ==== Proof.K.UpdBody2.lean ====
/-
  One message-passing step's kernel body, on whole staging buffers. From a block of 8·768 edge rows `e`, the block's 8
  node rows `h_i`, all 768 node rows `h`, and the step's weights and biases it leaves
    e' = e + relu(e·W_eij + b_eij + (h_i·W_i)(h·W_j)ᵀ spread along the feature axis)·W_de + b_de
  in the edge output buffer and
    h_i' = h_i + (Σ_j (e'·W_dv1 + b_dv1))·W_dv2 + b_dv2
  in the node output buffer; each output is one store covering its whole buffer.
-/
import proofs.«143411_j23983097381472_2_alg».proof.Proof.Gen.Kernel.Launch
import proofs.«143411_j23983097381472_2_alg».proof.Proof.Gen.Kernel.Skeleton
import proofs.«143411_j23983097381472_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Upd2

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through, one per buffer shape. -/
abbrev rE : Rect S6144x100 := Rect.unit (s := S6144x100) ![0, 0] S6144x100.size inb_S6144x100_S6144x100_0_0
abbrev rH : Rect S8x100 := Rect.unit (s := S8x100) ![0, 0] S8x100.size inb_S8x100_S8x100_0_0
abbrev rN : Rect S768x100 := Rect.unit (s := S768x100) ![0, 0] S768x100.size inb_S768x100_S768x100_0_0
abbrev rM : Rect S100x100 := Rect.unit (s := S100x100) ![0, 0] S100x100.size inb_S100x100_S100x100_0_0
abbrev rB : Rect S1x100 := Rect.unit (s := S1x100) ![0, 0] S1x100.size inb_S1x100_S1x100_0_0

/-- The edge output buffer after the body: the updated edge rows `e'` of the thirteen input buffers. -/
def outE (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S6144x100 .f32 :=
  View.canon [⟨rE, k2_pay1 (k2_pay3 (View.ld x0 rE)) (k2_pay5 (View.ld x0 rE) (View.ld x3 rM) (View.ld x4 rB) (View.ld x1 rH) (View.ld x2 rN) (View.ld x5 rM) (View.ld x6 rM) (View.ld x7 rM)) (View.ld x8 rB)⟩]

/-- The node output buffer after the body: the updated node rows `h_i'`. -/
def outH (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S8x100 .f32 :=
  View.canon [⟨rH, k2_pay2 (k2_pay3 (View.ld x0 rE)) (k2_pay4 (View.ld x1 rH)) (k2_pay5 (View.ld x0 rE) (View.ld x3 rM) (View.ld x4 rB) (View.ld x1 rH) (View.ld x2 rN) (View.ld x5 rM) (View.ld x6 rM) (View.ld x7 rM)) (View.ld x8 rB) (View.ld x9 rM) (View.ld x10 rB) (View.ld x11 rM) (View.ld x12 rB)⟩]

/-- Each output's one store covers its buffer. -/
theorem coverE (p0 : Vec F S6144x100 .f32) (y : S6144x100.Idx) :
    ∃ pc ∈ ([⟨rE, p0⟩] : List (View.Piece (Elt F) S6144x100 .f32)), y ∈ pc.1.set :=
  View.cover_of_tiled [⟨rE, p0⟩] S6144x100.size (by rfl) y
theorem coverH (p0 : Vec F S8x100 .f32) (y : S8x100.Idx) :
    ∃ pc ∈ ([⟨rH, p0⟩] : List (View.Piece (Elt F) S8x100 .f32)), y ∈ pc.1.set :=
  View.cover_of_tiled [⟨rH, p0⟩] S8x100.size (by rfl) y

set_option maxHeartbeats 4000000 in
/-- The body's triple: the thirteen inputs kept, the two output buffers at `outE` and `outH` of them. -/
theorem sound_upd (c : Dev nD) (E : Set ℕ) (i : grid2.Coords)
    (a1 : Memref sig .tc .vmem S6144x100 .f32) (h1 : a1.IsWhole)
    (a2 : Memref sig .tc .vmem S8x100 .f32) (h2 : a2.IsWhole)
    (a3 : Memref sig .tc .vmem S768x100 .f32) (h3 : a3.IsWhole)
    (a4 : Memref sig .tc .vmem S100x100 .f32) (h4 : a4.IsWhole)
    (a5 : Memref sig .tc .vmem S1x100 .f32) (h5 : a5.IsWhole)
    (a6 : Memref sig .tc .vmem S100x100 .f32) (h6 : a6.IsWhole)
    (a7 : Memref sig .tc .vmem S100x100 .f32) (h7 : a7.IsWhole)
    (a8 : Memref sig .tc .vmem S100x100 .f32) (h8 : a8.IsWhole)
    (a9 : Memref sig .tc .vmem S1x100 .f32) (h9 : a9.IsWhole)
    (a10 : Memref sig .tc .vmem S100x100 .f32) (h10 : a10.IsWhole)
    (a11 : Memref sig .tc .vmem S1x100 .f32) (h11 : a11.IsWhole)
    (a12 : Memref sig .tc .vmem S100x100 .f32) (h12 : a12.IsWhole)
    (a13 : Memref sig .tc .vmem S1x100 .f32) (h13 : a13.IsWhole)
    (a14 : Memref sig .tc .vmem S6144x100 .f32) (h14 : a14.IsWhole)
    (a15 : Memref sig .tc .vmem S8x100 .f32) (h15 : a15.IsWhole)
    (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
        ∗ (∃ d, owns (c : Thread nD τ) a14 fullShare d) ∗ (∃ d, owns (c : Thread nD τ) a15 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
            ∗ owns (c : Thread nD τ) a14 fullShare (outE x0 x1 x2 x3 x4 x5 x6 x7 x8 x9 x10 x11 x12) ∗ owns (c : Thread nD τ) a15 fullShare (outH x0 x1 x2 x3 x4 x5 x6 x7 x8 x9 x10 x11 x12)) -∗ K ⟨⟩))
      ⊢ wp frame (wpE (defs₀ (F := F)) Variants.none c none) E (cc2__update_kernel i a1 h1 a2 h2 a3 h3 a4 h4 a5 h5 a6 h6 a7 h7 a8 h8 a9 h9 a10 h10 a11 h11 a12 h12 a13 h13 a14 h14 a15 h15) K := by
  simp only [cc2__update_kernel_eq_skeleton]; unfold cc2__update_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverE _)
  iexists _; isplitr
  swap; · iexact H14
  ipureintro
  exact View.read_writes_eq_canon _ _ _ (coverH _)

end Cert.Kernel.Upd2

end
-- ==== Proof.K.UpdDat2.lean ====
/-
  The second message-passing step's proof data: at the contents `V` the region is entered from, each window's block at a
  grid point, every input window's staging buffer holding its block at every point (fetched there or kept from the
  point before), each output's buffer after the body at the body's value of the input blocks, and the body's obligation
  at a generic point. The node array is read by two input windows (its 8-row block and the whole of it); each holds
  half of it.
-/
import proofs.«143411_j23983097381472_2_alg».proof.Proof.K.UpdBody2

set_option maxRecDepth 16384

noncomputable section

namespace Cert.Kernel.Upd2

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg2 c) (hA : dat.A 9 = V c (Pipeline.arrRef spec2 9))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg2 c) (hA : dat.A 10 = V c (Pipeline.arrRef spec2 10))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg2 c) (hA : dat.A 11 = V c (Pipeline.arrRef spec2 11))
    (hafter : ∀ t, dat.after 11 t = iblk V c 11 t) (t : Fin cfg2.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg2 c) (hA : dat.A 12 = V c (Pipeline.arrRef spec2 12))
    (hafter : ∀ t, dat.after 12 t = iblk V c 12 t) (t : Fin cfg2.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as entered; after the body each input's buffer at its block, the two outputs'
    at the body's values of the input blocks; the scoped rest and the generator register untouched; nothing owed; the
    node array's two readers at half each. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
    | ⟨14, _⟩ => outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec2 c
  q w := if w = 1 then fullShare.left else if w = 2 then fullShare.right else fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = iblk V c 11 t := by dsimp only [dat]
theorem after_12 (c : Dev nD) (t : Fin cfg2.N) : (dat V c).after 12 t = iblk V c 12 t := by dsimp only [dat]
theorem after_13 (c : Dev nD) (t : Fin cfg2.N) : (dat V c).after 13 t = outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]
theorem after_14 (c : Dev nD) (t : Fin cfg2.N) : (dat V c).after 14 t = outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d
theorem before_7 (c : Dev nD) (t : Fin cfg2.N) (d) : (dat V c).before 7 t d = iblk V c 7 t :=
  before_7_of V (dat V c) (A_eq V c 7) (after_7 V c) t d
theorem before_8 (c : Dev nD) (t : Fin cfg2.N) (d) : (dat V c).before 8 t d = iblk V c 8 t :=
  before_8_of V (dat V c) (A_eq V c 8) (after_8 V c) t d
theorem before_9 (c : Dev nD) (t : Fin cfg2.N) (d) : (dat V c).before 9 t d = iblk V c 9 t :=
  before_9_of V (dat V c) (A_eq V c 9) (after_9 V c) t d
theorem before_10 (c : Dev nD) (t : Fin cfg2.N) (d) : (dat V c).before 10 t d = iblk V c 10 t :=
  before_10_of V (dat V c) (A_eq V c 10) (after_10 V c) t d
theorem before_11 (c : Dev nD) (t : Fin cfg2.N) (d) : (dat V c).before 11 t d = iblk V c 11 t :=
  before_11_of V (dat V c) (A_eq V c 11) (after_11 V c) t d
theorem before_12 (c : Dev nD) (t : Fin cfg2.N) (d) : (dat V c).before 12 t d = iblk V c 12 t :=
  before_12_of V (dat V c) (A_eq V c 12) (after_12 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d))
    ∗ (∃ d, owns (c : Thread nD τ) (st2_14 t) fullShare ((dat V c).before 14 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t)
    ∗ owns (c : Thread nD τ) (st2_11 t) fullShare ((dat V c).after 11 t)
    ∗ owns (c : Thread nD τ) (st2_12 t) fullShare ((dat V c).after 12 t)
    ∗ owns (c : Thread nD τ) (st2_13 t) fullShare ((dat V c).after 13 t)
    ∗ owns (c : Thread nD τ) (st2_14 t) fullShare ((dat V c).after 14 t))

set_option maxHeartbeats 4000000 in
/-- The body at any point: the inputs' buffers hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_upd c Set.univ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dat (F := F) V c) (defs₀ (F := F)) Variants.none () Set.univ := fun t => by
  rw [bigSep_W2, bigSep_W2]
  exact sound_body V c t

end Cert.Kernel.Upd2

end
-- ==== Proof.K.UpdArr2.lean ====
/-
  The second message-passing step's arrays in and out of the core's unscoped buffers. Fourteen distinct buffers stand
  behind the fifteen windows: the node array is read through two of them. Entering, that buffer's ownership is split in
  two halves, one per reader; leaving, the halves are joined again, the thirteen inputs are as they were, and the two
  outputs hold what the write-backs left.
-/
import proofs.«143411_j23983097381472_2_alg».proof.Proof.K.UpdDat2

set_option maxRecDepth 16384

noncomputable section

namespace Cert.Kernel.Upd2

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays. -/
theorem arr_image : Finset.univ.image (Pipeline.arrRef spec2) = ([main_v10_0, main_v10_1, main_arg6, main_v11, main_arg8, main_arg9, main_arg10, main_v12, main_arg12, main_v13, main_arg14, main_v14, main_v15_0, main_v15_1] : List (Ref sig .tc)).toFinset := by decide

/-- The share each window holds its array at: the node array's two readers a half each, every other window all of it. -/
theorem share_eq (c : Dev nD) : ∀ w : Fin cfg2.W, (dat V c).share w = if w = 1 then fullShare.left else if w = 2 then fullShare.right else fullShare
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl

/-- Every window's array is a whole buffer: the arrays as points-tos of whole buffers, each at its window's share. -/
theorem arrays_whole (c : Dev nD) (G : (w : Fin cfg2.W) → Buf (Elt F) ((cfg2.win w).arr.view.loc (c : Thread nD τ))) :
    ((dat V c).arrays G : sProp 𝕄)
      = bigSep Finset.univ fun w : Fin cfg2.W => ((((c : Thread nD τ).loc (Pipeline.arrRef spec2 w)) ↦{(dat V c).share w} G w : sProp 𝕄)) := by
  unfold Dat.arrays
  exact bigSep_congr fun w _ => by rw [(arr_whole2 w).set_eq_univ]

/-- The windows' arrays as points-tos of whole buffers, window by window. -/
theorem arrays_chain (c : Dev nD) (G : (w : Fin cfg2.W) → Buf (Elt F) ((cfg2.win w).arr.view.loc (c : Thread nD τ))) :
    ((dat V c).arrays G : sProp 𝕄) = iprop(
      (((c : Thread nD τ).loc main_v10_0) ↦{fullShare} G 0) ∗
      (((c : Thread nD τ).loc main_v10_1) ↦{fullShare.left} G 1) ∗
      (((c : Thread nD τ).loc main_v10_1) ↦{fullShare.right} G 2) ∗
      (((c : Thread nD τ).loc main_arg6) ↦{fullShare} G 3) ∗
      (((c : Thread nD τ).loc main_v11) ↦{fullShare} G 4) ∗
      (((c : Thread nD τ).loc main_arg8) ↦{fullShare} G 5) ∗
      (((c : Thread nD τ).loc main_arg9) ↦{fullShare} G 6) ∗
      (((c : Thread nD τ).loc main_arg10) ↦{fullShare} G 7) ∗
      (((c : Thread nD τ).loc main_v12) ↦{fullShare} G 8) ∗
      (((c : Thread nD τ).loc main_arg12) ↦{fullShare} G 9) ∗
      (((c : Thread nD τ).loc main_v13) ↦{fullShare} G 10) ∗
      (((c : Thread nD τ).loc main_arg14) ↦{fullShare} G 11) ∗
      (((c : Thread nD τ).loc main_v14) ↦{fullShare} G 12) ∗
      (((c : Thread nD τ).loc main_v15_0) ↦{fullShare} G 13) ∗
      (((c : Thread nD τ).loc main_v15_1) ↦{fullShare} G 14)) := by
  rw [arrays_whole, bigSep_W2]
  rfl

/-- The distinct buffers behind the arrays, each wholly owned, one by one. -/
theorem arrBufs_chain (c : Dev nD) (W : (b : Ref sig .tc) → Buf (Elt F) ((c : Thread nD τ).loc b)) :
    (Pipeline.arrBufs spec2 c W : sProp 𝕄) = iprop(
      (((c : Thread nD τ).loc main_v10_0) ↦{fullShare} W main_v10_0) ∗
      (((c : Thread nD τ).loc main_v10_1) ↦{fullShare} W main_v10_1) ∗
      (((c : Thread nD τ).loc main_arg6) ↦{fullShare} W main_arg6) ∗
      (((c : Thread nD τ).loc main_v11) ↦{fullShare} W main_v11) ∗
      (((c : Thread nD τ).loc main_arg8) ↦{fullShare} W main_arg8) ∗
      (((c : Thread nD τ).loc main_arg9) ↦{fullShare} W main_arg9) ∗
      (((c : Thread nD τ).loc main_arg10) ↦{fullShare} W main_arg10) ∗
      (((c : Thread nD τ).loc main_v12) ↦{fullShare} W main_v12) ∗
      (((c : Thread nD τ).loc main_arg12) ↦{fullShare} W main_arg12) ∗
      (((c : Thread nD τ).loc main_v13) ↦{fullShare} W main_v13) ∗
      (((c : Thread nD τ).loc main_arg14) ↦{fullShare} W main_arg14) ∗
      (((c : Thread nD τ).loc main_v14) ↦{fullShare} W main_v14) ∗
      (((c : Thread nD τ).loc main_v15_0) ↦{fullShare} W main_v15_0) ∗
      (((c : Thread nD τ).loc main_v15_1) ↦{fullShare} W main_v15_1)) := by
  unfold Pipeline.arrBufs
  rw [bigSep_eq_bigSepL_of_eq _ arr_image (by decide)]
  rfl

/-- ENTERING: the core's unscoped buffers at `V` give the windows' arrays at their entry contents — the node array's
    ownership split in halves between its two readers — and the buffers no window touches. -/
theorem entry (c : Dev nD) :
    (unscopedBufs c (V c) : sProp 𝕄) ⊢ iprop((dat V c).arrays ((dat V c).arrAt · 0) ∗ Pipeline.unscopedRest spec2 c (V c)) := by
  rw [Pipeline.unscopedBufs_split₀ cfgs 2 winFacts₀2.arr_unscoped c (V c)]
  refine sep_mono ?_ .rfl
  show (Pipeline.arrBufs spec2 c (V c) : sProp 𝕄) ⊢ _
  rw [arrBufs_chain, arrays_chain]
  have hsp : ((((c : Thread nD τ).loc main_v10_1) ↦{fullShare} V c main_v10_1 : sProp 𝕄))
      ⊢ iprop((((c : Thread nD τ).loc main_v10_1) ↦{fullShare.left} V c main_v10_1) ∗ (((c : Thread nD τ).loc main_v10_1) ↦{fullShare.right} V c main_v10_1)) :=
    (pointsTo_share (PosShare.mem_left_op_right fullShare)).1
  iintro ⟨H0, H1, H3, H4, H5, H6, H7, H8, H9, H10, H11, H12, H13, H14⟩
  ihave Hs := hsp $$ H1
  icases Hs with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
/-- LEAVING, for any contents `G` of the arrays that has every input as entered: the arrays at `G` and the untouched
    buffers give the core's unscoped buffers at any contents `V'` that has the two outputs at `G`'s and agrees with `V`
    elsewhere; the node array's two halves are joined again. -/
theorem exit_gen (c : Dev nD) (G : (w : Fin cfg2.W) → Buf (Elt F) ((cfg2.win w).arr.view.loc (c : Thread nD τ)))
    (V' : (b : Ref sig .tc) → Buf (Elt F) ((c : Thread nD τ).loc b))
    (hin : ∀ w : Fin cfg2.W, (cfg2.win w).isOut = false → G w = V c (Pipeline.arrRef spec2 w))
    (hE : V' main_v15_0 = G 13) (hH : V' main_v15_1 = G 14)
    (hrest : ∀ b : Ref sig .tc, b ≠ main_v15_0 → b ≠ main_v15_1 → V' b = V c b) :
    iprop((dat V c).arrays G ∗ Pipeline.unscopedRest spec2 c (V c)) ⊢ (unscopedBufs c V' : sProp 𝕄) := by
  rw [Pipeline.unscopedBufs_split₀ cfgs 2 winFacts₀2.arr_unscoped c V']
  refine sep_mono ?_ (Entails.of_eq ?_)
  · show _ ⊢ (Pipeline.arrBufs spec2 c V' : sProp 𝕄)
    rw [arrBufs_chain, arrays_chain, hE, hH, hrest main_v10_0 (by decide) (by decide), hrest main_v10_1 (by decide) (by decide), hrest main_arg6 (by decide) (by decide), hrest main_v11 (by decide) (by decide), hrest main_arg8 (by decide) (by decide), hrest main_arg9 (by decide) (by decide), hrest main_arg10 (by decide) (by decide), hrest main_v12 (by decide) (by decide), hrest main_arg12 (by decide) (by decide), hrest main_v13 (by decide) (by decide), hrest main_arg14 (by decide) (by decide), hrest main_v14 (by decide) (by decide)]
    rw [hin 0 rfl, hin 1 rfl, hin 2 rfl, hin 3 rfl, hin 4 rfl, hin 5 rfl, hin 6 rfl, hin 7 rfl, hin 8 rfl, hin 9 rfl, hin 10 rfl, hin 11 rfl, hin 12 rfl]
    have hsp : iprop((((c : Thread nD τ).loc main_v10_1) ↦{fullShare.left} V c main_v10_1) ∗ (((c : Thread nD τ).loc main_v10_1) ↦{fullShare.right} V c main_v10_1))
        ⊢ ((((c : Thread nD τ).loc main_v10_1) ↦{fullShare} V c main_v10_1 : sProp 𝕄)) :=
      (pointsTo_share (PosShare.mem_left_op_right fullShare)).2
    iintro ⟨H0, H1, H2, H3, H4, H5, H6, H7, H8, H9, H10, H11, H12, H13, H14⟩
    ihave Hj := hsp $$ [H1 H2]
    · isplitl [H1] <;> iassumption
    isplitl [H0]; · iexact H0
    isplitl [Hj]; · iexact Hj
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · unfold Pipeline.unscopedRest
    refine bigSep_congr fun b hb => ?_
    have hb' : b ∉ Finset.univ.image (Pipeline.arrRef spec2) := (Finset.mem_sdiff.mp hb).2
    rw [hrest b (fun e => hb' (by rw [e, arr_image]; decide)) (fun e => hb' (by rw [e, arr_image]; decide))]

/-- LEAVING: at what the write-backs left (an input array is never written back). -/
theorem exit (c : Dev nD) (V' : (b : Ref sig .tc) → Buf (Elt F) ((c : Thread nD τ).loc b))
    (hE : V' main_v15_0 = (dat V c).arrAt 13 cfg2.N) (hH : V' main_v15_1 = (dat V c).arrAt 14 cfg2.N)
    (hrest : ∀ b : Ref sig .tc, b ≠ main_v15_0 → b ≠ main_v15_1 → V' b = V c b) :
    iprop((dat V c).arrays ((dat V c).arrAt · cfg2.N) ∗ Pipeline.unscopedRest spec2 c (V c)) ⊢ (unscopedBufs c V' : sProp 𝕄) :=
  exit_gen V c ((dat V c).arrAt · cfg2.N) V' (fun w hw => ((dat V c).arrAt_in w hw cfg2.N).trans (A_eq V c w)) hE hH hrest

end Cert.Kernel.Upd2

end
-- ==== Proof.K.UpdBody3.lean ====
/-
  One message-passing step's kernel body, on whole staging buffers. From a block of 8·768 edge rows `e`, the block's 8
  node rows `h_i`, all 768 node rows `h`, and the step's weights and biases it leaves
    e' = e + relu(e·W_eij + b_eij + (h_i·W_i)(h·W_j)ᵀ spread along the feature axis)·W_de + b_de
  in the edge output buffer and
    h_i' = h_i + (Σ_j (e'·W_dv1 + b_dv1))·W_dv2 + b_dv2
  in the node output buffer; each output is one store covering its whole buffer.
-/
import proofs.«143411_j23983097381472_2_alg».proof.Proof.Gen.Kernel.Launch
import proofs.«143411_j23983097381472_2_alg».proof.Proof.Gen.Kernel.Skeleton
import proofs.«143411_j23983097381472_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Upd3

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through, one per buffer shape. -/
abbrev rE : Rect S6144x100 := Rect.unit (s := S6144x100) ![0, 0] S6144x100.size inb_S6144x100_S6144x100_0_0
abbrev rH : Rect S8x100 := Rect.unit (s := S8x100) ![0, 0] S8x100.size inb_S8x100_S8x100_0_0
abbrev rN : Rect S768x100 := Rect.unit (s := S768x100) ![0, 0] S768x100.size inb_S768x100_S768x100_0_0
abbrev rM : Rect S100x100 := Rect.unit (s := S100x100) ![0, 0] S100x100.size inb_S100x100_S100x100_0_0
abbrev rB : Rect S1x100 := Rect.unit (s := S1x100) ![0, 0] S1x100.size inb_S1x100_S1x100_0_0

/-- The edge output buffer after the body: the updated edge rows `e'` of the thirteen input buffers. -/
def outE (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S6144x100 .f32 :=
  View.canon [⟨rE, k3_pay1 (k3_pay3 (View.ld x0 rE)) (k3_pay5 (View.ld x0 rE) (View.ld x3 rM) (View.ld x4 rB) (View.ld x1 rH) (View.ld x2 rN) (View.ld x5 rM) (View.ld x6 rM) (View.ld x7 rM)) (View.ld x8 rB)⟩]

/-- The node output buffer after the body: the updated node rows `h_i'`. -/
def outH (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S8x100 .f32 :=
  View.canon [⟨rH, k3_pay2 (k3_pay3 (View.ld x0 rE)) (k3_pay4 (View.ld x1 rH)) (k3_pay5 (View.ld x0 rE) (View.ld x3 rM) (View.ld x4 rB) (View.ld x1 rH) (View.ld x2 rN) (View.ld x5 rM) (View.ld x6 rM) (View.ld x7 rM)) (View.ld x8 rB) (View.ld x9 rM) (View.ld x10 rB) (View.ld x11 rM) (View.ld x12 rB)⟩]

/-- Each output's one store covers its buffer. -/
theorem coverE (p0 : Vec F S6144x100 .f32) (y : S6144x100.Idx) :
    ∃ pc ∈ ([⟨rE, p0⟩] : List (View.Piece (Elt F) S6144x100 .f32)), y ∈ pc.1.set :=
  View.cover_of_tiled [⟨rE, p0⟩] S6144x100.size (by rfl) y
theorem coverH (p0 : Vec F S8x100 .f32) (y : S8x100.Idx) :
    ∃ pc ∈ ([⟨rH, p0⟩] : List (View.Piece (Elt F) S8x100 .f32)), y ∈ pc.1.set :=
  View.cover_of_tiled [⟨rH, p0⟩] S8x100.size (by rfl) y

set_option maxHeartbeats 4000000 in
/-- The body's triple: the thirteen inputs kept, the two output buffers at `outE` and `outH` of them. -/
theorem sound_upd (c : Dev nD) (E : Set ℕ) (i : grid3.Coords)
    (a1 : Memref sig .tc .vmem S6144x100 .f32) (h1 : a1.IsWhole)
    (a2 : Memref sig .tc .vmem S8x100 .f32) (h2 : a2.IsWhole)
    (a3 : Memref sig .tc .vmem S768x100 .f32) (h3 : a3.IsWhole)
    (a4 : Memref sig .tc .vmem S100x100 .f32) (h4 : a4.IsWhole)
    (a5 : Memref sig .tc .vmem S1x100 .f32) (h5 : a5.IsWhole)
    (a6 : Memref sig .tc .vmem S100x100 .f32) (h6 : a6.IsWhole)
    (a7 : Memref sig .tc .vmem S100x100 .f32) (h7 : a7.IsWhole)
    (a8 : Memref sig .tc .vmem S100x100 .f32) (h8 : a8.IsWhole)
    (a9 : Memref sig .tc .vmem S1x100 .f32) (h9 : a9.IsWhole)
    (a10 : Memref sig .tc .vmem S100x100 .f32) (h10 : a10.IsWhole)
    (a11 : Memref sig .tc .vmem S1x100 .f32) (h11 : a11.IsWhole)
    (a12 : Memref sig .tc .vmem S100x100 .f32) (h12 : a12.IsWhole)
    (a13 : Memref sig .tc .vmem S1x100 .f32) (h13 : a13.IsWhole)
    (a14 : Memref sig .tc .vmem S6144x100 .f32) (h14 : a14.IsWhole)
    (a15 : Memref sig .tc .vmem S8x100 .f32) (h15 : a15.IsWhole)
    (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
        ∗ (∃ d, owns (c : Thread nD τ) a14 fullShare d) ∗ (∃ d, owns (c : Thread nD τ) a15 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
            ∗ owns (c : Thread nD τ) a14 fullShare (outE x0 x1 x2 x3 x4 x5 x6 x7 x8 x9 x10 x11 x12) ∗ owns (c : Thread nD τ) a15 fullShare (outH x0 x1 x2 x3 x4 x5 x6 x7 x8 x9 x10 x11 x12)) -∗ K ⟨⟩))
      ⊢ wp frame (wpE (defs₀ (F := F)) Variants.none c none) E (cc3__update_kernel i a1 h1 a2 h2 a3 h3 a4 h4 a5 h5 a6 h6 a7 h7 a8 h8 a9 h9 a10 h10 a11 h11 a12 h12 a13 h13 a14 h14 a15 h15) K := by
  simp only [cc3__update_kernel_eq_skeleton]; unfold cc3__update_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverE _)
  iexists _; isplitr
  swap; · iexact H14
  ipureintro
  exact View.read_writes_eq_canon _ _ _ (coverH _)

end Cert.Kernel.Upd3

end
-- ==== Proof.K.UpdDat3.lean ====
/-
  The third message-passing step's proof data: at the contents `V` the region is entered from, each window's block at a
  grid point, every input window's staging buffer holding its block at every point (fetched there or kept from the
  point before), each output's buffer after the body at the body's value of the input blocks, and the body's obligation
  at a generic point. The node array is read by two input windows (its 8-row block and the whole of it); each holds
  half of it.
-/
import proofs.«143411_j23983097381472_2_alg».proof.Proof.K.UpdBody3

set_option maxRecDepth 16384

noncomputable section

namespace Cert.Kernel.Upd3

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, fetched there or not. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg3 c) (hA : dat.A 9 = V c (Pipeline.arrRef spec3 9))
    (hafter : ∀ t, dat.after 9 t = iblk V c 9 t) (t : Fin cfg3.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg3 c) (hA : dat.A 10 = V c (Pipeline.arrRef spec3 10))
    (hafter : ∀ t, dat.after 10 t = iblk V c 10 t) (t : Fin cfg3.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg3 c) (hA : dat.A 11 = V c (Pipeline.arrRef spec3 11))
    (hafter : ∀ t, dat.after 11 t = iblk V c 11 t) (t : Fin cfg3.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg3 c) (hA : dat.A 12 = V c (Pipeline.arrRef spec3 12))
    (hafter : ∀ t, dat.after 12 t = iblk V c 12 t) (t : Fin cfg3.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as entered; after the body each input's buffer at its block, the two outputs'
    at the body's values of the input blocks; the scoped rest and the generator register untouched; nothing owed; the
    node array's two readers at half each. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
    | ⟨14, _⟩ => outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec3 c
  q w := if w = 1 then fullShare.left else if w = 2 then fullShare.right else fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = iblk V c 6 t := by dsimp only [dat]
theorem after_7 (c : Dev nD) (t : Fin cfg3.N) : (dat V c).after 7 t = iblk V c 7 t := by dsimp only [dat]
theorem after_8 (c : Dev nD) (t : Fin cfg3.N) : (dat V c).after 8 t = iblk V c 8 t := by dsimp only [dat]
theorem after_9 (c : Dev nD) (t : Fin cfg3.N) : (dat V c).after 9 t = iblk V c 9 t := by dsimp only [dat]
theorem after_10 (c : Dev nD) (t : Fin cfg3.N) : (dat V c).after 10 t = iblk V c 10 t := by dsimp only [dat]
theorem after_11 (c : Dev nD) (t : Fin cfg3.N) : (dat V c).after 11 t = iblk V c 11 t := by dsimp only [dat]
theorem after_12 (c : Dev nD) (t : Fin cfg3.N) : (dat V c).after 12 t = iblk V c 12 t := by dsimp only [dat]
theorem after_13 (c : Dev nD) (t : Fin cfg3.N) : (dat V c).after 13 t = outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]
theorem after_14 (c : Dev nD) (t : Fin cfg3.N) : (dat V c).after 14 t = outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d
theorem before_3 (c : Dev nD) (t : Fin cfg3.N) (d) : (dat V c).before 3 t d = iblk V c 3 t :=
  before_3_of V (dat V c) (A_eq V c 3) (after_3 V c) t d
theorem before_4 (c : Dev nD) (t : Fin cfg3.N) (d) : (dat V c).before 4 t d = iblk V c 4 t :=
  before_4_of V (dat V c) (A_eq V c 4) (after_4 V c) t d
theorem before_5 (c : Dev nD) (t : Fin cfg3.N) (d) : (dat V c).before 5 t d = iblk V c 5 t :=
  before_5_of V (dat V c) (A_eq V c 5) (after_5 V c) t d
theorem before_6 (c : Dev nD) (t : Fin cfg3.N) (d) : (dat V c).before 6 t d = iblk V c 6 t :=
  before_6_of V (dat V c) (A_eq V c 6) (after_6 V c) t d
theorem before_7 (c : Dev nD) (t : Fin cfg3.N) (d) : (dat V c).before 7 t d = iblk V c 7 t :=
  before_7_of V (dat V c) (A_eq V c 7) (after_7 V c) t d
theorem before_8 (c : Dev nD) (t : Fin cfg3.N) (d) : (dat V c).before 8 t d = iblk V c 8 t :=
  before_8_of V (dat V c) (A_eq V c 8) (after_8 V c) t d
theorem before_9 (c : Dev nD) (t : Fin cfg3.N) (d) : (dat V c).before 9 t d = iblk V c 9 t :=
  before_9_of V (dat V c) (A_eq V c 9) (after_9 V c) t d
theorem before_10 (c : Dev nD) (t : Fin cfg3.N) (d) : (dat V c).before 10 t d = iblk V c 10 t :=
  before_10_of V (dat V c) (A_eq V c 10) (after_10 V c) t d
theorem before_11 (c : Dev nD) (t : Fin cfg3.N) (d) : (dat V c).before 11 t d = iblk V c 11 t :=
  before_11_of V (dat V c) (A_eq V c 11) (after_11 V c) t d
theorem before_12 (c : Dev nD) (t : Fin cfg3.N) (d) : (dat V c).before 12 t d = iblk V c 12 t :=
  before_12_of V (dat V c) (A_eq V c 12) (after_12 V c) t d

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d))
    ∗ (∃ d, owns (c : Thread nD τ) (st3_12 t) fullShare ((dat V c).before 12 t d))
    ∗ (∃ d, owns (c : Thread nD τ) (st3_13 t) fullShare ((dat V c).before 13 t d))
    ∗ (∃ d, owns (c : Thread nD τ) (st3_14 t) fullShare ((dat V c).before 14 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t)
    ∗ owns (c : Thread nD τ) (st3_8 t) fullShare ((dat V c).after 8 t)
    ∗ owns (c : Thread nD τ) (st3_9 t) fullShare ((dat V c).after 9 t)
    ∗ owns (c : Thread nD τ) (st3_10 t) fullShare ((dat V c).after 10 t)
    ∗ owns (c : Thread nD τ) (st3_11 t) fullShare ((dat V c).after 11 t)
    ∗ owns (c : Thread nD τ) (st3_12 t) fullShare ((dat V c).after 12 t)
    ∗ owns (c : Thread nD τ) (st3_13 t) fullShare ((dat V c).after 13 t)
    ∗ owns (c : Thread nD τ) (st3_14 t) fullShare ((dat V c).after 14 t))

set_option maxHeartbeats 4000000 in
/-- The body at any point: the inputs' buffers hold their blocks, so the body's triple applies; the invariant and the
    core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_upd c Set.univ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dat (F := F) V c) (defs₀ (F := F)) Variants.none () Set.univ := fun t => by
  rw [bigSep_W3, bigSep_W3]
  exact sound_body V c t

end Cert.Kernel.Upd3

end
-- ==== Proof.K.UpdArr3.lean ====
/-
  The third message-passing step's arrays in and out of the core's unscoped buffers. Fourteen distinct buffers stand
  behind the fifteen windows: the node array is read through two of them. Entering, that buffer's ownership is split in
  two halves, one per reader; leaving, the halves are joined again, the thirteen inputs are as they were, and the two
  outputs hold what the write-backs left.
-/
import proofs.«143411_j23983097381472_2_alg».proof.Proof.K.UpdDat3

set_option maxRecDepth 16384

noncomputable section

namespace Cert.Kernel.Upd3

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays. -/
theorem arr_image : Finset.univ.image (Pipeline.arrRef spec3) = ([main_v15_0, main_v15_1, main_arg6, main_v16, main_arg8, main_arg9, main_arg10, main_v17, main_arg12, main_v18, main_arg14, main_v19, main_v20_0, main_v20_1] : List (Ref sig .tc)).toFinset := by decide

/-- The share each window holds its array at: the node array's two readers a half each, every other window all of it. -/
theorem share_eq (c : Dev nD) : ∀ w : Fin cfg3.W, (dat V c).share w = if w = 1 then fullShare.left else if w = 2 then fullShare.right else fullShare
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl

/-- Every window's array is a whole buffer: the arrays as points-tos of whole buffers, each at its window's share. -/
theorem arrays_whole (c : Dev nD) (G : (w : Fin cfg3.W) → Buf (Elt F) ((cfg3.win w).arr.view.loc (c : Thread nD τ))) :
    ((dat V c).arrays G : sProp 𝕄)
      = bigSep Finset.univ fun w : Fin cfg3.W => ((((c : Thread nD τ).loc (Pipeline.arrRef spec3 w)) ↦{(dat V c).share w} G w : sProp 𝕄)) := by
  unfold Dat.arrays
  exact bigSep_congr fun w _ => by rw [(arr_whole3 w).set_eq_univ]

/-- The windows' arrays as points-tos of whole buffers, window by window. -/
theorem arrays_chain (c : Dev nD) (G : (w : Fin cfg3.W) → Buf (Elt F) ((cfg3.win w).arr.view.loc (c : Thread nD τ))) :
    ((dat V c).arrays G : sProp 𝕄) = iprop(
      (((c : Thread nD τ).loc main_v15_0) ↦{fullShare} G 0) ∗
      (((c : Thread nD τ).loc main_v15_1) ↦{fullShare.left} G 1) ∗
      (((c : Thread nD τ).loc main_v15_1) ↦{fullShare.right} G 2) ∗
      (((c : Thread nD τ).loc main_arg6) ↦{fullShare} G 3) ∗
      (((c : Thread nD τ).loc main_v16) ↦{fullShare} G 4) ∗
      (((c : Thread nD τ).loc main_arg8) ↦{fullShare} G 5) ∗
      (((c : Thread nD τ).loc main_arg9) ↦{fullShare} G 6) ∗
      (((c : Thread nD τ).loc main_arg10) ↦{fullShare} G 7) ∗
      (((c : Thread nD τ).loc main_v17) ↦{fullShare} G 8) ∗
      (((c : Thread nD τ).loc main_arg12) ↦{fullShare} G 9) ∗
      (((c : Thread nD τ).loc main_v18) ↦{fullShare} G 10) ∗
      (((c : Thread nD τ).loc main_arg14) ↦{fullShare} G 11) ∗
      (((c : Thread nD τ).loc main_v19) ↦{fullShare} G 12) ∗
      (((c : Thread nD τ).loc main_v20_0) ↦{fullShare} G 13) ∗
      (((c : Thread nD τ).loc main_v20_1) ↦{fullShare} G 14)) := by
  rw [arrays_whole, bigSep_W3]
  rfl

/-- The distinct buffers behind the arrays, each wholly owned, one by one. -/
theorem arrBufs_chain (c : Dev nD) (W : (b : Ref sig .tc) → Buf (Elt F) ((c : Thread nD τ).loc b)) :
    (Pipeline.arrBufs spec3 c W : sProp 𝕄) = iprop(
      (((c : Thread nD τ).loc main_v15_0) ↦{fullShare} W main_v15_0) ∗
      (((c : Thread nD τ).loc main_v15_1) ↦{fullShare} W main_v15_1) ∗
      (((c : Thread nD τ).loc main_arg6) ↦{fullShare} W main_arg6) ∗
      (((c : Thread nD τ).loc main_v16) ↦{fullShare} W main_v16) ∗
      (((c : Thread nD τ).loc main_arg8) ↦{fullShare} W main_arg8) ∗
      (((c : Thread nD τ).loc main_arg9) ↦{fullShare} W main_arg9) ∗
      (((c : Thread nD τ).loc main_arg10) ↦{fullShare} W main_arg10) ∗
      (((c : Thread nD τ).loc main_v17) ↦{fullShare} W main_v17) ∗
      (((c : Thread nD τ).loc main_arg12) ↦{fullShare} W main_arg12) ∗
      (((c : Thread nD τ).loc main_v18) ↦{fullShare} W main_v18) ∗
      (((c : Thread nD τ).loc main_arg14) ↦{fullShare} W main_arg14) ∗
      (((c : Thread nD τ).loc main_v19) ↦{fullShare} W main_v19) ∗
      (((c : Thread nD τ).loc main_v20_0) ↦{fullShare} W main_v20_0) ∗
      (((c : Thread nD τ).loc main_v20_1) ↦{fullShare} W main_v20_1)) := by
  unfold Pipeline.arrBufs
  rw [bigSep_eq_bigSepL_of_eq _ arr_image (by decide)]
  rfl

/-- ENTERING: the core's unscoped buffers at `V` give the windows' arrays at their entry contents — the node array's
    ownership split in halves between its two readers — and the buffers no window touches. -/
theorem entry (c : Dev nD) :
    (unscopedBufs c (V c) : sProp 𝕄) ⊢ iprop((dat V c).arrays ((dat V c).arrAt · 0) ∗ Pipeline.unscopedRest spec3 c (V c)) := by
  rw [Pipeline.unscopedBufs_split₀ cfgs 3 winFacts₀3.arr_unscoped c (V c)]
  refine sep_mono ?_ .rfl
  show (Pipeline.arrBufs spec3 c (V c) : sProp 𝕄) ⊢ _
  rw [arrBufs_chain, arrays_chain]
  have hsp : ((((c : Thread nD τ).loc main_v15_1) ↦{fullShare} V c main_v15_1 : sProp 𝕄))
      ⊢ iprop((((c : Thread nD τ).loc main_v15_1) ↦{fullShare.left} V c main_v15_1) ∗ (((c : Thread nD τ).loc main_v15_1) ↦{fullShare.right} V c main_v15_1)) :=
    (pointsTo_share (PosShare.mem_left_op_right fullShare)).1
  iintro ⟨H0, H1, H3, H4, H5, H6, H7, H8, H9, H10, H11, H12, H13, H14⟩
  ihave Hs := hsp $$ H1
  icases Hs with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
/-- LEAVING, for any contents `G` of the arrays that has every input as entered: the arrays at `G` and the untouched
    buffers give the core's unscoped buffers at any contents `V'` that has the two outputs at `G`'s and agrees with `V`
    elsewhere; the node array's two halves are joined again. -/
theorem exit_gen (c : Dev nD) (G : (w : Fin cfg3.W) → Buf (Elt F) ((cfg3.win w).arr.view.loc (c : Thread nD τ)))
    (V' : (b : Ref sig .tc) → Buf (Elt F) ((c : Thread nD τ).loc b))
    (hin : ∀ w : Fin cfg3.W, (cfg3.win w).isOut = false → G w = V c (Pipeline.arrRef spec3 w))
    (hE : V' main_v20_0 = G 13) (hH : V' main_v20_1 = G 14)
    (hrest : ∀ b : Ref sig .tc, b ≠ main_v20_0 → b ≠ main_v20_1 → V' b = V c b) :
    iprop((dat V c).arrays G ∗ Pipeline.unscopedRest spec3 c (V c)) ⊢ (unscopedBufs c V' : sProp 𝕄) := by
  rw [Pipeline.unscopedBufs_split₀ cfgs 3 winFacts₀3.arr_unscoped c V']
  refine sep_mono ?_ (Entails.of_eq ?_)
  · show _ ⊢ (Pipeline.arrBufs spec3 c V' : sProp 𝕄)
    rw [arrBufs_chain, arrays_chain, hE, hH, hrest main_v15_0 (by decide) (by decide), hrest main_v15_1 (by decide) (by decide), hrest main_arg6 (by decide) (by decide), hrest main_v16 (by decide) (by decide), hrest main_arg8 (by decide) (by decide), hrest main_arg9 (by decide) (by decide), hrest main_arg10 (by decide) (by decide), hrest main_v17 (by decide) (by decide), hrest main_arg12 (by decide) (by decide), hrest main_v18 (by decide) (by decide), hrest main_arg14 (by decide) (by decide), hrest main_v19 (by decide) (by decide)]
    rw [hin 0 rfl, hin 1 rfl, hin 2 rfl, hin 3 rfl, hin 4 rfl, hin 5 rfl, hin 6 rfl, hin 7 rfl, hin 8 rfl, hin 9 rfl, hin 10 rfl, hin 11 rfl, hin 12 rfl]
    have hsp : iprop((((c : Thread nD τ).loc main_v15_1) ↦{fullShare.left} V c main_v15_1) ∗ (((c : Thread nD τ).loc main_v15_1) ↦{fullShare.right} V c main_v15_1))
        ⊢ ((((c : Thread nD τ).loc main_v15_1) ↦{fullShare} V c main_v15_1 : sProp 𝕄)) :=
      (pointsTo_share (PosShare.mem_left_op_right fullShare)).2
    iintro ⟨H0, H1, H2, H3, H4, H5, H6, H7, H8, H9, H10, H11, H12, H13, H14⟩
    ihave Hj := hsp $$ [H1 H2]
    · isplitl [H1] <;> iassumption
    isplitl [H0]; · iexact H0
    isplitl [Hj]; · iexact Hj
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · unfold Pipeline.unscopedRest
    refine bigSep_congr fun b hb => ?_
    have hb' : b ∉ Finset.univ.image (Pipeline.arrRef spec3) := (Finset.mem_sdiff.mp hb).2
    rw [hrest b (fun e => hb' (by rw [e, arr_image]; decide)) (fun e => hb' (by rw [e, arr_image]; decide))]

/-- LEAVING: at what the write-backs left (an input array is never written back). -/
theorem exit (c : Dev nD) (V' : (b : Ref sig .tc) → Buf (Elt F) ((c : Thread nD τ).loc b))
    (hE : V' main_v20_0 = (dat V c).arrAt 13 cfg3.N) (hH : V' main_v20_1 = (dat V c).arrAt 14 cfg3.N)
    (hrest : ∀ b : Ref sig .tc, b ≠ main_v20_0 → b ≠ main_v20_1 → V' b = V c b) :
    iprop((dat V c).arrays ((dat V c).arrAt · cfg3.N) ∗ Pipeline.unscopedRest spec3 c (V c)) ⊢ (unscopedBufs c V' : sProp 𝕄) :=
  exit_gen V c ((dat V c).arrAt · cfg3.N) V' (fun w hw => ((dat V c).arrAt_in w hw cfg3.N).trans (A_eq V c w)) hE hH hrest

end Cert.Kernel.Upd3

end
-- ==== Proof.K.Run.lean ====
/-
  The whole program's run. Its @main is four stretches of host operations, each followed by one kernel region: the edge
  encode, then three message-passing steps. The contents of the core's unscoped buffers are followed from the launch
  through every stretch and region; each region is entered from all of them at the contents before it and left at the
  contents after it, its outputs holding what its write-backs left. Every weakly fair execution then terminates with
  every unscoped buffer at the last of these contents.
-/
import proofs.«143411_j23983097381472_2_alg».proof.Proof.K.EncodeDat
import proofs.«143411_j23983097381472_2_alg».proof.Proof.K.UpdArr1
import proofs.«143411_j23983097381472_2_alg».proof.Proof.K.UpdArr2
import proofs.«143411_j23983097381472_2_alg».proof.Proof.K.UpdArr3
import proofs.«143411_j23983097381472_2_alg».proof.Proof.Gen.Kernel.Regions

set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the host stretch `hostOps0` (the encode's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the encode's exit: the edge array at what the write-backs left, every other buffer as entered. -/
def W2 (c : Dev nD) : Valuation τ sig (Elt F) :=
  Function.update (W1 m c) main_v5 (((Enc.dat (V1 m) c).arrAt 3 cfg0.N : Buf (Elt F) ((c : Thread nD τ).loc main_v5)))
abbrev V2 : (c : Dev nD) → (b : Ref sig .tc) → Buf (Elt F) ((c : Thread nD τ).loc b) := fun c b => W2 m c b
theorem W2_out (c : Dev nD) : V2 m c main_v5 = (Enc.dat (V1 m) c).arrAt 3 cfg0.N := Function.update_self _ _ _
theorem W2_of (c : Dev nD) (r : Ref sig .tc) (h : r ≠ main_v5) : V2 m c r = V1 m c r :=
  Function.update_of_ne (StableHlo.devRef_ne_of_ne h) _ _
theorem W1_of (c : Dev nD) (r : Ref sig .tc) (h : r ∉ hostOps0_W) : V1 m c r = V0 m c r :=
  StableHlo.after_of_writes_sub hostOps0 _ hostOps0_writes h
/-- After the host stretch `hostOps1` (step 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At step 1's exit: its two outputs at what the write-backs left, every other buffer as entered. -/
def W4 (c : Dev nD) : Valuation τ sig (Elt F) :=
  Function.update (Function.update (W3 m c) main_v10_0 (((Upd1.dat (V3 m) c).arrAt 13 cfg1.N : Buf (Elt F) ((c : Thread nD τ).loc main_v10_0))))
    main_v10_1 (((Upd1.dat (V3 m) c).arrAt 14 cfg1.N : Buf (Elt F) ((c : Thread nD τ).loc main_v10_1)))
abbrev V4 : (c : Dev nD) → (b : Ref sig .tc) → Buf (Elt F) ((c : Thread nD τ).loc b) := fun c b => W4 m c b
theorem W4_E (c : Dev nD) : V4 m c main_v10_0 = (Upd1.dat (V3 m) c).arrAt 13 cfg1.N :=
  (Function.update_of_ne (StableHlo.devRef_ne_of_ne (by decide)) _ _).trans (Function.update_self _ _ _)
theorem W4_H (c : Dev nD) : V4 m c main_v10_1 = (Upd1.dat (V3 m) c).arrAt 14 cfg1.N :=
  Function.update_self _ _ _
theorem W4_of (c : Dev nD) (r : Ref sig .tc) (h0 : r ≠ main_v10_0) (h1 : r ≠ main_v10_1) : V4 m c r = V3 m c r :=
  (Function.update_of_ne (StableHlo.devRef_ne_of_ne h1) _ _).trans (Function.update_of_ne (StableHlo.devRef_ne_of_ne h0) _ _)
theorem W3_of (c : Dev nD) (r : Ref sig .tc) (h : r ∉ hostOps1_W) : V3 m c r = V2 m c r :=
  StableHlo.after_of_writes_sub hostOps1 _ hostOps1_writes h

/-- After the host stretch `hostOps2` (step 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At step 2's exit: its two outputs at what the write-backs left, every other buffer as entered. -/
def W6 (c : Dev nD) : Valuation τ sig (Elt F) :=
  Function.update (Function.update (W5 m c) main_v15_0 (((Upd2.dat (V5 m) c).arrAt 13 cfg2.N : Buf (Elt F) ((c : Thread nD τ).loc main_v15_0))))
    main_v15_1 (((Upd2.dat (V5 m) c).arrAt 14 cfg2.N : Buf (Elt F) ((c : Thread nD τ).loc main_v15_1)))
abbrev V6 : (c : Dev nD) → (b : Ref sig .tc) → Buf (Elt F) ((c : Thread nD τ).loc b) := fun c b => W6 m c b
theorem W6_E (c : Dev nD) : V6 m c main_v15_0 = (Upd2.dat (V5 m) c).arrAt 13 cfg2.N :=
  (Function.update_of_ne (StableHlo.devRef_ne_of_ne (by decide)) _ _).trans (Function.update_self _ _ _)
theorem W6_H (c : Dev nD) : V6 m c main_v15_1 = (Upd2.dat (V5 m) c).arrAt 14 cfg2.N :=
  Function.update_self _ _ _
theorem W6_of (c : Dev nD) (r : Ref sig .tc) (h0 : r ≠ main_v15_0) (h1 : r ≠ main_v15_1) : V6 m c r = V5 m c r :=
  (Function.update_of_ne (StableHlo.devRef_ne_of_ne h1) _ _).trans (Function.update_of_ne (StableHlo.devRef_ne_of_ne h0) _ _)
theorem W5_of (c : Dev nD) (r : Ref sig .tc) (h : r ∉ hostOps2_W) : V5 m c r = V4 m c r :=
  StableHlo.after_of_writes_sub hostOps2 _ hostOps2_writes h

/-- After the host stretch `hostOps3` (step 3's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At step 3's exit: its two outputs at what the write-backs left, every other buffer as entered. -/
def W8 (c : Dev nD) : Valuation τ sig (Elt F) :=
  Function.update (Function.update (W7 m c) main_v20_0 (((Upd3.dat (V7 m) c).arrAt 13 cfg3.N : Buf (Elt F) ((c : Thread nD τ).loc main_v20_0))))
    main_v20_1 (((Upd3.dat (V7 m) c).arrAt 14 cfg3.N : Buf (Elt F) ((c : Thread nD τ).loc main_v20_1)))
abbrev V8 : (c : Dev nD) → (b : Ref sig .tc) → Buf (Elt F) ((c : Thread nD τ).loc b) := fun c b => W8 m c b
theorem W8_E (c : Dev nD) : V8 m c main_v20_0 = (Upd3.dat (V7 m) c).arrAt 13 cfg3.N :=
  (Function.update_of_ne (StableHlo.devRef_ne_of_ne (by decide)) _ _).trans (Function.update_self _ _ _)
theorem W8_H (c : Dev nD) : V8 m c main_v20_1 = (Upd3.dat (V7 m) c).arrAt 14 cfg3.N :=
  Function.update_self _ _ _
theorem W8_of (c : Dev nD) (r : Ref sig .tc) (h0 : r ≠ main_v20_0) (h1 : r ≠ main_v20_1) : V8 m c r = V7 m c r :=
  (Function.update_of_ne (StableHlo.devRef_ne_of_ne h1) _ _).trans (Function.update_of_ne (StableHlo.devRef_ne_of_ne h0) _ _)
theorem W7_of (c : Dev nD) (r : Ref sig .tc) (h : r ∉ hostOps3_W) : V7 m c r = V6 m c r :=
  StableHlo.after_of_writes_sub hostOps3 _ hostOps3_writes h

/-- The encode's arrays at its exit: the three inputs as entered, the output at what the write-backs left. -/
theorem hF0 (c : Dev nD) : ∀ w : Fin cfg0.W, (Enc.dat (V1 m) c).arrAt w cfg0.N = V2 m c (Pipeline.arrRef spec0 w)
  | ⟨0, _⟩ => (((Enc.dat (V1 m) c).arrAt_in 0 rfl cfg0.N).trans (Enc.A_eq (V1 m) c 0)).trans (W2_of m c _ (by decide)).symm
  | ⟨1, _⟩ => (((Enc.dat (V1 m) c).arrAt_in 1 rfl cfg0.N).trans (Enc.A_eq (V1 m) c 1)).trans (W2_of m c _ (by decide)).symm
  | ⟨2, _⟩ => (((Enc.dat (V1 m) c).arrAt_in 2 rfl cfg0.N).trans (Enc.A_eq (V1 m) c 2)).trans (W2_of m c _ (by decide)).symm
  | ⟨3, _⟩ => (W2_out m c).symm
theorem hrest0 (c : Dev nD) : ∀ b, b ∉ Finset.univ.image (Pipeline.arrRef spec0) → V2 m c b = V1 m c b :=
  fun b hb => W2_of m c b fun e => hb (Finset.mem_image.mpr ⟨3, Finset.mem_univ _, e.symm⟩)

/-! ## The arguments end as launched, and the results hold the last step's outputs -/

theorem W8_main_arg0 (c : Dev nD) : V8 m c main_arg0 = m ((c : Thread nD τ).loc main_arg0) :=
  (W8_of m c main_arg0 (by decide) (by decide)).trans <| (W7_of m c main_arg0 (by decide)).trans <| (W6_of m c main_arg0 (by decide) (by decide)).trans <| (W5_of m c main_arg0 (by decide)).trans <| (W4_of m c main_arg0 (by decide) (by decide)).trans <| (W3_of m c main_arg0 (by decide)).trans <| (W2_of m c main_arg0 (by decide)).trans <| (W1_of m c main_arg0 (by decide)).trans rfl
theorem W8_main_arg1 (c : Dev nD) : V8 m c main_arg1 = m ((c : Thread nD τ).loc main_arg1) :=
  (W8_of m c main_arg1 (by decide) (by decide)).trans <| (W7_of m c main_arg1 (by decide)).trans <| (W6_of m c main_arg1 (by decide) (by decide)).trans <| (W5_of m c main_arg1 (by decide)).trans <| (W4_of m c main_arg1 (by decide) (by decide)).trans <| (W3_of m c main_arg1 (by decide)).trans <| (W2_of m c main_arg1 (by decide)).trans <| (W1_of m c main_arg1 (by decide)).trans rfl
theorem W8_main_arg2 (c : Dev nD) : V8 m c main_arg2 = m ((c : Thread nD τ).loc main_arg2) :=
  (W8_of m c main_arg2 (by decide) (by decide)).trans <| (W7_of m c main_arg2 (by decide)).trans <| (W6_of m c main_arg2 (by decide) (by decide)).trans <| (W5_of m c main_arg2 (by decide)).trans <| (W4_of m c main_arg2 (by decide) (by decide)).trans <| (W3_of m c main_arg2 (by decide)).trans <| (W2_of m c main_arg2 (by decide)).trans <| (W1_of m c main_arg2 (by decide)).trans rfl
theorem W8_main_arg3 (c : Dev nD) : V8 m c main_arg3 = m ((c : Thread nD τ).loc main_arg3) :=
  (W8_of m c main_arg3 (by decide) (by decide)).trans <| (W7_of m c main_arg3 (by decide)).trans <| (W6_of m c main_arg3 (by decide) (by decide)).trans <| (W5_of m c main_arg3 (by decide)).trans <| (W4_of m c main_arg3 (by decide) (by decide)).trans <| (W3_of m c main_arg3 (by decide)).trans <| (W2_of m c main_arg3 (by decide)).trans <| (W1_of m c main_arg3 (by decide)).trans rfl
theorem W8_main_arg4 (c : Dev nD) : V8 m c main_arg4 = m ((c : Thread nD τ).loc main_arg4) :=
  (W8_of m c main_arg4 (by decide) (by decide)).trans <| (W7_of m c main_arg4 (by decide)).trans <| (W6_of m c main_arg4 (by decide) (by decide)).trans <| (W5_of m c main_arg4 (by decide)).trans <| (W4_of m c main_arg4 (by decide) (by decide)).trans <| (W3_of m c main_arg4 (by decide)).trans <| (W2_of m c main_arg4 (by decide)).trans <| (W1_of m c main_arg4 (by decide)).trans rfl
theorem W8_main_arg5 (c : Dev nD) : V8 m c main_arg5 = m ((c : Thread nD τ).loc main_arg5) :=
  (W8_of m c main_arg5 (by decide) (by decide)).trans <| (W7_of m c main_arg5 (by decide)).trans <| (W6_of m c main_arg5 (by decide) (by decide)).trans <| (W5_of m c main_arg5 (by decide)).trans <| (W4_of m c main_arg5 (by decide) (by decide)).trans <| (W3_of m c main_arg5 (by decide)).trans <| (W2_of m c main_arg5 (by decide)).trans <| (W1_of m c main_arg5 (by decide)).trans rfl
theorem W8_main_arg6 (c : Dev nD) : V8 m c main_arg6 = m ((c : Thread nD τ).loc main_arg6) :=
  (W8_of m c main_arg6 (by decide) (by decide)).trans <| (W7_of m c main_arg6 (by decide)).trans <| (W6_of m c main_arg6 (by decide) (by decide)).trans <| (W5_of m c main_arg6 (by decide)).trans <| (W4_of m c main_arg6 (by decide) (by decide)).trans <| (W3_of m c main_arg6 (by decide)).trans <| (W2_of m c main_arg6 (by decide)).trans <| (W1_of m c main_arg6 (by decide)).trans rfl
theorem W8_main_arg7 (c : Dev nD) : V8 m c main_arg7 = m ((c : Thread nD τ).loc main_arg7) :=
  (W8_of m c main_arg7 (by decide) (by decide)).trans <| (W7_of m c main_arg7 (by decide)).trans <| (W6_of m c main_arg7 (by decide) (by decide)).trans <| (W5_of m c main_arg7 (by decide)).trans <| (W4_of m c main_arg7 (by decide) (by decide)).trans <| (W3_of m c main_arg7 (by decide)).trans <| (W2_of m c main_arg7 (by decide)).trans <| (W1_of m c main_arg7 (by decide)).trans rfl
theorem W8_main_arg8 (c : Dev nD) : V8 m c main_arg8 = m ((c : Thread nD τ).loc main_arg8) :=
  (W8_of m c main_arg8 (by decide) (by decide)).trans <| (W7_of m c main_arg8 (by decide)).trans <| (W6_of m c main_arg8 (by decide) (by decide)).trans <| (W5_of m c main_arg8 (by decide)).trans <| (W4_of m c main_arg8 (by decide) (by decide)).trans <| (W3_of m c main_arg8 (by decide)).trans <| (W2_of m c main_arg8 (by decide)).trans <| (W1_of m c main_arg8 (by decide)).trans rfl
theorem W8_main_arg9 (c : Dev nD) : V8 m c main_arg9 = m ((c : Thread nD τ).loc main_arg9) :=
  (W8_of m c main_arg9 (by decide) (by decide)).trans <| (W7_of m c main_arg9 (by decide)).trans <| (W6_of m c main_arg9 (by decide) (by decide)).trans <| (W5_of m c main_arg9 (by decide)).trans <| (W4_of m c main_arg9 (by decide) (by decide)).trans <| (W3_of m c main_arg9 (by decide)).trans <| (W2_of m c main_arg9 (by decide)).trans <| (W1_of m c main_arg9 (by decide)).trans rfl
theorem W8_main_arg10 (c : Dev nD) : V8 m c main_arg10 = m ((c : Thread nD τ).loc main_arg10) :=
  (W8_of m c main_arg10 (by decide) (by decide)).trans <| (W7_of m c main_arg10 (by decide)).trans <| (W6_of m c main_arg10 (by decide) (by decide)).trans <| (W5_of m c main_arg10 (by decide)).trans <| (W4_of m c main_arg10 (by decide) (by decide)).trans <| (W3_of m c main_arg10 (by decide)).trans <| (W2_of m c main_arg10 (by decide)).trans <| (W1_of m c main_arg10 (by decide)).trans rfl
theorem W8_main_arg11 (c : Dev nD) : V8 m c main_arg11 = m ((c : Thread nD τ).loc main_arg11) :=
  (W8_of m c main_arg11 (by decide) (by decide)).trans <| (W7_of m c main_arg11 (by decide)).trans <| (W6_of m c main_arg11 (by decide) (by decide)).trans <| (W5_of m c main_arg11 (by decide)).trans <| (W4_of m c main_arg11 (by decide) (by decide)).trans <| (W3_of m c main_arg11 (by decide)).trans <| (W2_of m c main_arg11 (by decide)).trans <| (W1_of m c main_arg11 (by decide)).trans rfl
theorem W8_main_arg12 (c : Dev nD) : V8 m c main_arg12 = m ((c : Thread nD τ).loc main_arg12) :=
  (W8_of m c main_arg12 (by decide) (by decide)).trans <| (W7_of m c main_arg12 (by decide)).trans <| (W6_of m c main_arg12 (by decide) (by decide)).trans <| (W5_of m c main_arg12 (by decide)).trans <| (W4_of m c main_arg12 (by decide) (by decide)).trans <| (W3_of m c main_arg12 (by decide)).trans <| (W2_of m c main_arg12 (by decide)).trans <| (W1_of m c main_arg12 (by decide)).trans rfl
theorem W8_main_arg13 (c : Dev nD) : V8 m c main_arg13 = m ((c : Thread nD τ).loc main_arg13) :=
  (W8_of m c main_arg13 (by decide) (by decide)).trans <| (W7_of m c main_arg13 (by decide)).trans <| (W6_of m c main_arg13 (by decide) (by decide)).trans <| (W5_of m c main_arg13 (by decide)).trans <| (W4_of m c main_arg13 (by decide) (by decide)).trans <| (W3_of m c main_arg13 (by decide)).trans <| (W2_of m c main_arg13 (by decide)).trans <| (W1_of m c main_arg13 (by decide)).trans rfl
theorem W8_main_arg14 (c : Dev nD) : V8 m c main_arg14 = m ((c : Thread nD τ).loc main_arg14) :=
  (W8_of m c main_arg14 (by decide) (by decide)).trans <| (W7_of m c main_arg14 (by decide)).trans <| (W6_of m c main_arg14 (by decide) (by decide)).trans <| (W5_of m c main_arg14 (by decide)).trans <| (W4_of m c main_arg14 (by decide) (by decide)).trans <| (W3_of m c main_arg14 (by decide)).trans <| (W2_of m c main_arg14 (by decide)).trans <| (W1_of m c main_arg14 (by decide)).trans rfl
theorem W8_main_arg15 (c : Dev nD) : V8 m c main_arg15 = m ((c : Thread nD τ).loc main_arg15) :=
  (W8_of m c main_arg15 (by decide) (by decide)).trans <| (W7_of m c main_arg15 (by decide)).trans <| (W6_of m c main_arg15 (by decide) (by decide)).trans <| (W5_of m c main_arg15 (by decide)).trans <| (W4_of m c main_arg15 (by decide) (by decide)).trans <| (W3_of m c main_arg15 (by decide)).trans <| (W2_of m c main_arg15 (by decide)).trans <| (W1_of m c main_arg15 (by decide)).trans rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Enc.dat (V1 m) c
  | ⟨1, _⟩ => fun c => Upd1.dat (V3 m) c
  | ⟨2, _⟩ => fun c => Upd2.dat (V5 m) c
  | ⟨3, _⟩ => fun c => Upd3.dat (V7 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last contents, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- The edge encode over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Message-passing step 1 over the thread state: entered from every unscoped buffer at `W3`, left at `W4`. Its arrays
    are split out of the unscoped buffers (the node array in halves) and put back with the two outputs at what the
    write-backs left; the generator register goes into the region's invariant and comes back; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Upd1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Upd1.entry (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Upd1.exit (V3 m) c (V4 m c) (W4_E m c) (W4_H m c) (fun r h0 h1 => W4_of m c r h0 h1)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Message-passing step 2 over the thread state: entered from every unscoped buffer at `W5`, left at `W6`. Its arrays
    are split out of the unscoped buffers (the node array in halves) and put back with the two outputs at what the
    write-backs left; the generator register goes into the region's invariant and comes back; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Upd2.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Upd2.entry (V5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Upd2.exit (V5 m) c (V6 m c) (W6_E m c) (W6_H m c) (fun r h0 h1 => W6_of m c r h0 h1)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Message-passing step 3 over the thread state: entered from every unscoped buffer at `W7`, left at `W8`. Its arrays
    are split out of the unscoped buffers (the node array in halves) and put back with the two outputs at what the
    write-backs left; the generator register goes into the region's invariant and comes back; nothing is owed. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (Upd3.body_obligation (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Upd3.entry (V7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Upd3.exit (V7 m) c (V8 m c) (W8_E m c) (W8_H m c) (fun r h0 h1 => W8_of m c r h0 h1)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main on the TensorCores terminates,
    nothing faulting, and every final state has every unscoped buffer at the last boundary's contents `W8`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.Kernel.Run

end
-- ==== Proof.KI.EncodeBody.lean ====
/-
  The edge-encode kernel's body, on whole staging buffers: from a block of 12288 edge rows, the 16×100 weight and the
  1×100 bias it leaves in the output buffer the block's rows times the weight plus the bias — one store that covers
  the whole buffer, so the buffer afterwards is that one value.
-/
import proofs.«143411_j23983097381472_2_alg».proof.Proof.Gen.KernelIdeal.Launch
import proofs.«143411_j23983097381472_2_alg».proof.Proof.Gen.KernelIdeal.Skeleton
import proofs.«143411_j23983097381472_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Enc

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rEdge : Rect S12288x16 := Rect.unit (s := S12288x16) ![0, 0] S12288x16.size inb_S12288x16_S12288x16_0_0
abbrev rW : Rect S16x100 := Rect.unit (s := S16x100) ![0, 0] S16x100.size inb_S16x100_S16x100_0_0
abbrev rB : Rect S1x100 := Rect.unit (s := S1x100) ![0, 0] S1x100.size inb_S1x100_S1x100_0_0
abbrev rOut : Rect S12288x100 := Rect.unit (s := S12288x100) ![0, 0] S12288x100.size inb_S12288x100_S12288x100_0_0

/-- What the output buffer holds after the body: rows·weight + bias of the three input buffers. -/
def encOut (x0 : Vec F S12288x16 .f32) (x1 : Vec F S16x100 .f32) (x2 : Vec F S1x100 .f32) : Vec F S12288x100 .f32 :=
  View.canon [⟨rOut, k0_pay1 (View.ld x0 rEdge) (View.ld x1 rW) (View.ld x2 rB)⟩]

/-- The one store covers the output buffer. -/
theorem encCover (p0 : Vec F S12288x100 .f32) (y : S12288x100.Idx) :
    ∃ pc ∈ ([⟨rOut, p0⟩] : List (View.Piece (Elt F) S12288x100 .f32)), y ∈ pc.1.set :=
  View.cover_of_tiled [⟨rOut, p0⟩] S12288x100.size (by rfl) y

set_option maxHeartbeats 1000000 in
/-- The body's triple: inputs kept, the output buffer at `encOut` of them. -/
theorem sound_enc (c : Dev nD) (E : Set ℕ) (i : grid0.Coords)
    (a1 : Memref sig .tc .vmem S12288x16 .f32) (h1 : a1.IsWhole) (a2 : Memref sig .tc .vmem S16x100 .f32) (h2 : a2.IsWhole)
    (a3 : Memref sig .tc .vmem S1x100 .f32) (h3 : a3.IsWhole) (a4 : Memref sig .tc .vmem S12288x100 .f32) (h4 : a4.IsWhole)
    (x0 : Vec F S12288x16 .f32) (x1 : Vec F S16x100 .f32) (x2 : Vec F S1x100 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (encOut x0 x1 x2)) -∗ K ⟨⟩))
      ⊢ wp frame (wpE (defs₀ (F := F)) Variants.none c none) E (cc0__encode_e_kernel i a1 h1 a2 h2 a3 h3 a4 h4) K := by
  simp only [cc0__encode_e_kernel_eq_skeleton]; unfold cc0__encode_e_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (encCover _)

end Cert.KernelIdeal.Enc

end
-- ==== Proof.KI.EncodeDat.lean ====
/-
  The edge-encode region's proof data: each window's block at a grid point read off the contents `V` the region is
  entered from, every input's staging buffer holding its block at every point, the output's buffer after the body at
  the block's rows times the weight plus the bias, and the body's obligation at a generic point.
-/
import proofs.«143411_j23983097381472_2_alg».proof.Proof.KI.EncodeBody

set_option maxRecDepth 16384

noncomputable section

namespace Cert.KernelIdeal.Enc

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => encOut (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = encOut (iblk V c 0 t) (iblk V c 1 t) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 1000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_enc c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.KernelIdeal.Enc

end
-- ==== Proof.KI.UpdBody1.lean ====
/-
  One message-passing step's kernel body, on whole staging buffers. From a block of 8·768 edge rows `e`, the block's 8
  node rows `h_i`, all 768 node rows `h`, and the step's weights and biases it leaves
    e' = e + relu(e·W_eij + b_eij + (h_i·W_i)(h·W_j)ᵀ spread along the feature axis)·W_de + b_de
  in the edge output buffer and
    h_i' = h_i + (Σ_j (e'·W_dv1 + b_dv1))·W_dv2 + b_dv2
  in the node output buffer; each output is one store covering its whole buffer.
-/
import proofs.«143411_j23983097381472_2_alg».proof.Proof.Gen.KernelIdeal.Launch
import proofs.«143411_j23983097381472_2_alg».proof.Proof.Gen.KernelIdeal.Skeleton
import proofs.«143411_j23983097381472_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Upd1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through, one per buffer shape. -/
abbrev rE : Rect S6144x100 := Rect.unit (s := S6144x100) ![0, 0] S6144x100.size inb_S6144x100_S6144x100_0_0
abbrev rH : Rect S8x100 := Rect.unit (s := S8x100) ![0, 0] S8x100.size inb_S8x100_S8x100_0_0
abbrev rN : Rect S768x100 := Rect.unit (s := S768x100) ![0, 0] S768x100.size inb_S768x100_S768x100_0_0
abbrev rM : Rect S100x100 := Rect.unit (s := S100x100) ![0, 0] S100x100.size inb_S100x100_S100x100_0_0
abbrev rB : Rect S1x100 := Rect.unit (s := S1x100) ![0, 0] S1x100.size inb_S1x100_S1x100_0_0

/-- The edge output buffer after the body: the updated edge rows `e'` of the thirteen input buffers. -/
def outE (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S6144x100 .f32 :=
  View.canon [⟨rE, k1_pay1 (k1_pay3 (View.ld x0 rE)) (k1_pay5 (View.ld x0 rE) (View.ld x3 rM) (View.ld x4 rB) (View.ld x1 rH) (View.ld x2 rN) (View.ld x5 rM) (View.ld x6 rM) (View.ld x7 rM)) (View.ld x8 rB)⟩]

/-- The node output buffer after the body: the updated node rows `h_i'`. -/
def outH (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S8x100 .f32 :=
  View.canon [⟨rH, k1_pay2 (k1_pay3 (View.ld x0 rE)) (k1_pay4 (View.ld x1 rH)) (k1_pay5 (View.ld x0 rE) (View.ld x3 rM) (View.ld x4 rB) (View.ld x1 rH) (View.ld x2 rN) (View.ld x5 rM) (View.ld x6 rM) (View.ld x7 rM)) (View.ld x8 rB) (View.ld x9 rM) (View.ld x10 rB) (View.ld x11 rM) (View.ld x12 rB)⟩]

/-- Each output's one store covers its buffer. -/
theorem coverE (p0 : Vec F S6144x100 .f32) (y : S6144x100.Idx) :
    ∃ pc ∈ ([⟨rE, p0⟩] : List (View.Piece (Elt F) S6144x100 .f32)), y ∈ pc.1.set :=
  View.cover_of_tiled [⟨rE, p0⟩] S6144x100.size (by rfl) y
theorem coverH (p0 : Vec F S8x100 .f32) (y : S8x100.Idx) :
    ∃ pc ∈ ([⟨rH, p0⟩] : List (View.Piece (Elt F) S8x100 .f32)), y ∈ pc.1.set :=
  View.cover_of_tiled [⟨rH, p0⟩] S8x100.size (by rfl) y

set_option maxHeartbeats 4000000 in
/-- The body's triple: the thirteen inputs kept, the two output buffers at `outE` and `outH` of them. -/
theorem sound_upd (c : Dev nD) (E : Set ℕ) (i : grid1.Coords)
    (a1 : Memref sig .tc .vmem S6144x100 .f32) (h1 : a1.IsWhole)
    (a2 : Memref sig .tc .vmem S8x100 .f32) (h2 : a2.IsWhole)
    (a3 : Memref sig .tc .vmem S768x100 .f32) (h3 : a3.IsWhole)
    (a4 : Memref sig .tc .vmem S100x100 .f32) (h4 : a4.IsWhole)
    (a5 : Memref sig .tc .vmem S1x100 .f32) (h5 : a5.IsWhole)
    (a6 : Memref sig .tc .vmem S100x100 .f32) (h6 : a6.IsWhole)
    (a7 : Memref sig .tc .vmem S100x100 .f32) (h7 : a7.IsWhole)
    (a8 : Memref sig .tc .vmem S100x100 .f32) (h8 : a8.IsWhole)
    (a9 : Memref sig .tc .vmem S1x100 .f32) (h9 : a9.IsWhole)
    (a10 : Memref sig .tc .vmem S100x100 .f32) (h10 : a10.IsWhole)
    (a11 : Memref sig .tc .vmem S1x100 .f32) (h11 : a11.IsWhole)
    (a12 : Memref sig .tc .vmem S100x100 .f32) (h12 : a12.IsWhole)
    (a13 : Memref sig .tc .vmem S1x100 .f32) (h13 : a13.IsWhole)
    (a14 : Memref sig .tc .vmem S6144x100 .f32) (h14 : a14.IsWhole)
    (a15 : Memref sig .tc .vmem S8x100 .f32) (h15 : a15.IsWhole)
    (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
        ∗ (∃ d, owns (c : Thread nD τ) a14 fullShare d) ∗ (∃ d, owns (c : Thread nD τ) a15 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
            ∗ owns (c : Thread nD τ) a14 fullShare (outE x0 x1 x2 x3 x4 x5 x6 x7 x8 x9 x10 x11 x12) ∗ owns (c : Thread nD τ) a15 fullShare (outH x0 x1 x2 x3 x4 x5 x6 x7 x8 x9 x10 x11 x12)) -∗ K ⟨⟩))
      ⊢ wp frame (wpE (defs₀ (F := F)) Variants.none c none) E (cc1__update_kernel i a1 h1 a2 h2 a3 h3 a4 h4 a5 h5 a6 h6 a7 h7 a8 h8 a9 h9 a10 h10 a11 h11 a12 h12 a13 h13 a14 h14 a15 h15) K := by
  simp only [cc1__update_kernel_eq_skeleton]; unfold cc1__update_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverE _)
  iexists _; isplitr
  swap; · iexact H14
  ipureintro
  exact View.read_writes_eq_canon _ _ _ (coverH _)

end Cert.KernelIdeal.Upd1

end
-- ==== Proof.KI.UpdDat1.lean ====
/-
  The first message-passing step's proof data: at the contents `V` the region is entered from, each window's block at a
  grid point, every input window's staging buffer holding its block at every point (fetched there or kept from the
  point before), each output's buffer after the body at the body's value of the input blocks, and the body's obligation
  at a generic point. The node array is read by two input windows (its 8-row block and the whole of it); each holds
  half of it.
-/
import proofs.«143411_j23983097381472_2_alg».proof.Proof.KI.UpdBody1

set_option maxRecDepth 16384

noncomputable section

namespace Cert.KernelIdeal.Upd1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg1 c) (hA : dat.A 11 = V c (Pipeline.arrRef spec1 11))
    (hafter : ∀ t, dat.after 11 t = iblk V c 11 t) (t : Fin cfg1.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg1 c) (hA : dat.A 12 = V c (Pipeline.arrRef spec1 12))
    (hafter : ∀ t, dat.after 12 t = iblk V c 12 t) (t : Fin cfg1.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as entered; after the body each input's buffer at its block, the two outputs'
    at the body's values of the input blocks; the scoped rest and the generator register untouched; nothing owed; the
    node array's two readers at half each. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
    | ⟨14, _⟩ => outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec1 c
  q w := if w = 1 then fullShare.left else if w = 2 then fullShare.right else fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]
theorem after_14 (c : Dev nD) (t : Fin cfg1.N) : (dat V c).after 14 t = outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d
theorem before_7 (c : Dev nD) (t : Fin cfg1.N) (d) : (dat V c).before 7 t d = iblk V c 7 t :=
  before_7_of V (dat V c) (A_eq V c 7) (after_7 V c) t d
theorem before_8 (c : Dev nD) (t : Fin cfg1.N) (d) : (dat V c).before 8 t d = iblk V c 8 t :=
  before_8_of V (dat V c) (A_eq V c 8) (after_8 V c) t d
theorem before_9 (c : Dev nD) (t : Fin cfg1.N) (d) : (dat V c).before 9 t d = iblk V c 9 t :=
  before_9_of V (dat V c) (A_eq V c 9) (after_9 V c) t d
theorem before_10 (c : Dev nD) (t : Fin cfg1.N) (d) : (dat V c).before 10 t d = iblk V c 10 t :=
  before_10_of V (dat V c) (A_eq V c 10) (after_10 V c) t d
theorem before_11 (c : Dev nD) (t : Fin cfg1.N) (d) : (dat V c).before 11 t d = iblk V c 11 t :=
  before_11_of V (dat V c) (A_eq V c 11) (after_11 V c) t d
theorem before_12 (c : Dev nD) (t : Fin cfg1.N) (d) : (dat V c).before 12 t d = iblk V c 12 t :=
  before_12_of V (dat V c) (A_eq V c 12) (after_12 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t))

set_option maxHeartbeats 4000000 in
/-- The body at any point: the inputs' buffers hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_upd c Set.univ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.Upd1

end
-- ==== Proof.KI.UpdArr1.lean ====
/-
  The first message-passing step's arrays in and out of the core's unscoped buffers. Fourteen distinct buffers stand
  behind the fifteen windows: the node array is read through two of them. Entering, that buffer's ownership is split in
  two halves, one per reader; leaving, the halves are joined again, the thirteen inputs are as they were, and the two
  outputs hold what the write-backs left.
-/
import proofs.«143411_j23983097381472_2_alg».proof.Proof.KI.UpdDat1

set_option maxRecDepth 16384

noncomputable section

namespace Cert.KernelIdeal.Upd1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays. -/
theorem arr_image : Finset.univ.image (Pipeline.arrRef spec1) = ([main_v5, main_v3, main_arg6, main_v6, main_arg8, main_arg9, main_arg10, main_v7, main_arg12, main_v8, main_arg14, main_v9, main_v10_0, main_v10_1] : List (Ref sig .tc)).toFinset := by decide

/-- The share each window holds its array at: the node array's two readers a half each, every other window all of it. -/
theorem share_eq (c : Dev nD) : ∀ w : Fin cfg1.W, (dat V c).share w = if w = 1 then fullShare.left else if w = 2 then fullShare.right else fullShare
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl

/-- Every window's array is a whole buffer: the arrays as points-tos of whole buffers, each at its window's share. -/
theorem arrays_whole (c : Dev nD) (G : (w : Fin cfg1.W) → Buf (Elt F) ((cfg1.win w).arr.view.loc (c : Thread nD τ))) :
    ((dat V c).arrays G : sProp 𝕄)
      = bigSep Finset.univ fun w : Fin cfg1.W => ((((c : Thread nD τ).loc (Pipeline.arrRef spec1 w)) ↦{(dat V c).share w} G w : sProp 𝕄)) := by
  unfold Dat.arrays
  exact bigSep_congr fun w _ => by rw [(arr_whole1 w).set_eq_univ]

/-- The windows' arrays as points-tos of whole buffers, window by window. -/
theorem arrays_chain (c : Dev nD) (G : (w : Fin cfg1.W) → Buf (Elt F) ((cfg1.win w).arr.view.loc (c : Thread nD τ))) :
    ((dat V c).arrays G : sProp 𝕄) = iprop(
      (((c : Thread nD τ).loc main_v5) ↦{fullShare} G 0) ∗
      (((c : Thread nD τ).loc main_v3) ↦{fullShare.left} G 1) ∗
      (((c : Thread nD τ).loc main_v3) ↦{fullShare.right} G 2) ∗
      (((c : Thread nD τ).loc main_arg6) ↦{fullShare} G 3) ∗
      (((c : Thread nD τ).loc main_v6) ↦{fullShare} G 4) ∗
      (((c : Thread nD τ).loc main_arg8) ↦{fullShare} G 5) ∗
      (((c : Thread nD τ).loc main_arg9) ↦{fullShare} G 6) ∗
      (((c : Thread nD τ).loc main_arg10) ↦{fullShare} G 7) ∗
      (((c : Thread nD τ).loc main_v7) ↦{fullShare} G 8) ∗
      (((c : Thread nD τ).loc main_arg12) ↦{fullShare} G 9) ∗
      (((c : Thread nD τ).loc main_v8) ↦{fullShare} G 10) ∗
      (((c : Thread nD τ).loc main_arg14) ↦{fullShare} G 11) ∗
      (((c : Thread nD τ).loc main_v9) ↦{fullShare} G 12) ∗
      (((c : Thread nD τ).loc main_v10_0) ↦{fullShare} G 13) ∗
      (((c : Thread nD τ).loc main_v10_1) ↦{fullShare} G 14)) := by
  rw [arrays_whole, bigSep_W1]
  rfl

/-- The distinct buffers behind the arrays, each wholly owned, one by one. -/
theorem arrBufs_chain (c : Dev nD) (W : (b : Ref sig .tc) → Buf (Elt F) ((c : Thread nD τ).loc b)) :
    (Pipeline.arrBufs spec1 c W : sProp 𝕄) = iprop(
      (((c : Thread nD τ).loc main_v5) ↦{fullShare} W main_v5) ∗
      (((c : Thread nD τ).loc main_v3) ↦{fullShare} W main_v3) ∗
      (((c : Thread nD τ).loc main_arg6) ↦{fullShare} W main_arg6) ∗
      (((c : Thread nD τ).loc main_v6) ↦{fullShare} W main_v6) ∗
      (((c : Thread nD τ).loc main_arg8) ↦{fullShare} W main_arg8) ∗
      (((c : Thread nD τ).loc main_arg9) ↦{fullShare} W main_arg9) ∗
      (((c : Thread nD τ).loc main_arg10) ↦{fullShare} W main_arg10) ∗
      (((c : Thread nD τ).loc main_v7) ↦{fullShare} W main_v7) ∗
      (((c : Thread nD τ).loc main_arg12) ↦{fullShare} W main_arg12) ∗
      (((c : Thread nD τ).loc main_v8) ↦{fullShare} W main_v8) ∗
      (((c : Thread nD τ).loc main_arg14) ↦{fullShare} W main_arg14) ∗
      (((c : Thread nD τ).loc main_v9) ↦{fullShare} W main_v9) ∗
      (((c : Thread nD τ).loc main_v10_0) ↦{fullShare} W main_v10_0) ∗
      (((c : Thread nD τ).loc main_v10_1) ↦{fullShare} W main_v10_1)) := by
  unfold Pipeline.arrBufs
  rw [bigSep_eq_bigSepL_of_eq _ arr_image (by decide)]
  rfl

/-- ENTERING: the core's unscoped buffers at `V` give the windows' arrays at their entry contents — the node array's
    ownership split in halves between its two readers — and the buffers no window touches. -/
theorem entry (c : Dev nD) :
    (unscopedBufs c (V c) : sProp 𝕄) ⊢ iprop((dat V c).arrays ((dat V c).arrAt · 0) ∗ Pipeline.unscopedRest spec1 c (V c)) := by
  rw [Pipeline.unscopedBufs_split₀ cfgs 1 winFacts₀1.arr_unscoped c (V c)]
  refine sep_mono ?_ .rfl
  show (Pipeline.arrBufs spec1 c (V c) : sProp 𝕄) ⊢ _
  rw [arrBufs_chain, arrays_chain]
  have hsp : ((((c : Thread nD τ).loc main_v3) ↦{fullShare} V c main_v3 : sProp 𝕄))
      ⊢ iprop((((c : Thread nD τ).loc main_v3) ↦{fullShare.left} V c main_v3) ∗ (((c : Thread nD τ).loc main_v3) ↦{fullShare.right} V c main_v3)) :=
    (pointsTo_share (PosShare.mem_left_op_right fullShare)).1
  iintro ⟨H0, H1, H3, H4, H5, H6, H7, H8, H9, H10, H11, H12, H13, H14⟩
  ihave Hs := hsp $$ H1
  icases Hs with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
/-- LEAVING, for any contents `G` of the arrays that has every input as entered: the arrays at `G` and the untouched
    buffers give the core's unscoped buffers at any contents `V'` that has the two outputs at `G`'s and agrees with `V`
    elsewhere; the node array's two halves are joined again. -/
theorem exit_gen (c : Dev nD) (G : (w : Fin cfg1.W) → Buf (Elt F) ((cfg1.win w).arr.view.loc (c : Thread nD τ)))
    (V' : (b : Ref sig .tc) → Buf (Elt F) ((c : Thread nD τ).loc b))
    (hin : ∀ w : Fin cfg1.W, (cfg1.win w).isOut = false → G w = V c (Pipeline.arrRef spec1 w))
    (hE : V' main_v10_0 = G 13) (hH : V' main_v10_1 = G 14)
    (hrest : ∀ b : Ref sig .tc, b ≠ main_v10_0 → b ≠ main_v10_1 → V' b = V c b) :
    iprop((dat V c).arrays G ∗ Pipeline.unscopedRest spec1 c (V c)) ⊢ (unscopedBufs c V' : sProp 𝕄) := by
  rw [Pipeline.unscopedBufs_split₀ cfgs 1 winFacts₀1.arr_unscoped c V']
  refine sep_mono ?_ (Entails.of_eq ?_)
  · show _ ⊢ (Pipeline.arrBufs spec1 c V' : sProp 𝕄)
    rw [arrBufs_chain, arrays_chain, hE, hH, hrest main_v5 (by decide) (by decide), hrest main_v3 (by decide) (by decide), hrest main_arg6 (by decide) (by decide), hrest main_v6 (by decide) (by decide), hrest main_arg8 (by decide) (by decide), hrest main_arg9 (by decide) (by decide), hrest main_arg10 (by decide) (by decide), hrest main_v7 (by decide) (by decide), hrest main_arg12 (by decide) (by decide), hrest main_v8 (by decide) (by decide), hrest main_arg14 (by decide) (by decide), hrest main_v9 (by decide) (by decide)]
    rw [hin 0 rfl, hin 1 rfl, hin 2 rfl, hin 3 rfl, hin 4 rfl, hin 5 rfl, hin 6 rfl, hin 7 rfl, hin 8 rfl, hin 9 rfl, hin 10 rfl, hin 11 rfl, hin 12 rfl]
    have hsp : iprop((((c : Thread nD τ).loc main_v3) ↦{fullShare.left} V c main_v3) ∗ (((c : Thread nD τ).loc main_v3) ↦{fullShare.right} V c main_v3))
        ⊢ ((((c : Thread nD τ).loc main_v3) ↦{fullShare} V c main_v3 : sProp 𝕄)) :=
      (pointsTo_share (PosShare.mem_left_op_right fullShare)).2
    iintro ⟨H0, H1, H2, H3, H4, H5, H6, H7, H8, H9, H10, H11, H12, H13, H14⟩
    ihave Hj := hsp $$ [H1 H2]
    · isplitl [H1] <;> iassumption
    isplitl [H0]; · iexact H0
    isplitl [Hj]; · iexact Hj
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · unfold Pipeline.unscopedRest
    refine bigSep_congr fun b hb => ?_
    have hb' : b ∉ Finset.univ.image (Pipeline.arrRef spec1) := (Finset.mem_sdiff.mp hb).2
    rw [hrest b (fun e => hb' (by rw [e, arr_image]; decide)) (fun e => hb' (by rw [e, arr_image]; decide))]

/-- LEAVING: at what the write-backs left (an input array is never written back). -/
theorem exit (c : Dev nD) (V' : (b : Ref sig .tc) → Buf (Elt F) ((c : Thread nD τ).loc b))
    (hE : V' main_v10_0 = (dat V c).arrAt 13 cfg1.N) (hH : V' main_v10_1 = (dat V c).arrAt 14 cfg1.N)
    (hrest : ∀ b : Ref sig .tc, b ≠ main_v10_0 → b ≠ main_v10_1 → V' b = V c b) :
    iprop((dat V c).arrays ((dat V c).arrAt · cfg1.N) ∗ Pipeline.unscopedRest spec1 c (V c)) ⊢ (unscopedBufs c V' : sProp 𝕄) :=
  exit_gen V c ((dat V c).arrAt · cfg1.N) V' (fun w hw => ((dat V c).arrAt_in w hw cfg1.N).trans (A_eq V c w)) hE hH hrest

end Cert.KernelIdeal.Upd1

end
-- ==== Proof.KI.UpdBody2.lean ====
/-
  One message-passing step's kernel body, on whole staging buffers. From a block of 8·768 edge rows `e`, the block's 8
  node rows `h_i`, all 768 node rows `h`, and the step's weights and biases it leaves
    e' = e + relu(e·W_eij + b_eij + (h_i·W_i)(h·W_j)ᵀ spread along the feature axis)·W_de + b_de
  in the edge output buffer and
    h_i' = h_i + (Σ_j (e'·W_dv1 + b_dv1))·W_dv2 + b_dv2
  in the node output buffer; each output is one store covering its whole buffer.
-/
import proofs.«143411_j23983097381472_2_alg».proof.Proof.Gen.KernelIdeal.Launch
import proofs.«143411_j23983097381472_2_alg».proof.Proof.Gen.KernelIdeal.Skeleton
import proofs.«143411_j23983097381472_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Upd2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through, one per buffer shape. -/
abbrev rE : Rect S6144x100 := Rect.unit (s := S6144x100) ![0, 0] S6144x100.size inb_S6144x100_S6144x100_0_0
abbrev rH : Rect S8x100 := Rect.unit (s := S8x100) ![0, 0] S8x100.size inb_S8x100_S8x100_0_0
abbrev rN : Rect S768x100 := Rect.unit (s := S768x100) ![0, 0] S768x100.size inb_S768x100_S768x100_0_0
abbrev rM : Rect S100x100 := Rect.unit (s := S100x100) ![0, 0] S100x100.size inb_S100x100_S100x100_0_0
abbrev rB : Rect S1x100 := Rect.unit (s := S1x100) ![0, 0] S1x100.size inb_S1x100_S1x100_0_0

/-- The edge output buffer after the body: the updated edge rows `e'` of the thirteen input buffers. -/
def outE (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S6144x100 .f32 :=
  View.canon [⟨rE, k2_pay1 (k2_pay3 (View.ld x0 rE)) (k2_pay5 (View.ld x0 rE) (View.ld x3 rM) (View.ld x4 rB) (View.ld x1 rH) (View.ld x2 rN) (View.ld x5 rM) (View.ld x6 rM) (View.ld x7 rM)) (View.ld x8 rB)⟩]

/-- The node output buffer after the body: the updated node rows `h_i'`. -/
def outH (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S8x100 .f32 :=
  View.canon [⟨rH, k2_pay2 (k2_pay3 (View.ld x0 rE)) (k2_pay4 (View.ld x1 rH)) (k2_pay5 (View.ld x0 rE) (View.ld x3 rM) (View.ld x4 rB) (View.ld x1 rH) (View.ld x2 rN) (View.ld x5 rM) (View.ld x6 rM) (View.ld x7 rM)) (View.ld x8 rB) (View.ld x9 rM) (View.ld x10 rB) (View.ld x11 rM) (View.ld x12 rB)⟩]

/-- Each output's one store covers its buffer. -/
theorem coverE (p0 : Vec F S6144x100 .f32) (y : S6144x100.Idx) :
    ∃ pc ∈ ([⟨rE, p0⟩] : List (View.Piece (Elt F) S6144x100 .f32)), y ∈ pc.1.set :=
  View.cover_of_tiled [⟨rE, p0⟩] S6144x100.size (by rfl) y
theorem coverH (p0 : Vec F S8x100 .f32) (y : S8x100.Idx) :
    ∃ pc ∈ ([⟨rH, p0⟩] : List (View.Piece (Elt F) S8x100 .f32)), y ∈ pc.1.set :=
  View.cover_of_tiled [⟨rH, p0⟩] S8x100.size (by rfl) y

set_option maxHeartbeats 4000000 in
/-- The body's triple: the thirteen inputs kept, the two output buffers at `outE` and `outH` of them. -/
theorem sound_upd (c : Dev nD) (E : Set ℕ) (i : grid2.Coords)
    (a1 : Memref sig .tc .vmem S6144x100 .f32) (h1 : a1.IsWhole)
    (a2 : Memref sig .tc .vmem S8x100 .f32) (h2 : a2.IsWhole)
    (a3 : Memref sig .tc .vmem S768x100 .f32) (h3 : a3.IsWhole)
    (a4 : Memref sig .tc .vmem S100x100 .f32) (h4 : a4.IsWhole)
    (a5 : Memref sig .tc .vmem S1x100 .f32) (h5 : a5.IsWhole)
    (a6 : Memref sig .tc .vmem S100x100 .f32) (h6 : a6.IsWhole)
    (a7 : Memref sig .tc .vmem S100x100 .f32) (h7 : a7.IsWhole)
    (a8 : Memref sig .tc .vmem S100x100 .f32) (h8 : a8.IsWhole)
    (a9 : Memref sig .tc .vmem S1x100 .f32) (h9 : a9.IsWhole)
    (a10 : Memref sig .tc .vmem S100x100 .f32) (h10 : a10.IsWhole)
    (a11 : Memref sig .tc .vmem S1x100 .f32) (h11 : a11.IsWhole)
    (a12 : Memref sig .tc .vmem S100x100 .f32) (h12 : a12.IsWhole)
    (a13 : Memref sig .tc .vmem S1x100 .f32) (h13 : a13.IsWhole)
    (a14 : Memref sig .tc .vmem S6144x100 .f32) (h14 : a14.IsWhole)
    (a15 : Memref sig .tc .vmem S8x100 .f32) (h15 : a15.IsWhole)
    (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
        ∗ (∃ d, owns (c : Thread nD τ) a14 fullShare d) ∗ (∃ d, owns (c : Thread nD τ) a15 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
            ∗ owns (c : Thread nD τ) a14 fullShare (outE x0 x1 x2 x3 x4 x5 x6 x7 x8 x9 x10 x11 x12) ∗ owns (c : Thread nD τ) a15 fullShare (outH x0 x1 x2 x3 x4 x5 x6 x7 x8 x9 x10 x11 x12)) -∗ K ⟨⟩))
      ⊢ wp frame (wpE (defs₀ (F := F)) Variants.none c none) E (cc2__update_kernel i a1 h1 a2 h2 a3 h3 a4 h4 a5 h5 a6 h6 a7 h7 a8 h8 a9 h9 a10 h10 a11 h11 a12 h12 a13 h13 a14 h14 a15 h15) K := by
  simp only [cc2__update_kernel_eq_skeleton]; unfold cc2__update_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverE _)
  iexists _; isplitr
  swap; · iexact H14
  ipureintro
  exact View.read_writes_eq_canon _ _ _ (coverH _)

end Cert.KernelIdeal.Upd2

end
-- ==== Proof.KI.UpdDat2.lean ====
/-
  The second message-passing step's proof data: at the contents `V` the region is entered from, each window's block at a
  grid point, every input window's staging buffer holding its block at every point (fetched there or kept from the
  point before), each output's buffer after the body at the body's value of the input blocks, and the body's obligation
  at a generic point. The node array is read by two input windows (its 8-row block and the whole of it); each holds
  half of it.
-/
import proofs.«143411_j23983097381472_2_alg».proof.Proof.KI.UpdBody2

set_option maxRecDepth 16384

noncomputable section

namespace Cert.KernelIdeal.Upd2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg2 c) (hA : dat.A 9 = V c (Pipeline.arrRef spec2 9))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg2 c) (hA : dat.A 10 = V c (Pipeline.arrRef spec2 10))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg2 c) (hA : dat.A 11 = V c (Pipeline.arrRef spec2 11))
    (hafter : ∀ t, dat.after 11 t = iblk V c 11 t) (t : Fin cfg2.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg2 c) (hA : dat.A 12 = V c (Pipeline.arrRef spec2 12))
    (hafter : ∀ t, dat.after 12 t = iblk V c 12 t) (t : Fin cfg2.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as entered; after the body each input's buffer at its block, the two outputs'
    at the body's values of the input blocks; the scoped rest and the generator register untouched; nothing owed; the
    node array's two readers at half each. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
    | ⟨14, _⟩ => outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec2 c
  q w := if w = 1 then fullShare.left else if w = 2 then fullShare.right else fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = iblk V c 11 t := by dsimp only [dat]
theorem after_12 (c : Dev nD) (t : Fin cfg2.N) : (dat V c).after 12 t = iblk V c 12 t := by dsimp only [dat]
theorem after_13 (c : Dev nD) (t : Fin cfg2.N) : (dat V c).after 13 t = outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]
theorem after_14 (c : Dev nD) (t : Fin cfg2.N) : (dat V c).after 14 t = outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d
theorem before_7 (c : Dev nD) (t : Fin cfg2.N) (d) : (dat V c).before 7 t d = iblk V c 7 t :=
  before_7_of V (dat V c) (A_eq V c 7) (after_7 V c) t d
theorem before_8 (c : Dev nD) (t : Fin cfg2.N) (d) : (dat V c).before 8 t d = iblk V c 8 t :=
  before_8_of V (dat V c) (A_eq V c 8) (after_8 V c) t d
theorem before_9 (c : Dev nD) (t : Fin cfg2.N) (d) : (dat V c).before 9 t d = iblk V c 9 t :=
  before_9_of V (dat V c) (A_eq V c 9) (after_9 V c) t d
theorem before_10 (c : Dev nD) (t : Fin cfg2.N) (d) : (dat V c).before 10 t d = iblk V c 10 t :=
  before_10_of V (dat V c) (A_eq V c 10) (after_10 V c) t d
theorem before_11 (c : Dev nD) (t : Fin cfg2.N) (d) : (dat V c).before 11 t d = iblk V c 11 t :=
  before_11_of V (dat V c) (A_eq V c 11) (after_11 V c) t d
theorem before_12 (c : Dev nD) (t : Fin cfg2.N) (d) : (dat V c).before 12 t d = iblk V c 12 t :=
  before_12_of V (dat V c) (A_eq V c 12) (after_12 V c) t d

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d))
    ∗ (∃ d, owns (c : Thread nD τ) (st2_11 t) fullShare ((dat V c).before 11 t d))
    ∗ (∃ d, owns (c : Thread nD τ) (st2_12 t) fullShare ((dat V c).before 12 t d))
    ∗ (∃ d, owns (c : Thread nD τ) (st2_13 t) fullShare ((dat V c).before 13 t d))
    ∗ (∃ d, owns (c : Thread nD τ) (st2_14 t) fullShare ((dat V c).before 14 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t)
    ∗ owns (c : Thread nD τ) (st2_11 t) fullShare ((dat V c).after 11 t)
    ∗ owns (c : Thread nD τ) (st2_12 t) fullShare ((dat V c).after 12 t)
    ∗ owns (c : Thread nD τ) (st2_13 t) fullShare ((dat V c).after 13 t)
    ∗ owns (c : Thread nD τ) (st2_14 t) fullShare ((dat V c).after 14 t))

set_option maxHeartbeats 4000000 in
/-- The body at any point: the inputs' buffers hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_upd c Set.univ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dat (F := F) V c) (defs₀ (F := F)) Variants.none () Set.univ := fun t => by
  rw [bigSep_W2, bigSep_W2]
  exact sound_body V c t

end Cert.KernelIdeal.Upd2

end
-- ==== Proof.KI.UpdArr2.lean ====
/-
  The second message-passing step's arrays in and out of the core's unscoped buffers. Fourteen distinct buffers stand
  behind the fifteen windows: the node array is read through two of them. Entering, that buffer's ownership is split in
  two halves, one per reader; leaving, the halves are joined again, the thirteen inputs are as they were, and the two
  outputs hold what the write-backs left.
-/
import proofs.«143411_j23983097381472_2_alg».proof.Proof.KI.UpdDat2

set_option maxRecDepth 16384

noncomputable section

namespace Cert.KernelIdeal.Upd2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays. -/
theorem arr_image : Finset.univ.image (Pipeline.arrRef spec2) = ([main_v10_0, main_v10_1, main_arg6, main_v11, main_arg8, main_arg9, main_arg10, main_v12, main_arg12, main_v13, main_arg14, main_v14, main_v15_0, main_v15_1] : List (Ref sig .tc)).toFinset := by decide

/-- The share each window holds its array at: the node array's two readers a half each, every other window all of it. -/
theorem share_eq (c : Dev nD) : ∀ w : Fin cfg2.W, (dat V c).share w = if w = 1 then fullShare.left else if w = 2 then fullShare.right else fullShare
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl

/-- Every window's array is a whole buffer: the arrays as points-tos of whole buffers, each at its window's share. -/
theorem arrays_whole (c : Dev nD) (G : (w : Fin cfg2.W) → Buf (Elt F) ((cfg2.win w).arr.view.loc (c : Thread nD τ))) :
    ((dat V c).arrays G : sProp 𝕄)
      = bigSep Finset.univ fun w : Fin cfg2.W => ((((c : Thread nD τ).loc (Pipeline.arrRef spec2 w)) ↦{(dat V c).share w} G w : sProp 𝕄)) := by
  unfold Dat.arrays
  exact bigSep_congr fun w _ => by rw [(arr_whole2 w).set_eq_univ]

/-- The windows' arrays as points-tos of whole buffers, window by window. -/
theorem arrays_chain (c : Dev nD) (G : (w : Fin cfg2.W) → Buf (Elt F) ((cfg2.win w).arr.view.loc (c : Thread nD τ))) :
    ((dat V c).arrays G : sProp 𝕄) = iprop(
      (((c : Thread nD τ).loc main_v10_0) ↦{fullShare} G 0) ∗
      (((c : Thread nD τ).loc main_v10_1) ↦{fullShare.left} G 1) ∗
      (((c : Thread nD τ).loc main_v10_1) ↦{fullShare.right} G 2) ∗
      (((c : Thread nD τ).loc main_arg6) ↦{fullShare} G 3) ∗
      (((c : Thread nD τ).loc main_v11) ↦{fullShare} G 4) ∗
      (((c : Thread nD τ).loc main_arg8) ↦{fullShare} G 5) ∗
      (((c : Thread nD τ).loc main_arg9) ↦{fullShare} G 6) ∗
      (((c : Thread nD τ).loc main_arg10) ↦{fullShare} G 7) ∗
      (((c : Thread nD τ).loc main_v12) ↦{fullShare} G 8) ∗
      (((c : Thread nD τ).loc main_arg12) ↦{fullShare} G 9) ∗
      (((c : Thread nD τ).loc main_v13) ↦{fullShare} G 10) ∗
      (((c : Thread nD τ).loc main_arg14) ↦{fullShare} G 11) ∗
      (((c : Thread nD τ).loc main_v14) ↦{fullShare} G 12) ∗
      (((c : Thread nD τ).loc main_v15_0) ↦{fullShare} G 13) ∗
      (((c : Thread nD τ).loc main_v15_1) ↦{fullShare} G 14)) := by
  rw [arrays_whole, bigSep_W2]
  rfl

/-- The distinct buffers behind the arrays, each wholly owned, one by one. -/
theorem arrBufs_chain (c : Dev nD) (W : (b : Ref sig .tc) → Buf (Elt F) ((c : Thread nD τ).loc b)) :
    (Pipeline.arrBufs spec2 c W : sProp 𝕄) = iprop(
      (((c : Thread nD τ).loc main_v10_0) ↦{fullShare} W main_v10_0) ∗
      (((c : Thread nD τ).loc main_v10_1) ↦{fullShare} W main_v10_1) ∗
      (((c : Thread nD τ).loc main_arg6) ↦{fullShare} W main_arg6) ∗
      (((c : Thread nD τ).loc main_v11) ↦{fullShare} W main_v11) ∗
      (((c : Thread nD τ).loc main_arg8) ↦{fullShare} W main_arg8) ∗
      (((c : Thread nD τ).loc main_arg9) ↦{fullShare} W main_arg9) ∗
      (((c : Thread nD τ).loc main_arg10) ↦{fullShare} W main_arg10) ∗
      (((c : Thread nD τ).loc main_v12) ↦{fullShare} W main_v12) ∗
      (((c : Thread nD τ).loc main_arg12) ↦{fullShare} W main_arg12) ∗
      (((c : Thread nD τ).loc main_v13) ↦{fullShare} W main_v13) ∗
      (((c : Thread nD τ).loc main_arg14) ↦{fullShare} W main_arg14) ∗
      (((c : Thread nD τ).loc main_v14) ↦{fullShare} W main_v14) ∗
      (((c : Thread nD τ).loc main_v15_0) ↦{fullShare} W main_v15_0) ∗
      (((c : Thread nD τ).loc main_v15_1) ↦{fullShare} W main_v15_1)) := by
  unfold Pipeline.arrBufs
  rw [bigSep_eq_bigSepL_of_eq _ arr_image (by decide)]
  rfl

/-- ENTERING: the core's unscoped buffers at `V` give the windows' arrays at their entry contents — the node array's
    ownership split in halves between its two readers — and the buffers no window touches. -/
theorem entry (c : Dev nD) :
    (unscopedBufs c (V c) : sProp 𝕄) ⊢ iprop((dat V c).arrays ((dat V c).arrAt · 0) ∗ Pipeline.unscopedRest spec2 c (V c)) := by
  rw [Pipeline.unscopedBufs_split₀ cfgs 2 winFacts₀2.arr_unscoped c (V c)]
  refine sep_mono ?_ .rfl
  show (Pipeline.arrBufs spec2 c (V c) : sProp 𝕄) ⊢ _
  rw [arrBufs_chain, arrays_chain]
  have hsp : ((((c : Thread nD τ).loc main_v10_1) ↦{fullShare} V c main_v10_1 : sProp 𝕄))
      ⊢ iprop((((c : Thread nD τ).loc main_v10_1) ↦{fullShare.left} V c main_v10_1) ∗ (((c : Thread nD τ).loc main_v10_1) ↦{fullShare.right} V c main_v10_1)) :=
    (pointsTo_share (PosShare.mem_left_op_right fullShare)).1
  iintro ⟨H0, H1, H3, H4, H5, H6, H7, H8, H9, H10, H11, H12, H13, H14⟩
  ihave Hs := hsp $$ H1
  icases Hs with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
/-- LEAVING, for any contents `G` of the arrays that has every input as entered: the arrays at `G` and the untouched
    buffers give the core's unscoped buffers at any contents `V'` that has the two outputs at `G`'s and agrees with `V`
    elsewhere; the node array's two halves are joined again. -/
theorem exit_gen (c : Dev nD) (G : (w : Fin cfg2.W) → Buf (Elt F) ((cfg2.win w).arr.view.loc (c : Thread nD τ)))
    (V' : (b : Ref sig .tc) → Buf (Elt F) ((c : Thread nD τ).loc b))
    (hin : ∀ w : Fin cfg2.W, (cfg2.win w).isOut = false → G w = V c (Pipeline.arrRef spec2 w))
    (hE : V' main_v15_0 = G 13) (hH : V' main_v15_1 = G 14)
    (hrest : ∀ b : Ref sig .tc, b ≠ main_v15_0 → b ≠ main_v15_1 → V' b = V c b) :
    iprop((dat V c).arrays G ∗ Pipeline.unscopedRest spec2 c (V c)) ⊢ (unscopedBufs c V' : sProp 𝕄) := by
  rw [Pipeline.unscopedBufs_split₀ cfgs 2 winFacts₀2.arr_unscoped c V']
  refine sep_mono ?_ (Entails.of_eq ?_)
  · show _ ⊢ (Pipeline.arrBufs spec2 c V' : sProp 𝕄)
    rw [arrBufs_chain, arrays_chain, hE, hH, hrest main_v10_0 (by decide) (by decide), hrest main_v10_1 (by decide) (by decide), hrest main_arg6 (by decide) (by decide), hrest main_v11 (by decide) (by decide), hrest main_arg8 (by decide) (by decide), hrest main_arg9 (by decide) (by decide), hrest main_arg10 (by decide) (by decide), hrest main_v12 (by decide) (by decide), hrest main_arg12 (by decide) (by decide), hrest main_v13 (by decide) (by decide), hrest main_arg14 (by decide) (by decide), hrest main_v14 (by decide) (by decide)]
    rw [hin 0 rfl, hin 1 rfl, hin 2 rfl, hin 3 rfl, hin 4 rfl, hin 5 rfl, hin 6 rfl, hin 7 rfl, hin 8 rfl, hin 9 rfl, hin 10 rfl, hin 11 rfl, hin 12 rfl]
    have hsp : iprop((((c : Thread nD τ).loc main_v10_1) ↦{fullShare.left} V c main_v10_1) ∗ (((c : Thread nD τ).loc main_v10_1) ↦{fullShare.right} V c main_v10_1))
        ⊢ ((((c : Thread nD τ).loc main_v10_1) ↦{fullShare} V c main_v10_1 : sProp 𝕄)) :=
      (pointsTo_share (PosShare.mem_left_op_right fullShare)).2
    iintro ⟨H0, H1, H2, H3, H4, H5, H6, H7, H8, H9, H10, H11, H12, H13, H14⟩
    ihave Hj := hsp $$ [H1 H2]
    · isplitl [H1] <;> iassumption
    isplitl [H0]; · iexact H0
    isplitl [Hj]; · iexact Hj
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · unfold Pipeline.unscopedRest
    refine bigSep_congr fun b hb => ?_
    have hb' : b ∉ Finset.univ.image (Pipeline.arrRef spec2) := (Finset.mem_sdiff.mp hb).2
    rw [hrest b (fun e => hb' (by rw [e, arr_image]; decide)) (fun e => hb' (by rw [e, arr_image]; decide))]

/-- LEAVING: at what the write-backs left (an input array is never written back). -/
theorem exit (c : Dev nD) (V' : (b : Ref sig .tc) → Buf (Elt F) ((c : Thread nD τ).loc b))
    (hE : V' main_v15_0 = (dat V c).arrAt 13 cfg2.N) (hH : V' main_v15_1 = (dat V c).arrAt 14 cfg2.N)
    (hrest : ∀ b : Ref sig .tc, b ≠ main_v15_0 → b ≠ main_v15_1 → V' b = V c b) :
    iprop((dat V c).arrays ((dat V c).arrAt · cfg2.N) ∗ Pipeline.unscopedRest spec2 c (V c)) ⊢ (unscopedBufs c V' : sProp 𝕄) :=
  exit_gen V c ((dat V c).arrAt · cfg2.N) V' (fun w hw => ((dat V c).arrAt_in w hw cfg2.N).trans (A_eq V c w)) hE hH hrest

end Cert.KernelIdeal.Upd2

end
-- ==== Proof.KI.UpdBody3.lean ====
/-
  One message-passing step's kernel body, on whole staging buffers. From a block of 8·768 edge rows `e`, the block's 8
  node rows `h_i`, all 768 node rows `h`, and the step's weights and biases it leaves
    e' = e + relu(e·W_eij + b_eij + (h_i·W_i)(h·W_j)ᵀ spread along the feature axis)·W_de + b_de
  in the edge output buffer and
    h_i' = h_i + (Σ_j (e'·W_dv1 + b_dv1))·W_dv2 + b_dv2
  in the node output buffer; each output is one store covering its whole buffer.
-/
import proofs.«143411_j23983097381472_2_alg».proof.Proof.Gen.KernelIdeal.Launch
import proofs.«143411_j23983097381472_2_alg».proof.Proof.Gen.KernelIdeal.Skeleton
import proofs.«143411_j23983097381472_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Upd3

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through, one per buffer shape. -/
abbrev rE : Rect S6144x100 := Rect.unit (s := S6144x100) ![0, 0] S6144x100.size inb_S6144x100_S6144x100_0_0
abbrev rH : Rect S8x100 := Rect.unit (s := S8x100) ![0, 0] S8x100.size inb_S8x100_S8x100_0_0
abbrev rN : Rect S768x100 := Rect.unit (s := S768x100) ![0, 0] S768x100.size inb_S768x100_S768x100_0_0
abbrev rM : Rect S100x100 := Rect.unit (s := S100x100) ![0, 0] S100x100.size inb_S100x100_S100x100_0_0
abbrev rB : Rect S1x100 := Rect.unit (s := S1x100) ![0, 0] S1x100.size inb_S1x100_S1x100_0_0

/-- The edge output buffer after the body: the updated edge rows `e'` of the thirteen input buffers. -/
def outE (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S6144x100 .f32 :=
  View.canon [⟨rE, k3_pay1 (k3_pay3 (View.ld x0 rE)) (k3_pay5 (View.ld x0 rE) (View.ld x3 rM) (View.ld x4 rB) (View.ld x1 rH) (View.ld x2 rN) (View.ld x5 rM) (View.ld x6 rM) (View.ld x7 rM)) (View.ld x8 rB)⟩]

/-- The node output buffer after the body: the updated node rows `h_i'`. -/
def outH (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) : Vec F S8x100 .f32 :=
  View.canon [⟨rH, k3_pay2 (k3_pay3 (View.ld x0 rE)) (k3_pay4 (View.ld x1 rH)) (k3_pay5 (View.ld x0 rE) (View.ld x3 rM) (View.ld x4 rB) (View.ld x1 rH) (View.ld x2 rN) (View.ld x5 rM) (View.ld x6 rM) (View.ld x7 rM)) (View.ld x8 rB) (View.ld x9 rM) (View.ld x10 rB) (View.ld x11 rM) (View.ld x12 rB)⟩]

/-- Each output's one store covers its buffer. -/
theorem coverE (p0 : Vec F S6144x100 .f32) (y : S6144x100.Idx) :
    ∃ pc ∈ ([⟨rE, p0⟩] : List (View.Piece (Elt F) S6144x100 .f32)), y ∈ pc.1.set :=
  View.cover_of_tiled [⟨rE, p0⟩] S6144x100.size (by rfl) y
theorem coverH (p0 : Vec F S8x100 .f32) (y : S8x100.Idx) :
    ∃ pc ∈ ([⟨rH, p0⟩] : List (View.Piece (Elt F) S8x100 .f32)), y ∈ pc.1.set :=
  View.cover_of_tiled [⟨rH, p0⟩] S8x100.size (by rfl) y

set_option maxHeartbeats 4000000 in
/-- The body's triple: the thirteen inputs kept, the two output buffers at `outE` and `outH` of them. -/
theorem sound_upd (c : Dev nD) (E : Set ℕ) (i : grid3.Coords)
    (a1 : Memref sig .tc .vmem S6144x100 .f32) (h1 : a1.IsWhole)
    (a2 : Memref sig .tc .vmem S8x100 .f32) (h2 : a2.IsWhole)
    (a3 : Memref sig .tc .vmem S768x100 .f32) (h3 : a3.IsWhole)
    (a4 : Memref sig .tc .vmem S100x100 .f32) (h4 : a4.IsWhole)
    (a5 : Memref sig .tc .vmem S1x100 .f32) (h5 : a5.IsWhole)
    (a6 : Memref sig .tc .vmem S100x100 .f32) (h6 : a6.IsWhole)
    (a7 : Memref sig .tc .vmem S100x100 .f32) (h7 : a7.IsWhole)
    (a8 : Memref sig .tc .vmem S100x100 .f32) (h8 : a8.IsWhole)
    (a9 : Memref sig .tc .vmem S1x100 .f32) (h9 : a9.IsWhole)
    (a10 : Memref sig .tc .vmem S100x100 .f32) (h10 : a10.IsWhole)
    (a11 : Memref sig .tc .vmem S1x100 .f32) (h11 : a11.IsWhole)
    (a12 : Memref sig .tc .vmem S100x100 .f32) (h12 : a12.IsWhole)
    (a13 : Memref sig .tc .vmem S1x100 .f32) (h13 : a13.IsWhole)
    (a14 : Memref sig .tc .vmem S6144x100 .f32) (h14 : a14.IsWhole)
    (a15 : Memref sig .tc .vmem S8x100 .f32) (h15 : a15.IsWhole)
    (x0 : Vec F S6144x100 .f32) (x1 : Vec F S8x100 .f32) (x2 : Vec F S768x100 .f32) (x3 : Vec F S100x100 .f32) (x4 : Vec F S1x100 .f32) (x5 : Vec F S100x100 .f32) (x6 : Vec F S100x100 .f32) (x7 : Vec F S100x100 .f32) (x8 : Vec F S1x100 .f32) (x9 : Vec F S100x100 .f32) (x10 : Vec F S1x100 .f32) (x11 : Vec F S100x100 .f32) (x12 : Vec F S1x100 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
        ∗ (∃ d, owns (c : Thread nD τ) a14 fullShare d) ∗ (∃ d, owns (c : Thread nD τ) a15 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12
            ∗ owns (c : Thread nD τ) a14 fullShare (outE x0 x1 x2 x3 x4 x5 x6 x7 x8 x9 x10 x11 x12) ∗ owns (c : Thread nD τ) a15 fullShare (outH x0 x1 x2 x3 x4 x5 x6 x7 x8 x9 x10 x11 x12)) -∗ K ⟨⟩))
      ⊢ wp frame (wpE (defs₀ (F := F)) Variants.none c none) E (cc3__update_kernel i a1 h1 a2 h2 a3 h3 a4 h4 a5 h5 a6 h6 a7 h7 a8 h8 a9 h9 a10 h10 a11 h11 a12 h12 a13 h13 a14 h14 a15 h15) K := by
  simp only [cc3__update_kernel_eq_skeleton]; unfold cc3__update_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0; subst hf1; subst hf2; subst hf3; subst hf4; subst hf5; subst hf6; subst hf7; subst hf8; subst hf9; subst hf10; subst hf11; subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (coverE _)
  iexists _; isplitr
  swap; · iexact H14
  ipureintro
  exact View.read_writes_eq_canon _ _ _ (coverH _)

end Cert.KernelIdeal.Upd3

end
-- ==== Proof.KI.UpdDat3.lean ====
/-
  The third message-passing step's proof data: at the contents `V` the region is entered from, each window's block at a
  grid point, every input window's staging buffer holding its block at every point (fetched there or kept from the
  point before), each output's buffer after the body at the body's value of the input blocks, and the body's obligation
  at a generic point. The node array is read by two input windows (its 8-row block and the whole of it); each holds
  half of it.
-/
import proofs.«143411_j23983097381472_2_alg».proof.Proof.KI.UpdBody3

set_option maxRecDepth 16384

noncomputable section

namespace Cert.KernelIdeal.Upd3

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, fetched there or not. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg3 c) (hA : dat.A 9 = V c (Pipeline.arrRef spec3 9))
    (hafter : ∀ t, dat.after 9 t = iblk V c 9 t) (t : Fin cfg3.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg3 c) (hA : dat.A 10 = V c (Pipeline.arrRef spec3 10))
    (hafter : ∀ t, dat.after 10 t = iblk V c 10 t) (t : Fin cfg3.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg3 c) (hA : dat.A 11 = V c (Pipeline.arrRef spec3 11))
    (hafter : ∀ t, dat.after 11 t = iblk V c 11 t) (t : Fin cfg3.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg3 c) (hA : dat.A 12 = V c (Pipeline.arrRef spec3 12))
    (hafter : ∀ t, dat.after 12 t = iblk V c 12 t) (t : Fin cfg3.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as entered; after the body each input's buffer at its block, the two outputs'
    at the body's values of the input blocks; the scoped rest and the generator register untouched; nothing owed; the
    node array's two readers at half each. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
    | ⟨14, _⟩ => outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t)
  Φ _ := Pipeline.ΦA spec3 c
  q w := if w = 1 then fullShare.left else if w = 2 then fullShare.right else fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = iblk V c 5 t := by dsimp only [dat]
theorem after_6 (c : Dev nD) (t : Fin cfg3.N) : (dat V c).after 6 t = iblk V c 6 t := by dsimp only [dat]
theorem after_7 (c : Dev nD) (t : Fin cfg3.N) : (dat V c).after 7 t = iblk V c 7 t := by dsimp only [dat]
theorem after_8 (c : Dev nD) (t : Fin cfg3.N) : (dat V c).after 8 t = iblk V c 8 t := by dsimp only [dat]
theorem after_9 (c : Dev nD) (t : Fin cfg3.N) : (dat V c).after 9 t = iblk V c 9 t := by dsimp only [dat]
theorem after_10 (c : Dev nD) (t : Fin cfg3.N) : (dat V c).after 10 t = iblk V c 10 t := by dsimp only [dat]
theorem after_11 (c : Dev nD) (t : Fin cfg3.N) : (dat V c).after 11 t = iblk V c 11 t := by dsimp only [dat]
theorem after_12 (c : Dev nD) (t : Fin cfg3.N) : (dat V c).after 12 t = iblk V c 12 t := by dsimp only [dat]
theorem after_13 (c : Dev nD) (t : Fin cfg3.N) : (dat V c).after 13 t = outE (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]
theorem after_14 (c : Dev nD) (t : Fin cfg3.N) : (dat V c).after 14 t = outH (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d
theorem before_3 (c : Dev nD) (t : Fin cfg3.N) (d) : (dat V c).before 3 t d = iblk V c 3 t :=
  before_3_of V (dat V c) (A_eq V c 3) (after_3 V c) t d
theorem before_4 (c : Dev nD) (t : Fin cfg3.N) (d) : (dat V c).before 4 t d = iblk V c 4 t :=
  before_4_of V (dat V c) (A_eq V c 4) (after_4 V c) t d
theorem before_5 (c : Dev nD) (t : Fin cfg3.N) (d) : (dat V c).before 5 t d = iblk V c 5 t :=
  before_5_of V (dat V c) (A_eq V c 5) (after_5 V c) t d
theorem before_6 (c : Dev nD) (t : Fin cfg3.N) (d) : (dat V c).before 6 t d = iblk V c 6 t :=
  before_6_of V (dat V c) (A_eq V c 6) (after_6 V c) t d
theorem before_7 (c : Dev nD) (t : Fin cfg3.N) (d) : (dat V c).before 7 t d = iblk V c 7 t :=
  before_7_of V (dat V c) (A_eq V c 7) (after_7 V c) t d
theorem before_8 (c : Dev nD) (t : Fin cfg3.N) (d) : (dat V c).before 8 t d = iblk V c 8 t :=
  before_8_of V (dat V c) (A_eq V c 8) (after_8 V c) t d
theorem before_9 (c : Dev nD) (t : Fin cfg3.N) (d) : (dat V c).before 9 t d = iblk V c 9 t :=
  before_9_of V (dat V c) (A_eq V c 9) (after_9 V c) t d
theorem before_10 (c : Dev nD) (t : Fin cfg3.N) (d) : (dat V c).before 10 t d = iblk V c 10 t :=
  before_10_of V (dat V c) (A_eq V c 10) (after_10 V c) t d
theorem before_11 (c : Dev nD) (t : Fin cfg3.N) (d) : (dat V c).before 11 t d = iblk V c 11 t :=
  before_11_of V (dat V c) (A_eq V c 11) (after_11 V c) t d
theorem before_12 (c : Dev nD) (t : Fin cfg3.N) (d) : (dat V c).before 12 t d = iblk V c 12 t :=
  before_12_of V (dat V c) (A_eq V c 12) (after_12 V c) t d

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d))
    ∗ (∃ d, owns (c : Thread nD τ) (st3_12 t) fullShare ((dat V c).before 12 t d))
    ∗ (∃ d, owns (c : Thread nD τ) (st3_13 t) fullShare ((dat V c).before 13 t d))
    ∗ (∃ d, owns (c : Thread nD τ) (st3_14 t) fullShare ((dat V c).before 14 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t)
    ∗ owns (c : Thread nD τ) (st3_8 t) fullShare ((dat V c).after 8 t)
    ∗ owns (c : Thread nD τ) (st3_9 t) fullShare ((dat V c).after 9 t)
    ∗ owns (c : Thread nD τ) (st3_10 t) fullShare ((dat V c).after 10 t)
    ∗ owns (c : Thread nD τ) (st3_11 t) fullShare ((dat V c).after 11 t)
    ∗ owns (c : Thread nD τ) (st3_12 t) fullShare ((dat V c).after 12 t)
    ∗ owns (c : Thread nD τ) (st3_13 t) fullShare ((dat V c).after 13 t)
    ∗ owns (c : Thread nD τ) (st3_14 t) fullShare ((dat V c).after 14 t))

set_option maxHeartbeats 4000000 in
/-- The body at any point: the inputs' buffers hold their blocks, so the body's triple applies; the invariant and the
    core's dues pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7, before_8, before_9, before_10, before_11, before_12]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_upd c Set.univ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dat (F := F) V c) (defs₀ (F := F)) Variants.none () Set.univ := fun t => by
  rw [bigSep_W3, bigSep_W3]
  exact sound_body V c t

end Cert.KernelIdeal.Upd3

end
-- ==== Proof.KI.UpdArr3.lean ====
/-
  The third message-passing step's arrays in and out of the core's unscoped buffers. Fourteen distinct buffers stand
  behind the fifteen windows: the node array is read through two of them. Entering, that buffer's ownership is split in
  two halves, one per reader; leaving, the halves are joined again, the thirteen inputs are as they were, and the two
  outputs hold what the write-backs left.
-/
import proofs.«143411_j23983097381472_2_alg».proof.Proof.KI.UpdDat3

set_option maxRecDepth 16384

noncomputable section

namespace Cert.KernelIdeal.Upd3

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays. -/
theorem arr_image : Finset.univ.image (Pipeline.arrRef spec3) = ([main_v15_0, main_v15_1, main_arg6, main_v16, main_arg8, main_arg9, main_arg10, main_v17, main_arg12, main_v18, main_arg14, main_v19, main_v20_0, main_v20_1] : List (Ref sig .tc)).toFinset := by decide

/-- The share each window holds its array at: the node array's two readers a half each, every other window all of it. -/
theorem share_eq (c : Dev nD) : ∀ w : Fin cfg3.W, (dat V c).share w = if w = 1 then fullShare.left else if w = 2 then fullShare.right else fullShare
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl

/-- Every window's array is a whole buffer: the arrays as points-tos of whole buffers, each at its window's share. -/
theorem arrays_whole (c : Dev nD) (G : (w : Fin cfg3.W) → Buf (Elt F) ((cfg3.win w).arr.view.loc (c : Thread nD τ))) :
    ((dat V c).arrays G : sProp 𝕄)
      = bigSep Finset.univ fun w : Fin cfg3.W => ((((c : Thread nD τ).loc (Pipeline.arrRef spec3 w)) ↦{(dat V c).share w} G w : sProp 𝕄)) := by
  unfold Dat.arrays
  exact bigSep_congr fun w _ => by rw [(arr_whole3 w).set_eq_univ]

/-- The windows' arrays as points-tos of whole buffers, window by window. -/
theorem arrays_chain (c : Dev nD) (G : (w : Fin cfg3.W) → Buf (Elt F) ((cfg3.win w).arr.view.loc (c : Thread nD τ))) :
    ((dat V c).arrays G : sProp 𝕄) = iprop(
      (((c : Thread nD τ).loc main_v15_0) ↦{fullShare} G 0) ∗
      (((c : Thread nD τ).loc main_v15_1) ↦{fullShare.left} G 1) ∗
      (((c : Thread nD τ).loc main_v15_1) ↦{fullShare.right} G 2) ∗
      (((c : Thread nD τ).loc main_arg6) ↦{fullShare} G 3) ∗
      (((c : Thread nD τ).loc main_v16) ↦{fullShare} G 4) ∗
      (((c : Thread nD τ).loc main_arg8) ↦{fullShare} G 5) ∗
      (((c : Thread nD τ).loc main_arg9) ↦{fullShare} G 6) ∗
      (((c : Thread nD τ).loc main_arg10) ↦{fullShare} G 7) ∗
      (((c : Thread nD τ).loc main_v17) ↦{fullShare} G 8) ∗
      (((c : Thread nD τ).loc main_arg12) ↦{fullShare} G 9) ∗
      (((c : Thread nD τ).loc main_v18) ↦{fullShare} G 10) ∗
      (((c : Thread nD τ).loc main_arg14) ↦{fullShare} G 11) ∗
      (((c : Thread nD τ).loc main_v19) ↦{fullShare} G 12) ∗
      (((c : Thread nD τ).loc main_v20_0) ↦{fullShare} G 13) ∗
      (((c : Thread nD τ).loc main_v20_1) ↦{fullShare} G 14)) := by
  rw [arrays_whole, bigSep_W3]
  rfl

/-- The distinct buffers behind the arrays, each wholly owned, one by one. -/
theorem arrBufs_chain (c : Dev nD) (W : (b : Ref sig .tc) → Buf (Elt F) ((c : Thread nD τ).loc b)) :
    (Pipeline.arrBufs spec3 c W : sProp 𝕄) = iprop(
      (((c : Thread nD τ).loc main_v15_0) ↦{fullShare} W main_v15_0) ∗
      (((c : Thread nD τ).loc main_v15_1) ↦{fullShare} W main_v15_1) ∗
      (((c : Thread nD τ).loc main_arg6) ↦{fullShare} W main_arg6) ∗
      (((c : Thread nD τ).loc main_v16) ↦{fullShare} W main_v16) ∗
      (((c : Thread nD τ).loc main_arg8) ↦{fullShare} W main_arg8) ∗
      (((c : Thread nD τ).loc main_arg9) ↦{fullShare} W main_arg9) ∗
      (((c : Thread nD τ).loc main_arg10) ↦{fullShare} W main_arg10) ∗
      (((c : Thread nD τ).loc main_v17) ↦{fullShare} W main_v17) ∗
      (((c : Thread nD τ).loc main_arg12) ↦{fullShare} W main_arg12) ∗
      (((c : Thread nD τ).loc main_v18) ↦{fullShare} W main_v18) ∗
      (((c : Thread nD τ).loc main_arg14) ↦{fullShare} W main_arg14) ∗
      (((c : Thread nD τ).loc main_v19) ↦{fullShare} W main_v19) ∗
      (((c : Thread nD τ).loc main_v20_0) ↦{fullShare} W main_v20_0) ∗
      (((c : Thread nD τ).loc main_v20_1) ↦{fullShare} W main_v20_1)) := by
  unfold Pipeline.arrBufs
  rw [bigSep_eq_bigSepL_of_eq _ arr_image (by decide)]
  rfl

/-- ENTERING: the core's unscoped buffers at `V` give the windows' arrays at their entry contents — the node array's
    ownership split in halves between its two readers — and the buffers no window touches. -/
theorem entry (c : Dev nD) :
    (unscopedBufs c (V c) : sProp 𝕄) ⊢ iprop((dat V c).arrays ((dat V c).arrAt · 0) ∗ Pipeline.unscopedRest spec3 c (V c)) := by
  rw [Pipeline.unscopedBufs_split₀ cfgs 3 winFacts₀3.arr_unscoped c (V c)]
  refine sep_mono ?_ .rfl
  show (Pipeline.arrBufs spec3 c (V c) : sProp 𝕄) ⊢ _
  rw [arrBufs_chain, arrays_chain]
  have hsp : ((((c : Thread nD τ).loc main_v15_1) ↦{fullShare} V c main_v15_1 : sProp 𝕄))
      ⊢ iprop((((c : Thread nD τ).loc main_v15_1) ↦{fullShare.left} V c main_v15_1) ∗ (((c : Thread nD τ).loc main_v15_1) ↦{fullShare.right} V c main_v15_1)) :=
    (pointsTo_share (PosShare.mem_left_op_right fullShare)).1
  iintro ⟨H0, H1, H3, H4, H5, H6, H7, H8, H9, H10, H11, H12, H13, H14⟩
  ihave Hs := hsp $$ H1
  icases Hs with ⟨H1, H2⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
/-- LEAVING, for any contents `G` of the arrays that has every input as entered: the arrays at `G` and the untouched
    buffers give the core's unscoped buffers at any contents `V'` that has the two outputs at `G`'s and agrees with `V`
    elsewhere; the node array's two halves are joined again. -/
theorem exit_gen (c : Dev nD) (G : (w : Fin cfg3.W) → Buf (Elt F) ((cfg3.win w).arr.view.loc (c : Thread nD τ)))
    (V' : (b : Ref sig .tc) → Buf (Elt F) ((c : Thread nD τ).loc b))
    (hin : ∀ w : Fin cfg3.W, (cfg3.win w).isOut = false → G w = V c (Pipeline.arrRef spec3 w))
    (hE : V' main_v20_0 = G 13) (hH : V' main_v20_1 = G 14)
    (hrest : ∀ b : Ref sig .tc, b ≠ main_v20_0 → b ≠ main_v20_1 → V' b = V c b) :
    iprop((dat V c).arrays G ∗ Pipeline.unscopedRest spec3 c (V c)) ⊢ (unscopedBufs c V' : sProp 𝕄) := by
  rw [Pipeline.unscopedBufs_split₀ cfgs 3 winFacts₀3.arr_unscoped c V']
  refine sep_mono ?_ (Entails.of_eq ?_)
  · show _ ⊢ (Pipeline.arrBufs spec3 c V' : sProp 𝕄)
    rw [arrBufs_chain, arrays_chain, hE, hH, hrest main_v15_0 (by decide) (by decide), hrest main_v15_1 (by decide) (by decide), hrest main_arg6 (by decide) (by decide), hrest main_v16 (by decide) (by decide), hrest main_arg8 (by decide) (by decide), hrest main_arg9 (by decide) (by decide), hrest main_arg10 (by decide) (by decide), hrest main_v17 (by decide) (by decide), hrest main_arg12 (by decide) (by decide), hrest main_v18 (by decide) (by decide), hrest main_arg14 (by decide) (by decide), hrest main_v19 (by decide) (by decide)]
    rw [hin 0 rfl, hin 1 rfl, hin 2 rfl, hin 3 rfl, hin 4 rfl, hin 5 rfl, hin 6 rfl, hin 7 rfl, hin 8 rfl, hin 9 rfl, hin 10 rfl, hin 11 rfl, hin 12 rfl]
    have hsp : iprop((((c : Thread nD τ).loc main_v15_1) ↦{fullShare.left} V c main_v15_1) ∗ (((c : Thread nD τ).loc main_v15_1) ↦{fullShare.right} V c main_v15_1))
        ⊢ ((((c : Thread nD τ).loc main_v15_1) ↦{fullShare} V c main_v15_1 : sProp 𝕄)) :=
      (pointsTo_share (PosShare.mem_left_op_right fullShare)).2
    iintro ⟨H0, H1, H2, H3, H4, H5, H6, H7, H8, H9, H10, H11, H12, H13, H14⟩
    ihave Hj := hsp $$ [H1 H2]
    · isplitl [H1] <;> iassumption
    isplitl [H0]; · iexact H0
    isplitl [Hj]; · iexact Hj
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · unfold Pipeline.unscopedRest
    refine bigSep_congr fun b hb => ?_
    have hb' : b ∉ Finset.univ.image (Pipeline.arrRef spec3) := (Finset.mem_sdiff.mp hb).2
    rw [hrest b (fun e => hb' (by rw [e, arr_image]; decide)) (fun e => hb' (by rw [e, arr_image]; decide))]

/-- LEAVING: at what the write-backs left (an input array is never written back). -/
theorem exit (c : Dev nD) (V' : (b : Ref sig .tc) → Buf (Elt F) ((c : Thread nD τ).loc b))
    (hE : V' main_v20_0 = (dat V c).arrAt 13 cfg3.N) (hH : V' main_v20_1 = (dat V c).arrAt 14 cfg3.N)
    (hrest : ∀ b : Ref sig .tc, b ≠ main_v20_0 → b ≠ main_v20_1 → V' b = V c b) :
    iprop((dat V c).arrays ((dat V c).arrAt · cfg3.N) ∗ Pipeline.unscopedRest spec3 c (V c)) ⊢ (unscopedBufs c V' : sProp 𝕄) :=
  exit_gen V c ((dat V c).arrAt · cfg3.N) V' (fun w hw => ((dat V c).arrAt_in w hw cfg3.N).trans (A_eq V c w)) hE hH hrest

end Cert.KernelIdeal.Upd3

end
-- ==== Proof.KI.Run.lean ====
/-
  The whole program's run. Its @main is four stretches of host operations, each followed by one kernel region: the edge
  encode, then three message-passing steps. The contents of the core's unscoped buffers are followed from the launch
  through every stretch and region; each region is entered from all of them at the contents before it and left at the
  contents after it, its outputs holding what its write-backs left. Every weakly fair execution then terminates with
  every unscoped buffer at the last of these contents.
-/
import proofs.«143411_j23983097381472_2_alg».proof.Proof.KI.EncodeDat
import proofs.«143411_j23983097381472_2_alg».proof.Proof.KI.UpdArr1
import proofs.«143411_j23983097381472_2_alg».proof.Proof.KI.UpdArr2
import proofs.«143411_j23983097381472_2_alg».proof.Proof.KI.UpdArr3
import proofs.«143411_j23983097381472_2_alg».proof.Proof.Gen.KernelIdeal.Regions

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the host stretch `hostOps0` (the encode's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the encode's exit: the edge array at what the write-backs left, every other buffer as entered. -/
def W2 (c : Dev nD) : Valuation τ sig (Elt F) :=
  Function.update (W1 m c) main_v5 (((Enc.dat (V1 m) c).arrAt 3 cfg0.N : Buf (Elt F) ((c : Thread nD τ).loc main_v5)))
abbrev V2 : (c : Dev nD) → (b : Ref sig .tc) → Buf (Elt F) ((c : Thread nD τ).loc b) := fun c b => W2 m c b
theorem W2_out (c : Dev nD) : V2 m c main_v5 = (Enc.dat (V1 m) c).arrAt 3 cfg0.N := Function.update_self _ _ _
theorem W2_of (c : Dev nD) (r : Ref sig .tc) (h : r ≠ main_v5) : V2 m c r = V1 m c r :=
  Function.update_of_ne (StableHlo.devRef_ne_of_ne h) _ _
theorem W1_of (c : Dev nD) (r : Ref sig .tc) (h : r ∉ hostOps0_W) : V1 m c r = V0 m c r :=
  StableHlo.after_of_writes_sub hostOps0 _ hostOps0_writes h
/-- After the host stretch `hostOps1` (step 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At step 1's exit: its two outputs at what the write-backs left, every other buffer as entered. -/
def W4 (c : Dev nD) : Valuation τ sig (Elt F) :=
  Function.update (Function.update (W3 m c) main_v10_0 (((Upd1.dat (V3 m) c).arrAt 13 cfg1.N : Buf (Elt F) ((c : Thread nD τ).loc main_v10_0))))
    main_v10_1 (((Upd1.dat (V3 m) c).arrAt 14 cfg1.N : Buf (Elt F) ((c : Thread nD τ).loc main_v10_1)))
abbrev V4 : (c : Dev nD) → (b : Ref sig .tc) → Buf (Elt F) ((c : Thread nD τ).loc b) := fun c b => W4 m c b
theorem W4_E (c : Dev nD) : V4 m c main_v10_0 = (Upd1.dat (V3 m) c).arrAt 13 cfg1.N :=
  (Function.update_of_ne (StableHlo.devRef_ne_of_ne (by decide)) _ _).trans (Function.update_self _ _ _)
theorem W4_H (c : Dev nD) : V4 m c main_v10_1 = (Upd1.dat (V3 m) c).arrAt 14 cfg1.N :=
  Function.update_self _ _ _
theorem W4_of (c : Dev nD) (r : Ref sig .tc) (h0 : r ≠ main_v10_0) (h1 : r ≠ main_v10_1) : V4 m c r = V3 m c r :=
  (Function.update_of_ne (StableHlo.devRef_ne_of_ne h1) _ _).trans (Function.update_of_ne (StableHlo.devRef_ne_of_ne h0) _ _)
theorem W3_of (c : Dev nD) (r : Ref sig .tc) (h : r ∉ hostOps1_W) : V3 m c r = V2 m c r :=
  StableHlo.after_of_writes_sub hostOps1 _ hostOps1_writes h

/-- After the host stretch `hostOps2` (step 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At step 2's exit: its two outputs at what the write-backs left, every other buffer as entered. -/
def W6 (c : Dev nD) : Valuation τ sig (Elt F) :=
  Function.update (Function.update (W5 m c) main_v15_0 (((Upd2.dat (V5 m) c).arrAt 13 cfg2.N : Buf (Elt F) ((c : Thread nD τ).loc main_v15_0))))
    main_v15_1 (((Upd2.dat (V5 m) c).arrAt 14 cfg2.N : Buf (Elt F) ((c : Thread nD τ).loc main_v15_1)))
abbrev V6 : (c : Dev nD) → (b : Ref sig .tc) → Buf (Elt F) ((c : Thread nD τ).loc b) := fun c b => W6 m c b
theorem W6_E (c : Dev nD) : V6 m c main_v15_0 = (Upd2.dat (V5 m) c).arrAt 13 cfg2.N :=
  (Function.update_of_ne (StableHlo.devRef_ne_of_ne (by decide)) _ _).trans (Function.update_self _ _ _)
theorem W6_H (c : Dev nD) : V6 m c main_v15_1 = (Upd2.dat (V5 m) c).arrAt 14 cfg2.N :=
  Function.update_self _ _ _
theorem W6_of (c : Dev nD) (r : Ref sig .tc) (h0 : r ≠ main_v15_0) (h1 : r ≠ main_v15_1) : V6 m c r = V5 m c r :=
  (Function.update_of_ne (StableHlo.devRef_ne_of_ne h1) _ _).trans (Function.update_of_ne (StableHlo.devRef_ne_of_ne h0) _ _)
theorem W5_of (c : Dev nD) (r : Ref sig .tc) (h : r ∉ hostOps2_W) : V5 m c r = V4 m c r :=
  StableHlo.after_of_writes_sub hostOps2 _ hostOps2_writes h

/-- After the host stretch `hostOps3` (step 3's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At step 3's exit: its two outputs at what the write-backs left, every other buffer as entered. -/
def W8 (c : Dev nD) : Valuation τ sig (Elt F) :=
  Function.update (Function.update (W7 m c) main_v20_0 (((Upd3.dat (V7 m) c).arrAt 13 cfg3.N : Buf (Elt F) ((c : Thread nD τ).loc main_v20_0))))
    main_v20_1 (((Upd3.dat (V7 m) c).arrAt 14 cfg3.N : Buf (Elt F) ((c : Thread nD τ).loc main_v20_1)))
abbrev V8 : (c : Dev nD) → (b : Ref sig .tc) → Buf (Elt F) ((c : Thread nD τ).loc b) := fun c b => W8 m c b
theorem W8_E (c : Dev nD) : V8 m c main_v20_0 = (Upd3.dat (V7 m) c).arrAt 13 cfg3.N :=
  (Function.update_of_ne (StableHlo.devRef_ne_of_ne (by decide)) _ _).trans (Function.update_self _ _ _)
theorem W8_H (c : Dev nD) : V8 m c main_v20_1 = (Upd3.dat (V7 m) c).arrAt 14 cfg3.N :=
  Function.update_self _ _ _
theorem W8_of (c : Dev nD) (r : Ref sig .tc) (h0 : r ≠ main_v20_0) (h1 : r ≠ main_v20_1) : V8 m c r = V7 m c r :=
  (Function.update_of_ne (StableHlo.devRef_ne_of_ne h1) _ _).trans (Function.update_of_ne (StableHlo.devRef_ne_of_ne h0) _ _)
theorem W7_of (c : Dev nD) (r : Ref sig .tc) (h : r ∉ hostOps3_W) : V7 m c r = V6 m c r :=
  StableHlo.after_of_writes_sub hostOps3 _ hostOps3_writes h

/-- The encode's arrays at its exit: the three inputs as entered, the output at what the write-backs left. -/
theorem hF0 (c : Dev nD) : ∀ w : Fin cfg0.W, (Enc.dat (V1 m) c).arrAt w cfg0.N = V2 m c (Pipeline.arrRef spec0 w)
  | ⟨0, _⟩ => (((Enc.dat (V1 m) c).arrAt_in 0 rfl cfg0.N).trans (Enc.A_eq (V1 m) c 0)).trans (W2_of m c _ (by decide)).symm
  | ⟨1, _⟩ => (((Enc.dat (V1 m) c).arrAt_in 1 rfl cfg0.N).trans (Enc.A_eq (V1 m) c 1)).trans (W2_of m c _ (by decide)).symm
  | ⟨2, _⟩ => (((Enc.dat (V1 m) c).arrAt_in 2 rfl cfg0.N).trans (Enc.A_eq (V1 m) c 2)).trans (W2_of m c _ (by decide)).symm
  | ⟨3, _⟩ => (W2_out m c).symm
theorem hrest0 (c : Dev nD) : ∀ b, b ∉ Finset.univ.image (Pipeline.arrRef spec0) → V2 m c b = V1 m c b :=
  fun b hb => W2_of m c b fun e => hb (Finset.mem_image.mpr ⟨3, Finset.mem_univ _, e.symm⟩)

/-! ## The arguments end as launched, and the results hold the last step's outputs -/

theorem W8_main_arg0 (c : Dev nD) : V8 m c main_arg0 = m ((c : Thread nD τ).loc main_arg0) :=
  (W8_of m c main_arg0 (by decide) (by decide)).trans <| (W7_of m c main_arg0 (by decide)).trans <| (W6_of m c main_arg0 (by decide) (by decide)).trans <| (W5_of m c main_arg0 (by decide)).trans <| (W4_of m c main_arg0 (by decide) (by decide)).trans <| (W3_of m c main_arg0 (by decide)).trans <| (W2_of m c main_arg0 (by decide)).trans <| (W1_of m c main_arg0 (by decide)).trans rfl
theorem W8_main_arg1 (c : Dev nD) : V8 m c main_arg1 = m ((c : Thread nD τ).loc main_arg1) :=
  (W8_of m c main_arg1 (by decide) (by decide)).trans <| (W7_of m c main_arg1 (by decide)).trans <| (W6_of m c main_arg1 (by decide) (by decide)).trans <| (W5_of m c main_arg1 (by decide)).trans <| (W4_of m c main_arg1 (by decide) (by decide)).trans <| (W3_of m c main_arg1 (by decide)).trans <| (W2_of m c main_arg1 (by decide)).trans <| (W1_of m c main_arg1 (by decide)).trans rfl
theorem W8_main_arg2 (c : Dev nD) : V8 m c main_arg2 = m ((c : Thread nD τ).loc main_arg2) :=
  (W8_of m c main_arg2 (by decide) (by decide)).trans <| (W7_of m c main_arg2 (by decide)).trans <| (W6_of m c main_arg2 (by decide) (by decide)).trans <| (W5_of m c main_arg2 (by decide)).trans <| (W4_of m c main_arg2 (by decide) (by decide)).trans <| (W3_of m c main_arg2 (by decide)).trans <| (W2_of m c main_arg2 (by decide)).trans <| (W1_of m c main_arg2 (by decide)).trans rfl
theorem W8_main_arg3 (c : Dev nD) : V8 m c main_arg3 = m ((c : Thread nD τ).loc main_arg3) :=
  (W8_of m c main_arg3 (by decide) (by decide)).trans <| (W7_of m c main_arg3 (by decide)).trans <| (W6_of m c main_arg3 (by decide) (by decide)).trans <| (W5_of m c main_arg3 (by decide)).trans <| (W4_of m c main_arg3 (by decide) (by decide)).trans <| (W3_of m c main_arg3 (by decide)).trans <| (W2_of m c main_arg3 (by decide)).trans <| (W1_of m c main_arg3 (by decide)).trans rfl
theorem W8_main_arg4 (c : Dev nD) : V8 m c main_arg4 = m ((c : Thread nD τ).loc main_arg4) :=
  (W8_of m c main_arg4 (by decide) (by decide)).trans <| (W7_of m c main_arg4 (by decide)).trans <| (W6_of m c main_arg4 (by decide) (by decide)).trans <| (W5_of m c main_arg4 (by decide)).trans <| (W4_of m c main_arg4 (by decide) (by decide)).trans <| (W3_of m c main_arg4 (by decide)).trans <| (W2_of m c main_arg4 (by decide)).trans <| (W1_of m c main_arg4 (by decide)).trans rfl
theorem W8_main_arg5 (c : Dev nD) : V8 m c main_arg5 = m ((c : Thread nD τ).loc main_arg5) :=
  (W8_of m c main_arg5 (by decide) (by decide)).trans <| (W7_of m c main_arg5 (by decide)).trans <| (W6_of m c main_arg5 (by decide) (by decide)).trans <| (W5_of m c main_arg5 (by decide)).trans <| (W4_of m c main_arg5 (by decide) (by decide)).trans <| (W3_of m c main_arg5 (by decide)).trans <| (W2_of m c main_arg5 (by decide)).trans <| (W1_of m c main_arg5 (by decide)).trans rfl
theorem W8_main_arg6 (c : Dev nD) : V8 m c main_arg6 = m ((c : Thread nD τ).loc main_arg6) :=
  (W8_of m c main_arg6 (by decide) (by decide)).trans <| (W7_of m c main_arg6 (by decide)).trans <| (W6_of m c main_arg6 (by decide) (by decide)).trans <| (W5_of m c main_arg6 (by decide)).trans <| (W4_of m c main_arg6 (by decide) (by decide)).trans <| (W3_of m c main_arg6 (by decide)).trans <| (W2_of m c main_arg6 (by decide)).trans <| (W1_of m c main_arg6 (by decide)).trans rfl
theorem W8_main_arg7 (c : Dev nD) : V8 m c main_arg7 = m ((c : Thread nD τ).loc main_arg7) :=
  (W8_of m c main_arg7 (by decide) (by decide)).trans <| (W7_of m c main_arg7 (by decide)).trans <| (W6_of m c main_arg7 (by decide) (by decide)).trans <| (W5_of m c main_arg7 (by decide)).trans <| (W4_of m c main_arg7 (by decide) (by decide)).trans <| (W3_of m c main_arg7 (by decide)).trans <| (W2_of m c main_arg7 (by decide)).trans <| (W1_of m c main_arg7 (by decide)).trans rfl
theorem W8_main_arg8 (c : Dev nD) : V8 m c main_arg8 = m ((c : Thread nD τ).loc main_arg8) :=
  (W8_of m c main_arg8 (by decide) (by decide)).trans <| (W7_of m c main_arg8 (by decide)).trans <| (W6_of m c main_arg8 (by decide) (by decide)).trans <| (W5_of m c main_arg8 (by decide)).trans <| (W4_of m c main_arg8 (by decide) (by decide)).trans <| (W3_of m c main_arg8 (by decide)).trans <| (W2_of m c main_arg8 (by decide)).trans <| (W1_of m c main_arg8 (by decide)).trans rfl
theorem W8_main_arg9 (c : Dev nD) : V8 m c main_arg9 = m ((c : Thread nD τ).loc main_arg9) :=
  (W8_of m c main_arg9 (by decide) (by decide)).trans <| (W7_of m c main_arg9 (by decide)).trans <| (W6_of m c main_arg9 (by decide) (by decide)).trans <| (W5_of m c main_arg9 (by decide)).trans <| (W4_of m c main_arg9 (by decide) (by decide)).trans <| (W3_of m c main_arg9 (by decide)).trans <| (W2_of m c main_arg9 (by decide)).trans <| (W1_of m c main_arg9 (by decide)).trans rfl
theorem W8_main_arg10 (c : Dev nD) : V8 m c main_arg10 = m ((c : Thread nD τ).loc main_arg10) :=
  (W8_of m c main_arg10 (by decide) (by decide)).trans <| (W7_of m c main_arg10 (by decide)).trans <| (W6_of m c main_arg10 (by decide) (by decide)).trans <| (W5_of m c main_arg10 (by decide)).trans <| (W4_of m c main_arg10 (by decide) (by decide)).trans <| (W3_of m c main_arg10 (by decide)).trans <| (W2_of m c main_arg10 (by decide)).trans <| (W1_of m c main_arg10 (by decide)).trans rfl
theorem W8_main_arg11 (c : Dev nD) : V8 m c main_arg11 = m ((c : Thread nD τ).loc main_arg11) :=
  (W8_of m c main_arg11 (by decide) (by decide)).trans <| (W7_of m c main_arg11 (by decide)).trans <| (W6_of m c main_arg11 (by decide) (by decide)).trans <| (W5_of m c main_arg11 (by decide)).trans <| (W4_of m c main_arg11 (by decide) (by decide)).trans <| (W3_of m c main_arg11 (by decide)).trans <| (W2_of m c main_arg11 (by decide)).trans <| (W1_of m c main_arg11 (by decide)).trans rfl
theorem W8_main_arg12 (c : Dev nD) : V8 m c main_arg12 = m ((c : Thread nD τ).loc main_arg12) :=
  (W8_of m c main_arg12 (by decide) (by decide)).trans <| (W7_of m c main_arg12 (by decide)).trans <| (W6_of m c main_arg12 (by decide) (by decide)).trans <| (W5_of m c main_arg12 (by decide)).trans <| (W4_of m c main_arg12 (by decide) (by decide)).trans <| (W3_of m c main_arg12 (by decide)).trans <| (W2_of m c main_arg12 (by decide)).trans <| (W1_of m c main_arg12 (by decide)).trans rfl
theorem W8_main_arg13 (c : Dev nD) : V8 m c main_arg13 = m ((c : Thread nD τ).loc main_arg13) :=
  (W8_of m c main_arg13 (by decide) (by decide)).trans <| (W7_of m c main_arg13 (by decide)).trans <| (W6_of m c main_arg13 (by decide) (by decide)).trans <| (W5_of m c main_arg13 (by decide)).trans <| (W4_of m c main_arg13 (by decide) (by decide)).trans <| (W3_of m c main_arg13 (by decide)).trans <| (W2_of m c main_arg13 (by decide)).trans <| (W1_of m c main_arg13 (by decide)).trans rfl
theorem W8_main_arg14 (c : Dev nD) : V8 m c main_arg14 = m ((c : Thread nD τ).loc main_arg14) :=
  (W8_of m c main_arg14 (by decide) (by decide)).trans <| (W7_of m c main_arg14 (by decide)).trans <| (W6_of m c main_arg14 (by decide) (by decide)).trans <| (W5_of m c main_arg14 (by decide)).trans <| (W4_of m c main_arg14 (by decide) (by decide)).trans <| (W3_of m c main_arg14 (by decide)).trans <| (W2_of m c main_arg14 (by decide)).trans <| (W1_of m c main_arg14 (by decide)).trans rfl
theorem W8_main_arg15 (c : Dev nD) : V8 m c main_arg15 = m ((c : Thread nD τ).loc main_arg15) :=
  (W8_of m c main_arg15 (by decide) (by decide)).trans <| (W7_of m c main_arg15 (by decide)).trans <| (W6_of m c main_arg15 (by decide) (by decide)).trans <| (W5_of m c main_arg15 (by decide)).trans <| (W4_of m c main_arg15 (by decide) (by decide)).trans <| (W3_of m c main_arg15 (by decide)).trans <| (W2_of m c main_arg15 (by decide)).trans <| (W1_of m c main_arg15 (by decide)).trans rfl

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => Enc.dat (V1 m) c
  | ⟨1, _⟩ => fun c => Upd1.dat (V3 m) c
  | ⟨2, _⟩ => fun c => Upd2.dat (V5 m) c
  | ⟨3, _⟩ => fun c => Upd3.dat (V7 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last contents, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- The edge encode over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Message-passing step 1 over the thread state: entered from every unscoped buffer at `W3`, left at `W4`. Its arrays
    are split out of the unscoped buffers (the node array in halves) and put back with the two outputs at what the
    write-backs left; the generator register goes into the region's invariant and comes back; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Upd1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Upd1.entry (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Upd1.exit (V3 m) c (V4 m c) (W4_E m c) (W4_H m c) (fun r h0 h1 => W4_of m c r h0 h1)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Message-passing step 2 over the thread state: entered from every unscoped buffer at `W5`, left at `W6`. Its arrays
    are split out of the unscoped buffers (the node array in halves) and put back with the two outputs at what the
    write-backs left; the generator register goes into the region's invariant and comes back; nothing is owed. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Upd2.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Upd2.entry (V5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Upd2.exit (V5 m) c (V6 m c) (W6_E m c) (W6_H m c) (fun r h0 h1 => W6_of m c r h0 h1)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Message-passing step 3 over the thread state: entered from every unscoped buffer at `W7`, left at `W8`. Its arrays
    are split out of the unscoped buffers (the node array in halves) and put back with the two outputs at what the
    write-backs left; the generator register goes into the region's invariant and comes back; nothing is owed. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (Upd3.body_obligation (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Upd3.entry (V7 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Upd3.exit (V7 m) c (V8 m c) (W8_E m c) (W8_H m c) (fun r h0 h1 => W8_of m c r h0 h1)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main on the TensorCores terminates,
    nothing faulting, and every final state has every unscoped buffer at the last boundary's contents `W8`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.KernelIdeal.Run

end
-- ==== Proof.Spec.lean ====
/-
  One message-passing step as a function of whole arrays, and the two encoders, in the host operations' own terms.
  With `e` the 768·768 edge rows (row i·768 + j for the ordered pair (i, j)), `h` the 768 node rows, and the step's
  weights and biases:
    stepE e h …  = e + relu(e·W_eij + b_eij + ((h·W_i)(h·W_j)ᵀ spread along the feature axis))·W_de + b_de
    stepH e' h … = h + (Σ_j (e'·W_dv1 + b_dv1) over the second node of each pair)·W_dv2 + b_dv2
  and the encoders are a product with a weight plus a bias row.
-/
import Idealize.ShloMosaic.PureOps.Ideal.Laws
import Idealize.ShloMosaic.Lib.ValueIdx
import Idealize.ShloMosaic.Lib.Pipeline.Value
import Idealize.ShloMosaic.Lib.ValueLayout

noncomputable section

namespace Cert.Step

open Idealize.ShloMosaic

/-- The shapes: edge rows × features, node rows × features, a weight, a bias vector and its row form, node × node,
    the edge column, pairs × features, a transposed node block, a scalar, and the two encoders' operands. -/
abbrev SE : Shape := ⟨2, ![589824, 100]⟩
abbrev SN : Shape := ⟨2, ![768, 100]⟩
abbrev SW : Shape := ⟨2, ![100, 100]⟩
abbrev SB : Shape := ⟨1, ![100]⟩
abbrev SR : Shape := ⟨2, ![1, 100]⟩
abbrev SNN : Shape := ⟨2, ![768, 768]⟩
abbrev SC : Shape := ⟨2, ![589824, 1]⟩
abbrev S3 : Shape := ⟨3, ![768, 768, 100]⟩
abbrev SWt : Shape := ⟨2, ![100, 768]⟩
abbrev S0 : Shape := ⟨0, ![]⟩
abbrev SA : Shape := ⟨2, ![589824, 16]⟩
abbrev SAW : Shape := ⟨2, ![16, 100]⟩
abbrev SF : Shape := ⟨2, ![768, 32]⟩
abbrev SFW : Shape := ⟨2, ![32, 100]⟩

theorem bB_R : SB.BroadcastsInDim SR ![1] := by decide
theorem bR_E : SR.BroadcastsInDim SE ![0, 1] := by decide
theorem bR_N : SR.BroadcastsInDim SN ![0, 1] := by decide
theorem bC_E : SC.BroadcastsInDim SE ![0, 1] := by decide
theorem b0_E : S0.BroadcastsInDim SE ![] := by decide
theorem cNN_C : SNN.ShapeCasts SC := by decide
theorem cE_3 : SE.ShapeCasts S3 := by decide
theorem tN : SN.Transposes [1, 0] SWt := by decide
theorem r3 : S3.ReducesTo [1] SN := by decide
theorem h0 : 0 < S0.numel := by decide

variable {F : FTy → Type} [FloatOps F]

/-- The edge encoder: attributes times weight plus the bias row. -/
def encE (a : FVec F SA .f32) (W : FVec F SAW .f32) (b : FVec F SB .f32) : FVec F SE .f32 :=
  addf (Host.dotGeneral (DotDims.plain 589824 16 100) none a W) (broadcastInDim SE ![0, 1] bR_E (broadcastInDim SR ![1] bB_R b))

/-- The node encoder. -/
def encH (f : FVec F SF .f32) (W : FVec F SFW .f32) (b : FVec F SB .f32) : FVec F SN .f32 :=
  addf (Host.dotGeneral (DotDims.plain 768 32 100) none f W) (broadcastInDim SN ![0, 1] bR_N (broadcastInDim SR ![1] bB_R b))

/-- The edge half of a step. -/
def stepE (e : FVec F SE .f32) (h : FVec F SN .f32) (Weij : FVec F SW .f32) (beij : FVec F SB .f32)
    (Wi Wj Wde : FVec F SW .f32) (bde : FVec F SB .f32) : FVec F SE .f32 :=
  addf e (addf (Host.dotGeneral (DotDims.plain 589824 100 100) none
      (maximumf
        (addf (addf (Host.dotGeneral (DotDims.plain 589824 100 100) none e Weij) (broadcastInDim SE ![0, 1] bR_E (broadcastInDim SR ![1] bB_R beij)))
          (broadcastInDim SE ![0, 1] bC_E (shapeCast SC (Host.dotGeneral (DotDims.plain 768 100 768) none
            (Host.dotGeneral (DotDims.plain 768 100 100) none h Wi)
            (transpose SWt [1, 0] (Host.dotGeneral (DotDims.plain 768 100 100) none h Wj) tN)) cNN_C)))
        (broadcastInDim SE ![] b0_E (constant S0 .f32 0x00000000#32)))
      Wde) (broadcastInDim SE ![0, 1] bR_E (broadcastInDim SR ![1] bB_R bde)))

/-- The node half of a step, from the updated edges. -/
def stepH (e' : FVec F SE .f32) (h : FVec F SN .f32) (Wdv1 : FVec F SW .f32) (bdv1 : FVec F SB .f32)
    (Wdv2 : FVec F SW .f32) (bdv2 : FVec F SB .f32) : FVec F SN .f32 :=
  addf h (addf (Host.dotGeneral (DotDims.plain 768 100 100) none
      (Host.reduceAdd (shapeCast S3 (addf (Host.dotGeneral (DotDims.plain 589824 100 100) none e' Wdv1)
          (broadcastInDim SE ![0, 1] bR_E (broadcastInDim SR ![1] bB_R bdv1))) cE_3) (constant S0 .f32 0x00000000#32) r3 h0)
      Wdv2) (broadcastInDim SN ![0, 1] bR_N (broadcastInDim SR ![1] bB_R bdv2)))

end Cert.Step

end
-- ==== Proof.Rows.lean ====
/-
  The step's two halves, one element at a time. An updated edge entry depends on its own edge row, the two nodes' rows
  and the weights; an updated node entry on its own row and on the updated edge rows of the 768 pairs that start at it.
-/
import Idealize.ShloMosaic.PureOps.Ideal.Laws
import Idealize.ShloMosaic.Lib.ValueIdx

noncomputable section

open scoped BigOperators

namespace Cert.Step

open Idealize.ShloMosaic Idealize.ShloMosaic.ValueIdx

/-- The edge row of the ordered pair (i, j). -/
def pairRow (i j : Fin 768) : Fin 589824 := ⟨i.val * 768 + j.val, by have := i.isLt; have := j.isLt; omega⟩

/-- Entry `k` of an updated edge row, from the edge's row `er`, the first node's row `hi`, the second node's row `hj`:
    er_k + Σ_l relu((er·W_eij)_l + beij_l + (hi·W_i)·(hj·W_j)) · W_de[l,k] + bde_k, the relu's zero kept as the word it is. -/
def edgeRow (er hi hj : Fin 100 → EReal) (Weij Wi Wj Wde : (⟨2, ![100, 100]⟩ : Shape).Idx → EReal) (beij bde : Fin 100 → EReal)
    (k : Fin 100) : EReal :=
  er k + ((∑ l : Fin 100,
      max (((∑ p : Fin 100, er p * Weij (ix2 p l)) + beij l)
            + ∑ q : Fin 100, (∑ p : Fin 100, hi p * Wi (ix2 p q)) * (∑ p : Fin 100, hj p * Wj (ix2 p q)))
          (Ideal.ofBits .f32 0x00000000#32)
        * Wde (ix2 l k)) + bde k)

/-- Entry `k` of an updated node row, from the node's row `hi` and the updated edge rows `e' j` of the pairs (i, j):
    hi_k + Σ_l (Σ_j ((e'_j·W_dv1)_l + bdv1_l)) · W_dv2[l,k] + bdv2_k. -/
def nodeRow (hi : Fin 100 → EReal) (e' : Fin 768 → Fin 100 → EReal) (Wdv1 Wdv2 : (⟨2, ![100, 100]⟩ : Shape).Idx → EReal)
    (bdv1 bdv2 : Fin 100 → EReal) (k : Fin 100) : EReal :=
  hi k + ((∑ l : Fin 100, (∑ j : Fin 768, ((∑ p : Fin 100, e' j p * Wdv1 (ix2 p l)) + bdv1 l)) * Wdv2 (ix2 l k)) + bdv2 k)

end Cert.Step

end
-- ==== Proof.Whole.lean ====
/-
  One message-passing step and the edge encoder on whole arrays, one element at a time. Edge row r belongs to the ordered
  pair (r / 768, r % 768); an updated edge entry is the row formula at its edge row and its two nodes' rows, an updated
  node entry the row formula at its node's row and its 768 pairs' updated edge rows.
-/
import proofs.«143411_j23983097381472_2_alg».proof.Proof.Spec
import proofs.«143411_j23983097381472_2_alg».proof.Proof.Rows

noncomputable section

open scoped BigOperators

namespace Cert.Step

open Idealize.ShloMosaic Idealize.ShloMosaic.ValueIdx

/-- The first and the second node of an edge row's pair. -/
def nodeOf (r : Fin 589824) : Fin 768 := ⟨r.val / 768, by have := r.isLt; omega⟩
def nbrOf (r : Fin 589824) : Fin 768 := ⟨r.val % 768, by have := r.isLt; omega⟩

theorem pairRow_split (r : Fin 589824) : pairRow (nodeOf r) (nbrOf r) = r :=
  Fin.ext (by show r.val / 768 * 768 + r.val % 768 = r.val; omega)
theorem nodeOf_pairRow (i j : Fin 768) : nodeOf (pairRow i j) = i :=
  Fin.ext (by show (i.val * 768 + j.val) / 768 = i.val; have := j.isLt; omega)
theorem nbrOf_pairRow (i j : Fin 768) : nbrOf (pairRow i j) = j :=
  Fin.ext (by show (i.val * 768 + j.val) % 768 = j.val; have := j.isLt; omega)

/-- The updated edges, from the edges `E`, the nodes `H`, the weights and the two bias rows. -/
def wholeE (E : SE.Idx → EReal) (H : SN.Idx → EReal) (Weij Wi Wj Wde : SW.Idx → EReal) (beij bde : Fin 100 → EReal) : SE.Idx → EReal :=
  fun i => edgeRow (fun p => E (ix2 (i 0) p)) (fun p => H (ix2 (nodeOf (i 0)) p)) (fun p => H (ix2 (nbrOf (i 0)) p))
    Weij Wi Wj Wde beij bde (i 1)

/-- The updated nodes, from the updated edges `E'` and the nodes `H`. -/
def wholeH (E' : SE.Idx → EReal) (H : SN.Idx → EReal) (Wdv1 Wdv2 : SW.Idx → EReal) (bdv1 bdv2 : Fin 100 → EReal) : SN.Idx → EReal :=
  fun i => nodeRow (fun p => H (ix2 (i 0) p)) (fun j p => E' (ix2 (pairRow (i 0) j) p)) Wdv1 Wdv2 bdv1 bdv2 (i 1)

/-- The encoded edges: attributes times weight plus the bias row. -/
def wholeEnc (A : SA.Idx → EReal) (W : SAW.Idx → EReal) (b : Fin 100 → EReal) : SE.Idx → EReal :=
  fun i => (∑ p : Fin 16, A (ix2 (i 0) p) * W (ix2 p (i 1))) + b (i 1)

end Cert.Step

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.KI.EncVal.lean ====
/-
  The edge encode's values. The body's payload is the staged attribute rows times the weight plus the bias row; at grid
  point t the attribute and the output windows hold edge rows t·12288 … t·12288 + 12287, the weight and the bias row their
  whole arrays; so the output array ends holding the encoded edges of the whole attribute array.
-/
import proofs.«143411_j23983097381472_2_alg».proof.Proof.KI.EncodeDat
import proofs.«143411_j23983097381472_2_alg».proof.Proof.Whole
import proofs.«143411_j23983097381472_2_alg».proof.Proof.LibPlainDot
import Idealize.ShloMosaic.Lib.ValueLayout

set_option maxRecDepth 16384

noncomputable section

namespace Cert.KernelIdeal.Enc

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Step Idealize.ShloMosaic.ValueIdx Idealize.ShloMosaic.PlainDot

/-- The encode block's value: rows times weight plus the bias row. -/
def kEnc (x0 : FVec Ideal ⟨2, ![12288, 16]⟩ .f32) (x1 : FVec Ideal ⟨2, ![16, 100]⟩ .f32) (x2 : FVec Ideal ⟨2, ![1, 100]⟩ .f32) :
    FVec Ideal ⟨2, ![12288, 100]⟩ .f32 :=
  addf (FloatOps.matmul (DotDims.plain 12288 16 100) none x0 x1 (constant ⟨2, ![12288, 100]⟩ .f32 0x00000000#32))
    (broadcastTo ⟨2, ![12288, 100]⟩ (shapeCast ⟨2, ![1, 100]⟩ x2 (by decide)) (by decide))

theorem kEnc_apply (x0 : FVec Ideal ⟨2, ![12288, 16]⟩ .f32) (x1 : FVec Ideal ⟨2, ![16, 100]⟩ .f32) (x2 : FVec Ideal ⟨2, ![1, 100]⟩ .f32)
    (r : Fin 12288) (k : Fin 100) :
    kEnc x0 x1 x2 (ix2 r k) = (∑ p : Fin 16, x0 (ix2 r p) * x1 (ix2 p k)) + x2 (ix2 (0 : Fin 1) k) := by
  unfold kEnc
  simp only [addf_apply, matmul_zero_eq_mm, broadcastTo_1b_ab_apply, shapeCast_self]
  rfl

/-- The body's payload is the encode block's value. -/
theorem pay_eq (x0 : Vec Ideal S12288x16 .f32) (x1 : Vec Ideal S16x100 .f32) (x2 : Vec Ideal S1x100 .f32) :
    k0_pay1 x0 x1 x2 = kEnc x0 x1 x2 := rfl

/-- The encoded edges, one element at a time. -/
theorem wholeEnc_apply (A : SA.Idx → EReal) (W : SAW.Idx → EReal) (b : Fin 100 → EReal) (r : Fin 589824) (k : Fin 100) :
    wholeEnc A W b (ix2 r k) = (∑ p : Fin 16, A (ix2 r p) * W (ix2 p k)) + b k := rfl

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

theorem read_0 (c : Dev nD) (t : Fin cfg0.N) (r : Fin 12288) (p : Fin 16) :
    iblk (F := Ideal) V c 0 t (ix2 r p) = V c main_arg1 (ix2 (⟨t.val * 12288 + r.val, by have := t.isLt; have hN : cfg0.N = 48 := N_0; have := r.isLt; omega⟩ : Fin 589824) p) := by
  obtain ⟨i0a, i0b, i1a, i1b, i2a, i2b, i3a, i3b⟩ := idx_facts t
  show V c main_arg1 (((cfg0.win 0).blk t).view.emb (ix2 r p)) = _
  refine congrArg (V c main_arg1) (funext fun a => Fin.ext ?_)
  match a with
  | ⟨0, _⟩ => show win0_0.index t (0 : Fin 2) * 12288 + 1 * r.val = t.val * 12288 + r.val; omega
  | ⟨1, _⟩ => show win0_0.index t (1 : Fin 2) * 16 + 1 * p.val = p.val; omega
theorem read_1 (c : Dev nD) (t : Fin cfg0.N) (r : Fin 16) (p : Fin 100) :
    iblk (F := Ideal) V c 1 t (ix2 r p) = V c main_arg4 (ix2 r p) := by
  obtain ⟨i0a, i0b, i1a, i1b, i2a, i2b, i3a, i3b⟩ := idx_facts t
  show V c main_arg4 (((cfg0.win 1).blk t).view.emb (ix2 r p)) = _
  refine congrArg (V c main_arg4) (funext fun a => Fin.ext ?_)
  match a with
  | ⟨0, _⟩ => show win0_1.index t (0 : Fin 2) * 16 + 1 * r.val = r.val; omega
  | ⟨1, _⟩ => show win0_1.index t (1 : Fin 2) * 100 + 1 * p.val = p.val; omega
theorem read_2 (c : Dev nD) (t : Fin cfg0.N) (r : Fin 1) (p : Fin 100) :
    iblk (F := Ideal) V c 2 t (ix2 r p) = V c main_v4 (ix2 r p) := by
  obtain ⟨i0a, i0b, i1a, i1b, i2a, i2b, i3a, i3b⟩ := idx_facts t
  show V c main_v4 (((cfg0.win 2).blk t).view.emb (ix2 r p)) = _
  refine congrArg (V c main_v4) (funext fun a => Fin.ext ?_)
  match a with
  | ⟨0, _⟩ => show win0_2.index t (0 : Fin 2) * 1 + 1 * r.val = r.val; omega
  | ⟨1, _⟩ => show win0_2.index t (1 : Fin 2) * 100 + 1 * p.val = p.val; omega

/-- The encoded edges of the whole attribute array as the region finds it. -/
def G (c : Dev nD) : S589824x100.Idx → EReal :=
  wholeEnc (V c main_arg1) (V c main_arg4) (fun l => V c main_v4 (ix2 (0 : Fin 1) l))

theorem hz : (![0, 0] : Fin 2 → Nat) = fun _ => 0 := funext fun a => by fin_cases a <;> rfl

/-- WHAT POINT `t` WRITES BACK is block `t` of the encoded edges. -/
theorem flushed_eq (c : Dev nD) (t : Fin cfg0.N) :
    (dat (F := Ideal) V c).flushed 3 t = ((cfg0.win 3).blk t).view.read (Elt Ideal) (G V c) := by
  show (cfg0.win 3).cut (grid0.coords t) ((dat V c).after 3 t) = _
  rw [after_3]
  unfold encOut
  rw [View.canon_unit_zero hz]
  simp only [View.ld_unit_zero (S := S12288x16) hz, View.ld_unit_zero (S := S16x100) hz, View.ld_unit_zero (S := S1x100) hz]
  funext y
  obtain ⟨r, k, rfl⟩ : ∃ (r : Fin 12288) (k : Fin 100), y = ix2 r k := ⟨y 0, y 1, eq_ix2 y⟩
  obtain ⟨i0a, i0b, i1a, i1b, i2a, i2b, i3a, i3b⟩ := idx_facts t
  refine ((congrFun (pay_eq _ _ _) _).trans (kEnc_apply _ _ _ r k)).trans ?_
  have hemb : ((cfg0.win 3).blk t).view.emb (ix2 r k)
      = (ix2 (⟨t.val * 12288 + r.val, by have := t.isLt; have hN : cfg0.N = 48 := N_0; have := r.isLt; omega⟩ : Fin 589824) k : S589824x100.Idx) :=
    funext fun b => Fin.ext (by
      match b with
      | ⟨0, _⟩ => show win0_3.index t (0 : Fin 2) * 12288 + 1 * r.val = t.val * 12288 + r.val; omega
      | ⟨1, _⟩ => show win0_3.index t (1 : Fin 2) * 100 + 1 * k.val = k.val; omega)
  show _ = G V c (((cfg0.win 3).blk t).view.emb (ix2 r k))
  rw [hemb]
  unfold G
  simp only [wholeEnc_apply]
  rw [read_2 V c t 0 k]
  refine congrArg (· + _) (Finset.sum_congr rfl fun p _ => ?_)
  rw [read_0 V c t r p, read_1 V c t p k]

theorem mem_blk (t : Fin cfg0.N) (i : S589824x100.Idx) :
    i ∈ ((cfg0.win 3).blk t).view.set ↔ ∀ a : Fin 2, win0_3.index t a * S12288x100.size a ≤ (i a).val ∧ (i a).val < win0_3.index t a * S12288x100.size a + S12288x100.size a := by
  show i ∈ ((View.whole main_v5).slice (win0_3.rect t)).set ↔ _
  rw [View.set_slice_whole, Rect.mem_set_unit]
  exact Iff.rfl

theorem covered (i : S589824x100.Idx) : ∃ t : Fin cfg0.N, (cfg0.win 3).flush t = true ∧ i ∈ ((cfg0.win 3).blk t).view.set := by
  have h0 : (i 0).val < 589824 := (i 0).isLt
  have h1 : (i 1).val < 100 := (i 1).isLt
  have hN : cfg0.N = 48 := N_0
  refine ⟨⟨(i 0).val / 12288, by omega⟩, flush0_3 _, ?_⟩
  rw [mem_blk]
  obtain ⟨i0a, i0b, i1a, i1b, i2a, i2b, i3a, i3b⟩ := idx_facts ⟨(i 0).val / 12288, by omega⟩
  intro a
  match a with
  | ⟨0, _⟩ => show win0_3.index ⟨(i 0).val / 12288, _⟩ (0 : Fin 2) * 12288 ≤ (i 0).val ∧ (i 0).val < win0_3.index ⟨(i 0).val / 12288, _⟩ (0 : Fin 2) * 12288 + 12288; rw [i3a]; show (i 0).val / 12288 * 12288 ≤ (i 0).val ∧ (i 0).val < (i 0).val / 12288 * 12288 + 12288; omega
  | ⟨1, _⟩ => show win0_3.index ⟨(i 0).val / 12288, _⟩ (1 : Fin 2) * 100 ≤ (i 1).val ∧ (i 1).val < win0_3.index ⟨(i 0).val / 12288, _⟩ (1 : Fin 2) * 100 + 100; rw [i3b]; omega

/-- The edge array after the region. -/
theorem final (c : Dev nD) : (dat (F := Ideal) V c).arrAt 3 cfg0.N = G V c :=
  (dat (F := Ideal) V c).arrAt_eq_of_cover 3 (G V c) (fun t _ => flushed_eq V c t) covered

end Cert.KernelIdeal.Enc

end
-- ==== Proof.KSpec.lean ====
/-
  One message-passing step on a block of 8 nodes, as the kernel body computes it from its staged buffers, and the same
  values one element at a time. The block's 8·768 edge rows are the pairs (a, j) of a block node a and any node j, row
  a·768 + j; every matrix product is the textbook sum, every reshape moves no data, the node–node products are spread
  along the features, and the node sum runs over the 768 pairs that start at a node.
-/
import Idealize.ShloMosaic.PureOps.Ideal.Laws
import Idealize.ShloMosaic.Lib.ValueIdx
import Idealize.ShloMosaic.Lib.Pipeline.Value
import Idealize.ShloMosaic.Lib.ValueLayout
import proofs.«143411_j23983097381472_2_alg».proof.Proof.Rows
import proofs.«143411_j23983097381472_2_alg».proof.Proof.LibPlainDot

noncomputable section

open scoped BigOperators

namespace Cert.Blk

open Idealize.ShloMosaic Idealize.ShloMosaic.ValueIdx Idealize.ShloMosaic.PlainDot Cert.Step

/-- The block's shapes: edge rows × features, block nodes × features, all nodes × features, a weight, a bias row,
    pairs × features, pairs with a unit feature axis, the node–node products, a transposed node array. -/
abbrev BE : Shape := ⟨2, ![6144, 100]⟩
abbrev BH : Shape := ⟨2, ![8, 100]⟩
abbrev BN : Shape := ⟨2, ![768, 100]⟩
abbrev BW : Shape := ⟨2, ![100, 100]⟩
abbrev BR : Shape := ⟨2, ![1, 100]⟩
abbrev B3 : Shape := ⟨3, ![8, 768, 100]⟩
abbrev B3u : Shape := ⟨3, ![8, 768, 1]⟩
abbrev BD : Shape := ⟨2, ![8, 768]⟩
abbrev BNt : Shape := ⟨2, ![100, 768]⟩

theorem cRR : BR.ShapeCasts BR := by decide
theorem cEE : BE.ShapeCasts BE := by decide
theorem cHH : BH.ShapeCasts BH := by decide
theorem cNN : BN.ShapeCasts BN := by decide
theorem bRE : BR.Broadcasts BE := by decide
theorem bRH : BR.Broadcasts BH := by decide
theorem cE3 : BE.ShapeCasts B3 := by decide
theorem c3E : B3.ShapeCasts BE := by decide
theorem cD3u : BD.ShapeCasts B3u := by decide
theorem b3u3 : B3u.Broadcasts B3 := by decide
theorem tN : BN.Transposes [1, 0] BNt := by decide
theorem r3H : B3.Reduces [1] BH := by decide

/-- The block's edge row of the pair (a, j). -/
def blkRow (a : Fin 8) (j : Fin 768) : Fin 6144 := ⟨a.val * 768 + j.val, by have := a.isLt; have := j.isLt; omega⟩

/-! ## Reshapes and broadcasts of the block, read at an index -/

section Layout
variable {α : Type}

theorem rows_to_pairs (v : BE.Idx → α) (h : BE.ShapeCasts B3) (a : Fin 8) (j : Fin 768) (k : Fin 100) :
    shapeCast B3 v h (ix3 a j k) = v (ix2 (blkRow a j) k) :=
  shapeCast_apply v h (ix3 a j k) (ix2 (blkRow a j) k) (by
    rw [Shape.rowMajor_val_two, Shape.rowMajor_val_three]
    show (a.val * 768 + j.val) * 100 + k.val = (a.val * 768 + j.val) * 100 + k.val
    rfl)

theorem pairs_to_rows (v : B3.Idx → α) (h : B3.ShapeCasts BE) (a : Fin 8) (j : Fin 768) (k : Fin 100) :
    shapeCast BE v h (ix2 (blkRow a j) k) = v (ix3 a j k) :=
  shapeCast_apply v h (ix2 (blkRow a j) k) (ix3 a j k) (by
    rw [Shape.rowMajor_val_three, Shape.rowMajor_val_two]
    show (a.val * 768 + j.val) * 100 + k.val = (a.val * 768 + j.val) * 100 + k.val
    rfl)

theorem add_unit (v : BD.Idx → α) (h : BD.ShapeCasts B3u) (a : Fin 8) (j : Fin 768) (u : Fin 1) :
    shapeCast B3u v h (ix3 a j u) = v (ix2 a j) :=
  shapeCast_apply v h (ix3 a j u) (ix2 a j) (by
    rw [Shape.rowMajor_val_two, Shape.rowMajor_val_three]
    show a.val * 768 + j.val = (a.val * 768 + j.val) * 1 + u.val
    have := u.isLt; omega)

theorem spread_feat (v : B3u.Idx → α) (h : B3u.Broadcasts B3) (a : Fin 8) (j : Fin 768) (k : Fin 100) :
    broadcastTo B3 v h (ix3 a j k) = v (ix3 a j (0 : Fin 1)) :=
  broadcastTo_apply v h (ix3 a j k) (ix3 a j (0 : Fin 1)) (fun c => match c with
    | ⟨0, _⟩ => by show a.val = if (8 : Nat) = 1 then 0 else a.val; rw [if_neg (by decide)]
    | ⟨1, _⟩ => by show j.val = if (768 : Nat) = 1 then 0 else j.val; rw [if_neg (by decide)]
    | ⟨2, _⟩ => by show 0 = if (1 : Nat) = 1 then 0 else k.val; rw [if_pos rfl])

end Layout

/-- The sum over a node's 768 pairs. -/
theorem sum_pairs (v : FVec Ideal B3 .f32) (h : B3.Reduces [1] BH) (hφ : FKind.Formats .f32)
    (hacc : (0x00000000#32 : BitVec 32) = FKind.add.neutral .f32 hφ) (a : Fin 8) (k : Fin 100) :
    multiReduction (F := Ideal) .add [1] BH v 0x00000000#32 h hφ hacc (ix2 a k) = ∑ j : Fin 768, v (ix3 a j k) :=
  (Ideal.multiReduction_add_single v 0x00000000#32 h hφ hacc (ix2 a k)).trans
    (Finset.sum_congr rfl fun j _ => congrArg v (funext fun c => Fin.ext (by
      rw [Shape.Reduces.lift_val]
      match c with
      | ⟨0, _⟩ => rfl
      | ⟨1, _⟩ => rfl
      | ⟨2, _⟩ => rfl)))

/-! ## The body's values -/

/-- The activations relu(e·W_eij + b_eij + node–node products), as edge rows × features. -/
def kF (x0 : FVec Ideal BE .f32) (x1 : FVec Ideal BH .f32) (x2 : FVec Ideal BN .f32) (x3 : FVec Ideal BW .f32)
    (x4 : FVec Ideal BR .f32) (x5 x6 : FVec Ideal BW .f32) : FVec Ideal BE .f32 :=
  shapeCast BE (maximumf
      (addf (shapeCast B3 (addf (FloatOps.matmul (DotDims.plain 6144 100 100) none (shapeCast BE x0 cEE) x3 (constant BE .f32 0x00000000#32))
                (broadcastTo BE (shapeCast BR x4 cRR) bRE)) cE3)
            (broadcastTo B3 (shapeCast B3u (FloatOps.matmul (DotDims.plain 8 100 768) none
                (FloatOps.matmul (DotDims.plain 8 100 100) none (shapeCast BH x1 cHH) x5 (constant BH .f32 0x00000000#32))
                (transpose BNt [1, 0] (FloatOps.matmul (DotDims.plain 768 100 100) none (shapeCast BN x2 cNN) x6 (constant BN .f32 0x00000000#32)) tN)
                (constant BD .f32 0x00000000#32)) cD3u) b3u3))
      (broadcast B3 (Scalar.ofBits (F := Ideal) .f32 0x00000000#32))) c3E

/-- The updated edge rows of the block. -/
def kE (x0 : FVec Ideal BE .f32) (x1 : FVec Ideal BH .f32) (x2 : FVec Ideal BN .f32) (x3 : FVec Ideal BW .f32)
    (x4 : FVec Ideal BR .f32) (x5 x6 x7 : FVec Ideal BW .f32) (x8 : FVec Ideal BR .f32) : FVec Ideal BE .f32 :=
  addf (shapeCast BE x0 cEE)
    (addf (FloatOps.matmul (DotDims.plain 6144 100 100) none (kF x0 x1 x2 x3 x4 x5 x6) x7 (constant BE .f32 0x00000000#32))
      (broadcastTo BE (shapeCast BR x8 cRR) bRE))

/-- The updated node rows of the block, from the updated edge rows `e'`. -/
def kH (e' : FVec Ideal BE .f32) (x1 : FVec Ideal BH .f32) (x9 : FVec Ideal BW .f32) (x10 : FVec Ideal BR .f32)
    (x11 : FVec Ideal BW .f32) (x12 : FVec Ideal BR .f32) : FVec Ideal BH .f32 :=
  addf (shapeCast BH x1 cHH)
    (addf (FloatOps.matmul (DotDims.plain 8 100 100) none
        (multiReduction (F := Ideal) .add [1] BH
          (shapeCast B3 (addf (FloatOps.matmul (DotDims.plain 6144 100 100) none e' x9 (constant BE .f32 0x00000000#32))
            (broadcastTo BE (shapeCast BR x10 cRR) bRE)) cE3) 0x00000000#32 r3H (.inl rfl) rfl)
        x11 (constant BH .f32 0x00000000#32))
      (broadcastTo BH (shapeCast BR x12 cRR) bRH))

/-! ## The values, one element at a time -/

theorem kF_apply (x0 : FVec Ideal BE .f32) (x1 : FVec Ideal BH .f32) (x2 : FVec Ideal BN .f32) (x3 : FVec Ideal BW .f32)
    (x4 : FVec Ideal BR .f32) (x5 x6 : FVec Ideal BW .f32) (a : Fin 8) (j : Fin 768) (l : Fin 100) :
    kF x0 x1 x2 x3 x4 x5 x6 (ix2 (blkRow a j) l)
      = max (((∑ p : Fin 100, x0 (ix2 (blkRow a j) p) * x3 (ix2 p l)) + x4 (ix2 (0 : Fin 1) l))
              + ∑ q : Fin 100, (∑ p : Fin 100, x1 (ix2 a p) * x5 (ix2 p q)) * (∑ p : Fin 100, x2 (ix2 j p) * x6 (ix2 p q)))
            (Ideal.ofBits .f32 0x00000000#32) := by
  unfold kF
  rw [pairs_to_rows _ c3E a j l]
  simp only [maximumf_apply, addf_apply, broadcast_apply, rows_to_pairs _ cE3, spread_feat _ b3u3, add_unit _ cD3u,
    broadcastTo_1b_ab_apply, shapeCast_self, matmul_zero_eq_mm, transpose_ix2_apply]
  rfl

theorem kE_apply (x0 : FVec Ideal BE .f32) (x1 : FVec Ideal BH .f32) (x2 : FVec Ideal BN .f32) (x3 : FVec Ideal BW .f32)
    (x4 : FVec Ideal BR .f32) (x5 x6 x7 : FVec Ideal BW .f32) (x8 : FVec Ideal BR .f32) (a : Fin 8) (j : Fin 768) (k : Fin 100) :
    kE x0 x1 x2 x3 x4 x5 x6 x7 x8 (ix2 (blkRow a j) k)
      = edgeRow (fun p => x0 (ix2 (blkRow a j) p)) (fun p => x1 (ix2 a p)) (fun p => x2 (ix2 j p)) x3 x5 x6 x7
          (fun l => x4 (ix2 (0 : Fin 1) l)) (fun l => x8 (ix2 (0 : Fin 1) l)) k := by
  unfold kE edgeRow
  simp only [addf_apply, broadcastTo_1b_ab_apply, shapeCast_self, matmul_zero_eq_mm]
  show x0 (ix2 (blkRow a j) k) + ((∑ l : Fin 100, kF x0 x1 x2 x3 x4 x5 x6 (ix2 (blkRow a j) l) * x7 (ix2 l k)) + x8 (ix2 (0 : Fin 1) k)) = _
  simp only [kF_apply]

theorem kH_apply (e' : FVec Ideal BE .f32) (x1 : FVec Ideal BH .f32) (x9 : FVec Ideal BW .f32) (x10 : FVec Ideal BR .f32)
    (x11 : FVec Ideal BW .f32) (x12 : FVec Ideal BR .f32) (a : Fin 8) (k : Fin 100) :
    kH e' x1 x9 x10 x11 x12 (ix2 a k)
      = nodeRow (fun p => x1 (ix2 a p)) (fun j p => e' (ix2 (blkRow a j) p)) x9 x11
          (fun l => x10 (ix2 (0 : Fin 1) l)) (fun l => x12 (ix2 (0 : Fin 1) l)) k := by
  unfold kH nodeRow
  simp only [addf_apply, broadcastTo_1b_ab_apply, shapeCast_self, matmul_zero_eq_mm]
  show x1 (ix2 a k) + ((∑ l : Fin 100, multiReduction (F := Ideal) .add [1] BH
      (shapeCast B3 (addf (mm e' x9) (broadcastTo BE x10 bRE)) cE3) 0x00000000#32 r3H (.inl rfl) rfl (ix2 a l) * x11 (ix2 l k)) + x12 (ix2 (0 : Fin 1) k))
    = x1 (ix2 a k) + ((∑ l : Fin 100, (∑ j : Fin 768, ((∑ p : Fin 100, e' (ix2 (blkRow a j) p) * x9 (ix2 p l)) + x10 (ix2 (0 : Fin 1) l))) * x11 (ix2 l k))
        + x12 (ix2 (0 : Fin 1) k))
  refine congrArg (x1 (ix2 a k) + ·) (congrArg (· + x12 (ix2 (0 : Fin 1) k)) (Finset.sum_congr rfl fun l _ => congrArg (· * x11 (ix2 l k)) ?_))
  refine (sum_pairs _ r3H _ _ a l).trans (Finset.sum_congr rfl fun j _ => ?_)
  rw [rows_to_pairs _ cE3 a j l, addf_apply, broadcastTo_1b_ab_apply]
  rfl

end Cert.Blk

end
-- ==== Proof.LibHostIdx.lean ====
/-
  Layout operations of the host programs read at an index, over literal ranks: a vector broadcast into a one-column
  matrix, a vector cast to a one-column or one-row matrix and back.  Each moves no data: the element at (e, 0) or (0, k)
  of the matrix is the vector's element e or k.
-/
import Idealize.ShloMosaic.Lib.ValueIdx
import Idealize.ShloMosaic.Lib.Pipeline.Value

noncomputable section

namespace Cert.Lib.HostIdx

open Idealize.ShloMosaic Idealize.ShloMosaic.ValueIdx

variable {α : Type}

/-- A vector broadcast along axis 0 into a one-column matrix: entry (e, 0) is the vector's entry e. -/
theorem bcastCol_apply {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

/-- A vector cast to a one-column matrix: entry (n, 0) is the vector's entry n. -/
theorem castCol_apply {N : Nat} (h : (⟨1, ![N]⟩ : Shape).ShapeCasts ⟨2, ![N, 1]⟩)
    (v : (⟨1, ![N]⟩ : Shape).Idx → α) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A one-column matrix cast to a vector: entry n is the matrix's entry (n, 0). -/
theorem castFlat_apply {N : Nat} (h : (⟨2, ![N, 1]⟩ : Shape).ShapeCasts ⟨1, ![N]⟩)
    (v : (⟨2, ![N, 1]⟩ : Shape).Idx → α) (n : Fin N) :
    shapeCast ⟨1, ![N]⟩ v h (ix1 n) = v (ix2 n (0 : Fin 1)) :=
  shapeCast_apply v h (ix1 n) (ix2 n (0 : Fin 1)) (by
    rw [Shape.rowMajor_val_one, Shape.rowMajor_val_two]
    show n.val * 1 + 0 = n.val
    omega)

/-- A vector cast to a one-row matrix: entry (0, k) is the vector's entry k. -/
theorem castRow_apply {D : Nat} (h : (⟨1, ![D]⟩ : Shape).ShapeCasts ⟨2, ![1, D]⟩)
    (v : (⟨1, ![D]⟩ : Shape).Idx → α) (k : Fin D) :
    shapeCast ⟨2, ![1, D]⟩ v h (ix2 (0 : Fin 1) k) = v (ix1 k) :=
  shapeCast_apply v h (ix2 (0 : Fin 1) k) (ix1 k) (by
    rw [Shape.rowMajor_val_one, Shape.rowMajor_val_two]
    show k.val = 0 * D + k.val
    omega)

/-- A one-column matrix cast to a one-row matrix: entry (0, q) is the column's entry (q, 0). -/
theorem castColRow_apply {D : Nat} (h : (⟨2, ![D, 1]⟩ : Shape).ShapeCasts ⟨2, ![1, D]⟩)
    (v : (⟨2, ![D, 1]⟩ : Shape).Idx → α) (q : Fin D) :
    shapeCast ⟨2, ![1, D]⟩ v h (ix2 (0 : Fin 1) q) = v (ix2 q (0 : Fin 1)) :=
  shapeCast_apply v h (ix2 (0 : Fin 1) q) (ix2 q (0 : Fin 1)) (by
    rw [Shape.rowMajor_val_two, Shape.rowMajor_val_two]
    show q.val * 1 + 0 = 0 * D + q.val
    omega)

end Cert.Lib.HostIdx

end
-- ==== Proof.StepRead.lean ====
/-
  The reference's step and encoders read one element at a time, at the exact (extended-real) values.
  Each operation is read at an index: sums and maxima pointwise, a product as the sum over the contracted
  coordinate, a bias vector spread over the rows as its entry at the column, the node-by-node product laid out
  as a column of pairs and spread along the features, and the sum over the second node of each pair as a finite sum.
-/
import proofs.«143411_j23983097381472_2_alg».proof.Proof.Spec
import proofs.«143411_j23983097381472_2_alg».proof.Proof.Rows
import proofs.«143411_j23983097381472_2_alg».proof.Proof.LibPlainDot
import proofs.«143411_j23983097381472_2_alg».proof.Proof.LibHostIdx
import Idealize.ShloMosaic.Lib.ValueLayout
import Idealize.ShloMosaic.Lib.Pipeline.Value
noncomputable section
open scoped BigOperators
namespace Cert.Step
open Idealize.ShloMosaic Idealize.ShloMosaic.ValueIdx

section Layout
variable {α : Type}

/-- A bias vector made a row and spread over the edge rows: entry (r, k) is the vector's entry k. -/
theorem biasE_apply (b : SB.Idx → α) (r : Fin 589824) (k : Fin 100) :
    broadcastInDim SE ![0, 1] bR_E (broadcastInDim SR ![1] bB_R b) (ix2 r k) = b (ix1 k) := by
  refine (broadcastInDim_apply _ bR_E _ (ix2 r k) (ix2 (0 : Fin 1) k) (fun a => match a with
    | ⟨0, _⟩ => by
      show (0 : Nat) = if (1 : Nat) = 1 then 0 else r.val
      rw [if_pos rfl]
    | ⟨1, _⟩ => by
      show k.val = if (100 : Nat) = 1 then 0 else k.val
      rw [if_neg (by decide)])).trans ?_
  exact broadcastInDim_apply _ bB_R b (ix2 (0 : Fin 1) k) (ix1 k) (fun a => match a with
    | ⟨0, _⟩ => by
      show k.val = if (100 : Nat) = 1 then 0 else k.val
      rw [if_neg (by decide)])

/-- The same over the node rows. -/
theorem biasN_apply (b : SB.Idx → α) (i : Fin 768) (k : Fin 100) :
    broadcastInDim SN ![0, 1] bR_N (broadcastInDim SR ![1] bB_R b) (ix2 i k) = b (ix1 k) := by
  refine (broadcastInDim_apply _ bR_N _ (ix2 i k) (ix2 (0 : Fin 1) k) (fun a => match a with
    | ⟨0, _⟩ => by
      show (0 : Nat) = if (1 : Nat) = 1 then 0 else i.val
      rw [if_pos rfl]
    | ⟨1, _⟩ => by
      show k.val = if (100 : Nat) = 1 then 0 else k.val
      rw [if_neg (by decide)])).trans ?_
  exact broadcastInDim_apply _ bB_R b (ix2 (0 : Fin 1) k) (ix1 k) (fun a => match a with
    | ⟨0, _⟩ => by
      show k.val = if (100 : Nat) = 1 then 0 else k.val
      rw [if_neg (by decide)])

end Layout

/-- A product read at (r, k): the sum over the contracted coordinate. -/
theorem mm_ix2 {M K N : Nat} (A : (⟨2, ![M, K]⟩ : Shape).Idx → EReal) (B : (⟨2, ![K, N]⟩ : Shape).Idx → EReal)
    (r : Fin M) (k : Fin N) : PlainDot.mm A B (ix2 r k) = ∑ p : Fin K, A (ix2 r p) * B (ix2 p k) := rfl

/-- The host's product of an M×K and a K×N array read at (r, k). -/
theorem hostDot_ix2 {M K N : Nat} (A : FVec Ideal ⟨2, ![M, K]⟩ .f32) (B : FVec Ideal ⟨2, ![K, N]⟩ .f32) (r : Fin M) (k : Fin N) :
    Host.dotGeneral (F := Ideal) (DotDims.plain M K N) none A B (ix2 r k) = ∑ p : Fin K, A (ix2 r p) * B (ix2 p k) := by
  show FloatOps.dotGeneral (DotDims.plain M K N) none .single A B (ix2 r k) = _
  rw [PlainDot.dotGeneral_eq_mm, mm_ix2]

theorem encE_apply (a : FVec Ideal SA .f32) (W : FVec Ideal SAW .f32) (b : FVec Ideal SB .f32) (r : Fin 589824) (k : Fin 100) :
    encE (F := Ideal) a W b (ix2 r k) = (∑ p : Fin 16, a (ix2 r p) * W (ix2 p k)) + b (ix1 k) := by
  unfold encE
  rw [addf_apply, hostDot_ix2, biasE_apply]

theorem encH_apply (f : FVec Ideal SF .f32) (W : FVec Ideal SFW .f32) (b : FVec Ideal SB .f32) (i : Fin 768) (k : Fin 100) :
    encH (F := Ideal) f W b (ix2 i k) = (∑ p : Fin 32, f (ix2 i p) * W (ix2 p k)) + b (ix1 k) := by
  unfold encH
  rw [addf_apply, hostDot_ix2, biasN_apply]

section Layout2
variable {α : Type}

/-- The node-by-node array laid out as a column of pairs and spread along the features:
    entry (pair (i, j), k) is the array's entry (i, j). -/
theorem pairCol_apply (G : SNN.Idx → α) (i j : Fin 768) (k : Fin 100) :
    broadcastInDim SE ![0, 1] bC_E (shapeCast SC G cNN_C) (ix2 (pairRow i j) k) = G (ix2 i j) := by
  refine (broadcastInDim_apply _ bC_E _ (ix2 (pairRow i j) k) (ix2 (pairRow i j) (0 : Fin 1)) (fun a => match a with
    | ⟨0, _⟩ => by
      show (pairRow i j).val = if (589824 : Nat) = 1 then 0 else (pairRow i j).val
      rw [if_neg (by decide)]
    | ⟨1, _⟩ => by
      show (0 : Nat) = if (1 : Nat) = 1 then 0 else k.val
      rw [if_pos rfl])).trans ?_
  refine shapeCast_apply G cNN_C (ix2 (pairRow i j) (0 : Fin 1)) (ix2 i j) ?_
  rw [Shape.rowMajor_val_two, Shape.rowMajor_val_two]
  show i.val * 768 + j.val = (i.val * 768 + j.val) * 1 + 0
  omega

/-- The pairs-by-features array laid out node by node by feature: entry (i, j, k) is the array's entry (pair (i, j), k). -/
theorem pairs3_apply (Y : SE.Idx → α) (i j : Fin 768) (k : Fin 100) :
    shapeCast S3 Y cE_3 (ix3 i j k) = Y (ix2 (pairRow i j) k) := by
  refine shapeCast_apply Y cE_3 (ix3 i j k) (ix2 (pairRow i j) k) ?_
  rw [Shape.rowMajor_val_two, Shape.rowMajor_val_three]
  show (i.val * 768 + j.val) * 100 + k.val = (i.val * 768 + j.val) * 100 + k.val
  rfl

end Layout2

/-- The relu's zero, spread over the edge array, is the zero word's value at every entry. -/
theorem zeroE_apply (x : SE.Idx) :
    broadcastInDim SE ![] b0_E (constant (F := Ideal) S0 .f32 0x00000000#32) x = Ideal.ofBits .f32 0x00000000#32 := rfl

/-- A transposed product read at (q, j). -/
theorem dotT_apply (h : FVec Ideal SN .f32) (Wj : FVec Ideal SW .f32) (q : Fin 100) (j : Fin 768) :
    transpose SWt [1, 0] (Host.dotGeneral (F := Ideal) (DotDims.plain 768 100 100) none h Wj) tN (ix2 q j)
      = ∑ p : Fin 100, h (ix2 j p) * Wj (ix2 p q) := by
  rw [transpose_ix2_apply, hostDot_ix2]

/-- The sum over the second node of each pair: entry (i, l) is the sum over j of the entry at (pair (i, j), l). -/
theorem sumPairs_apply (Y : FVec Ideal SE .f32) (i : Fin 768) (l : Fin 100) :
    Host.reduceAdd (shapeCast S3 Y cE_3) (constant (F := Ideal) S0 .f32 0x00000000#32) r3 h0 (ix2 i l)
      = ∑ j : Fin 768, Y (ix2 (pairRow i j) l) := by
  have hR : S3.Reduces [1] SN := by decide
  simp only [Host.reduceAdd, Ideal.hostReduceAdd_def]
  rw [Ideal.hostReduceAdd_single r3 hR, constant_apply, Ideal.ofBits_zero_f32, zero_add]
  refine Finset.sum_congr rfl fun j _ => ?_
  have hl : hR.lift (ix2 i l) j = ix3 i j l := by
    funext c
    apply Fin.ext
    rw [hR.lift_val]
    match c with
    | ⟨0, _⟩ => rfl
    | ⟨1, _⟩ => rfl
    | ⟨2, _⟩ => rfl
  rw [hl]
  exact pairs3_apply Y i j l

/-- The node-by-node product (h·W_i)(h·W_j)ᵀ read at (i, j). -/
theorem pairTerm_apply (h : FVec Ideal SN .f32) (Wi Wj : FVec Ideal SW .f32) (i j : Fin 768) :
    Host.dotGeneral (F := Ideal) (DotDims.plain 768 100 768) none (Host.dotGeneral (DotDims.plain 768 100 100) none h Wi)
        (transpose SWt [1, 0] (Host.dotGeneral (DotDims.plain 768 100 100) none h Wj) tN) (ix2 i j)
      = ∑ q : Fin 100, (∑ p : Fin 100, h (ix2 i p) * Wi (ix2 p q)) * (∑ p : Fin 100, h (ix2 j p) * Wj (ix2 p q)) := by
  rw [hostDot_ix2]
  refine Finset.sum_congr rfl fun q _ => ?_
  rw [hostDot_ix2, dotT_apply]

theorem stepE_apply (e : FVec Ideal SE .f32) (h : FVec Ideal SN .f32) (Weij : FVec Ideal SW .f32) (beij : FVec Ideal SB .f32)
    (Wi Wj Wde : FVec Ideal SW .f32) (bde : FVec Ideal SB .f32) (i j : Fin 768) (k : Fin 100) :
    stepE (F := Ideal) e h Weij beij Wi Wj Wde bde (ix2 (pairRow i j) k)
      = edgeRow (fun p => e (ix2 (pairRow i j) p)) (fun p => h (ix2 i p)) (fun p => h (ix2 j p)) Weij Wi Wj Wde
          (fun l => beij (ix1 l)) (fun l => bde (ix1 l)) k := by
  unfold stepE edgeRow
  beta_reduce
  rw [addf_apply, addf_apply, hostDot_ix2, biasE_apply]
  refine congrArg (fun t => e (ix2 (pairRow i j) k) + (t + bde (ix1 k))) (Finset.sum_congr rfl fun l _ => ?_)
  rw [maximumf_apply, zeroE_apply, addf_apply, addf_apply, hostDot_ix2, biasE_apply, pairCol_apply, pairTerm_apply]

theorem stepH_apply (e' : FVec Ideal SE .f32) (h : FVec Ideal SN .f32) (Wdv1 : FVec Ideal SW .f32) (bdv1 : FVec Ideal SB .f32)
    (Wdv2 : FVec Ideal SW .f32) (bdv2 : FVec Ideal SB .f32) (i : Fin 768) (k : Fin 100) :
    stepH (F := Ideal) e' h Wdv1 bdv1 Wdv2 bdv2 (ix2 i k)
      = nodeRow (fun p => h (ix2 i p)) (fun j p => e' (ix2 (pairRow i j) p)) Wdv1 Wdv2 (fun l => bdv1 (ix1 l)) (fun l => bdv2 (ix1 l)) k := by
  unfold stepH nodeRow
  beta_reduce
  rw [addf_apply, addf_apply, hostDot_ix2, biasN_apply]
  refine congrArg (fun t => h (ix2 i k) + (t + bdv2 (ix1 k))) (Finset.sum_congr rfl fun l _ => ?_)
  rw [sumPairs_apply]
  refine congrArg (fun t => t * Wdv2 (ix2 l k)) (Finset.sum_congr rfl fun j _ => ?_)
  rw [addf_apply, hostDot_ix2, biasE_apply]

end Cert.Step

end
-- ==== Proof.StepWhole.lean ====
/-
  The step's two halves and the edge encoder, as compositions of host operations, are the element-by-element whole-array
  forms: every edge row r is the row of its pair (r / 768, r % 768).
-/
import proofs.«143411_j23983097381472_2_alg».proof.Proof.StepRead
import proofs.«143411_j23983097381472_2_alg».proof.Proof.Whole

noncomputable section

open scoped BigOperators

namespace Cert.Step

open Idealize.ShloMosaic Idealize.ShloMosaic.ValueIdx

theorem stepE_eq_whole (e : FVec Ideal SE .f32) (h : FVec Ideal SN .f32) (Weij : FVec Ideal SW .f32) (beij : FVec Ideal SB .f32)
    (Wi Wj Wde : FVec Ideal SW .f32) (bde : FVec Ideal SB .f32) :
    stepE (F := Ideal) e h Weij beij Wi Wj Wde bde = wholeE e h Weij Wi Wj Wde (fun l => beij (ix1 l)) (fun l => bde (ix1 l)) := by
  funext i
  obtain ⟨r, k, rfl⟩ : ∃ (r : Fin 589824) (k : Fin 100), i = ix2 r k := ⟨i 0, i 1, eq_ix2 i⟩
  have h1 := stepE_apply e h Weij beij Wi Wj Wde bde (nodeOf r) (nbrOf r) k
  rw [pairRow_split] at h1
  exact h1

theorem stepH_eq_whole (e' : FVec Ideal SE .f32) (h : FVec Ideal SN .f32) (Wdv1 : FVec Ideal SW .f32) (bdv1 : FVec Ideal SB .f32)
    (Wdv2 : FVec Ideal SW .f32) (bdv2 : FVec Ideal SB .f32) :
    stepH (F := Ideal) e' h Wdv1 bdv1 Wdv2 bdv2 = wholeH e' h Wdv1 Wdv2 (fun l => bdv1 (ix1 l)) (fun l => bdv2 (ix1 l)) := by
  funext i
  obtain ⟨r, k, rfl⟩ : ∃ (r : Fin 768) (k : Fin 100), i = ix2 r k := ⟨i 0, i 1, eq_ix2 i⟩
  exact stepH_apply e' h Wdv1 bdv1 Wdv2 bdv2 r k

theorem encE_eq_whole (a : FVec Ideal SA .f32) (W : FVec Ideal SAW .f32) (b : FVec Ideal SB .f32) :
    encE (F := Ideal) a W b = wholeEnc a W (fun l => b (ix1 l)) := by
  funext i
  obtain ⟨r, k, rfl⟩ : ∃ (r : Fin 589824) (k : Fin 100), i = ix2 r k := ⟨i 0, i 1, eq_ix2 i⟩
  exact encE_apply a W b r k

end Cert.Step

end
-- ==== Proof.KI.UpdVal1.lean ====
/-
  The first message-passing step's values. The body's two payloads are the block step's updated edge and node rows of the
  staged buffers; at grid point t the edge window stages edge rows t·6144 … t·6144 + 6143 (the pairs of nodes 8t … 8t + 7
  with every node), the node window stages node rows 8t … 8t + 7, and every other window stages its whole array.
-/
import proofs.«143411_j23983097381472_2_alg».proof.Proof.KI.UpdDat1
import proofs.«143411_j23983097381472_2_alg».proof.Proof.KSpec
import proofs.«143411_j23983097381472_2_alg».proof.Proof.Whole
import proofs.«143411_j23983097381472_2_alg».proof.Proof.StepWhole

set_option maxRecDepth 16384

noncomputable section

namespace Cert.KernelIdeal.Upd1

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Blk Cert.Step Idealize.ShloMosaic.ValueIdx

/-- The body's edge payload is the block step's updated edge rows. -/
theorem payE_eq (x0 : Vec Ideal S6144x100 .f32) (x1 : Vec Ideal S8x100 .f32) (x2 : Vec Ideal S768x100 .f32) (x3 : Vec Ideal S100x100 .f32)
    (x4 : Vec Ideal S1x100 .f32) (x5 x6 x7 : Vec Ideal S100x100 .f32) (x8 : Vec Ideal S1x100 .f32) :
    k1_pay1 (k1_pay3 x0) (k1_pay5 x0 x3 x4 x1 x2 x5 x6 x7) x8 = kE x0 x1 x2 x3 x4 x5 x6 x7 x8 := rfl

/-- The body's node payload is the block step's updated node rows, from its updated edge rows. -/
theorem payH_eq (x0 : Vec Ideal S6144x100 .f32) (x1 : Vec Ideal S8x100 .f32) (x2 : Vec Ideal S768x100 .f32) (x3 : Vec Ideal S100x100 .f32)
    (x4 : Vec Ideal S1x100 .f32) (x5 x6 x7 : Vec Ideal S100x100 .f32) (x8 : Vec Ideal S1x100 .f32)
    (x9 : Vec Ideal S100x100 .f32) (x10 : Vec Ideal S1x100 .f32) (x11 : Vec Ideal S100x100 .f32) (x12 : Vec Ideal S1x100 .f32) :
    k1_pay2 (k1_pay3 x0) (k1_pay4 x1) (k1_pay5 x0 x3 x4 x1 x2 x5 x6 x7) x8 x9 x10 x11 x12
      = kH (kE x0 x1 x2 x3 x4 x5 x6 x7 x8) x1 x9 x10 x11 x12 := rfl

/-- The printed index maps, decided over the grid: the edge and node windows move with the point, every other is fixed. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = t.val ∧ win1_13.index t (1 : Fin 2) = 0
    ∧ win1_14.index t (0 : Fin 2) = t.val ∧ win1_14.index t (1 : Fin 2) = 0 :=
  (by decide +kernel : ∀ t : Fin grid1.N, _)

variable (V : (c : Dev nD) → (b : Ref sig .tc) → Buf (Elt Ideal) ((c : Thread nD τ).loc b))

/-! Each input window's block at a point, read off its array. -/
theorem read_0 (c : Dev nD) (t : Fin cfg1.N) (r : Fin 6144) (p : Fin 100) :
    iblk (F := Ideal) V c 0 t (ix2 r p) = V c main_v5 (ix2 ((⟨t.val * 6144 + r.val, by have := t.isLt; have hN : cfg1.N = 96 := N_1; have := r.isLt; omega⟩ : Fin 589824)) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v5 (((cfg1.win 0).blk t).view.emb (ix2 r p)) = _
  refine congrArg (V c main_v5) (funext fun a => Fin.ext ?_)
  match a with
  | ⟨0, _⟩ => show win1_0.index t (0 : Fin 2) * 6144 + 1 * r.val = t.val * 6144 + r.val; omega
  | ⟨1, _⟩ => show win1_0.index t (1 : Fin 2) * 100 + 1 * p.val = p.val; omega
theorem read_1 (c : Dev nD) (t : Fin cfg1.N) (r : Fin 8) (p : Fin 100) :
    iblk (F := Ideal) V c 1 t (ix2 r p) = V c main_v3 (ix2 ((⟨t.val * 8 + r.val, by have := t.isLt; have hN : cfg1.N = 96 := N_1; have := r.isLt; omega⟩ : Fin 768)) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v3 (((cfg1.win 1).blk t).view.emb (ix2 r p)) = _
  refine congrArg (V c main_v3) (funext fun a => Fin.ext ?_)
  match a with
  | ⟨0, _⟩ => show win1_1.index t (0 : Fin 2) * 8 + 1 * r.val = t.val * 8 + r.val; omega
  | ⟨1, _⟩ => show win1_1.index t (1 : Fin 2) * 100 + 1 * p.val = p.val; omega
theorem read_2 (c : Dev nD) (t : Fin cfg1.N) (r : Fin 768) (p : Fin 100) :
    iblk (F := Ideal) V c 2 t (ix2 r p) = V c main_v3 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v3 (((cfg1.win 2).blk t).view.emb (ix2 r p)) = _
  refine congrArg (V c main_v3) (funext fun a => Fin.ext ?_)
  match a with
  | ⟨0, _⟩ => show win1_2.index t (0 : Fin 2) * 768 + 1 * r.val = r.val; omega
  | ⟨1, _⟩ => show win1_2.index t (1 : Fin 2) * 100 + 1 * p.val = p.val; omega
theorem read_3 (c : Dev nD) (t : Fin cfg1.N) (r : Fin 100) (p : Fin 100) :
    iblk (F := Ideal) V c 3 t (ix2 r p) = V c main_arg6 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg6 (((cfg1.win 3).blk t).view.emb (ix2 r p)) = _
  refine congrArg (V c main_arg6) (funext fun a => Fin.ext ?_)
  match a with
  | ⟨0, _⟩ => show win1_3.index t (0 : Fin 2) * 100 + 1 * r.val = r.val; omega
  | ⟨1, _⟩ => show win1_3.index t (1 : Fin 2) * 100 + 1 * p.val = p.val; omega
theorem read_4 (c : Dev nD) (t : Fin cfg1.N) (r : Fin 1) (p : Fin 100) :
    iblk (F := Ideal) V c 4 t (ix2 r p) = V c main_v6 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v6 (((cfg1.win 4).blk t).view.emb (ix2 r p)) = _
  refine congrArg (V c main_v6) (funext fun a => Fin.ext ?_)
  match a with
  | ⟨0, _⟩ => show win1_4.index t (0 : Fin 2) * 1 + 1 * r.val = r.val; omega
  | ⟨1, _⟩ => show win1_4.index t (1 : Fin 2) * 100 + 1 * p.val = p.val; omega
theorem read_5 (c : Dev nD) (t : Fin cfg1.N) (r : Fin 100) (p : Fin 100) :
    iblk (F := Ideal) V c 5 t (ix2 r p) = V c main_arg8 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg8 (((cfg1.win 5).blk t).view.emb (ix2 r p)) = _
  refine congrArg (V c main_arg8) (funext fun a => Fin.ext ?_)
  match a with
  | ⟨0, _⟩ => show win1_5.index t (0 : Fin 2) * 100 + 1 * r.val = r.val; omega
  | ⟨1, _⟩ => show win1_5.index t (1 : Fin 2) * 100 + 1 * p.val = p.val; omega
theorem read_6 (c : Dev nD) (t : Fin cfg1.N) (r : Fin 100) (p : Fin 100) :
    iblk (F := Ideal) V c 6 t (ix2 r p) = V c main_arg9 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg9 (((cfg1.win 6).blk t).view.emb (ix2 r p)) = _
  refine congrArg (V c main_arg9) (funext fun a => Fin.ext ?_)
  match a with
  | ⟨0, _⟩ => show win1_6.index t (0 : Fin 2) * 100 + 1 * r.val = r.val; omega
  | ⟨1, _⟩ => show win1_6.index t (1 : Fin 2) * 100 + 1 * p.val = p.val; omega
theorem read_7 (c : Dev nD) (t : Fin cfg1.N) (r : Fin 100) (p : Fin 100) :
    iblk (F := Ideal) V c 7 t (ix2 r p) = V c main_arg10 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg10 (((cfg1.win 7).blk t).view.emb (ix2 r p)) = _
  refine congrArg (V c main_arg10) (funext fun a => Fin.ext ?_)
  match a with
  | ⟨0, _⟩ => show win1_7.index t (0 : Fin 2) * 100 + 1 * r.val = r.val; omega
  | ⟨1, _⟩ => show win1_7.index t (1 : Fin 2) * 100 + 1 * p.val = p.val; omega
theorem read_8 (c : Dev nD) (t : Fin cfg1.N) (r : Fin 1) (p : Fin 100) :
    iblk (F := Ideal) V c 8 t (ix2 r p) = V c main_v7 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v7 (((cfg1.win 8).blk t).view.emb (ix2 r p)) = _
  refine congrArg (V c main_v7) (funext fun a => Fin.ext ?_)
  match a with
  | ⟨0, _⟩ => show win1_8.index t (0 : Fin 2) * 1 + 1 * r.val = r.val; omega
  | ⟨1, _⟩ => show win1_8.index t (1 : Fin 2) * 100 + 1 * p.val = p.val; omega
theorem read_9 (c : Dev nD) (t : Fin cfg1.N) (r : Fin 100) (p : Fin 100) :
    iblk (F := Ideal) V c 9 t (ix2 r p) = V c main_arg12 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg12 (((cfg1.win 9).blk t).view.emb (ix2 r p)) = _
  refine congrArg (V c main_arg12) (funext fun a => Fin.ext ?_)
  match a with
  | ⟨0, _⟩ => show win1_9.index t (0 : Fin 2) * 100 + 1 * r.val = r.val; omega
  | ⟨1, _⟩ => show win1_9.index t (1 : Fin 2) * 100 + 1 * p.val = p.val; omega
theorem read_10 (c : Dev nD) (t : Fin cfg1.N) (r : Fin 1) (p : Fin 100) :
    iblk (F := Ideal) V c 10 t (ix2 r p) = V c main_v8 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v8 (((cfg1.win 10).blk t).view.emb (ix2 r p)) = _
  refine congrArg (V c main_v8) (funext fun a => Fin.ext ?_)
  match a with
  | ⟨0, _⟩ => show win1_10.index t (0 : Fin 2) * 1 + 1 * r.val = r.val; omega
  | ⟨1, _⟩ => show win1_10.index t (1 : Fin 2) * 100 + 1 * p.val = p.val; omega
theorem read_11 (c : Dev nD) (t : Fin cfg1.N) (r : Fin 100) (p : Fin 100) :
    iblk (F := Ideal) V c 11 t (ix2 r p) = V c main_arg14 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg14 (((cfg1.win 11).blk t).view.emb (ix2 r p)) = _
  refine congrArg (V c main_arg14) (funext fun a => Fin.ext ?_)
  match a with
  | ⟨0, _⟩ => show win1_11.index t (0 : Fin 2) * 100 + 1 * r.val = r.val; omega
  | ⟨1, _⟩ => show win1_11.index t (1 : Fin 2) * 100 + 1 * p.val = p.val; omega
theorem read_12 (c : Dev nD) (t : Fin cfg1.N) (r : Fin 1) (p : Fin 100) :
    iblk (F := Ideal) V c 12 t (ix2 r p) = V c main_v9 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v9 (((cfg1.win 12).blk t).view.emb (ix2 r p)) = _
  refine congrArg (V c main_v9) (funext fun a => Fin.ext ?_)
  match a with
  | ⟨0, _⟩ => show win1_12.index t (0 : Fin 2) * 1 + 1 * r.val = r.val; omega
  | ⟨1, _⟩ => show win1_12.index t (1 : Fin 2) * 100 + 1 * p.val = p.val; omega

/-! ## The step on the whole arrays, as the region finds them -/

/-- The updated edges and nodes of the whole arrays: the bias buffers are rows. -/
def GE (c : Dev nD) : S589824x100.Idx → EReal :=
  wholeE (V c main_v5) (V c main_v3) (V c main_arg6) (V c main_arg8) (V c main_arg9) (V c main_arg10)
    (fun l => V c main_v6 (ix2 (0 : Fin 1) l)) (fun l => V c main_v7 (ix2 (0 : Fin 1) l))
def GH (c : Dev nD) : S768x100.Idx → EReal :=
  wholeH (GE V c) (V c main_v3) (V c main_arg12) (V c main_arg14)
    (fun l => V c main_v8 (ix2 (0 : Fin 1) l)) (fun l => V c main_v9 (ix2 (0 : Fin 1) l))

theorem hz : (![0, 0] : Fin 2 → Nat) = fun _ => 0 := funext fun a => by fin_cases a <;> rfl

/-- A resident window's block is its whole array. -/
theorem whole_3 (c : Dev nD) (t : Fin cfg1.N) : (iblk (F := Ideal) V c 3 t : S100x100.Idx → EReal) = (V c main_arg6 : S100x100.Idx → EReal) :=
  funext fun y => by
    obtain ⟨r, p, rfl⟩ : ∃ (r : Fin 100) (p : Fin 100), y = ix2 r p := ⟨y 0, y 1, eq_ix2 y⟩
    exact read_3 V c t r p
theorem whole_5 (c : Dev nD) (t : Fin cfg1.N) : (iblk (F := Ideal) V c 5 t : S100x100.Idx → EReal) = (V c main_arg8 : S100x100.Idx → EReal) :=
  funext fun y => by
    obtain ⟨r, p, rfl⟩ : ∃ (r : Fin 100) (p : Fin 100), y = ix2 r p := ⟨y 0, y 1, eq_ix2 y⟩
    exact read_5 V c t r p
theorem whole_6 (c : Dev nD) (t : Fin cfg1.N) : (iblk (F := Ideal) V c 6 t : S100x100.Idx → EReal) = (V c main_arg9 : S100x100.Idx → EReal) :=
  funext fun y => by
    obtain ⟨r, p, rfl⟩ : ∃ (r : Fin 100) (p : Fin 100), y = ix2 r p := ⟨y 0, y 1, eq_ix2 y⟩
    exact read_6 V c t r p
theorem whole_7 (c : Dev nD) (t : Fin cfg1.N) : (iblk (F := Ideal) V c 7 t : S100x100.Idx → EReal) = (V c main_arg10 : S100x100.Idx → EReal) :=
  funext fun y => by
    obtain ⟨r, p, rfl⟩ : ∃ (r : Fin 100) (p : Fin 100), y = ix2 r p := ⟨y 0, y 1, eq_ix2 y⟩
    exact read_7 V c t r p
theorem whole_9 (c : Dev nD) (t : Fin cfg1.N) : (iblk (F := Ideal) V c 9 t : S100x100.Idx → EReal) = (V c main_arg12 : S100x100.Idx → EReal) :=
  funext fun y => by
    obtain ⟨r, p, rfl⟩ : ∃ (r : Fin 100) (p : Fin 100), y = ix2 r p := ⟨y 0, y 1, eq_ix2 y⟩
    exact read_9 V c t r p
theorem whole_11 (c : Dev nD) (t : Fin cfg1.N) : (iblk (F := Ideal) V c 11 t : S100x100.Idx → EReal) = (V c main_arg14 : S100x100.Idx → EReal) :=
  funext fun y => by
    obtain ⟨r, p, rfl⟩ : ∃ (r : Fin 100) (p : Fin 100), y = ix2 r p := ⟨y 0, y 1, eq_ix2 y⟩
    exact read_11 V c t r p

/-- The block step's updated edge rows at point `t`, at the pair (a, j) of the block, are the whole step's at the pair
    (8t + a, j): the block's edge rows, node rows and resident weights are the arrays' at those places. -/
theorem blockE (c : Dev nD) (t : Fin cfg1.N) (a : Fin 8) (j : Fin 768) (k : Fin 100) :
    kE (iblk (F := Ideal) V c 0 t) (iblk V c 1 t) (iblk V c 2 t) (iblk V c 3 t) (iblk V c 4 t) (iblk V c 5 t) (iblk V c 6 t)
        (iblk V c 7 t) (iblk V c 8 t) (ix2 (blkRow a j) k)
      = GE V c (ix2 (pairRow (⟨8 * t.val + a.val, by have := t.isLt; have hN : cfg1.N = 96 := N_1; have := a.isLt; omega⟩ : Fin 768) j) k) := by
  refine (kE_apply _ _ _ _ _ _ _ _ _ a j k).trans ?_
  unfold GE wholeE
  show _ = edgeRow (fun p => V c main_v5 (ix2 (pairRow (⟨8 * t.val + a.val, by have := t.isLt; have hN : cfg1.N = 96 := N_1; have := a.isLt; omega⟩ : Fin 768) j) p))
      (fun p => V c main_v3 (ix2 (nodeOf (pairRow (⟨8 * t.val + a.val, by have := t.isLt; have hN : cfg1.N = 96 := N_1; have := a.isLt; omega⟩ : Fin 768) j)) p)) (fun p => V c main_v3 (ix2 (nbrOf (pairRow (⟨8 * t.val + a.val, by have := t.isLt; have hN : cfg1.N = 96 := N_1; have := a.isLt; omega⟩ : Fin 768) j)) p))
      (V c main_arg6) (V c main_arg8) (V c main_arg9) (V c main_arg10)
      (fun l => V c main_v6 (ix2 (0 : Fin 1) l)) (fun l => V c main_v7 (ix2 (0 : Fin 1) l)) k
  rw [nodeOf_pairRow, nbrOf_pairRow, whole_3 V c t, whole_5 V c t, whole_6 V c t, whole_7 V c t]
  have e0 : (fun p : Fin 100 => iblk (F := Ideal) V c 0 t (ix2 (blkRow a j) p)) = fun p => V c main_v5 (ix2 (pairRow (⟨8 * t.val + a.val, by have := t.isLt; have hN : cfg1.N = 96 := N_1; have := a.isLt; omega⟩ : Fin 768) j) p) :=
    funext fun p => (read_0 V c t (blkRow a j) p).trans (congrArg (fun r => V c main_v5 (ix2 r p))
      (Fin.ext (by show t.val * 6144 + (a.val * 768 + j.val) = (8 * t.val + a.val) * 768 + j.val; omega)))
  have e1 : (fun p : Fin 100 => iblk (F := Ideal) V c 1 t (ix2 a p)) = fun p => V c main_v3 (ix2 (⟨8 * t.val + a.val, by have := t.isLt; have hN : cfg1.N = 96 := N_1; have := a.isLt; omega⟩ : Fin 768) p) :=
    funext fun p => (read_1 V c t a p).trans (congrArg (fun r => V c main_v3 (ix2 r p))
      (Fin.ext (by show t.val * 8 + a.val = 8 * t.val + a.val; omega)))
  have e2 : (fun p : Fin 100 => iblk (F := Ideal) V c 2 t (ix2 j p)) = fun p => V c main_v3 (ix2 j p) :=
    funext fun p => read_2 V c t j p
  have e4 : (fun l : Fin 100 => iblk (F := Ideal) V c 4 t (ix2 (0 : Fin 1) l)) = fun l => V c main_v6 (ix2 (0 : Fin 1) l) :=
    funext fun l => read_4 V c t 0 l
  have e8 : (fun l : Fin 100 => iblk (F := Ideal) V c 8 t (ix2 (0 : Fin 1) l)) = fun l => V c main_v7 (ix2 (0 : Fin 1) l) :=
    funext fun l => read_8 V c t 0 l
  rw [e0, e1, e2, e4, e8]

/-- WHAT POINT `t` WRITES BACK to the edge output is block `t` of the whole step's updated edges. -/
theorem flushedE_eq (c : Dev nD) (t : Fin cfg1.N) :
    (dat (F := Ideal) V c).flushed 13 t = ((cfg1.win 13).blk t).view.read (Elt Ideal) (GE V c) := by
  show (cfg1.win 13).cut (grid1.coords t) ((dat V c).after 13 t) = _
  rw [after_13]
  unfold outE
  rw [View.canon_unit_zero hz]
  simp only [View.ld_unit_zero (S := S6144x100) hz, View.ld_unit_zero (S := S8x100) hz, View.ld_unit_zero (S := S768x100) hz,
    View.ld_unit_zero (S := S100x100) hz, View.ld_unit_zero (S := S1x100) hz]
  funext y
  obtain ⟨r, k, rfl⟩ : ∃ (r : Fin 6144) (k : Fin 100), y = ix2 r k := ⟨y 0, y 1, eq_ix2 y⟩
  obtain ⟨a, j, rfl⟩ : ∃ (a : Fin 8) (j : Fin 768), r = blkRow a j :=
    ⟨⟨r.val / 768, by have := r.isLt; omega⟩, ⟨r.val % 768, by have := r.isLt; omega⟩,
      Fin.ext (by show r.val = r.val / 768 * 768 + r.val % 768; omega)⟩
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  refine ((congrFun (payE_eq _ _ _ _ _ _ _ _ _) _).trans (blockE V c t a j k)).trans ?_
  show GE V c _ = GE V c (((cfg1.win 13).blk t).view.emb (ix2 (blkRow a j) k))
  refine congrArg (GE V c) (funext fun b => Fin.ext ?_)
  match b with
  | ⟨0, _⟩ => show (8 * t.val + a.val) * 768 + j.val = win1_13.index t (0 : Fin 2) * 6144 + 1 * (a.val * 768 + j.val); omega
  | ⟨1, _⟩ => show k.val = win1_13.index t (1 : Fin 2) * 100 + 1 * k.val; omega

/-- WHAT POINT `t` WRITES BACK to the node output is block `t` of the whole step's updated nodes. -/
theorem flushedH_eq (c : Dev nD) (t : Fin cfg1.N) :
    (dat (F := Ideal) V c).flushed 14 t = ((cfg1.win 14).blk t).view.read (Elt Ideal) (GH V c) := by
  show (cfg1.win 14).cut (grid1.coords t) ((dat V c).after 14 t) = _
  rw [after_14]
  unfold outH
  rw [View.canon_unit_zero hz]
  simp only [View.ld_unit_zero (S := S6144x100) hz, View.ld_unit_zero (S := S8x100) hz, View.ld_unit_zero (S := S768x100) hz,
    View.ld_unit_zero (S := S100x100) hz, View.ld_unit_zero (S := S1x100) hz]
  funext y
  obtain ⟨a, k, rfl⟩ : ∃ (a : Fin 8) (k : Fin 100), y = ix2 a k := ⟨y 0, y 1, eq_ix2 y⟩
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  refine ((congrFun (payH_eq _ _ _ _ _ _ _ _ _ _ _ _ _) _).trans (kH_apply _ _ _ _ _ _ a k)).trans ?_
  have hemb : ((cfg1.win 14).blk t).view.emb (ix2 a k) = (ix2 (⟨8 * t.val + a.val, by have := t.isLt; have hN : cfg1.N = 96 := N_1; have := a.isLt; omega⟩ : Fin 768) k : S768x100.Idx) :=
    funext fun b => Fin.ext (by
      match b with
      | ⟨0, _⟩ => show win1_14.index t (0 : Fin 2) * 8 + 1 * a.val = 8 * t.val + a.val; omega
      | ⟨1, _⟩ => show win1_14.index t (1 : Fin 2) * 100 + 1 * k.val = k.val; omega)
  show _ = GH V c (((cfg1.win 14).blk t).view.emb (ix2 a k))
  rw [hemb]
  unfold GH wholeH
  show _ = nodeRow (fun p => V c main_v3 (ix2 (⟨8 * t.val + a.val, by have := t.isLt; have hN : cfg1.N = 96 := N_1; have := a.isLt; omega⟩ : Fin 768) p)) (fun j p => GE V c (ix2 (pairRow (⟨8 * t.val + a.val, by have := t.isLt; have hN : cfg1.N = 96 := N_1; have := a.isLt; omega⟩ : Fin 768) j) p))
      (V c main_arg12) (V c main_arg14) (fun l => V c main_v8 (ix2 (0 : Fin 1) l)) (fun l => V c main_v9 (ix2 (0 : Fin 1) l)) k
  rw [whole_9 V c t, whole_11 V c t]
  have e1 : (fun p : Fin 100 => iblk (F := Ideal) V c 1 t (ix2 a p)) = fun p => V c main_v3 (ix2 (⟨8 * t.val + a.val, by have := t.isLt; have hN : cfg1.N = 96 := N_1; have := a.isLt; omega⟩ : Fin 768) p) :=
    funext fun p => (read_1 V c t a p).trans (congrArg (fun r => V c main_v3 (ix2 r p))
      (Fin.ext (by show t.val * 8 + a.val = 8 * t.val + a.val; omega)))
  have eE : (fun (j : Fin 768) (p : Fin 100) => kE (iblk (F := Ideal) V c 0 t) (iblk V c 1 t) (iblk V c 2 t) (iblk V c 3 t) (iblk V c 4 t)
      (iblk V c 5 t) (iblk V c 6 t) (iblk V c 7 t) (iblk V c 8 t) (ix2 (blkRow a j) p)) = fun j p => GE V c (ix2 (pairRow (⟨8 * t.val + a.val, by have := t.isLt; have hN : cfg1.N = 96 := N_1; have := a.isLt; omega⟩ : Fin 768) j) p) :=
    funext fun j => funext fun p => blockE V c t a j p
  have e10 : (fun l : Fin 100 => iblk (F := Ideal) V c 10 t (ix2 (0 : Fin 1) l)) = fun l => V c main_v8 (ix2 (0 : Fin 1) l) :=
    funext fun l => read_10 V c t 0 l
  have e12 : (fun l : Fin 100 => iblk (F := Ideal) V c 12 t (ix2 (0 : Fin 1) l)) = fun l => V c main_v9 (ix2 (0 : Fin 1) l) :=
    funext fun l => read_12 V c t 0 l
  rw [e1, eE, e10, e12]

/-! ## Every index of an output is in some point's block -/

theorem mem_blk13 (t : Fin cfg1.N) (i : S589824x100.Idx) :
    i ∈ ((cfg1.win 13).blk t).view.set ↔ ∀ a : Fin 2, win1_13.index t a * S6144x100.size a ≤ (i a).val ∧ (i a).val < win1_13.index t a * S6144x100.size a + S6144x100.size a := by
  show i ∈ ((View.whole main_v10_0).slice (win1_13.rect t)).set ↔ _
  rw [View.set_slice_whole, Rect.mem_set_unit]
  exact Iff.rfl

theorem mem_blk14 (t : Fin cfg1.N) (i : S768x100.Idx) :
    i ∈ ((cfg1.win 14).blk t).view.set ↔ ∀ a : Fin 2, win1_14.index t a * S8x100.size a ≤ (i a).val ∧ (i a).val < win1_14.index t a * S8x100.size a + S8x100.size a := by
  show i ∈ ((View.whole main_v10_1).slice (win1_14.rect t)).set ↔ _
  rw [View.set_slice_whole, Rect.mem_set_unit]
  exact Iff.rfl

theorem coveredE (i : S589824x100.Idx) : ∃ t : Fin cfg1.N, (cfg1.win 13).flush t = true ∧ i ∈ ((cfg1.win 13).blk t).view.set := by
  have h0 : (i 0).val < 589824 := (i 0).isLt
  have h1 : (i 1).val < 100 := (i 1).isLt
  have hN : cfg1.N = 96 := N_1
  refine ⟨⟨(i 0).val / 6144, by omega⟩, flush1_13 _, ?_⟩
  rw [mem_blk13]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts ⟨(i 0).val / 6144, by omega⟩
  intro a
  match a with
  | ⟨0, _⟩ => show win1_13.index ⟨(i 0).val / 6144, _⟩ (0 : Fin 2) * 6144 ≤ (i 0).val ∧ (i 0).val < win1_13.index ⟨(i 0).val / 6144, _⟩ (0 : Fin 2) * 6144 + 6144; rw [i13a]; show (i 0).val / 6144 * 6144 ≤ (i 0).val ∧ (i 0).val < (i 0).val / 6144 * 6144 + 6144; omega
  | ⟨1, _⟩ => show win1_13.index ⟨(i 0).val / 6144, _⟩ (1 : Fin 2) * 100 ≤ (i 1).val ∧ (i 1).val < win1_13.index ⟨(i 0).val / 6144, _⟩ (1 : Fin 2) * 100 + 100; rw [i13b]; omega

theorem coveredH (i : S768x100.Idx) : ∃ t : Fin cfg1.N, (cfg1.win 14).flush t = true ∧ i ∈ ((cfg1.win 14).blk t).view.set := by
  have h0 : (i 0).val < 768 := (i 0).isLt
  have h1 : (i 1).val < 100 := (i 1).isLt
  have hN : cfg1.N = 96 := N_1
  refine ⟨⟨(i 0).val / 8, by omega⟩, flush1_14 _, ?_⟩
  rw [mem_blk14]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts ⟨(i 0).val / 8, by omega⟩
  intro a
  match a with
  | ⟨0, _⟩ => show win1_14.index ⟨(i 0).val / 8, _⟩ (0 : Fin 2) * 8 ≤ (i 0).val ∧ (i 0).val < win1_14.index ⟨(i 0).val / 8, _⟩ (0 : Fin 2) * 8 + 8; rw [i14a]; show (i 0).val / 8 * 8 ≤ (i 0).val ∧ (i 0).val < (i 0).val / 8 * 8 + 8; omega
  | ⟨1, _⟩ => show win1_14.index ⟨(i 0).val / 8, _⟩ (1 : Fin 2) * 100 ≤ (i 1).val ∧ (i 1).val < win1_14.index ⟨(i 0).val / 8, _⟩ (1 : Fin 2) * 100 + 100; rw [i14b]; omega

/-! ## The outputs after the region -/

theorem finalE (c : Dev nD) : (dat (F := Ideal) V c).arrAt 13 cfg1.N = GE V c :=
  (dat (F := Ideal) V c).arrAt_eq_of_cover 13 (GE V c) (fun t _ => flushedE_eq V c t) coveredE
theorem finalH (c : Dev nD) : (dat (F := Ideal) V c).arrAt 14 cfg1.N = GH V c :=
  (dat (F := Ideal) V c).arrAt_eq_of_cover 14 (GH V c) (fun t _ => flushedH_eq V c t) coveredH

/-! ## The same in the host operations' terms -/

/-- The region's updated edges are one step's edge half of the arrays it finds, for bias vectors whose rows its bias buffers are. -/
theorem GE_eq (c : Dev nD) (beij bde : FVec Ideal SB .f32)
    (hb1 : ∀ l : Fin 100, V c main_v6 (ix2 (0 : Fin 1) l) = beij (ix1 l)) (hb2 : ∀ l : Fin 100, V c main_v7 (ix2 (0 : Fin 1) l) = bde (ix1 l)) :
    GE V c = stepE (F := Ideal) (V c main_v5) (V c main_v3) (V c main_arg6) beij (V c main_arg8) (V c main_arg9) (V c main_arg10) bde := by
  unfold GE
  rw [funext hb1, funext hb2]
  exact (stepE_eq_whole _ _ _ _ _ _ _ _).symm

/-- The region's updated nodes are one step's node half, from its updated edges. -/
theorem GH_eq (c : Dev nD) (bdv1 bdv2 : FVec Ideal SB .f32)
    (hb3 : ∀ l : Fin 100, V c main_v8 (ix2 (0 : Fin 1) l) = bdv1 (ix1 l)) (hb4 : ∀ l : Fin 100, V c main_v9 (ix2 (0 : Fin 1) l) = bdv2 (ix1 l)) :
    GH V c = stepH (F := Ideal) (GE V c) (V c main_v3) (V c main_arg12) bdv1 (V c main_arg14) bdv2 := by
  unfold GH
  rw [funext hb3, funext hb4]
  exact (stepH_eq_whole _ _ _ _ _ _).symm

end Cert.KernelIdeal.Upd1

end
-- ==== Proof.KI.UpdVal2.lean ====
/-
  The second message-passing step's values. The body's two payloads are the block step's updated edge and node rows of the
  staged buffers; at grid point t the edge window stages edge rows t·6144 … t·6144 + 6143 (the pairs of nodes 8t … 8t + 7
  with every node), the node window stages node rows 8t … 8t + 7, and every other window stages its whole array.
-/
import proofs.«143411_j23983097381472_2_alg».proof.Proof.KI.UpdDat2
import proofs.«143411_j23983097381472_2_alg».proof.Proof.KSpec
import proofs.«143411_j23983097381472_2_alg».proof.Proof.Whole
import proofs.«143411_j23983097381472_2_alg».proof.Proof.StepWhole

set_option maxRecDepth 16384

noncomputable section

namespace Cert.KernelIdeal.Upd2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Blk Cert.Step Idealize.ShloMosaic.ValueIdx

/-- The body's edge payload is the block step's updated edge rows. -/
theorem payE_eq (x0 : Vec Ideal S6144x100 .f32) (x1 : Vec Ideal S8x100 .f32) (x2 : Vec Ideal S768x100 .f32) (x3 : Vec Ideal S100x100 .f32)
    (x4 : Vec Ideal S1x100 .f32) (x5 x6 x7 : Vec Ideal S100x100 .f32) (x8 : Vec Ideal S1x100 .f32) :
    k2_pay1 (k2_pay3 x0) (k2_pay5 x0 x3 x4 x1 x2 x5 x6 x7) x8 = kE x0 x1 x2 x3 x4 x5 x6 x7 x8 := rfl

/-- The body's node payload is the block step's updated node rows, from its updated edge rows. -/
theorem payH_eq (x0 : Vec Ideal S6144x100 .f32) (x1 : Vec Ideal S8x100 .f32) (x2 : Vec Ideal S768x100 .f32) (x3 : Vec Ideal S100x100 .f32)
    (x4 : Vec Ideal S1x100 .f32) (x5 x6 x7 : Vec Ideal S100x100 .f32) (x8 : Vec Ideal S1x100 .f32)
    (x9 : Vec Ideal S100x100 .f32) (x10 : Vec Ideal S1x100 .f32) (x11 : Vec Ideal S100x100 .f32) (x12 : Vec Ideal S1x100 .f32) :
    k2_pay2 (k2_pay3 x0) (k2_pay4 x1) (k2_pay5 x0 x3 x4 x1 x2 x5 x6 x7) x8 x9 x10 x11 x12
      = kH (kE x0 x1 x2 x3 x4 x5 x6 x7 x8) x1 x9 x10 x11 x12 := rfl

/-- The printed index maps, decided over the grid: the edge and node windows move with the point, every other is fixed. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = t.val ∧ win2_13.index t (1 : Fin 2) = 0
    ∧ win2_14.index t (0 : Fin 2) = t.val ∧ win2_14.index t (1 : Fin 2) = 0 :=
  (by decide +kernel : ∀ t : Fin grid2.N, _)

variable (V : (c : Dev nD) → (b : Ref sig .tc) → Buf (Elt Ideal) ((c : Thread nD τ).loc b))

/-! Each input window's block at a point, read off its array. -/
theorem read_0 (c : Dev nD) (t : Fin cfg2.N) (r : Fin 6144) (p : Fin 100) :
    iblk (F := Ideal) V c 0 t (ix2 r p) = V c main_v10_0 (ix2 ((⟨t.val * 6144 + r.val, by have := t.isLt; have hN : cfg2.N = 96 := N_2; have := r.isLt; omega⟩ : Fin 589824)) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v10_0 (((cfg2.win 0).blk t).view.emb (ix2 r p)) = _
  refine congrArg (V c main_v10_0) (funext fun a => Fin.ext ?_)
  match a with
  | ⟨0, _⟩ => show win2_0.index t (0 : Fin 2) * 6144 + 1 * r.val = t.val * 6144 + r.val; omega
  | ⟨1, _⟩ => show win2_0.index t (1 : Fin 2) * 100 + 1 * p.val = p.val; omega
theorem read_1 (c : Dev nD) (t : Fin cfg2.N) (r : Fin 8) (p : Fin 100) :
    iblk (F := Ideal) V c 1 t (ix2 r p) = V c main_v10_1 (ix2 ((⟨t.val * 8 + r.val, by have := t.isLt; have hN : cfg2.N = 96 := N_2; have := r.isLt; omega⟩ : Fin 768)) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v10_1 (((cfg2.win 1).blk t).view.emb (ix2 r p)) = _
  refine congrArg (V c main_v10_1) (funext fun a => Fin.ext ?_)
  match a with
  | ⟨0, _⟩ => show win2_1.index t (0 : Fin 2) * 8 + 1 * r.val = t.val * 8 + r.val; omega
  | ⟨1, _⟩ => show win2_1.index t (1 : Fin 2) * 100 + 1 * p.val = p.val; omega
theorem read_2 (c : Dev nD) (t : Fin cfg2.N) (r : Fin 768) (p : Fin 100) :
    iblk (F := Ideal) V c 2 t (ix2 r p) = V c main_v10_1 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v10_1 (((cfg2.win 2).blk t).view.emb (ix2 r p)) = _
  refine congrArg (V c main_v10_1) (funext fun a => Fin.ext ?_)
  match a with
  | ⟨0, _⟩ => show win2_2.index t (0 : Fin 2) * 768 + 1 * r.val = r.val; omega
  | ⟨1, _⟩ => show win2_2.index t (1 : Fin 2) * 100 + 1 * p.val = p.val; omega
theorem read_3 (c : Dev nD) (t : Fin cfg2.N) (r : Fin 100) (p : Fin 100) :
    iblk (F := Ideal) V c 3 t (ix2 r p) = V c main_arg6 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg6 (((cfg2.win 3).blk t).view.emb (ix2 r p)) = _
  refine congrArg (V c main_arg6) (funext fun a => Fin.ext ?_)
  match a with
  | ⟨0, _⟩ => show win2_3.index t (0 : Fin 2) * 100 + 1 * r.val = r.val; omega
  | ⟨1, _⟩ => show win2_3.index t (1 : Fin 2) * 100 + 1 * p.val = p.val; omega
theorem read_4 (c : Dev nD) (t : Fin cfg2.N) (r : Fin 1) (p : Fin 100) :
    iblk (F := Ideal) V c 4 t (ix2 r p) = V c main_v11 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v11 (((cfg2.win 4).blk t).view.emb (ix2 r p)) = _
  refine congrArg (V c main_v11) (funext fun a => Fin.ext ?_)
  match a with
  | ⟨0, _⟩ => show win2_4.index t (0 : Fin 2) * 1 + 1 * r.val = r.val; omega
  | ⟨1, _⟩ => show win2_4.index t (1 : Fin 2) * 100 + 1 * p.val = p.val; omega
theorem read_5 (c : Dev nD) (t : Fin cfg2.N) (r : Fin 100) (p : Fin 100) :
    iblk (F := Ideal) V c 5 t (ix2 r p) = V c main_arg8 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg8 (((cfg2.win 5).blk t).view.emb (ix2 r p)) = _
  refine congrArg (V c main_arg8) (funext fun a => Fin.ext ?_)
  match a with
  | ⟨0, _⟩ => show win2_5.index t (0 : Fin 2) * 100 + 1 * r.val = r.val; omega
  | ⟨1, _⟩ => show win2_5.index t (1 : Fin 2) * 100 + 1 * p.val = p.val; omega
theorem read_6 (c : Dev nD) (t : Fin cfg2.N) (r : Fin 100) (p : Fin 100) :
    iblk (F := Ideal) V c 6 t (ix2 r p) = V c main_arg9 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg9 (((cfg2.win 6).blk t).view.emb (ix2 r p)) = _
  refine congrArg (V c main_arg9) (funext fun a => Fin.ext ?_)
  match a with
  | ⟨0, _⟩ => show win2_6.index t (0 : Fin 2) * 100 + 1 * r.val = r.val; omega
  | ⟨1, _⟩ => show win2_6.index t (1 : Fin 2) * 100 + 1 * p.val = p.val; omega
theorem read_7 (c : Dev nD) (t : Fin cfg2.N) (r : Fin 100) (p : Fin 100) :
    iblk (F := Ideal) V c 7 t (ix2 r p) = V c main_arg10 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg10 (((cfg2.win 7).blk t).view.emb (ix2 r p)) = _
  refine congrArg (V c main_arg10) (funext fun a => Fin.ext ?_)
  match a with
  | ⟨0, _⟩ => show win2_7.index t (0 : Fin 2) * 100 + 1 * r.val = r.val; omega
  | ⟨1, _⟩ => show win2_7.index t (1 : Fin 2) * 100 + 1 * p.val = p.val; omega
theorem read_8 (c : Dev nD) (t : Fin cfg2.N) (r : Fin 1) (p : Fin 100) :
    iblk (F := Ideal) V c 8 t (ix2 r p) = V c main_v12 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v12 (((cfg2.win 8).blk t).view.emb (ix2 r p)) = _
  refine congrArg (V c main_v12) (funext fun a => Fin.ext ?_)
  match a with
  | ⟨0, _⟩ => show win2_8.index t (0 : Fin 2) * 1 + 1 * r.val = r.val; omega
  | ⟨1, _⟩ => show win2_8.index t (1 : Fin 2) * 100 + 1 * p.val = p.val; omega
theorem read_9 (c : Dev nD) (t : Fin cfg2.N) (r : Fin 100) (p : Fin 100) :
    iblk (F := Ideal) V c 9 t (ix2 r p) = V c main_arg12 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg12 (((cfg2.win 9).blk t).view.emb (ix2 r p)) = _
  refine congrArg (V c main_arg12) (funext fun a => Fin.ext ?_)
  match a with
  | ⟨0, _⟩ => show win2_9.index t (0 : Fin 2) * 100 + 1 * r.val = r.val; omega
  | ⟨1, _⟩ => show win2_9.index t (1 : Fin 2) * 100 + 1 * p.val = p.val; omega
theorem read_10 (c : Dev nD) (t : Fin cfg2.N) (r : Fin 1) (p : Fin 100) :
    iblk (F := Ideal) V c 10 t (ix2 r p) = V c main_v13 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v13 (((cfg2.win 10).blk t).view.emb (ix2 r p)) = _
  refine congrArg (V c main_v13) (funext fun a => Fin.ext ?_)
  match a with
  | ⟨0, _⟩ => show win2_10.index t (0 : Fin 2) * 1 + 1 * r.val = r.val; omega
  | ⟨1, _⟩ => show win2_10.index t (1 : Fin 2) * 100 + 1 * p.val = p.val; omega
theorem read_11 (c : Dev nD) (t : Fin cfg2.N) (r : Fin 100) (p : Fin 100) :
    iblk (F := Ideal) V c 11 t (ix2 r p) = V c main_arg14 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg14 (((cfg2.win 11).blk t).view.emb (ix2 r p)) = _
  refine congrArg (V c main_arg14) (funext fun a => Fin.ext ?_)
  match a with
  | ⟨0, _⟩ => show win2_11.index t (0 : Fin 2) * 100 + 1 * r.val = r.val; omega
  | ⟨1, _⟩ => show win2_11.index t (1 : Fin 2) * 100 + 1 * p.val = p.val; omega
theorem read_12 (c : Dev nD) (t : Fin cfg2.N) (r : Fin 1) (p : Fin 100) :
    iblk (F := Ideal) V c 12 t (ix2 r p) = V c main_v14 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v14 (((cfg2.win 12).blk t).view.emb (ix2 r p)) = _
  refine congrArg (V c main_v14) (funext fun a => Fin.ext ?_)
  match a with
  | ⟨0, _⟩ => show win2_12.index t (0 : Fin 2) * 1 + 1 * r.val = r.val; omega
  | ⟨1, _⟩ => show win2_12.index t (1 : Fin 2) * 100 + 1 * p.val = p.val; omega

/-! ## The step on the whole arrays, as the region finds them -/

/-- The updated edges and nodes of the whole arrays: the bias buffers are rows. -/
def GE (c : Dev nD) : S589824x100.Idx → EReal :=
  wholeE (V c main_v10_0) (V c main_v10_1) (V c main_arg6) (V c main_arg8) (V c main_arg9) (V c main_arg10)
    (fun l => V c main_v11 (ix2 (0 : Fin 1) l)) (fun l => V c main_v12 (ix2 (0 : Fin 1) l))
def GH (c : Dev nD) : S768x100.Idx → EReal :=
  wholeH (GE V c) (V c main_v10_1) (V c main_arg12) (V c main_arg14)
    (fun l => V c main_v13 (ix2 (0 : Fin 1) l)) (fun l => V c main_v14 (ix2 (0 : Fin 1) l))

theorem hz : (![0, 0] : Fin 2 → Nat) = fun _ => 0 := funext fun a => by fin_cases a <;> rfl

/-- A resident window's block is its whole array. -/
theorem whole_3 (c : Dev nD) (t : Fin cfg2.N) : (iblk (F := Ideal) V c 3 t : S100x100.Idx → EReal) = (V c main_arg6 : S100x100.Idx → EReal) :=
  funext fun y => by
    obtain ⟨r, p, rfl⟩ : ∃ (r : Fin 100) (p : Fin 100), y = ix2 r p := ⟨y 0, y 1, eq_ix2 y⟩
    exact read_3 V c t r p
theorem whole_5 (c : Dev nD) (t : Fin cfg2.N) : (iblk (F := Ideal) V c 5 t : S100x100.Idx → EReal) = (V c main_arg8 : S100x100.Idx → EReal) :=
  funext fun y => by
    obtain ⟨r, p, rfl⟩ : ∃ (r : Fin 100) (p : Fin 100), y = ix2 r p := ⟨y 0, y 1, eq_ix2 y⟩
    exact read_5 V c t r p
theorem whole_6 (c : Dev nD) (t : Fin cfg2.N) : (iblk (F := Ideal) V c 6 t : S100x100.Idx → EReal) = (V c main_arg9 : S100x100.Idx → EReal) :=
  funext fun y => by
    obtain ⟨r, p, rfl⟩ : ∃ (r : Fin 100) (p : Fin 100), y = ix2 r p := ⟨y 0, y 1, eq_ix2 y⟩
    exact read_6 V c t r p
theorem whole_7 (c : Dev nD) (t : Fin cfg2.N) : (iblk (F := Ideal) V c 7 t : S100x100.Idx → EReal) = (V c main_arg10 : S100x100.Idx → EReal) :=
  funext fun y => by
    obtain ⟨r, p, rfl⟩ : ∃ (r : Fin 100) (p : Fin 100), y = ix2 r p := ⟨y 0, y 1, eq_ix2 y⟩
    exact read_7 V c t r p
theorem whole_9 (c : Dev nD) (t : Fin cfg2.N) : (iblk (F := Ideal) V c 9 t : S100x100.Idx → EReal) = (V c main_arg12 : S100x100.Idx → EReal) :=
  funext fun y => by
    obtain ⟨r, p, rfl⟩ : ∃ (r : Fin 100) (p : Fin 100), y = ix2 r p := ⟨y 0, y 1, eq_ix2 y⟩
    exact read_9 V c t r p
theorem whole_11 (c : Dev nD) (t : Fin cfg2.N) : (iblk (F := Ideal) V c 11 t : S100x100.Idx → EReal) = (V c main_arg14 : S100x100.Idx → EReal) :=
  funext fun y => by
    obtain ⟨r, p, rfl⟩ : ∃ (r : Fin 100) (p : Fin 100), y = ix2 r p := ⟨y 0, y 1, eq_ix2 y⟩
    exact read_11 V c t r p

/-- The block step's updated edge rows at point `t`, at the pair (a, j) of the block, are the whole step's at the pair
    (8t + a, j): the block's edge rows, node rows and resident weights are the arrays' at those places. -/
theorem blockE (c : Dev nD) (t : Fin cfg2.N) (a : Fin 8) (j : Fin 768) (k : Fin 100) :
    kE (iblk (F := Ideal) V c 0 t) (iblk V c 1 t) (iblk V c 2 t) (iblk V c 3 t) (iblk V c 4 t) (iblk V c 5 t) (iblk V c 6 t)
        (iblk V c 7 t) (iblk V c 8 t) (ix2 (blkRow a j) k)
      = GE V c (ix2 (pairRow (⟨8 * t.val + a.val, by have := t.isLt; have hN : cfg2.N = 96 := N_2; have := a.isLt; omega⟩ : Fin 768) j) k) := by
  refine (kE_apply _ _ _ _ _ _ _ _ _ a j k).trans ?_
  unfold GE wholeE
  show _ = edgeRow (fun p => V c main_v10_0 (ix2 (pairRow (⟨8 * t.val + a.val, by have := t.isLt; have hN : cfg2.N = 96 := N_2; have := a.isLt; omega⟩ : Fin 768) j) p))
      (fun p => V c main_v10_1 (ix2 (nodeOf (pairRow (⟨8 * t.val + a.val, by have := t.isLt; have hN : cfg2.N = 96 := N_2; have := a.isLt; omega⟩ : Fin 768) j)) p)) (fun p => V c main_v10_1 (ix2 (nbrOf (pairRow (⟨8 * t.val + a.val, by have := t.isLt; have hN : cfg2.N = 96 := N_2; have := a.isLt; omega⟩ : Fin 768) j)) p))
      (V c main_arg6) (V c main_arg8) (V c main_arg9) (V c main_arg10)
      (fun l => V c main_v11 (ix2 (0 : Fin 1) l)) (fun l => V c main_v12 (ix2 (0 : Fin 1) l)) k
  rw [nodeOf_pairRow, nbrOf_pairRow, whole_3 V c t, whole_5 V c t, whole_6 V c t, whole_7 V c t]
  have e0 : (fun p : Fin 100 => iblk (F := Ideal) V c 0 t (ix2 (blkRow a j) p)) = fun p => V c main_v10_0 (ix2 (pairRow (⟨8 * t.val + a.val, by have := t.isLt; have hN : cfg2.N = 96 := N_2; have := a.isLt; omega⟩ : Fin 768) j) p) :=
    funext fun p => (read_0 V c t (blkRow a j) p).trans (congrArg (fun r => V c main_v10_0 (ix2 r p))
      (Fin.ext (by show t.val * 6144 + (a.val * 768 + j.val) = (8 * t.val + a.val) * 768 + j.val; omega)))
  have e1 : (fun p : Fin 100 => iblk (F := Ideal) V c 1 t (ix2 a p)) = fun p => V c main_v10_1 (ix2 (⟨8 * t.val + a.val, by have := t.isLt; have hN : cfg2.N = 96 := N_2; have := a.isLt; omega⟩ : Fin 768) p) :=
    funext fun p => (read_1 V c t a p).trans (congrArg (fun r => V c main_v10_1 (ix2 r p))
      (Fin.ext (by show t.val * 8 + a.val = 8 * t.val + a.val; omega)))
  have e2 : (fun p : Fin 100 => iblk (F := Ideal) V c 2 t (ix2 j p)) = fun p => V c main_v10_1 (ix2 j p) :=
    funext fun p => read_2 V c t j p
  have e4 : (fun l : Fin 100 => iblk (F := Ideal) V c 4 t (ix2 (0 : Fin 1) l)) = fun l => V c main_v11 (ix2 (0 : Fin 1) l) :=
    funext fun l => read_4 V c t 0 l
  have e8 : (fun l : Fin 100 => iblk (F := Ideal) V c 8 t (ix2 (0 : Fin 1) l)) = fun l => V c main_v12 (ix2 (0 : Fin 1) l) :=
    funext fun l => read_8 V c t 0 l
  rw [e0, e1, e2, e4, e8]

/-- WHAT POINT `t` WRITES BACK to the edge output is block `t` of the whole step's updated edges. -/
theorem flushedE_eq (c : Dev nD) (t : Fin cfg2.N) :
    (dat (F := Ideal) V c).flushed 13 t = ((cfg2.win 13).blk t).view.read (Elt Ideal) (GE V c) := by
  show (cfg2.win 13).cut (grid2.coords t) ((dat V c).after 13 t) = _
  rw [after_13]
  unfold outE
  rw [View.canon_unit_zero hz]
  simp only [View.ld_unit_zero (S := S6144x100) hz, View.ld_unit_zero (S := S8x100) hz, View.ld_unit_zero (S := S768x100) hz,
    View.ld_unit_zero (S := S100x100) hz, View.ld_unit_zero (S := S1x100) hz]
  funext y
  obtain ⟨r, k, rfl⟩ : ∃ (r : Fin 6144) (k : Fin 100), y = ix2 r k := ⟨y 0, y 1, eq_ix2 y⟩
  obtain ⟨a, j, rfl⟩ : ∃ (a : Fin 8) (j : Fin 768), r = blkRow a j :=
    ⟨⟨r.val / 768, by have := r.isLt; omega⟩, ⟨r.val % 768, by have := r.isLt; omega⟩,
      Fin.ext (by show r.val = r.val / 768 * 768 + r.val % 768; omega)⟩
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  refine ((congrFun (payE_eq _ _ _ _ _ _ _ _ _) _).trans (blockE V c t a j k)).trans ?_
  show GE V c _ = GE V c (((cfg2.win 13).blk t).view.emb (ix2 (blkRow a j) k))
  refine congrArg (GE V c) (funext fun b => Fin.ext ?_)
  match b with
  | ⟨0, _⟩ => show (8 * t.val + a.val) * 768 + j.val = win2_13.index t (0 : Fin 2) * 6144 + 1 * (a.val * 768 + j.val); omega
  | ⟨1, _⟩ => show k.val = win2_13.index t (1 : Fin 2) * 100 + 1 * k.val; omega

/-- WHAT POINT `t` WRITES BACK to the node output is block `t` of the whole step's updated nodes. -/
theorem flushedH_eq (c : Dev nD) (t : Fin cfg2.N) :
    (dat (F := Ideal) V c).flushed 14 t = ((cfg2.win 14).blk t).view.read (Elt Ideal) (GH V c) := by
  show (cfg2.win 14).cut (grid2.coords t) ((dat V c).after 14 t) = _
  rw [after_14]
  unfold outH
  rw [View.canon_unit_zero hz]
  simp only [View.ld_unit_zero (S := S6144x100) hz, View.ld_unit_zero (S := S8x100) hz, View.ld_unit_zero (S := S768x100) hz,
    View.ld_unit_zero (S := S100x100) hz, View.ld_unit_zero (S := S1x100) hz]
  funext y
  obtain ⟨a, k, rfl⟩ : ∃ (a : Fin 8) (k : Fin 100), y = ix2 a k := ⟨y 0, y 1, eq_ix2 y⟩
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  refine ((congrFun (payH_eq _ _ _ _ _ _ _ _ _ _ _ _ _) _).trans (kH_apply _ _ _ _ _ _ a k)).trans ?_
  have hemb : ((cfg2.win 14).blk t).view.emb (ix2 a k) = (ix2 (⟨8 * t.val + a.val, by have := t.isLt; have hN : cfg2.N = 96 := N_2; have := a.isLt; omega⟩ : Fin 768) k : S768x100.Idx) :=
    funext fun b => Fin.ext (by
      match b with
      | ⟨0, _⟩ => show win2_14.index t (0 : Fin 2) * 8 + 1 * a.val = 8 * t.val + a.val; omega
      | ⟨1, _⟩ => show win2_14.index t (1 : Fin 2) * 100 + 1 * k.val = k.val; omega)
  show _ = GH V c (((cfg2.win 14).blk t).view.emb (ix2 a k))
  rw [hemb]
  unfold GH wholeH
  show _ = nodeRow (fun p => V c main_v10_1 (ix2 (⟨8 * t.val + a.val, by have := t.isLt; have hN : cfg2.N = 96 := N_2; have := a.isLt; omega⟩ : Fin 768) p)) (fun j p => GE V c (ix2 (pairRow (⟨8 * t.val + a.val, by have := t.isLt; have hN : cfg2.N = 96 := N_2; have := a.isLt; omega⟩ : Fin 768) j) p))
      (V c main_arg12) (V c main_arg14) (fun l => V c main_v13 (ix2 (0 : Fin 1) l)) (fun l => V c main_v14 (ix2 (0 : Fin 1) l)) k
  rw [whole_9 V c t, whole_11 V c t]
  have e1 : (fun p : Fin 100 => iblk (F := Ideal) V c 1 t (ix2 a p)) = fun p => V c main_v10_1 (ix2 (⟨8 * t.val + a.val, by have := t.isLt; have hN : cfg2.N = 96 := N_2; have := a.isLt; omega⟩ : Fin 768) p) :=
    funext fun p => (read_1 V c t a p).trans (congrArg (fun r => V c main_v10_1 (ix2 r p))
      (Fin.ext (by show t.val * 8 + a.val = 8 * t.val + a.val; omega)))
  have eE : (fun (j : Fin 768) (p : Fin 100) => kE (iblk (F := Ideal) V c 0 t) (iblk V c 1 t) (iblk V c 2 t) (iblk V c 3 t) (iblk V c 4 t)
      (iblk V c 5 t) (iblk V c 6 t) (iblk V c 7 t) (iblk V c 8 t) (ix2 (blkRow a j) p)) = fun j p => GE V c (ix2 (pairRow (⟨8 * t.val + a.val, by have := t.isLt; have hN : cfg2.N = 96 := N_2; have := a.isLt; omega⟩ : Fin 768) j) p) :=
    funext fun j => funext fun p => blockE V c t a j p
  have e10 : (fun l : Fin 100 => iblk (F := Ideal) V c 10 t (ix2 (0 : Fin 1) l)) = fun l => V c main_v13 (ix2 (0 : Fin 1) l) :=
    funext fun l => read_10 V c t 0 l
  have e12 : (fun l : Fin 100 => iblk (F := Ideal) V c 12 t (ix2 (0 : Fin 1) l)) = fun l => V c main_v14 (ix2 (0 : Fin 1) l) :=
    funext fun l => read_12 V c t 0 l
  rw [e1, eE, e10, e12]

/-! ## Every index of an output is in some point's block -/

theorem mem_blk13 (t : Fin cfg2.N) (i : S589824x100.Idx) :
    i ∈ ((cfg2.win 13).blk t).view.set ↔ ∀ a : Fin 2, win2_13.index t a * S6144x100.size a ≤ (i a).val ∧ (i a).val < win2_13.index t a * S6144x100.size a + S6144x100.size a := by
  show i ∈ ((View.whole main_v15_0).slice (win2_13.rect t)).set ↔ _
  rw [View.set_slice_whole, Rect.mem_set_unit]
  exact Iff.rfl

theorem mem_blk14 (t : Fin cfg2.N) (i : S768x100.Idx) :
    i ∈ ((cfg2.win 14).blk t).view.set ↔ ∀ a : Fin 2, win2_14.index t a * S8x100.size a ≤ (i a).val ∧ (i a).val < win2_14.index t a * S8x100.size a + S8x100.size a := by
  show i ∈ ((View.whole main_v15_1).slice (win2_14.rect t)).set ↔ _
  rw [View.set_slice_whole, Rect.mem_set_unit]
  exact Iff.rfl

theorem coveredE (i : S589824x100.Idx) : ∃ t : Fin cfg2.N, (cfg2.win 13).flush t = true ∧ i ∈ ((cfg2.win 13).blk t).view.set := by
  have h0 : (i 0).val < 589824 := (i 0).isLt
  have h1 : (i 1).val < 100 := (i 1).isLt
  have hN : cfg2.N = 96 := N_2
  refine ⟨⟨(i 0).val / 6144, by omega⟩, flush2_13 _, ?_⟩
  rw [mem_blk13]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts ⟨(i 0).val / 6144, by omega⟩
  intro a
  match a with
  | ⟨0, _⟩ => show win2_13.index ⟨(i 0).val / 6144, _⟩ (0 : Fin 2) * 6144 ≤ (i 0).val ∧ (i 0).val < win2_13.index ⟨(i 0).val / 6144, _⟩ (0 : Fin 2) * 6144 + 6144; rw [i13a]; show (i 0).val / 6144 * 6144 ≤ (i 0).val ∧ (i 0).val < (i 0).val / 6144 * 6144 + 6144; omega
  | ⟨1, _⟩ => show win2_13.index ⟨(i 0).val / 6144, _⟩ (1 : Fin 2) * 100 ≤ (i 1).val ∧ (i 1).val < win2_13.index ⟨(i 0).val / 6144, _⟩ (1 : Fin 2) * 100 + 100; rw [i13b]; omega

theorem coveredH (i : S768x100.Idx) : ∃ t : Fin cfg2.N, (cfg2.win 14).flush t = true ∧ i ∈ ((cfg2.win 14).blk t).view.set := by
  have h0 : (i 0).val < 768 := (i 0).isLt
  have h1 : (i 1).val < 100 := (i 1).isLt
  have hN : cfg2.N = 96 := N_2
  refine ⟨⟨(i 0).val / 8, by omega⟩, flush2_14 _, ?_⟩
  rw [mem_blk14]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts ⟨(i 0).val / 8, by omega⟩
  intro a
  match a with
  | ⟨0, _⟩ => show win2_14.index ⟨(i 0).val / 8, _⟩ (0 : Fin 2) * 8 ≤ (i 0).val ∧ (i 0).val < win2_14.index ⟨(i 0).val / 8, _⟩ (0 : Fin 2) * 8 + 8; rw [i14a]; show (i 0).val / 8 * 8 ≤ (i 0).val ∧ (i 0).val < (i 0).val / 8 * 8 + 8; omega
  | ⟨1, _⟩ => show win2_14.index ⟨(i 0).val / 8, _⟩ (1 : Fin 2) * 100 ≤ (i 1).val ∧ (i 1).val < win2_14.index ⟨(i 0).val / 8, _⟩ (1 : Fin 2) * 100 + 100; rw [i14b]; omega

/-! ## The outputs after the region -/

theorem finalE (c : Dev nD) : (dat (F := Ideal) V c).arrAt 13 cfg2.N = GE V c :=
  (dat (F := Ideal) V c).arrAt_eq_of_cover 13 (GE V c) (fun t _ => flushedE_eq V c t) coveredE
theorem finalH (c : Dev nD) : (dat (F := Ideal) V c).arrAt 14 cfg2.N = GH V c :=
  (dat (F := Ideal) V c).arrAt_eq_of_cover 14 (GH V c) (fun t _ => flushedH_eq V c t) coveredH

/-! ## The same in the host operations' terms -/

/-- The region's updated edges are one step's edge half of the arrays it finds, for bias vectors whose rows its bias buffers are. -/
theorem GE_eq (c : Dev nD) (beij bde : FVec Ideal SB .f32)
    (hb1 : ∀ l : Fin 100, V c main_v11 (ix2 (0 : Fin 1) l) = beij (ix1 l)) (hb2 : ∀ l : Fin 100, V c main_v12 (ix2 (0 : Fin 1) l) = bde (ix1 l)) :
    GE V c = stepE (F := Ideal) (V c main_v10_0) (V c main_v10_1) (V c main_arg6) beij (V c main_arg8) (V c main_arg9) (V c main_arg10) bde := by
  unfold GE
  rw [funext hb1, funext hb2]
  exact (stepE_eq_whole _ _ _ _ _ _ _ _).symm

/-- The region's updated nodes are one step's node half, from its updated edges. -/
theorem GH_eq (c : Dev nD) (bdv1 bdv2 : FVec Ideal SB .f32)
    (hb3 : ∀ l : Fin 100, V c main_v13 (ix2 (0 : Fin 1) l) = bdv1 (ix1 l)) (hb4 : ∀ l : Fin 100, V c main_v14 (ix2 (0 : Fin 1) l) = bdv2 (ix1 l)) :
    GH V c = stepH (F := Ideal) (GE V c) (V c main_v10_1) (V c main_arg12) bdv1 (V c main_arg14) bdv2 := by
  unfold GH
  rw [funext hb3, funext hb4]
  exact (stepH_eq_whole _ _ _ _ _ _).symm

end Cert.KernelIdeal.Upd2

end
-- ==== Proof.KI.UpdVal3.lean ====
/-
  The third message-passing step's values. The body's two payloads are the block step's updated edge and node rows of the
  staged buffers; at grid point t the edge window stages edge rows t·6144 … t·6144 + 6143 (the pairs of nodes 8t … 8t + 7
  with every node), the node window stages node rows 8t … 8t + 7, and every other window stages its whole array.
-/
import proofs.«143411_j23983097381472_2_alg».proof.Proof.KI.UpdDat3
import proofs.«143411_j23983097381472_2_alg».proof.Proof.KSpec
import proofs.«143411_j23983097381472_2_alg».proof.Proof.Whole
import proofs.«143411_j23983097381472_2_alg».proof.Proof.StepWhole

set_option maxRecDepth 16384

noncomputable section

namespace Cert.KernelIdeal.Upd3

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Blk Cert.Step Idealize.ShloMosaic.ValueIdx

/-- The body's edge payload is the block step's updated edge rows. -/
theorem payE_eq (x0 : Vec Ideal S6144x100 .f32) (x1 : Vec Ideal S8x100 .f32) (x2 : Vec Ideal S768x100 .f32) (x3 : Vec Ideal S100x100 .f32)
    (x4 : Vec Ideal S1x100 .f32) (x5 x6 x7 : Vec Ideal S100x100 .f32) (x8 : Vec Ideal S1x100 .f32) :
    k3_pay1 (k3_pay3 x0) (k3_pay5 x0 x3 x4 x1 x2 x5 x6 x7) x8 = kE x0 x1 x2 x3 x4 x5 x6 x7 x8 := rfl

/-- The body's node payload is the block step's updated node rows, from its updated edge rows. -/
theorem payH_eq (x0 : Vec Ideal S6144x100 .f32) (x1 : Vec Ideal S8x100 .f32) (x2 : Vec Ideal S768x100 .f32) (x3 : Vec Ideal S100x100 .f32)
    (x4 : Vec Ideal S1x100 .f32) (x5 x6 x7 : Vec Ideal S100x100 .f32) (x8 : Vec Ideal S1x100 .f32)
    (x9 : Vec Ideal S100x100 .f32) (x10 : Vec Ideal S1x100 .f32) (x11 : Vec Ideal S100x100 .f32) (x12 : Vec Ideal S1x100 .f32) :
    k3_pay2 (k3_pay3 x0) (k3_pay4 x1) (k3_pay5 x0 x3 x4 x1 x2 x5 x6 x7) x8 x9 x10 x11 x12
      = kH (kE x0 x1 x2 x3 x4 x5 x6 x7 x8) x1 x9 x10 x11 x12 := rfl

/-- The printed index maps, decided over the grid: the edge and node windows move with the point, every other is fixed. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = 0 ∧ win3_11.index t (1 : Fin 2) = 0
    ∧ win3_12.index t (0 : Fin 2) = 0 ∧ win3_12.index t (1 : Fin 2) = 0
    ∧ win3_13.index t (0 : Fin 2) = t.val ∧ win3_13.index t (1 : Fin 2) = 0
    ∧ win3_14.index t (0 : Fin 2) = t.val ∧ win3_14.index t (1 : Fin 2) = 0 :=
  (by decide +kernel : ∀ t : Fin grid3.N, _)

variable (V : (c : Dev nD) → (b : Ref sig .tc) → Buf (Elt Ideal) ((c : Thread nD τ).loc b))

/-! Each input window's block at a point, read off its array. -/
theorem read_0 (c : Dev nD) (t : Fin cfg3.N) (r : Fin 6144) (p : Fin 100) :
    iblk (F := Ideal) V c 0 t (ix2 r p) = V c main_v15_0 (ix2 ((⟨t.val * 6144 + r.val, by have := t.isLt; have hN : cfg3.N = 96 := N_3; have := r.isLt; omega⟩ : Fin 589824)) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v15_0 (((cfg3.win 0).blk t).view.emb (ix2 r p)) = _
  refine congrArg (V c main_v15_0) (funext fun a => Fin.ext ?_)
  match a with
  | ⟨0, _⟩ => show win3_0.index t (0 : Fin 2) * 6144 + 1 * r.val = t.val * 6144 + r.val; omega
  | ⟨1, _⟩ => show win3_0.index t (1 : Fin 2) * 100 + 1 * p.val = p.val; omega
theorem read_1 (c : Dev nD) (t : Fin cfg3.N) (r : Fin 8) (p : Fin 100) :
    iblk (F := Ideal) V c 1 t (ix2 r p) = V c main_v15_1 (ix2 ((⟨t.val * 8 + r.val, by have := t.isLt; have hN : cfg3.N = 96 := N_3; have := r.isLt; omega⟩ : Fin 768)) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v15_1 (((cfg3.win 1).blk t).view.emb (ix2 r p)) = _
  refine congrArg (V c main_v15_1) (funext fun a => Fin.ext ?_)
  match a with
  | ⟨0, _⟩ => show win3_1.index t (0 : Fin 2) * 8 + 1 * r.val = t.val * 8 + r.val; omega
  | ⟨1, _⟩ => show win3_1.index t (1 : Fin 2) * 100 + 1 * p.val = p.val; omega
theorem read_2 (c : Dev nD) (t : Fin cfg3.N) (r : Fin 768) (p : Fin 100) :
    iblk (F := Ideal) V c 2 t (ix2 r p) = V c main_v15_1 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v15_1 (((cfg3.win 2).blk t).view.emb (ix2 r p)) = _
  refine congrArg (V c main_v15_1) (funext fun a => Fin.ext ?_)
  match a with
  | ⟨0, _⟩ => show win3_2.index t (0 : Fin 2) * 768 + 1 * r.val = r.val; omega
  | ⟨1, _⟩ => show win3_2.index t (1 : Fin 2) * 100 + 1 * p.val = p.val; omega
theorem read_3 (c : Dev nD) (t : Fin cfg3.N) (r : Fin 100) (p : Fin 100) :
    iblk (F := Ideal) V c 3 t (ix2 r p) = V c main_arg6 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg6 (((cfg3.win 3).blk t).view.emb (ix2 r p)) = _
  refine congrArg (V c main_arg6) (funext fun a => Fin.ext ?_)
  match a with
  | ⟨0, _⟩ => show win3_3.index t (0 : Fin 2) * 100 + 1 * r.val = r.val; omega
  | ⟨1, _⟩ => show win3_3.index t (1 : Fin 2) * 100 + 1 * p.val = p.val; omega
theorem read_4 (c : Dev nD) (t : Fin cfg3.N) (r : Fin 1) (p : Fin 100) :
    iblk (F := Ideal) V c 4 t (ix2 r p) = V c main_v16 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v16 (((cfg3.win 4).blk t).view.emb (ix2 r p)) = _
  refine congrArg (V c main_v16) (funext fun a => Fin.ext ?_)
  match a with
  | ⟨0, _⟩ => show win3_4.index t (0 : Fin 2) * 1 + 1 * r.val = r.val; omega
  | ⟨1, _⟩ => show win3_4.index t (1 : Fin 2) * 100 + 1 * p.val = p.val; omega
theorem read_5 (c : Dev nD) (t : Fin cfg3.N) (r : Fin 100) (p : Fin 100) :
    iblk (F := Ideal) V c 5 t (ix2 r p) = V c main_arg8 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg8 (((cfg3.win 5).blk t).view.emb (ix2 r p)) = _
  refine congrArg (V c main_arg8) (funext fun a => Fin.ext ?_)
  match a with
  | ⟨0, _⟩ => show win3_5.index t (0 : Fin 2) * 100 + 1 * r.val = r.val; omega
  | ⟨1, _⟩ => show win3_5.index t (1 : Fin 2) * 100 + 1 * p.val = p.val; omega
theorem read_6 (c : Dev nD) (t : Fin cfg3.N) (r : Fin 100) (p : Fin 100) :
    iblk (F := Ideal) V c 6 t (ix2 r p) = V c main_arg9 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg9 (((cfg3.win 6).blk t).view.emb (ix2 r p)) = _
  refine congrArg (V c main_arg9) (funext fun a => Fin.ext ?_)
  match a with
  | ⟨0, _⟩ => show win3_6.index t (0 : Fin 2) * 100 + 1 * r.val = r.val; omega
  | ⟨1, _⟩ => show win3_6.index t (1 : Fin 2) * 100 + 1 * p.val = p.val; omega
theorem read_7 (c : Dev nD) (t : Fin cfg3.N) (r : Fin 100) (p : Fin 100) :
    iblk (F := Ideal) V c 7 t (ix2 r p) = V c main_arg10 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg10 (((cfg3.win 7).blk t).view.emb (ix2 r p)) = _
  refine congrArg (V c main_arg10) (funext fun a => Fin.ext ?_)
  match a with
  | ⟨0, _⟩ => show win3_7.index t (0 : Fin 2) * 100 + 1 * r.val = r.val; omega
  | ⟨1, _⟩ => show win3_7.index t (1 : Fin 2) * 100 + 1 * p.val = p.val; omega
theorem read_8 (c : Dev nD) (t : Fin cfg3.N) (r : Fin 1) (p : Fin 100) :
    iblk (F := Ideal) V c 8 t (ix2 r p) = V c main_v17 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v17 (((cfg3.win 8).blk t).view.emb (ix2 r p)) = _
  refine congrArg (V c main_v17) (funext fun a => Fin.ext ?_)
  match a with
  | ⟨0, _⟩ => show win3_8.index t (0 : Fin 2) * 1 + 1 * r.val = r.val; omega
  | ⟨1, _⟩ => show win3_8.index t (1 : Fin 2) * 100 + 1 * p.val = p.val; omega
theorem read_9 (c : Dev nD) (t : Fin cfg3.N) (r : Fin 100) (p : Fin 100) :
    iblk (F := Ideal) V c 9 t (ix2 r p) = V c main_arg12 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg12 (((cfg3.win 9).blk t).view.emb (ix2 r p)) = _
  refine congrArg (V c main_arg12) (funext fun a => Fin.ext ?_)
  match a with
  | ⟨0, _⟩ => show win3_9.index t (0 : Fin 2) * 100 + 1 * r.val = r.val; omega
  | ⟨1, _⟩ => show win3_9.index t (1 : Fin 2) * 100 + 1 * p.val = p.val; omega
theorem read_10 (c : Dev nD) (t : Fin cfg3.N) (r : Fin 1) (p : Fin 100) :
    iblk (F := Ideal) V c 10 t (ix2 r p) = V c main_v18 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v18 (((cfg3.win 10).blk t).view.emb (ix2 r p)) = _
  refine congrArg (V c main_v18) (funext fun a => Fin.ext ?_)
  match a with
  | ⟨0, _⟩ => show win3_10.index t (0 : Fin 2) * 1 + 1 * r.val = r.val; omega
  | ⟨1, _⟩ => show win3_10.index t (1 : Fin 2) * 100 + 1 * p.val = p.val; omega
theorem read_11 (c : Dev nD) (t : Fin cfg3.N) (r : Fin 100) (p : Fin 100) :
    iblk (F := Ideal) V c 11 t (ix2 r p) = V c main_arg14 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_arg14 (((cfg3.win 11).blk t).view.emb (ix2 r p)) = _
  refine congrArg (V c main_arg14) (funext fun a => Fin.ext ?_)
  match a with
  | ⟨0, _⟩ => show win3_11.index t (0 : Fin 2) * 100 + 1 * r.val = r.val; omega
  | ⟨1, _⟩ => show win3_11.index t (1 : Fin 2) * 100 + 1 * p.val = p.val; omega
theorem read_12 (c : Dev nD) (t : Fin cfg3.N) (r : Fin 1) (p : Fin 100) :
    iblk (F := Ideal) V c 12 t (ix2 r p) = V c main_v19 (ix2 (r) p) := by
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  show V c main_v19 (((cfg3.win 12).blk t).view.emb (ix2 r p)) = _
  refine congrArg (V c main_v19) (funext fun a => Fin.ext ?_)
  match a with
  | ⟨0, _⟩ => show win3_12.index t (0 : Fin 2) * 1 + 1 * r.val = r.val; omega
  | ⟨1, _⟩ => show win3_12.index t (1 : Fin 2) * 100 + 1 * p.val = p.val; omega

/-! ## The step on the whole arrays, as the region finds them -/

/-- The updated edges and nodes of the whole arrays: the bias buffers are rows. -/
def GE (c : Dev nD) : S589824x100.Idx → EReal :=
  wholeE (V c main_v15_0) (V c main_v15_1) (V c main_arg6) (V c main_arg8) (V c main_arg9) (V c main_arg10)
    (fun l => V c main_v16 (ix2 (0 : Fin 1) l)) (fun l => V c main_v17 (ix2 (0 : Fin 1) l))
def GH (c : Dev nD) : S768x100.Idx → EReal :=
  wholeH (GE V c) (V c main_v15_1) (V c main_arg12) (V c main_arg14)
    (fun l => V c main_v18 (ix2 (0 : Fin 1) l)) (fun l => V c main_v19 (ix2 (0 : Fin 1) l))

theorem hz : (![0, 0] : Fin 2 → Nat) = fun _ => 0 := funext fun a => by fin_cases a <;> rfl

/-- A resident window's block is its whole array. -/
theorem whole_3 (c : Dev nD) (t : Fin cfg3.N) : (iblk (F := Ideal) V c 3 t : S100x100.Idx → EReal) = (V c main_arg6 : S100x100.Idx → EReal) :=
  funext fun y => by
    obtain ⟨r, p, rfl⟩ : ∃ (r : Fin 100) (p : Fin 100), y = ix2 r p := ⟨y 0, y 1, eq_ix2 y⟩
    exact read_3 V c t r p
theorem whole_5 (c : Dev nD) (t : Fin cfg3.N) : (iblk (F := Ideal) V c 5 t : S100x100.Idx → EReal) = (V c main_arg8 : S100x100.Idx → EReal) :=
  funext fun y => by
    obtain ⟨r, p, rfl⟩ : ∃ (r : Fin 100) (p : Fin 100), y = ix2 r p := ⟨y 0, y 1, eq_ix2 y⟩
    exact read_5 V c t r p
theorem whole_6 (c : Dev nD) (t : Fin cfg3.N) : (iblk (F := Ideal) V c 6 t : S100x100.Idx → EReal) = (V c main_arg9 : S100x100.Idx → EReal) :=
  funext fun y => by
    obtain ⟨r, p, rfl⟩ : ∃ (r : Fin 100) (p : Fin 100), y = ix2 r p := ⟨y 0, y 1, eq_ix2 y⟩
    exact read_6 V c t r p
theorem whole_7 (c : Dev nD) (t : Fin cfg3.N) : (iblk (F := Ideal) V c 7 t : S100x100.Idx → EReal) = (V c main_arg10 : S100x100.Idx → EReal) :=
  funext fun y => by
    obtain ⟨r, p, rfl⟩ : ∃ (r : Fin 100) (p : Fin 100), y = ix2 r p := ⟨y 0, y 1, eq_ix2 y⟩
    exact read_7 V c t r p
theorem whole_9 (c : Dev nD) (t : Fin cfg3.N) : (iblk (F := Ideal) V c 9 t : S100x100.Idx → EReal) = (V c main_arg12 : S100x100.Idx → EReal) :=
  funext fun y => by
    obtain ⟨r, p, rfl⟩ : ∃ (r : Fin 100) (p : Fin 100), y = ix2 r p := ⟨y 0, y 1, eq_ix2 y⟩
    exact read_9 V c t r p
theorem whole_11 (c : Dev nD) (t : Fin cfg3.N) : (iblk (F := Ideal) V c 11 t : S100x100.Idx → EReal) = (V c main_arg14 : S100x100.Idx → EReal) :=
  funext fun y => by
    obtain ⟨r, p, rfl⟩ : ∃ (r : Fin 100) (p : Fin 100), y = ix2 r p := ⟨y 0, y 1, eq_ix2 y⟩
    exact read_11 V c t r p

/-- The block step's updated edge rows at point `t`, at the pair (a, j) of the block, are the whole step's at the pair
    (8t + a, j): the block's edge rows, node rows and resident weights are the arrays' at those places. -/
theorem blockE (c : Dev nD) (t : Fin cfg3.N) (a : Fin 8) (j : Fin 768) (k : Fin 100) :
    kE (iblk (F := Ideal) V c 0 t) (iblk V c 1 t) (iblk V c 2 t) (iblk V c 3 t) (iblk V c 4 t) (iblk V c 5 t) (iblk V c 6 t)
        (iblk V c 7 t) (iblk V c 8 t) (ix2 (blkRow a j) k)
      = GE V c (ix2 (pairRow (⟨8 * t.val + a.val, by have := t.isLt; have hN : cfg3.N = 96 := N_3; have := a.isLt; omega⟩ : Fin 768) j) k) := by
  refine (kE_apply _ _ _ _ _ _ _ _ _ a j k).trans ?_
  unfold GE wholeE
  show _ = edgeRow (fun p => V c main_v15_0 (ix2 (pairRow (⟨8 * t.val + a.val, by have := t.isLt; have hN : cfg3.N = 96 := N_3; have := a.isLt; omega⟩ : Fin 768) j) p))
      (fun p => V c main_v15_1 (ix2 (nodeOf (pairRow (⟨8 * t.val + a.val, by have := t.isLt; have hN : cfg3.N = 96 := N_3; have := a.isLt; omega⟩ : Fin 768) j)) p)) (fun p => V c main_v15_1 (ix2 (nbrOf (pairRow (⟨8 * t.val + a.val, by have := t.isLt; have hN : cfg3.N = 96 := N_3; have := a.isLt; omega⟩ : Fin 768) j)) p))
      (V c main_arg6) (V c main_arg8) (V c main_arg9) (V c main_arg10)
      (fun l => V c main_v16 (ix2 (0 : Fin 1) l)) (fun l => V c main_v17 (ix2 (0 : Fin 1) l)) k
  rw [nodeOf_pairRow, nbrOf_pairRow, whole_3 V c t, whole_5 V c t, whole_6 V c t, whole_7 V c t]
  have e0 : (fun p : Fin 100 => iblk (F := Ideal) V c 0 t (ix2 (blkRow a j) p)) = fun p => V c main_v15_0 (ix2 (pairRow (⟨8 * t.val + a.val, by have := t.isLt; have hN : cfg3.N = 96 := N_3; have := a.isLt; omega⟩ : Fin 768) j) p) :=
    funext fun p => (read_0 V c t (blkRow a j) p).trans (congrArg (fun r => V c main_v15_0 (ix2 r p))
      (Fin.ext (by show t.val * 6144 + (a.val * 768 + j.val) = (8 * t.val + a.val) * 768 + j.val; omega)))
  have e1 : (fun p : Fin 100 => iblk (F := Ideal) V c 1 t (ix2 a p)) = fun p => V c main_v15_1 (ix2 (⟨8 * t.val + a.val, by have := t.isLt; have hN : cfg3.N = 96 := N_3; have := a.isLt; omega⟩ : Fin 768) p) :=
    funext fun p => (read_1 V c t a p).trans (congrArg (fun r => V c main_v15_1 (ix2 r p))
      (Fin.ext (by show t.val * 8 + a.val = 8 * t.val + a.val; omega)))
  have e2 : (fun p : Fin 100 => iblk (F := Ideal) V c 2 t (ix2 j p)) = fun p => V c main_v15_1 (ix2 j p) :=
    funext fun p => read_2 V c t j p
  have e4 : (fun l : Fin 100 => iblk (F := Ideal) V c 4 t (ix2 (0 : Fin 1) l)) = fun l => V c main_v16 (ix2 (0 : Fin 1) l) :=
    funext fun l => read_4 V c t 0 l
  have e8 : (fun l : Fin 100 => iblk (F := Ideal) V c 8 t (ix2 (0 : Fin 1) l)) = fun l => V c main_v17 (ix2 (0 : Fin 1) l) :=
    funext fun l => read_8 V c t 0 l
  rw [e0, e1, e2, e4, e8]

/-- WHAT POINT `t` WRITES BACK to the edge output is block `t` of the whole step's updated edges. -/
theorem flushedE_eq (c : Dev nD) (t : Fin cfg3.N) :
    (dat (F := Ideal) V c).flushed 13 t = ((cfg3.win 13).blk t).view.read (Elt Ideal) (GE V c) := by
  show (cfg3.win 13).cut (grid3.coords t) ((dat V c).after 13 t) = _
  rw [after_13]
  unfold outE
  rw [View.canon_unit_zero hz]
  simp only [View.ld_unit_zero (S := S6144x100) hz, View.ld_unit_zero (S := S8x100) hz, View.ld_unit_zero (S := S768x100) hz,
    View.ld_unit_zero (S := S100x100) hz, View.ld_unit_zero (S := S1x100) hz]
  funext y
  obtain ⟨r, k, rfl⟩ : ∃ (r : Fin 6144) (k : Fin 100), y = ix2 r k := ⟨y 0, y 1, eq_ix2 y⟩
  obtain ⟨a, j, rfl⟩ : ∃ (a : Fin 8) (j : Fin 768), r = blkRow a j :=
    ⟨⟨r.val / 768, by have := r.isLt; omega⟩, ⟨r.val % 768, by have := r.isLt; omega⟩,
      Fin.ext (by show r.val = r.val / 768 * 768 + r.val % 768; omega)⟩
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  refine ((congrFun (payE_eq _ _ _ _ _ _ _ _ _) _).trans (blockE V c t a j k)).trans ?_
  show GE V c _ = GE V c (((cfg3.win 13).blk t).view.emb (ix2 (blkRow a j) k))
  refine congrArg (GE V c) (funext fun b => Fin.ext ?_)
  match b with
  | ⟨0, _⟩ => show (8 * t.val + a.val) * 768 + j.val = win3_13.index t (0 : Fin 2) * 6144 + 1 * (a.val * 768 + j.val); omega
  | ⟨1, _⟩ => show k.val = win3_13.index t (1 : Fin 2) * 100 + 1 * k.val; omega

/-- WHAT POINT `t` WRITES BACK to the node output is block `t` of the whole step's updated nodes. -/
theorem flushedH_eq (c : Dev nD) (t : Fin cfg3.N) :
    (dat (F := Ideal) V c).flushed 14 t = ((cfg3.win 14).blk t).view.read (Elt Ideal) (GH V c) := by
  show (cfg3.win 14).cut (grid3.coords t) ((dat V c).after 14 t) = _
  rw [after_14]
  unfold outH
  rw [View.canon_unit_zero hz]
  simp only [View.ld_unit_zero (S := S6144x100) hz, View.ld_unit_zero (S := S8x100) hz, View.ld_unit_zero (S := S768x100) hz,
    View.ld_unit_zero (S := S100x100) hz, View.ld_unit_zero (S := S1x100) hz]
  funext y
  obtain ⟨a, k, rfl⟩ : ∃ (a : Fin 8) (k : Fin 100), y = ix2 a k := ⟨y 0, y 1, eq_ix2 y⟩
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts t
  refine ((congrFun (payH_eq _ _ _ _ _ _ _ _ _ _ _ _ _) _).trans (kH_apply _ _ _ _ _ _ a k)).trans ?_
  have hemb : ((cfg3.win 14).blk t).view.emb (ix2 a k) = (ix2 (⟨8 * t.val + a.val, by have := t.isLt; have hN : cfg3.N = 96 := N_3; have := a.isLt; omega⟩ : Fin 768) k : S768x100.Idx) :=
    funext fun b => Fin.ext (by
      match b with
      | ⟨0, _⟩ => show win3_14.index t (0 : Fin 2) * 8 + 1 * a.val = 8 * t.val + a.val; omega
      | ⟨1, _⟩ => show win3_14.index t (1 : Fin 2) * 100 + 1 * k.val = k.val; omega)
  show _ = GH V c (((cfg3.win 14).blk t).view.emb (ix2 a k))
  rw [hemb]
  unfold GH wholeH
  show _ = nodeRow (fun p => V c main_v15_1 (ix2 (⟨8 * t.val + a.val, by have := t.isLt; have hN : cfg3.N = 96 := N_3; have := a.isLt; omega⟩ : Fin 768) p)) (fun j p => GE V c (ix2 (pairRow (⟨8 * t.val + a.val, by have := t.isLt; have hN : cfg3.N = 96 := N_3; have := a.isLt; omega⟩ : Fin 768) j) p))
      (V c main_arg12) (V c main_arg14) (fun l => V c main_v18 (ix2 (0 : Fin 1) l)) (fun l => V c main_v19 (ix2 (0 : Fin 1) l)) k
  rw [whole_9 V c t, whole_11 V c t]
  have e1 : (fun p : Fin 100 => iblk (F := Ideal) V c 1 t (ix2 a p)) = fun p => V c main_v15_1 (ix2 (⟨8 * t.val + a.val, by have := t.isLt; have hN : cfg3.N = 96 := N_3; have := a.isLt; omega⟩ : Fin 768) p) :=
    funext fun p => (read_1 V c t a p).trans (congrArg (fun r => V c main_v15_1 (ix2 r p))
      (Fin.ext (by show t.val * 8 + a.val = 8 * t.val + a.val; omega)))
  have eE : (fun (j : Fin 768) (p : Fin 100) => kE (iblk (F := Ideal) V c 0 t) (iblk V c 1 t) (iblk V c 2 t) (iblk V c 3 t) (iblk V c 4 t)
      (iblk V c 5 t) (iblk V c 6 t) (iblk V c 7 t) (iblk V c 8 t) (ix2 (blkRow a j) p)) = fun j p => GE V c (ix2 (pairRow (⟨8 * t.val + a.val, by have := t.isLt; have hN : cfg3.N = 96 := N_3; have := a.isLt; omega⟩ : Fin 768) j) p) :=
    funext fun j => funext fun p => blockE V c t a j p
  have e10 : (fun l : Fin 100 => iblk (F := Ideal) V c 10 t (ix2 (0 : Fin 1) l)) = fun l => V c main_v18 (ix2 (0 : Fin 1) l) :=
    funext fun l => read_10 V c t 0 l
  have e12 : (fun l : Fin 100 => iblk (F := Ideal) V c 12 t (ix2 (0 : Fin 1) l)) = fun l => V c main_v19 (ix2 (0 : Fin 1) l) :=
    funext fun l => read_12 V c t 0 l
  rw [e1, eE, e10, e12]

/-! ## Every index of an output is in some point's block -/

theorem mem_blk13 (t : Fin cfg3.N) (i : S589824x100.Idx) :
    i ∈ ((cfg3.win 13).blk t).view.set ↔ ∀ a : Fin 2, win3_13.index t a * S6144x100.size a ≤ (i a).val ∧ (i a).val < win3_13.index t a * S6144x100.size a + S6144x100.size a := by
  show i ∈ ((View.whole main_v20_0).slice (win3_13.rect t)).set ↔ _
  rw [View.set_slice_whole, Rect.mem_set_unit]
  exact Iff.rfl

theorem mem_blk14 (t : Fin cfg3.N) (i : S768x100.Idx) :
    i ∈ ((cfg3.win 14).blk t).view.set ↔ ∀ a : Fin 2, win3_14.index t a * S8x100.size a ≤ (i a).val ∧ (i a).val < win3_14.index t a * S8x100.size a + S8x100.size a := by
  show i ∈ ((View.whole main_v20_1).slice (win3_14.rect t)).set ↔ _
  rw [View.set_slice_whole, Rect.mem_set_unit]
  exact Iff.rfl

theorem coveredE (i : S589824x100.Idx) : ∃ t : Fin cfg3.N, (cfg3.win 13).flush t = true ∧ i ∈ ((cfg3.win 13).blk t).view.set := by
  have h0 : (i 0).val < 589824 := (i 0).isLt
  have h1 : (i 1).val < 100 := (i 1).isLt
  have hN : cfg3.N = 96 := N_3
  refine ⟨⟨(i 0).val / 6144, by omega⟩, flush3_13 _, ?_⟩
  rw [mem_blk13]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts ⟨(i 0).val / 6144, by omega⟩
  intro a
  match a with
  | ⟨0, _⟩ => show win3_13.index ⟨(i 0).val / 6144, _⟩ (0 : Fin 2) * 6144 ≤ (i 0).val ∧ (i 0).val < win3_13.index ⟨(i 0).val / 6144, _⟩ (0 : Fin 2) * 6144 + 6144; rw [i13a]; show (i 0).val / 6144 * 6144 ≤ (i 0).val ∧ (i 0).val < (i 0).val / 6144 * 6144 + 6144; omega
  | ⟨1, _⟩ => show win3_13.index ⟨(i 0).val / 6144, _⟩ (1 : Fin 2) * 100 ≤ (i 1).val ∧ (i 1).val < win3_13.index ⟨(i 0).val / 6144, _⟩ (1 : Fin 2) * 100 + 100; rw [i13b]; omega

theorem coveredH (i : S768x100.Idx) : ∃ t : Fin cfg3.N, (cfg3.win 14).flush t = true ∧ i ∈ ((cfg3.win 14).blk t).view.set := by
  have h0 : (i 0).val < 768 := (i 0).isLt
  have h1 : (i 1).val < 100 := (i 1).isLt
  have hN : cfg3.N = 96 := N_3
  refine ⟨⟨(i 0).val / 8, by omega⟩, flush3_14 _, ?_⟩
  rw [mem_blk14]
  obtain ⟨i0a, i0b, i1a, i1b, i2a, i2b, i3a, i3b, i4a, i4b, i5a, i5b, i6a, i6b, i7a, i7b, i8a, i8b, i9a, i9b, i10a, i10b, i11a, i11b, i12a, i12b, i13a, i13b, i14a, i14b⟩ := idx_facts ⟨(i 0).val / 8, by omega⟩
  intro a
  match a with
  | ⟨0, _⟩ => show win3_14.index ⟨(i 0).val / 8, _⟩ (0 : Fin 2) * 8 ≤ (i 0).val ∧ (i 0).val < win3_14.index ⟨(i 0).val / 8, _⟩ (0 : Fin 2) * 8 + 8; rw [i14a]; show (i 0).val / 8 * 8 ≤ (i 0).val ∧ (i 0).val < (i 0).val / 8 * 8 + 8; omega
  | ⟨1, _⟩ => show win3_14.index ⟨(i 0).val / 8, _⟩ (1 : Fin 2) * 100 ≤ (i 1).val ∧ (i 1).val < win3_14.index ⟨(i 0).val / 8, _⟩ (1 : Fin 2) * 100 + 100; rw [i14b]; omega

/-! ## The outputs after the region -/

theorem finalE (c : Dev nD) : (dat (F := Ideal) V c).arrAt 13 cfg3.N = GE V c :=
  (dat (F := Ideal) V c).arrAt_eq_of_cover 13 (GE V c) (fun t _ => flushedE_eq V c t) coveredE
theorem finalH (c : Dev nD) : (dat (F := Ideal) V c).arrAt 14 cfg3.N = GH V c :=
  (dat (F := Ideal) V c).arrAt_eq_of_cover 14 (GH V c) (fun t _ => flushedH_eq V c t) coveredH

/-! ## The same in the host operations' terms -/

/-- The region's updated edges are one step's edge half of the arrays it finds, for bias vectors whose rows its bias buffers are. -/
theorem GE_eq (c : Dev nD) (beij bde : FVec Ideal SB .f32)
    (hb1 : ∀ l : Fin 100, V c main_v16 (ix2 (0 : Fin 1) l) = beij (ix1 l)) (hb2 : ∀ l : Fin 100, V c main_v17 (ix2 (0 : Fin 1) l) = bde (ix1 l)) :
    GE V c = stepE (F := Ideal) (V c main_v15_0) (V c main_v15_1) (V c main_arg6) beij (V c main_arg8) (V c main_arg9) (V c main_arg10) bde := by
  unfold GE
  rw [funext hb1, funext hb2]
  exact (stepE_eq_whole _ _ _ _ _ _ _ _).symm

/-- The region's updated nodes are one step's node half, from its updated edges. -/
theorem GH_eq (c : Dev nD) (bdv1 bdv2 : FVec Ideal SB .f32)
    (hb3 : ∀ l : Fin 100, V c main_v18 (ix2 (0 : Fin 1) l) = bdv1 (ix1 l)) (hb4 : ∀ l : Fin 100, V c main_v19 (ix2 (0 : Fin 1) l) = bdv2 (ix1 l)) :
    GH V c = stepH (F := Ideal) (GE V c) (V c main_v15_1) (V c main_arg12) bdv1 (V c main_arg14) bdv2 := by
  unfold GH
  rw [funext hb3, funext hb4]
  exact (stepH_eq_whole _ _ _ _ _ _).symm

end Cert.KernelIdeal.Upd3

end
-- ==== Proof.KI.Chain.lean ====
/-
  The idealized kernel's results. Following the buffers' contents through the program: the host encodes the nodes, the
  first region the edges; each message-passing region is entered with the edges and nodes the step before left, the
  weights as launched and the bias rows the host reshaped from the bias vectors, and leaves one step's updated edges and
  nodes. So the two results are three steps from the encodings.
-/
import proofs.«143411_j23983097381472_2_alg».proof.Proof.KI.Run
import proofs.«143411_j23983097381472_2_alg».proof.Proof.KI.EncVal
import proofs.«143411_j23983097381472_2_alg».proof.Proof.KI.UpdVal1
import proofs.«143411_j23983097381472_2_alg».proof.Proof.KI.UpdVal2
import proofs.«143411_j23983097381472_2_alg».proof.Proof.KI.UpdVal3
import proofs.«143411_j23983097381472_2_alg».proof.Proof.StepWhole
import Idealize.ShloMosaic.Lib.ValueLayout

set_option maxRecDepth 16384

noncomputable section

namespace Cert.KernelIdeal.Chain

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Step Idealize.ShloMosaic.ValueIdx Idealize.ShloMosaic.StableHlo

variable (m : (ℓ : Loc nD τ sig) → Buf (Elt Ideal) ℓ)

/-! ## The values: the encodings, then three steps -/

def E0 (c : Dev nD) : FVec Ideal SE .f32 := encE (m ((c : Thread nD τ).loc main_arg1)) (m ((c : Thread nD τ).loc main_arg4)) (m ((c : Thread nD τ).loc main_arg5))
def H0 (c : Dev nD) : FVec Ideal SN .f32 := encH (m ((c : Thread nD τ).loc main_arg0)) (m ((c : Thread nD τ).loc main_arg2)) (m ((c : Thread nD τ).loc main_arg3))
def E1 (c : Dev nD) : FVec Ideal SE .f32 := stepE (E0 m c) (H0 m c) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
def H1 (c : Dev nD) : FVec Ideal SN .f32 := stepH (E1 m c) (H0 m c) (m ((c : Thread nD τ).loc main_arg12)) (m ((c : Thread nD τ).loc main_arg13)) (m ((c : Thread nD τ).loc main_arg14)) (m ((c : Thread nD τ).loc main_arg15))
def E2 (c : Dev nD) : FVec Ideal SE .f32 := stepE (E1 m c) (H1 m c) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
def H2 (c : Dev nD) : FVec Ideal SN .f32 := stepH (E2 m c) (H1 m c) (m ((c : Thread nD τ).loc main_arg12)) (m ((c : Thread nD τ).loc main_arg13)) (m ((c : Thread nD τ).loc main_arg14)) (m ((c : Thread nD τ).loc main_arg15))
def E3 (c : Dev nD) : FVec Ideal SE .f32 := stepE (E2 m c) (H2 m c) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
def H3 (c : Dev nD) : FVec Ideal SN .f32 := stepH (E3 m c) (H2 m c) (m ((c : Thread nD τ).loc main_arg12)) (m ((c : Thread nD τ).loc main_arg13)) (m ((c : Thread nD τ).loc main_arg14)) (m ((c : Thread nD τ).loc main_arg15))

/-! ## A reference nothing has written yet holds its launch contents -/

theorem V1_launch (c : Dev nD) (r : Ref sig .tc) (h0 : r ∉ hostOps0_W) : Run.V1 m c r = m ((c : Thread nD τ).loc r) :=
  (Run.W1_of m c r h0).trans rfl
theorem V2_launch (c : Dev nD) (r : Ref sig .tc) (h0 : r ∉ hostOps0_W) (h1 : r ≠ main_v5) : Run.V2 m c r = m ((c : Thread nD τ).loc r) :=
  (Run.W2_of m c r h1).trans (V1_launch m c r h0)
theorem V3_launch (c : Dev nD) (r : Ref sig .tc) (h0 : r ∉ hostOps0_W) (h1 : r ≠ main_v5) (h2 : r ∉ hostOps1_W) :
    Run.V3 m c r = m ((c : Thread nD τ).loc r) := (Run.W3_of m c r h2).trans (V2_launch m c r h0 h1)
theorem V4_launch (c : Dev nD) (r : Ref sig .tc) (h0 : r ∉ hostOps0_W) (h1 : r ≠ main_v5) (h2 : r ∉ hostOps1_W) (h3 : r ≠ main_v10_0) (h4 : r ≠ main_v10_1) :
    Run.V4 m c r = m ((c : Thread nD τ).loc r) := (Run.W4_of m c r h3 h4).trans (V3_launch m c r h0 h1 h2)
theorem V5_launch (c : Dev nD) (r : Ref sig .tc) (h0 : r ∉ hostOps0_W) (h1 : r ≠ main_v5) (h2 : r ∉ hostOps1_W) (h3 : r ≠ main_v10_0) (h4 : r ≠ main_v10_1)
    (h5 : r ∉ hostOps2_W) : Run.V5 m c r = m ((c : Thread nD τ).loc r) := (Run.W5_of m c r h5).trans (V4_launch m c r h0 h1 h2 h3 h4)
theorem V6_launch (c : Dev nD) (r : Ref sig .tc) (h0 : r ∉ hostOps0_W) (h1 : r ≠ main_v5) (h2 : r ∉ hostOps1_W) (h3 : r ≠ main_v10_0) (h4 : r ≠ main_v10_1)
    (h5 : r ∉ hostOps2_W) (h6 : r ≠ main_v15_0) (h7 : r ≠ main_v15_1) : Run.V6 m c r = m ((c : Thread nD τ).loc r) :=
  (Run.W6_of m c r h6 h7).trans (V5_launch m c r h0 h1 h2 h3 h4 h5)
theorem V7_launch (c : Dev nD) (r : Ref sig .tc) (h0 : r ∉ hostOps0_W) (h1 : r ≠ main_v5) (h2 : r ∉ hostOps1_W) (h3 : r ≠ main_v10_0) (h4 : r ≠ main_v10_1)
    (h5 : r ∉ hostOps2_W) (h6 : r ≠ main_v15_0) (h7 : r ≠ main_v15_1) (h8 : r ∉ hostOps3_W) : Run.V7 m c r = m ((c : Thread nD τ).loc r) :=
  (Run.W7_of m c r h8).trans (V6_launch m c r h0 h1 h2 h3 h4 h5 h6 h7)

/-! ## The encodings -/

/-- The host's node encoding. -/
theorem nodes0 (c : Dev nD) : Run.V1 m c main_v3 = H0 m c := by
  show StableHlo.after hostOps0 (Run.W0 m c) (Proc.devRef .tc main_v3) = _
  after_results
  rfl

/-- The encode's bias row is the bias vector's row form. -/
theorem row0 (c : Dev nD) (l : Fin 100) : Run.V1 m c main_v4 (ix2 (0 : Fin 1) l) = (m ((c : Thread nD τ).loc main_arg5)) (ix1 l) := by
  have h : Run.V1 m c main_v4 = shapeCast S1x100 (Run.V0 m c main_arg5) shapeCasts_S100_S1x100 := by
    show StableHlo.after hostOps0 (Run.W0 m c) (Proc.devRef .tc main_v4) = _
    after_results
    rfl
  rw [h, shapeCast_a_1a_apply]

/-- The edges after the encode region. -/
theorem edges0 (c : Dev nD) : Run.V2 m c main_v5 = E0 m c := by
  refine (Run.W2_out m c).trans ((Enc.final (Run.V1 m) c).trans ?_)
  unfold Enc.G E0
  rw [funext (row0 m c), V1_launch m c main_arg1 (by decide), V1_launch m c main_arg4 (by decide)]
  exact (encE_eq_whole _ _ _).symm

/-! ## Step 1 -/

/-- The bias row `main_v6` is the argument vector's row form. -/
theorem row1_0 (c : Dev nD) (l : Fin 100) : Run.V3 m c main_v6 (ix2 (0 : Fin 1) l) = (m ((c : Thread nD τ).loc main_arg7)) (ix1 l) := by
  have h : Run.V3 m c main_v6 = shapeCast S1x100 (Run.V2 m c main_arg7) shapeCasts_S100_S1x100 := by
    show StableHlo.after hostOps1 (Run.W2 m c) (Proc.devRef .tc main_v6) = _
    after_results
    rfl
  rw [h, shapeCast_a_1a_apply, V2_launch m c main_arg7 (by decide) (by decide)]
/-- The bias row `main_v7` is the argument vector's row form. -/
theorem row1_1 (c : Dev nD) (l : Fin 100) : Run.V3 m c main_v7 (ix2 (0 : Fin 1) l) = (m ((c : Thread nD τ).loc main_arg11)) (ix1 l) := by
  have h : Run.V3 m c main_v7 = shapeCast S1x100 (Run.V2 m c main_arg11) shapeCasts_S100_S1x100 := by
    show StableHlo.after hostOps1 (Run.W2 m c) (Proc.devRef .tc main_v7) = _
    after_results
    rfl
  rw [h, shapeCast_a_1a_apply, V2_launch m c main_arg11 (by decide) (by decide)]
/-- The bias row `main_v8` is the argument vector's row form. -/
theorem row1_2 (c : Dev nD) (l : Fin 100) : Run.V3 m c main_v8 (ix2 (0 : Fin 1) l) = (m ((c : Thread nD τ).loc main_arg13)) (ix1 l) := by
  have h : Run.V3 m c main_v8 = shapeCast S1x100 (Run.V2 m c main_arg13) shapeCasts_S100_S1x100 := by
    show StableHlo.after hostOps1 (Run.W2 m c) (Proc.devRef .tc main_v8) = _
    after_results
    rfl
  rw [h, shapeCast_a_1a_apply, V2_launch m c main_arg13 (by decide) (by decide)]
/-- The bias row `main_v9` is the argument vector's row form. -/
theorem row1_3 (c : Dev nD) (l : Fin 100) : Run.V3 m c main_v9 (ix2 (0 : Fin 1) l) = (m ((c : Thread nD τ).loc main_arg15)) (ix1 l) := by
  have h : Run.V3 m c main_v9 = shapeCast S1x100 (Run.V2 m c main_arg15) shapeCasts_S100_S1x100 := by
    show StableHlo.after hostOps1 (Run.W2 m c) (Proc.devRef .tc main_v9) = _
    after_results
    rfl
  rw [h, shapeCast_a_1a_apply, V2_launch m c main_arg15 (by decide) (by decide)]
theorem w1_6 (c : Dev nD) : Run.V3 m c main_arg6 = (m ((c : Thread nD τ).loc main_arg6)) := V3_launch m c main_arg6 (by decide) (by decide) (by decide)
theorem w1_8 (c : Dev nD) : Run.V3 m c main_arg8 = (m ((c : Thread nD τ).loc main_arg8)) := V3_launch m c main_arg8 (by decide) (by decide) (by decide)
theorem w1_9 (c : Dev nD) : Run.V3 m c main_arg9 = (m ((c : Thread nD τ).loc main_arg9)) := V3_launch m c main_arg9 (by decide) (by decide) (by decide)
theorem w1_10 (c : Dev nD) : Run.V3 m c main_arg10 = (m ((c : Thread nD τ).loc main_arg10)) := V3_launch m c main_arg10 (by decide) (by decide) (by decide)
theorem w1_12 (c : Dev nD) : Run.V3 m c main_arg12 = (m ((c : Thread nD τ).loc main_arg12)) := V3_launch m c main_arg12 (by decide) (by decide) (by decide)
theorem w1_14 (c : Dev nD) : Run.V3 m c main_arg14 = (m ((c : Thread nD τ).loc main_arg14)) := V3_launch m c main_arg14 (by decide) (by decide) (by decide)
theorem inE1 (c : Dev nD) : Run.V3 m c main_v5 = E0 m c := (Run.W3_of m c main_v5 (by decide)).trans (edges0 m c)
theorem inH1 (c : Dev nD) : Run.V3 m c main_v3 = H0 m c := (Run.W3_of m c main_v3 (by decide)).trans ((Run.W2_of m c main_v3 (by decide)).trans (nodes0 m c))

/-- The edges after step 1. -/
theorem edges1 (c : Dev nD) : Run.V4 m c main_v10_0 = E1 m c := by
  refine (Run.W4_E m c).trans ((Upd1.finalE (Run.V3 m) c).trans ?_)
  rw [Upd1.GE_eq (Run.V3 m) c (m ((c : Thread nD τ).loc main_arg7)) (m ((c : Thread nD τ).loc main_arg11)) (row1_0 m c) (row1_1 m c),
    inE1, inH1, w1_6, w1_8, w1_9, w1_10]
  rfl

/-- The nodes after step 1. -/
theorem nodes1 (c : Dev nD) : Run.V4 m c main_v10_1 = H1 m c := by
  refine (Run.W4_H m c).trans ((Upd1.finalH (Run.V3 m) c).trans ?_)
  rw [Upd1.GH_eq (Run.V3 m) c (m ((c : Thread nD τ).loc main_arg13)) (m ((c : Thread nD τ).loc main_arg15)) (row1_2 m c) (row1_3 m c),
    Upd1.GE_eq (Run.V3 m) c (m ((c : Thread nD τ).loc main_arg7)) (m ((c : Thread nD τ).loc main_arg11)) (row1_0 m c) (row1_1 m c),
    inE1, inH1, w1_6, w1_8, w1_9, w1_10, w1_12, w1_14]
  rfl

/-! ## Step 2 -/

/-- The bias row `main_v11` is the argument vector's row form. -/
theorem row2_0 (c : Dev nD) (l : Fin 100) : Run.V5 m c main_v11 (ix2 (0 : Fin 1) l) = (m ((c : Thread nD τ).loc main_arg7)) (ix1 l) := by
  have h : Run.V5 m c main_v11 = shapeCast S1x100 (Run.V4 m c main_arg7) shapeCasts_S100_S1x100 := by
    show StableHlo.after hostOps2 (Run.W4 m c) (Proc.devRef .tc main_v11) = _
    after_results
    rfl
  rw [h, shapeCast_a_1a_apply, V4_launch m c main_arg7 (by decide) (by decide) (by decide) (by decide) (by decide)]
/-- The bias row `main_v12` is the argument vector's row form. -/
theorem row2_1 (c : Dev nD) (l : Fin 100) : Run.V5 m c main_v12 (ix2 (0 : Fin 1) l) = (m ((c : Thread nD τ).loc main_arg11)) (ix1 l) := by
  have h : Run.V5 m c main_v12 = shapeCast S1x100 (Run.V4 m c main_arg11) shapeCasts_S100_S1x100 := by
    show StableHlo.after hostOps2 (Run.W4 m c) (Proc.devRef .tc main_v12) = _
    after_results
    rfl
  rw [h, shapeCast_a_1a_apply, V4_launch m c main_arg11 (by decide) (by decide) (by decide) (by decide) (by decide)]
/-- The bias row `main_v13` is the argument vector's row form. -/
theorem row2_2 (c : Dev nD) (l : Fin 100) : Run.V5 m c main_v13 (ix2 (0 : Fin 1) l) = (m ((c : Thread nD τ).loc main_arg13)) (ix1 l) := by
  have h : Run.V5 m c main_v13 = shapeCast S1x100 (Run.V4 m c main_arg13) shapeCasts_S100_S1x100 := by
    show StableHlo.after hostOps2 (Run.W4 m c) (Proc.devRef .tc main_v13) = _
    after_results
    rfl
  rw [h, shapeCast_a_1a_apply, V4_launch m c main_arg13 (by decide) (by decide) (by decide) (by decide) (by decide)]
/-- The bias row `main_v14` is the argument vector's row form. -/
theorem row2_3 (c : Dev nD) (l : Fin 100) : Run.V5 m c main_v14 (ix2 (0 : Fin 1) l) = (m ((c : Thread nD τ).loc main_arg15)) (ix1 l) := by
  have h : Run.V5 m c main_v14 = shapeCast S1x100 (Run.V4 m c main_arg15) shapeCasts_S100_S1x100 := by
    show StableHlo.after hostOps2 (Run.W4 m c) (Proc.devRef .tc main_v14) = _
    after_results
    rfl
  rw [h, shapeCast_a_1a_apply, V4_launch m c main_arg15 (by decide) (by decide) (by decide) (by decide) (by decide)]
theorem w2_6 (c : Dev nD) : Run.V5 m c main_arg6 = (m ((c : Thread nD τ).loc main_arg6)) := V5_launch m c main_arg6 (by decide) (by decide) (by decide) (by decide) (by decide) (by decide)
theorem w2_8 (c : Dev nD) : Run.V5 m c main_arg8 = (m ((c : Thread nD τ).loc main_arg8)) := V5_launch m c main_arg8 (by decide) (by decide) (by decide) (by decide) (by decide) (by decide)
theorem w2_9 (c : Dev nD) : Run.V5 m c main_arg9 = (m ((c : Thread nD τ).loc main_arg9)) := V5_launch m c main_arg9 (by decide) (by decide) (by decide) (by decide) (by decide) (by decide)
theorem w2_10 (c : Dev nD) : Run.V5 m c main_arg10 = (m ((c : Thread nD τ).loc main_arg10)) := V5_launch m c main_arg10 (by decide) (by decide) (by decide) (by decide) (by decide) (by decide)
theorem w2_12 (c : Dev nD) : Run.V5 m c main_arg12 = (m ((c : Thread nD τ).loc main_arg12)) := V5_launch m c main_arg12 (by decide) (by decide) (by decide) (by decide) (by decide) (by decide)
theorem w2_14 (c : Dev nD) : Run.V5 m c main_arg14 = (m ((c : Thread nD τ).loc main_arg14)) := V5_launch m c main_arg14 (by decide) (by decide) (by decide) (by decide) (by decide) (by decide)
theorem inE2 (c : Dev nD) : Run.V5 m c main_v10_0 = E1 m c := (Run.W5_of m c main_v10_0 (by decide)).trans (edges1 m c)
theorem inH2 (c : Dev nD) : Run.V5 m c main_v10_1 = H1 m c := (Run.W5_of m c main_v10_1 (by decide)).trans (nodes1 m c)

/-- The edges after step 2. -/
theorem edges2 (c : Dev nD) : Run.V6 m c main_v15_0 = E2 m c := by
  refine (Run.W6_E m c).trans ((Upd2.finalE (Run.V5 m) c).trans ?_)
  rw [Upd2.GE_eq (Run.V5 m) c (m ((c : Thread nD τ).loc main_arg7)) (m ((c : Thread nD τ).loc main_arg11)) (row2_0 m c) (row2_1 m c),
    inE2, inH2, w2_6, w2_8, w2_9, w2_10]
  rfl

/-- The nodes after step 2. -/
theorem nodes2 (c : Dev nD) : Run.V6 m c main_v15_1 = H2 m c := by
  refine (Run.W6_H m c).trans ((Upd2.finalH (Run.V5 m) c).trans ?_)
  rw [Upd2.GH_eq (Run.V5 m) c (m ((c : Thread nD τ).loc main_arg13)) (m ((c : Thread nD τ).loc main_arg15)) (row2_2 m c) (row2_3 m c),
    Upd2.GE_eq (Run.V5 m) c (m ((c : Thread nD τ).loc main_arg7)) (m ((c : Thread nD τ).loc main_arg11)) (row2_0 m c) (row2_1 m c),
    inE2, inH2, w2_6, w2_8, w2_9, w2_10, w2_12, w2_14]
  rfl

/-! ## Step 3 -/

/-- The bias row `main_v16` is the argument vector's row form. -/
theorem row3_0 (c : Dev nD) (l : Fin 100) : Run.V7 m c main_v16 (ix2 (0 : Fin 1) l) = (m ((c : Thread nD τ).loc main_arg7)) (ix1 l) := by
  have h : Run.V7 m c main_v16 = shapeCast S1x100 (Run.V6 m c main_arg7) shapeCasts_S100_S1x100 := by
    show StableHlo.after hostOps3 (Run.W6 m c) (Proc.devRef .tc main_v16) = _
    after_results
    rfl
  rw [h, shapeCast_a_1a_apply, V6_launch m c main_arg7 (by decide) (by decide) (by decide) (by decide) (by decide) (by decide) (by decide) (by decide)]
/-- The bias row `main_v17` is the argument vector's row form. -/
theorem row3_1 (c : Dev nD) (l : Fin 100) : Run.V7 m c main_v17 (ix2 (0 : Fin 1) l) = (m ((c : Thread nD τ).loc main_arg11)) (ix1 l) := by
  have h : Run.V7 m c main_v17 = shapeCast S1x100 (Run.V6 m c main_arg11) shapeCasts_S100_S1x100 := by
    show StableHlo.after hostOps3 (Run.W6 m c) (Proc.devRef .tc main_v17) = _
    after_results
    rfl
  rw [h, shapeCast_a_1a_apply, V6_launch m c main_arg11 (by decide) (by decide) (by decide) (by decide) (by decide) (by decide) (by decide) (by decide)]
/-- The bias row `main_v18` is the argument vector's row form. -/
theorem row3_2 (c : Dev nD) (l : Fin 100) : Run.V7 m c main_v18 (ix2 (0 : Fin 1) l) = (m ((c : Thread nD τ).loc main_arg13)) (ix1 l) := by
  have h : Run.V7 m c main_v18 = shapeCast S1x100 (Run.V6 m c main_arg13) shapeCasts_S100_S1x100 := by
    show StableHlo.after hostOps3 (Run.W6 m c) (Proc.devRef .tc main_v18) = _
    after_results
    rfl
  rw [h, shapeCast_a_1a_apply, V6_launch m c main_arg13 (by decide) (by decide) (by decide) (by decide) (by decide) (by decide) (by decide) (by decide)]
/-- The bias row `main_v19` is the argument vector's row form. -/
theorem row3_3 (c : Dev nD) (l : Fin 100) : Run.V7 m c main_v19 (ix2 (0 : Fin 1) l) = (m ((c : Thread nD τ).loc main_arg15)) (ix1 l) := by
  have h : Run.V7 m c main_v19 = shapeCast S1x100 (Run.V6 m c main_arg15) shapeCasts_S100_S1x100 := by
    show StableHlo.after hostOps3 (Run.W6 m c) (Proc.devRef .tc main_v19) = _
    after_results
    rfl
  rw [h, shapeCast_a_1a_apply, V6_launch m c main_arg15 (by decide) (by decide) (by decide) (by decide) (by decide) (by decide) (by decide) (by decide)]
theorem w3_6 (c : Dev nD) : Run.V7 m c main_arg6 = (m ((c : Thread nD τ).loc main_arg6)) := V7_launch m c main_arg6 (by decide) (by decide) (by decide) (by decide) (by decide) (by decide) (by decide) (by decide) (by decide)
theorem w3_8 (c : Dev nD) : Run.V7 m c main_arg8 = (m ((c : Thread nD τ).loc main_arg8)) := V7_launch m c main_arg8 (by decide) (by decide) (by decide) (by decide) (by decide) (by decide) (by decide) (by decide) (by decide)
theorem w3_9 (c : Dev nD) : Run.V7 m c main_arg9 = (m ((c : Thread nD τ).loc main_arg9)) := V7_launch m c main_arg9 (by decide) (by decide) (by decide) (by decide) (by decide) (by decide) (by decide) (by decide) (by decide)
theorem w3_10 (c : Dev nD) : Run.V7 m c main_arg10 = (m ((c : Thread nD τ).loc main_arg10)) := V7_launch m c main_arg10 (by decide) (by decide) (by decide) (by decide) (by decide) (by decide) (by decide) (by decide) (by decide)
theorem w3_12 (c : Dev nD) : Run.V7 m c main_arg12 = (m ((c : Thread nD τ).loc main_arg12)) := V7_launch m c main_arg12 (by decide) (by decide) (by decide) (by decide) (by decide) (by decide) (by decide) (by decide) (by decide)
theorem w3_14 (c : Dev nD) : Run.V7 m c main_arg14 = (m ((c : Thread nD τ).loc main_arg14)) := V7_launch m c main_arg14 (by decide) (by decide) (by decide) (by decide) (by decide) (by decide) (by decide) (by decide) (by decide)
theorem inE3 (c : Dev nD) : Run.V7 m c main_v15_0 = E2 m c := (Run.W7_of m c main_v15_0 (by decide)).trans (edges2 m c)
theorem inH3 (c : Dev nD) : Run.V7 m c main_v15_1 = H2 m c := (Run.W7_of m c main_v15_1 (by decide)).trans (nodes2 m c)

/-- The edges after step 3. -/
theorem edges3 (c : Dev nD) : Run.V8 m c main_v20_0 = E3 m c := by
  refine (Run.W8_E m c).trans ((Upd3.finalE (Run.V7 m) c).trans ?_)
  rw [Upd3.GE_eq (Run.V7 m) c (m ((c : Thread nD τ).loc main_arg7)) (m ((c : Thread nD τ).loc main_arg11)) (row3_0 m c) (row3_1 m c),
    inE3, inH3, w3_6, w3_8, w3_9, w3_10]
  rfl

/-- The nodes after step 3. -/
theorem nodes3 (c : Dev nD) : Run.V8 m c main_v20_1 = H3 m c := by
  refine (Run.W8_H m c).trans ((Upd3.finalH (Run.V7 m) c).trans ?_)
  rw [Upd3.GH_eq (Run.V7 m) c (m ((c : Thread nD τ).loc main_arg13)) (m ((c : Thread nD τ).loc main_arg15)) (row3_2 m c) (row3_3 m c),
    Upd3.GE_eq (Run.V7 m) c (m ((c : Thread nD τ).loc main_arg7)) (m ((c : Thread nD τ).loc main_arg11)) (row3_0 m c) (row3_1 m c),
    inE3, inH3, w3_6, w3_8, w3_9, w3_10, w3_12, w3_14]
  rfl

end Cert.KernelIdeal.Chain

end
-- ==== Proof.RefRun.lean ====
import proofs.«143411_j23983097381472_2_alg».proof.ReferenceIdeal
import proofs.«143411_j23983097381472_2_alg».proof.Proof.Gen.ReferenceIdeal
import proofs.«143411_j23983097381472_2_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The program as four lines

The reference is a straight line of host operations: the two encoders, then three message-passing steps of the same
thirty-one operations each over their own buffers. The lines are read one at a time: what a step leaves in its two
result buffers is a function (`Cert.Step.stepE`, `Cert.Step.stepH`) of what it found in the previous step's two result
buffers and in the weights, whatever those contents are. -/

/-- The two encoders: eight operations, ending at the node features `main_v3` and the edge features `main_v7`. -/
abbrev ops0 : List (HloOp τ sig (Elt F)) :=
  [ binary main_arg0 main_arg2 main_v0 ((fun l r => Host.dotGeneral dot_S768x32_S32x100_S768x100_1_0_0_1_n_n none l r) : (⟨S768x32, .f32⟩ : BufTy).Contents (Elt F) → (⟨S32x100, .f32⟩ : BufTy).Contents (Elt F) → (⟨S768x100, .f32⟩ : BufTy).Contents (Elt F)),
    unary main_arg3 main_v1 (broadcastInDim S1x100 ![1] bcast_S100_S1x100_1 : (⟨S100, .f32⟩ : BufTy).Contents (Elt F) → (⟨S1x100, .f32⟩ : BufTy).Contents (Elt F)),
    unary main_v1 main_v2 (broadcastInDim S768x100 ![0, 1] bcast_S1x100_S768x100_0_1 : (⟨S1x100, .f32⟩ : BufTy).Contents (Elt F) → (⟨S768x100, .f32⟩ : BufTy).Contents (Elt F)),
    binary main_v0 main_v2 main_v3 (addf : (⟨S768x100, .f32⟩ : BufTy).Contents (Elt F) → (⟨S768x100, .f32⟩ : BufTy).Contents (Elt F) → (⟨S768x100, .f32⟩ : BufTy).Contents (Elt F)),
    binary main_arg1 main_arg4 main_v4 ((fun l r => Host.dotGeneral dot_S589824x16_S16x100_S589824x100_1_0_0_1_n_n none l r) : (⟨S589824x16, .f32⟩ : BufTy).Contents (Elt F) → (⟨S16x100, .f32⟩ : BufTy).Contents (Elt F) → (⟨S589824x100, .f32⟩ : BufTy).Contents (Elt F)),
    unary main_arg5 main_v5 (broadcastInDim S1x100 ![1] bcast_S100_S1x100_1 : (⟨S100, .f32⟩ : BufTy).Contents (Elt F) → (⟨S1x100, .f32⟩ : BufTy).Contents (Elt F)),
    unary main_v5 main_v6 (broadcastInDim S589824x100 ![0, 1] bcast_S1x100_S589824x100_0_1 : (⟨S1x100, .f32⟩ : BufTy).Contents (Elt F) → (⟨S589824x100, .f32⟩ : BufTy).Contents (Elt F)),
    binary main_v4 main_v6 main_v7 (addf : (⟨S589824x100, .f32⟩ : BufTy).Contents (Elt F) → (⟨S589824x100, .f32⟩ : BufTy).Contents (Elt F) → (⟨S589824x100, .f32⟩ : BufTy).Contents (Elt F)) ]

/-- The first message-passing step: it reads `main_v7`, `main_v3` and writes the edges `main_v24` and the nodes `main_v35`. -/
abbrev ops1 : List (HloOp τ sig (Elt F)) :=
  [ binary main_v7 main_arg6 main_v8 ((fun l r => Host.dotGeneral dot_S589824x100_S100x100_S589824x100_1_0_0_1_n_n none l r) : (⟨S589824x100, .f32⟩ : BufTy).Contents (Elt F) → (⟨S100x100, .f32⟩ : BufTy).Contents (Elt F) → (⟨S589824x100, .f32⟩ : BufTy).Contents (Elt F)),
    unary main_arg7 main_v9 (broadcastInDim S1x100 ![1] bcast_S100_S1x100_1 : (⟨S100, .f32⟩ : BufTy).Contents (Elt F) → (⟨S1x100, .f32⟩ : BufTy).Contents (Elt F)),
    unary main_v9 main_v10 (broadcastInDim S589824x100 ![0, 1] bcast_S1x100_S589824x100_0_1 : (⟨S1x100, .f32⟩ : BufTy).Contents (Elt F) → (⟨S589824x100, .f32⟩ : BufTy).Contents (Elt F)),
    binary main_v8 main_v10 main_v11 (addf : (⟨S589824x100, .f32⟩ : BufTy).Contents (Elt F) → (⟨S589824x100, .f32⟩ : BufTy).Contents (Elt F) → (⟨S589824x100, .f32⟩ : BufTy).Contents (Elt F)),
    binary main_v3 main_arg8 main_v12 ((fun l r => Host.dotGeneral dot_S768x100_S100x100_S768x100_1_0_0_1_n_n none l r) : (⟨S768x100, .f32⟩ : BufTy).Contents (Elt F) → (⟨S100x100, .f32⟩ : BufTy).Contents (Elt F) → (⟨S768x100, .f32⟩ : BufTy).Contents (Elt F)),
    binary main_v3 main_arg9 main_v13 ((fun l r => Host.dotGeneral dot_S768x100_S100x100_S768x100_1_0_0_1_n_n none l r) : (⟨S768x100, .f32⟩ : BufTy).Contents (Elt F) → (⟨S100x100, .f32⟩ : BufTy).Contents (Elt F) → (⟨S768x100, .f32⟩ : BufTy).Contents (Elt F)),
    unary main_v13 main_v14 ((transpose S100x768 [1, 0] · transposes_S768x100_S100x768_1_0) : (⟨S768x100, .f32⟩ : BufTy).Contents (Elt F) → (⟨S100x768, .f32⟩ : BufTy).Contents (Elt F)),
    binary main_v12 main_v14 main_v15 ((fun l r => Host.dotGeneral dot_S768x100_S100x768_S768x768_1_0_0_1_n_n none l r) : (⟨S768x100, .f32⟩ : BufTy).Contents (Elt F) → (⟨S100x768, .f32⟩ : BufTy).Contents (Elt F) → (⟨S768x768, .f32⟩ : BufTy).Contents (Elt F)),
    reshape main_v15 main_v16 rfl shapeCasts_S768x768_S589824x1,
    unary main_v16 main_v17 (broadcastInDim S589824x100 ![0, 1] bcast_S589824x1_S589824x100_0_1 : (⟨S589824x1, .f32⟩ : BufTy).Contents (Elt F) → (⟨S589824x100, .f32⟩ : BufTy).Contents (Elt F)),
    binary main_v11 main_v17 main_v18 (addf : (⟨S589824x100, .f32⟩ : BufTy).Contents (Elt F) → (⟨S589824x100, .f32⟩ : BufTy).Contents (Elt F) → (⟨S589824x100, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S589824x100, .f32⟩) main_call0_v0) (broadcastInDim S589824x100 ![] bcast_S_S589824x100),
    TRef.binary (TRef.of (T := ⟨S589824x100, .f32⟩) main_v18) (TRef.of (T := ⟨S589824x100, .f32⟩) main_call0_v0) (TRef.of (T := ⟨S589824x100, .f32⟩) main_v19) maximumf,
    binary main_v19 main_arg10 main_v20 ((fun l r => Host.dotGeneral dot_S589824x100_S100x100_S589824x100_1_0_0_1_n_n none l r) : (⟨S589824x100, .f32⟩ : BufTy).Contents (Elt F) → (⟨S100x100, .f32⟩ : BufTy).Contents (Elt F) → (⟨S589824x100, .f32⟩ : BufTy).Contents (Elt F)),
    unary main_arg11 main_v21 (broadcastInDim S1x100 ![1] bcast_S100_S1x100_1 : (⟨S100, .f32⟩ : BufTy).Contents (Elt F) → (⟨S1x100, .f32⟩ : BufTy).Contents (Elt F)),
    unary main_v21 main_v22 (broadcastInDim S589824x100 ![0, 1] bcast_S1x100_S589824x100_0_1 : (⟨S1x100, .f32⟩ : BufTy).Contents (Elt F) → (⟨S589824x100, .f32⟩ : BufTy).Contents (Elt F)),
    binary main_v20 main_v22 main_v23 (addf : (⟨S589824x100, .f32⟩ : BufTy).Contents (Elt F) → (⟨S589824x100, .f32⟩ : BufTy).Contents (Elt F) → (⟨S589824x100, .f32⟩ : BufTy).Contents (Elt F)),
    binary main_v7 main_v23 main_v24 (addf : (⟨S589824x100, .f32⟩ : BufTy).Contents (Elt F) → (⟨S589824x100, .f32⟩ : BufTy).Contents (Elt F) → (⟨S589824x100, .f32⟩ : BufTy).Contents (Elt F)),
    binary main_v24 main_arg12 main_v25 ((fun l r => Host.dotGeneral dot_S589824x100_S100x100_S589824x100_1_0_0_1_n_n none l r) : (⟨S589824x100, .f32⟩ : BufTy).Contents (Elt F) → (⟨S100x100, .f32⟩ : BufTy).Contents (Elt F) → (⟨S589824x100, .f32⟩ : BufTy).Contents (Elt F)),
    unary main_arg13 main_v26 (broadcastInDim S1x100 ![1] bcast_S100_S1x100_1 : (⟨S100, .f32⟩ : BufTy).Contents (Elt F) → (⟨S1x100, .f32⟩ : BufTy).Contents (Elt F)),
    unary main_v26 main_v27 (broadcastInDim S589824x100 ![0, 1] bcast_S1x100_S589824x100_0_1 : (⟨S1x100, .f32⟩ : BufTy).Contents (Elt F) → (⟨S589824x100, .f32⟩ : BufTy).Contents (Elt F)),
    binary main_v25 main_v27 main_v28 (addf : (⟨S589824x100, .f32⟩ : BufTy).Contents (Elt F) → (⟨S589824x100, .f32⟩ : BufTy).Contents (Elt F) → (⟨S589824x100, .f32⟩ : BufTy).Contents (Elt F)),
    reshape main_v28 main_v29 rfl shapeCasts_S589824x100_S768x768x100,
    nullary main_cst (constant S_ .f32 0x00000000#32),
    binary main_v29 main_cst main_v30 ((fun x v => Host.reduceAdd x v reducesTo_S768x768x100_S768x100_d1 h_S_) : (⟨S768x768x100, .f32⟩ : BufTy).Contents (Elt F) → (⟨S_, .f32⟩ : BufTy).Contents (Elt F) → (⟨S768x100, .f32⟩ : BufTy).Contents (Elt F)),
    binary main_v30 main_arg14 main_v31 ((fun l r => Host.dotGeneral dot_S768x100_S100x100_S768x100_1_0_0_1_n_n none l r) : (⟨S768x100, .f32⟩ : BufTy).Contents (Elt F) → (⟨S100x100, .f32⟩ : BufTy).Contents (Elt F) → (⟨S768x100, .f32⟩ : BufTy).Contents (Elt F)),
    unary main_arg15 main_v32 (broadcastInDim S1x100 ![1] bcast_S100_S1x100_1 : (⟨S100, .f32⟩ : BufTy).Contents (Elt F) → (⟨S1x100, .f32⟩ : BufTy).Contents (Elt F)),
    unary main_v32 main_v33 (broadcastInDim S768x100 ![0, 1] bcast_S1x100_S768x100_0_1 : (⟨S1x100, .f32⟩ : BufTy).Contents (Elt F) → (⟨S768x100, .f32⟩ : BufTy).Contents (Elt F)),
    binary main_v31 main_v33 main_v34 (addf : (⟨S768x100, .f32⟩ : BufTy).Contents (Elt F) → (⟨S768x100, .f32⟩ : BufTy).Contents (Elt F) → (⟨S768x100, .f32⟩ : BufTy).Contents (Elt F)),
    binary main_v3 main_v34 main_v35 (addf : (⟨S768x100, .f32⟩ : BufTy).Contents (Elt F) → (⟨S768x100, .f32⟩ : BufTy).Contents (Elt F) → (⟨S768x100, .f32⟩ : BufTy).Contents (Elt F)) ]

/-- The second step: it reads `main_v24`, `main_v35` and writes `main_v52` and `main_v63`. -/
abbrev ops2 : List (HloOp τ sig (Elt F)) :=
  [ binary main_v24 main_arg6 main_v36 ((fun l r => Host.dotGeneral dot_S589824x100_S100x100_S589824x100_1_0_0_1_n_n none l r) : (⟨S589824x100, .f32⟩ : BufTy).Contents (Elt F) → (⟨S100x100, .f32⟩ : BufTy).Contents (Elt F) → (⟨S589824x100, .f32⟩ : BufTy).Contents (Elt F)),
    unary main_arg7 main_v37 (broadcastInDim S1x100 ![1] bcast_S100_S1x100_1 : (⟨S100, .f32⟩ : BufTy).Contents (Elt F) → (⟨S1x100, .f32⟩ : BufTy).Contents (Elt F)),
    unary main_v37 main_v38 (broadcastInDim S589824x100 ![0, 1] bcast_S1x100_S589824x100_0_1 : (⟨S1x100, .f32⟩ : BufTy).Contents (Elt F) → (⟨S589824x100, .f32⟩ : BufTy).Contents (Elt F)),
    binary main_v36 main_v38 main_v39 (addf : (⟨S589824x100, .f32⟩ : BufTy).Contents (Elt F) → (⟨S589824x100, .f32⟩ : BufTy).Contents (Elt F) → (⟨S589824x100, .f32⟩ : BufTy).Contents (Elt F)),
    binary main_v35 main_arg8 main_v40 ((fun l r => Host.dotGeneral dot_S768x100_S100x100_S768x100_1_0_0_1_n_n none l r) : (⟨S768x100, .f32⟩ : BufTy).Contents (Elt F) → (⟨S100x100, .f32⟩ : BufTy).Contents (Elt F) → (⟨S768x100, .f32⟩ : BufTy).Contents (Elt F)),
    binary main_v35 main_arg9 main_v41 ((fun l r => Host.dotGeneral dot_S768x100_S100x100_S768x100_1_0_0_1_n_n none l r) : (⟨S768x100, .f32⟩ : BufTy).Contents (Elt F) → (⟨S100x100, .f32⟩ : BufTy).Contents (Elt F) → (⟨S768x100, .f32⟩ : BufTy).Contents (Elt F)),
    unary main_v41 main_v42 ((transpose S100x768 [1, 0] · transposes_S768x100_S100x768_1_0) : (⟨S768x100, .f32⟩ : BufTy).Contents (Elt F) → (⟨S100x768, .f32⟩ : BufTy).Contents (Elt F)),
    binary main_v40 main_v42 main_v43 ((fun l r => Host.dotGeneral dot_S768x100_S100x768_S768x768_1_0_0_1_n_n none l r) : (⟨S768x100, .f32⟩ : BufTy).Contents (Elt F) → (⟨S100x768, .f32⟩ : BufTy).Contents (Elt F) → (⟨S768x768, .f32⟩ : BufTy).Contents (Elt F)),
    reshape main_v43 main_v44 rfl shapeCasts_S768x768_S589824x1,
    unary main_v44 main_v45 (broadcastInDim S589824x100 ![0, 1] bcast_S589824x1_S589824x100_0_1 : (⟨S589824x1, .f32⟩ : BufTy).Contents (Elt F) → (⟨S589824x100, .f32⟩ : BufTy).Contents (Elt F)),
    binary main_v39 main_v45 main_v46 (addf : (⟨S589824x100, .f32⟩ : BufTy).Contents (Elt F) → (⟨S589824x100, .f32⟩ : BufTy).Contents (Elt F) → (⟨S589824x100, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S589824x100, .f32⟩) main_call1_v0) (broadcastInDim S589824x100 ![] bcast_S_S589824x100),
    TRef.binary (TRef.of (T := ⟨S589824x100, .f32⟩) main_v46) (TRef.of (T := ⟨S589824x100, .f32⟩) main_call1_v0) (TRef.of (T := ⟨S589824x100, .f32⟩) main_v47) maximumf,
    binary main_v47 main_arg10 main_v48 ((fun l r => Host.dotGeneral dot_S589824x100_S100x100_S589824x100_1_0_0_1_n_n none l r) : (⟨S589824x100, .f32⟩ : BufTy).Contents (Elt F) → (⟨S100x100, .f32⟩ : BufTy).Contents (Elt F) → (⟨S589824x100, .f32⟩ : BufTy).Contents (Elt F)),
    unary main_arg11 main_v49 (broadcastInDim S1x100 ![1] bcast_S100_S1x100_1 : (⟨S100, .f32⟩ : BufTy).Contents (Elt F) → (⟨S1x100, .f32⟩ : BufTy).Contents (Elt F)),
    unary main_v49 main_v50 (broadcastInDim S589824x100 ![0, 1] bcast_S1x100_S589824x100_0_1 : (⟨S1x100, .f32⟩ : BufTy).Contents (Elt F) → (⟨S589824x100, .f32⟩ : BufTy).Contents (Elt F)),
    binary main_v48 main_v50 main_v51 (addf : (⟨S589824x100, .f32⟩ : BufTy).Contents (Elt F) → (⟨S589824x100, .f32⟩ : BufTy).Contents (Elt F) → (⟨S589824x100, .f32⟩ : BufTy).Contents (Elt F)),
    binary main_v24 main_v51 main_v52 (addf : (⟨S589824x100, .f32⟩ : BufTy).Contents (Elt F) → (⟨S589824x100, .f32⟩ : BufTy).Contents (Elt F) → (⟨S589824x100, .f32⟩ : BufTy).Contents (Elt F)),
    binary main_v52 main_arg12 main_v53 ((fun l r => Host.dotGeneral dot_S589824x100_S100x100_S589824x100_1_0_0_1_n_n none l r) : (⟨S589824x100, .f32⟩ : BufTy).Contents (Elt F) → (⟨S100x100, .f32⟩ : BufTy).Contents (Elt F) → (⟨S589824x100, .f32⟩ : BufTy).Contents (Elt F)),
    unary main_arg13 main_v54 (broadcastInDim S1x100 ![1] bcast_S100_S1x100_1 : (⟨S100, .f32⟩ : BufTy).Contents (Elt F) → (⟨S1x100, .f32⟩ : BufTy).Contents (Elt F)),
    unary main_v54 main_v55 (broadcastInDim S589824x100 ![0, 1] bcast_S1x100_S589824x100_0_1 : (⟨S1x100, .f32⟩ : BufTy).Contents (Elt F) → (⟨S589824x100, .f32⟩ : BufTy).Contents (Elt F)),
    binary main_v53 main_v55 main_v56 (addf : (⟨S589824x100, .f32⟩ : BufTy).Contents (Elt F) → (⟨S589824x100, .f32⟩ : BufTy).Contents (Elt F) → (⟨S589824x100, .f32⟩ : BufTy).Contents (Elt F)),
    reshape main_v56 main_v57 rfl shapeCasts_S589824x100_S768x768x100,
    nullary main_cst_0 (constant S_ .f32 0x00000000#32),
    binary main_v57 main_cst_0 main_v58 ((fun x v => Host.reduceAdd x v reducesTo_S768x768x100_S768x100_d1 h_S_) : (⟨S768x768x100, .f32⟩ : BufTy).Contents (Elt F) → (⟨S_, .f32⟩ : BufTy).Contents (Elt F) → (⟨S768x100, .f32⟩ : BufTy).Contents (Elt F)),
    binary main_v58 main_arg14 main_v59 ((fun l r => Host.dotGeneral dot_S768x100_S100x100_S768x100_1_0_0_1_n_n none l r) : (⟨S768x100, .f32⟩ : BufTy).Contents (Elt F) → (⟨S100x100, .f32⟩ : BufTy).Contents (Elt F) → (⟨S768x100, .f32⟩ : BufTy).Contents (Elt F)),
    unary main_arg15 main_v60 (broadcastInDim S1x100 ![1] bcast_S100_S1x100_1 : (⟨S100, .f32⟩ : BufTy).Contents (Elt F) → (⟨S1x100, .f32⟩ : BufTy).Contents (Elt F)),
    unary main_v60 main_v61 (broadcastInDim S768x100 ![0, 1] bcast_S1x100_S768x100_0_1 : (⟨S1x100, .f32⟩ : BufTy).Contents (Elt F) → (⟨S768x100, .f32⟩ : BufTy).Contents (Elt F)),
    binary main_v59 main_v61 main_v62 (addf : (⟨S768x100, .f32⟩ : BufTy).Contents (Elt F) → (⟨S768x100, .f32⟩ : BufTy).Contents (Elt F) → (⟨S768x100, .f32⟩ : BufTy).Contents (Elt F)),
    binary main_v35 main_v62 main_v63 (addf : (⟨S768x100, .f32⟩ : BufTy).Contents (Elt F) → (⟨S768x100, .f32⟩ : BufTy).Contents (Elt F) → (⟨S768x100, .f32⟩ : BufTy).Contents (Elt F)) ]

/-- The third step: it reads `main_v52`, `main_v63` and writes `main_v80` and `main_v91`. -/
abbrev ops3 : List (HloOp τ sig (Elt F)) :=
  [ binary main_v52 main_arg6 main_v64 ((fun l r => Host.dotGeneral dot_S589824x100_S100x100_S589824x100_1_0_0_1_n_n none l r) : (⟨S589824x100, .f32⟩ : BufTy).Contents (Elt F) → (⟨S100x100, .f32⟩ : BufTy).Contents (Elt F) → (⟨S589824x100, .f32⟩ : BufTy).Contents (Elt F)),
    unary main_arg7 main_v65 (broadcastInDim S1x100 ![1] bcast_S100_S1x100_1 : (⟨S100, .f32⟩ : BufTy).Contents (Elt F) → (⟨S1x100, .f32⟩ : BufTy).Contents (Elt F)),
    unary main_v65 main_v66 (broadcastInDim S589824x100 ![0, 1] bcast_S1x100_S589824x100_0_1 : (⟨S1x100, .f32⟩ : BufTy).Contents (Elt F) → (⟨S589824x100, .f32⟩ : BufTy).Contents (Elt F)),
    binary main_v64 main_v66 main_v67 (addf : (⟨S589824x100, .f32⟩ : BufTy).Contents (Elt F) → (⟨S589824x100, .f32⟩ : BufTy).Contents (Elt F) → (⟨S589824x100, .f32⟩ : BufTy).Contents (Elt F)),
    binary main_v63 main_arg8 main_v68 ((fun l r => Host.dotGeneral dot_S768x100_S100x100_S768x100_1_0_0_1_n_n none l r) : (⟨S768x100, .f32⟩ : BufTy).Contents (Elt F) → (⟨S100x100, .f32⟩ : BufTy).Contents (Elt F) → (⟨S768x100, .f32⟩ : BufTy).Contents (Elt F)),
    binary main_v63 main_arg9 main_v69 ((fun l r => Host.dotGeneral dot_S768x100_S100x100_S768x100_1_0_0_1_n_n none l r) : (⟨S768x100, .f32⟩ : BufTy).Contents (Elt F) → (⟨S100x100, .f32⟩ : BufTy).Contents (Elt F) → (⟨S768x100, .f32⟩ : BufTy).Contents (Elt F)),
    unary main_v69 main_v70 ((transpose S100x768 [1, 0] · transposes_S768x100_S100x768_1_0) : (⟨S768x100, .f32⟩ : BufTy).Contents (Elt F) → (⟨S100x768, .f32⟩ : BufTy).Contents (Elt F)),
    binary main_v68 main_v70 main_v71 ((fun l r => Host.dotGeneral dot_S768x100_S100x768_S768x768_1_0_0_1_n_n none l r) : (⟨S768x100, .f32⟩ : BufTy).Contents (Elt F) → (⟨S100x768, .f32⟩ : BufTy).Contents (Elt F) → (⟨S768x768, .f32⟩ : BufTy).Contents (Elt F)),
    reshape main_v71 main_v72 rfl shapeCasts_S768x768_S589824x1,
    unary main_v72 main_v73 (broadcastInDim S589824x100 ![0, 1] bcast_S589824x1_S589824x100_0_1 : (⟨S589824x1, .f32⟩ : BufTy).Contents (Elt F) → (⟨S589824x100, .f32⟩ : BufTy).Contents (Elt F)),
    binary main_v67 main_v73 main_v74 (addf : (⟨S589824x100, .f32⟩ : BufTy).Contents (Elt F) → (⟨S589824x100, .f32⟩ : BufTy).Contents (Elt F) → (⟨S589824x100, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S589824x100, .f32⟩) main_call2_v0) (broadcastInDim S589824x100 ![] bcast_S_S589824x100),
    TRef.binary (TRef.of (T := ⟨S589824x100, .f32⟩) main_v74) (TRef.of (T := ⟨S589824x100, .f32⟩) main_call2_v0) (TRef.of (T := ⟨S589824x100, .f32⟩) main_v75) maximumf,
    binary main_v75 main_arg10 main_v76 ((fun l r => Host.dotGeneral dot_S589824x100_S100x100_S589824x100_1_0_0_1_n_n none l r) : (⟨S589824x100, .f32⟩ : BufTy).Contents (Elt F) → (⟨S100x100, .f32⟩ : BufTy).Contents (Elt F) → (⟨S589824x100, .f32⟩ : BufTy).Contents (Elt F)),
    unary main_arg11 main_v77 (broadcastInDim S1x100 ![1] bcast_S100_S1x100_1 : (⟨S100, .f32⟩ : BufTy).Contents (Elt F) → (⟨S1x100, .f32⟩ : BufTy).Contents (Elt F)),
    unary main_v77 main_v78 (broadcastInDim S589824x100 ![0, 1] bcast_S1x100_S589824x100_0_1 : (⟨S1x100, .f32⟩ : BufTy).Contents (Elt F) → (⟨S589824x100, .f32⟩ : BufTy).Contents (Elt F)),
    binary main_v76 main_v78 main_v79 (addf : (⟨S589824x100, .f32⟩ : BufTy).Contents (Elt F) → (⟨S589824x100, .f32⟩ : BufTy).Contents (Elt F) → (⟨S589824x100, .f32⟩ : BufTy).Contents (Elt F)),
    binary main_v52 main_v79 main_v80 (addf : (⟨S589824x100, .f32⟩ : BufTy).Contents (Elt F) → (⟨S589824x100, .f32⟩ : BufTy).Contents (Elt F) → (⟨S589824x100, .f32⟩ : BufTy).Contents (Elt F)),
    binary main_v80 main_arg12 main_v81 ((fun l r => Host.dotGeneral dot_S589824x100_S100x100_S589824x100_1_0_0_1_n_n none l r) : (⟨S589824x100, .f32⟩ : BufTy).Contents (Elt F) → (⟨S100x100, .f32⟩ : BufTy).Contents (Elt F) → (⟨S589824x100, .f32⟩ : BufTy).Contents (Elt F)),
    unary main_arg13 main_v82 (broadcastInDim S1x100 ![1] bcast_S100_S1x100_1 : (⟨S100, .f32⟩ : BufTy).Contents (Elt F) → (⟨S1x100, .f32⟩ : BufTy).Contents (Elt F)),
    unary main_v82 main_v83 (broadcastInDim S589824x100 ![0, 1] bcast_S1x100_S589824x100_0_1 : (⟨S1x100, .f32⟩ : BufTy).Contents (Elt F) → (⟨S589824x100, .f32⟩ : BufTy).Contents (Elt F)),
    binary main_v81 main_v83 main_v84 (addf : (⟨S589824x100, .f32⟩ : BufTy).Contents (Elt F) → (⟨S589824x100, .f32⟩ : BufTy).Contents (Elt F) → (⟨S589824x100, .f32⟩ : BufTy).Contents (Elt F)),
    reshape main_v84 main_v85 rfl shapeCasts_S589824x100_S768x768x100,
    nullary main_cst_1 (constant S_ .f32 0x00000000#32),
    binary main_v85 main_cst_1 main_v86 ((fun x v => Host.reduceAdd x v reducesTo_S768x768x100_S768x100_d1 h_S_) : (⟨S768x768x100, .f32⟩ : BufTy).Contents (Elt F) → (⟨S_, .f32⟩ : BufTy).Contents (Elt F) → (⟨S768x100, .f32⟩ : BufTy).Contents (Elt F)),
    binary main_v86 main_arg14 main_v87 ((fun l r => Host.dotGeneral dot_S768x100_S100x100_S768x100_1_0_0_1_n_n none l r) : (⟨S768x100, .f32⟩ : BufTy).Contents (Elt F) → (⟨S100x100, .f32⟩ : BufTy).Contents (Elt F) → (⟨S768x100, .f32⟩ : BufTy).Contents (Elt F)),
    unary main_arg15 main_v88 (broadcastInDim S1x100 ![1] bcast_S100_S1x100_1 : (⟨S100, .f32⟩ : BufTy).Contents (Elt F) → (⟨S1x100, .f32⟩ : BufTy).Contents (Elt F)),
    unary main_v88 main_v89 (broadcastInDim S768x100 ![0, 1] bcast_S1x100_S768x100_0_1 : (⟨S1x100, .f32⟩ : BufTy).Contents (Elt F) → (⟨S768x100, .f32⟩ : BufTy).Contents (Elt F)),
    binary main_v87 main_v89 main_v90 (addf : (⟨S768x100, .f32⟩ : BufTy).Contents (Elt F) → (⟨S768x100, .f32⟩ : BufTy).Contents (Elt F) → (⟨S768x100, .f32⟩ : BufTy).Contents (Elt F)),
    binary main_v63 main_v90 main_v91 (addf : (⟨S768x100, .f32⟩ : BufTy).Contents (Elt F) → (⟨S768x100, .f32⟩ : BufTy).Contents (Elt F) → (⟨S768x100, .f32⟩ : BufTy).Contents (Elt F)) ]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- @main is the four lines in order. -/
theorem main_eq (c : Dev nD) : main (F := F) c = seq (ops0 ++ ops1 ++ ops2 ++ ops3) := rfl
theorem scopedRefs_eq : (Finset.univ.filter fun b : Ref sig .tc => b.isScoped) = ∅ := by decide
theorem scopedSems_eq : (Finset.univ.filter fun sm : SemLoc sig => sm.isScoped .tc) = ∅ := by decide

/-! ### Every operation touches TensorCore references only, and determines its results -/

theorem ops0_sub : (ops0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
set_option maxRecDepth 8192 in
theorem ops1_sub : (ops1 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., binary_bufs_sub .., reshape_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., reshape_bufs_sub .., nullary_bufs_sub .., binary_bufs_sub .., binary_bufs_sub .., unary_bufs_sub .., unary_bufs_sub .., binary_bufs_sub .., binary_bufs_sub ..⟩
set_option maxRecDepth 8192 in
theorem ops2_sub : (ops2 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., binary_bufs_sub .., reshape_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., reshape_bufs_sub .., nullary_bufs_sub .., binary_bufs_sub .., binary_bufs_sub .., unary_bufs_sub .., unary_bufs_sub .., binary_bufs_sub .., binary_bufs_sub ..⟩
set_option maxRecDepth 8192 in
theorem ops3_sub : (ops3 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., binary_bufs_sub .., reshape_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., reshape_bufs_sub .., nullary_bufs_sub .., binary_bufs_sub .., binary_bufs_sub .., unary_bufs_sub .., unary_bufs_sub .., binary_bufs_sub .., binary_bufs_sub ..⟩

theorem ops_sub : (ops0 ++ ops1 ++ ops2 ++ ops3 : List (HloOp τ sig (Elt F))).Forall fun op => op.bufs ⊆ tcRefs τ sig :=
  List.forall_append.mpr ⟨List.forall_append.mpr ⟨List.forall_append.mpr ⟨ops0_sub, ops1_sub⟩, ops2_sub⟩, ops3_sub⟩

theorem ops0_fresh : (ops0 : List (HloOp τ sig (Elt F))).Forall fun op => op.fresh = ∅ := by
  simp only [List.Forall]; repeat' constructor
set_option maxRecDepth 8192 in
theorem ops1_fresh : (ops1 : List (HloOp τ sig (Elt F))).Forall fun op => op.fresh = ∅ := by
  simp only [List.Forall]; repeat' constructor
set_option maxRecDepth 8192 in
theorem ops2_fresh : (ops2 : List (HloOp τ sig (Elt F))).Forall fun op => op.fresh = ∅ := by
  simp only [List.Forall]; repeat' constructor
set_option maxRecDepth 8192 in
theorem ops3_fresh : (ops3 : List (HloOp τ sig (Elt F))).Forall fun op => op.fresh = ∅ := by
  simp only [List.Forall]; repeat' constructor

theorem ops_fresh : ∀ op ∈ (ops0 ++ ops1 ++ ops2 ++ ops3 : List (HloOp τ sig (Elt F))), op.fresh = ∅ :=
  List.forall_iff_forall_mem.mp
    (List.forall_append.mpr ⟨List.forall_append.mpr ⟨List.forall_append.mpr ⟨ops0_fresh, ops1_fresh⟩, ops2_fresh⟩, ops3_fresh⟩)

/-! ### What each line writes -/

/-- The references `ops0` writes: one per operation. -/
abbrev ops0_W : List (Ref sig .tc) := [main_v0, main_v1, main_v2, main_v3, main_v4, main_v5, main_v6, main_v7]
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩
/-- A reference `ops0` does not write keeps its contents through it. -/
theorem ops0_keep (U : Valuation τ sig (Elt F)) {r : Ref sig .tc} (h : r ∉ ops0_W) :
    after ops0 U (Proc.devRef .tc r) = U (Proc.devRef .tc r) :=
  after_of_writes_sub ops0 U ops0_writes h

/-- The references `ops1` writes: one per operation. -/
abbrev ops1_W : List (Ref sig .tc) := [main_v8, main_v9, main_v10, main_v11, main_v12, main_v13, main_v14, main_v15, main_v16, main_v17, main_v18, main_call0_cst, main_call0_v0, main_v19, main_v20, main_v21, main_v22, main_v23, main_v24, main_v25, main_v26, main_v27, main_v28, main_v29, main_cst, main_v30, main_v31, main_v32, main_v33, main_v34, main_v35]
set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩
/-- A reference `ops1` does not write keeps its contents through it. -/
theorem ops1_keep (U : Valuation τ sig (Elt F)) {r : Ref sig .tc} (h : r ∉ ops1_W) :
    after ops1 U (Proc.devRef .tc r) = U (Proc.devRef .tc r) :=
  after_of_writes_sub ops1 U ops1_writes h

/-- The references `ops2` writes: one per operation. -/
abbrev ops2_W : List (Ref sig .tc) := [main_v36, main_v37, main_v38, main_v39, main_v40, main_v41, main_v42, main_v43, main_v44, main_v45, main_v46, main_call1_cst, main_call1_v0, main_v47, main_v48, main_v49, main_v50, main_v51, main_v52, main_v53, main_v54, main_v55, main_v56, main_v57, main_cst_0, main_v58, main_v59, main_v60, main_v61, main_v62, main_v63]
set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩
/-- A reference `ops2` does not write keeps its contents through it. -/
theorem ops2_keep (U : Valuation τ sig (Elt F)) {r : Ref sig .tc} (h : r ∉ ops2_W) :
    after ops2 U (Proc.devRef .tc r) = U (Proc.devRef .tc r) :=
  after_of_writes_sub ops2 U ops2_writes h

/-- The references `ops3` writes: one per operation. -/
abbrev ops3_W : List (Ref sig .tc) := [main_v64, main_v65, main_v66, main_v67, main_v68, main_v69, main_v70, main_v71, main_v72, main_v73, main_v74, main_call2_cst, main_call2_v0, main_v75, main_v76, main_v77, main_v78, main_v79, main_v80, main_v81, main_v82, main_v83, main_v84, main_v85, main_cst_1, main_v86, main_v87, main_v88, main_v89, main_v90, main_v91]
set_option maxRecDepth 8192 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide),
    by simp only [nullary_writes, unary_writes, binary_writes, reshape_writes, Finset.singleton_subset_iff, List.mem_toFinset]; exact List.mem_map_of_mem (by decide)⟩
/-- A reference `ops3` does not write keeps its contents through it. -/
theorem ops3_keep (U : Valuation τ sig (Elt F)) {r : Ref sig .tc} (h : r ∉ ops3_W) :
    after ops3 U (Proc.devRef .tc r) = U (Proc.devRef .tc r) :=
  after_of_writes_sub ops3 U ops3_writes h

/-! ## One line at a time, from any contents

Each line's two results as the step functions of the contents it starts from: the operations' composed term is the
function's body, by unfolding. -/

set_option maxHeartbeats 400000 in
theorem enc_E (U : Valuation τ sig (Elt F)) :
    after ops0 U (Proc.devRef .tc main_v7) = Cert.Step.encE (U (Proc.devRef .tc main_arg1)) (U (Proc.devRef .tc main_arg4)) (U (Proc.devRef .tc main_arg5)) := by
  after_results_simp
  rfl

set_option maxHeartbeats 400000 in
theorem enc_H (U : Valuation τ sig (Elt F)) :
    after ops0 U (Proc.devRef .tc main_v3) = Cert.Step.encH (U (Proc.devRef .tc main_arg0)) (U (Proc.devRef .tc main_arg2)) (U (Proc.devRef .tc main_arg3)) := by
  after_results_simp
  rfl

set_option maxHeartbeats 400000 in
theorem step1_E (U : Valuation τ sig (Elt F)) :
    after ops1 U (Proc.devRef .tc main_v24) = Cert.Step.stepE (U (Proc.devRef .tc main_v7)) (U (Proc.devRef .tc main_v3)) (U (Proc.devRef .tc main_arg6)) (U (Proc.devRef .tc main_arg7)) (U (Proc.devRef .tc main_arg8)) (U (Proc.devRef .tc main_arg9)) (U (Proc.devRef .tc main_arg10)) (U (Proc.devRef .tc main_arg11)) := by
  after_results_simp
  rfl

set_option maxHeartbeats 400000 in
theorem step1_H (U : Valuation τ sig (Elt F)) :
    after ops1 U (Proc.devRef .tc main_v35) = Cert.Step.stepH (Cert.Step.stepE (U (Proc.devRef .tc main_v7)) (U (Proc.devRef .tc main_v3)) (U (Proc.devRef .tc main_arg6)) (U (Proc.devRef .tc main_arg7)) (U (Proc.devRef .tc main_arg8)) (U (Proc.devRef .tc main_arg9)) (U (Proc.devRef .tc main_arg10)) (U (Proc.devRef .tc main_arg11))) (U (Proc.devRef .tc main_v3)) (U (Proc.devRef .tc main_arg12)) (U (Proc.devRef .tc main_arg13)) (U (Proc.devRef .tc main_arg14)) (U (Proc.devRef .tc main_arg15)) := by
  after_results_simp
  rfl

set_option maxHeartbeats 400000 in
theorem step2_E (U : Valuation τ sig (Elt F)) :
    after ops2 U (Proc.devRef .tc main_v52) = Cert.Step.stepE (U (Proc.devRef .tc main_v24)) (U (Proc.devRef .tc main_v35)) (U (Proc.devRef .tc main_arg6)) (U (Proc.devRef .tc main_arg7)) (U (Proc.devRef .tc main_arg8)) (U (Proc.devRef .tc main_arg9)) (U (Proc.devRef .tc main_arg10)) (U (Proc.devRef .tc main_arg11)) := by
  after_results_simp
  rfl

set_option maxHeartbeats 400000 in
theorem step2_H (U : Valuation τ sig (Elt F)) :
    after ops2 U (Proc.devRef .tc main_v63) = Cert.Step.stepH (Cert.Step.stepE (U (Proc.devRef .tc main_v24)) (U (Proc.devRef .tc main_v35)) (U (Proc.devRef .tc main_arg6)) (U (Proc.devRef .tc main_arg7)) (U (Proc.devRef .tc main_arg8)) (U (Proc.devRef .tc main_arg9)) (U (Proc.devRef .tc main_arg10)) (U (Proc.devRef .tc main_arg11))) (U (Proc.devRef .tc main_v35)) (U (Proc.devRef .tc main_arg12)) (U (Proc.devRef .tc main_arg13)) (U (Proc.devRef .tc main_arg14)) (U (Proc.devRef .tc main_arg15)) := by
  after_results_simp
  rfl

set_option maxHeartbeats 400000 in
theorem step3_E (U : Valuation τ sig (Elt F)) :
    after ops3 U (Proc.devRef .tc main_v80) = Cert.Step.stepE (U (Proc.devRef .tc main_v52)) (U (Proc.devRef .tc main_v63)) (U (Proc.devRef .tc main_arg6)) (U (Proc.devRef .tc main_arg7)) (U (Proc.devRef .tc main_arg8)) (U (Proc.devRef .tc main_arg9)) (U (Proc.devRef .tc main_arg10)) (U (Proc.devRef .tc main_arg11)) := by
  after_results_simp
  rfl

set_option maxHeartbeats 400000 in
theorem step3_H (U : Valuation τ sig (Elt F)) :
    after ops3 U (Proc.devRef .tc main_v91) = Cert.Step.stepH (Cert.Step.stepE (U (Proc.devRef .tc main_v52)) (U (Proc.devRef .tc main_v63)) (U (Proc.devRef .tc main_arg6)) (U (Proc.devRef .tc main_arg7)) (U (Proc.devRef .tc main_arg8)) (U (Proc.devRef .tc main_arg9)) (U (Proc.devRef .tc main_arg10)) (U (Proc.devRef .tc main_arg11))) (U (Proc.devRef .tc main_v63)) (U (Proc.devRef .tc main_arg12)) (U (Proc.devRef .tc main_arg13)) (U (Proc.devRef .tc main_arg14)) (U (Proc.devRef .tc main_arg15)) := by
  after_results_simp
  rfl

/-! ## The run from the launch contents -/

variable (m : (ℓ : Loc nD τ sig) → Buf (Elt F) ℓ)

/-- The encoded edges and nodes, and the edges and nodes after one, two and three steps, of device `c`'s arguments. -/
def E0 (c : Dev nD) : FVec F Cert.Step.SE .f32 := Cert.Step.encE (m ((c.tc : Thread nD τ).loc main_arg1)) (m ((c.tc : Thread nD τ).loc main_arg4)) (m ((c.tc : Thread nD τ).loc main_arg5))
def H0 (c : Dev nD) : FVec F Cert.Step.SN .f32 := Cert.Step.encH (m ((c.tc : Thread nD τ).loc main_arg0)) (m ((c.tc : Thread nD τ).loc main_arg2)) (m ((c.tc : Thread nD τ).loc main_arg3))
def E1 (c : Dev nD) : FVec F Cert.Step.SE .f32 := Cert.Step.stepE (E0 m c) (H0 m c) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
def H1 (c : Dev nD) : FVec F Cert.Step.SN .f32 := Cert.Step.stepH (E1 m c) (H0 m c) (m ((c.tc : Thread nD τ).loc main_arg12)) (m ((c.tc : Thread nD τ).loc main_arg13)) (m ((c.tc : Thread nD τ).loc main_arg14)) (m ((c.tc : Thread nD τ).loc main_arg15))
def E2 (c : Dev nD) : FVec F Cert.Step.SE .f32 := Cert.Step.stepE (E1 m c) (H1 m c) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
def H2 (c : Dev nD) : FVec F Cert.Step.SN .f32 := Cert.Step.stepH (E2 m c) (H1 m c) (m ((c.tc : Thread nD τ).loc main_arg12)) (m ((c.tc : Thread nD τ).loc main_arg13)) (m ((c.tc : Thread nD τ).loc main_arg14)) (m ((c.tc : Thread nD τ).loc main_arg15))
def E3 (c : Dev nD) : FVec F Cert.Step.SE .f32 := Cert.Step.stepE (E2 m c) (H2 m c) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
def H3 (c : Dev nD) : FVec F Cert.Step.SN .f32 := Cert.Step.stepH (E3 m c) (H2 m c) (m ((c.tc : Thread nD τ).loc main_arg12)) (m ((c.tc : Thread nD τ).loc main_arg13)) (m ((c.tc : Thread nD τ).loc main_arg14)) (m ((c.tc : Thread nD τ).loc main_arg15))

/-- Device `c`'s contents after the encoders, and after each step. -/
def V1 (c : Dev nD) : Valuation τ sig (Elt F) := after ops0 (launchContents m c)
def V2 (c : Dev nD) : Valuation τ sig (Elt F) := after ops1 (V1 m c)
def V3 (c : Dev nD) : Valuation τ sig (Elt F) := after ops2 (V2 m c)
def V4 (c : Dev nD) : Valuation τ sig (Elt F) := after ops3 (V3 m c)

/-- A reference no line writes (an argument) holds its launch contents at every stage. -/
theorem V1_arg (c : Dev nD) {r : Ref sig .tc} (h0 : r ∉ ops0_W) :
    V1 m c (Proc.devRef .tc r) = m ((c.tc : Thread nD τ).loc r) := ops0_keep _ h0
theorem V2_arg (c : Dev nD) {r : Ref sig .tc} (h0 : r ∉ ops0_W) (h1 : r ∉ ops1_W) :
    V2 m c (Proc.devRef .tc r) = m ((c.tc : Thread nD τ).loc r) := (ops1_keep _ h1).trans (V1_arg m c h0)
theorem V3_arg (c : Dev nD) {r : Ref sig .tc} (h0 : r ∉ ops0_W) (h1 : r ∉ ops1_W) (h2 : r ∉ ops2_W) :
    V3 m c (Proc.devRef .tc r) = m ((c.tc : Thread nD τ).loc r) := (ops2_keep _ h2).trans (V2_arg m c h0 h1)
theorem V4_arg (c : Dev nD) {r : Ref sig .tc} (h0 : r ∉ ops0_W) (h1 : r ∉ ops1_W) (h2 : r ∉ ops2_W) (h3 : r ∉ ops3_W) :
    V4 m c (Proc.devRef .tc r) = m ((c.tc : Thread nD τ).loc r) := (ops3_keep _ h3).trans (V3_arg m c h0 h1 h2)

theorem V1_E (c : Dev nD) : V1 m c (Proc.devRef .tc main_v7) = E0 m c := enc_E _
theorem V1_H (c : Dev nD) : V1 m c (Proc.devRef .tc main_v3) = H0 m c := enc_H _

theorem V2_E (c : Dev nD) : V2 m c (Proc.devRef .tc main_v24) = E1 m c :=
  (step1_E (V1 m c)).trans (by
    unfold E1
    rw [V1_E, V1_H, V1_arg m c (r := main_arg6) (by decide),
      V1_arg m c (r := main_arg7) (by decide),
      V1_arg m c (r := main_arg8) (by decide),
      V1_arg m c (r := main_arg9) (by decide),
      V1_arg m c (r := main_arg10) (by decide),
      V1_arg m c (r := main_arg11) (by decide)])
theorem V2_H (c : Dev nD) : V2 m c (Proc.devRef .tc main_v35) = H1 m c :=
  (step1_H (V1 m c)).trans (by
    unfold H1 E1
    rw [V1_E, V1_H, V1_arg m c (r := main_arg6) (by decide),
      V1_arg m c (r := main_arg7) (by decide),
      V1_arg m c (r := main_arg8) (by decide),
      V1_arg m c (r := main_arg9) (by decide),
      V1_arg m c (r := main_arg10) (by decide),
      V1_arg m c (r := main_arg11) (by decide),
      V1_arg m c (r := main_arg12) (by decide),
      V1_arg m c (r := main_arg13) (by decide),
      V1_arg m c (r := main_arg14) (by decide),
      V1_arg m c (r := main_arg15) (by decide)])

theorem V3_E (c : Dev nD) : V3 m c (Proc.devRef .tc main_v52) = E2 m c :=
  (step2_E (V2 m c)).trans (by
    unfold E2
    rw [V2_E, V2_H, V2_arg m c (r := main_arg6) (by decide) (by decide),
      V2_arg m c (r := main_arg7) (by decide) (by decide),
      V2_arg m c (r := main_arg8) (by decide) (by decide),
      V2_arg m c (r := main_arg9) (by decide) (by decide),
      V2_arg m c (r := main_arg10) (by decide) (by decide),
      V2_arg m c (r := main_arg11) (by decide) (by decide)])
theorem V3_H (c : Dev nD) : V3 m c (Proc.devRef .tc main_v63) = H2 m c :=
  (step2_H (V2 m c)).trans (by
    unfold H2 E2
    rw [V2_E, V2_H, V2_arg m c (r := main_arg6) (by decide) (by decide),
      V2_arg m c (r := main_arg7) (by decide) (by decide),
      V2_arg m c (r := main_arg8) (by decide) (by decide),
      V2_arg m c (r := main_arg9) (by decide) (by decide),
      V2_arg m c (r := main_arg10) (by decide) (by decide),
      V2_arg m c (r := main_arg11) (by decide) (by decide),
      V2_arg m c (r := main_arg12) (by decide) (by decide),
      V2_arg m c (r := main_arg13) (by decide) (by decide),
      V2_arg m c (r := main_arg14) (by decide) (by decide),
      V2_arg m c (r := main_arg15) (by decide) (by decide)])

theorem V4_E (c : Dev nD) : V4 m c (Proc.devRef .tc main_v80) = E3 m c :=
  (step3_E (V3 m c)).trans (by
    unfold E3
    rw [V3_E, V3_H, V3_arg m c (r := main_arg6) (by decide) (by decide) (by decide),
      V3_arg m c (r := main_arg7) (by decide) (by decide) (by decide),
      V3_arg m c (r := main_arg8) (by decide) (by decide) (by decide),
      V3_arg m c (r := main_arg9) (by decide) (by decide) (by decide),
      V3_arg m c (r := main_arg10) (by decide) (by decide) (by decide),
      V3_arg m c (r := main_arg11) (by decide) (by decide) (by decide)])
theorem V4_H (c : Dev nD) : V4 m c (Proc.devRef .tc main_v91) = H3 m c :=
  (step3_H (V3 m c)).trans (by
    unfold H3 E3
    rw [V3_E, V3_H, V3_arg m c (r := main_arg6) (by decide) (by decide) (by decide),
      V3_arg m c (r := main_arg7) (by decide) (by decide) (by decide),
      V3_arg m c (r := main_arg8) (by decide) (by decide) (by decide),
      V3_arg m c (r := main_arg9) (by decide) (by decide) (by decide),
      V3_arg m c (r := main_arg10) (by decide) (by decide) (by decide),
      V3_arg m c (r := main_arg11) (by decide) (by decide) (by decide),
      V3_arg m c (r := main_arg12) (by decide) (by decide) (by decide),
      V3_arg m c (r := main_arg13) (by decide) (by decide) (by decide),
      V3_arg m c (r := main_arg14) (by decide) (by decide) (by decide),
      V3_arg m c (r := main_arg15) (by decide) (by decide) (by decide)])

/-- The four lines from the launch contents are the last stage. -/
theorem after_all (c : Dev nD) : after (ops0 ++ ops1 ++ ops2 ++ ops3) (launchContents m c) = V4 m c := by
  rw [after_append, after_append, after_append]; rfl

/-- On the device, for any float values, from any memory with zero counters: every weakly fair execution of @main
    terminates with the nodes after three steps in `main_v91`, the edges after three steps in `main_v80`, and the
    arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v91) = H3 m c
      ∧ r.2.mem ((c.tc : Thread nD τ).loc main_v80) = E3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨((h c main_v91).trans (congrFun (after_all m c) _)).trans (V4_H m c),
      ((h c main_v80).trans (congrFun (after_all m c) _)).trans (V4_E m c),
      ((h c main_arg0).trans (congrFun (after_all m c) _)).trans (V4_arg m c (by decide) (by decide) (by decide) (by decide)),
      ((h c main_arg1).trans (congrFun (after_all m c) _)).trans (V4_arg m c (by decide) (by decide) (by decide) (by decide)),
      ((h c main_arg2).trans (congrFun (after_all m c) _)).trans (V4_arg m c (by decide) (by decide) (by decide) (by decide)),
      ((h c main_arg3).trans (congrFun (after_all m c) _)).trans (V4_arg m c (by decide) (by decide) (by decide) (by decide)),
      ((h c main_arg4).trans (congrFun (after_all m c) _)).trans (V4_arg m c (by decide) (by decide) (by decide) (by decide)),
      ((h c main_arg5).trans (congrFun (after_all m c) _)).trans (V4_arg m c (by decide) (by decide) (by decide) (by decide)),
      ((h c main_arg6).trans (congrFun (after_all m c) _)).trans (V4_arg m c (by decide) (by decide) (by decide) (by decide)),
      ((h c main_arg7).trans (congrFun (after_all m c) _)).trans (V4_arg m c (by decide) (by decide) (by decide) (by decide)),
      ((h c main_arg8).trans (congrFun (after_all m c) _)).trans (V4_arg m c (by decide) (by decide) (by decide) (by decide)),
      ((h c main_arg9).trans (congrFun (after_all m c) _)).trans (V4_arg m c (by decide) (by decide) (by decide) (by decide)),
      ((h c main_arg10).trans (congrFun (after_all m c) _)).trans (V4_arg m c (by decide) (by decide) (by decide) (by decide)),
      ((h c main_arg11).trans (congrFun (after_all m c) _)).trans (V4_arg m c (by decide) (by decide) (by decide) (by decide)),
      ((h c main_arg12).trans (congrFun (after_all m c) _)).trans (V4_arg m c (by decide) (by decide) (by decide) (by decide)),
      ((h c main_arg13).trans (congrFun (after_all m c) _)).trans (V4_arg m c (by decide) (by decide) (by decide) (by decide)),
      ((h c main_arg14).trans (congrFun (after_all m c) _)).trans (V4_arg m c (by decide) (by decide) (by decide) (by decide)),
      ((h c main_arg15).trans (congrFun (after_all m c) _)).trans (V4_arg m c (by decide) (by decide) (by decide) (by decide))⟩)
    (run_seq scopedRefs_eq scopedSems_eq defs main (fun _ => ops0 ++ ops1 ++ ops2 ++ ops3) main_eq (fun _ => ops_sub) m ρ
      (fun _ => ops_fresh))

end Cert.ReferenceIdeal.HandRun

end
-- ==== Proof.lean ====
/-
  The certificate of a graph-network kernel against its reference, over the extended reals.

  Both programs encode 768 nodes and the 768·768 ordered pairs of nodes (edges) by a product with a weight plus a bias, and
  then take three message-passing steps. A step sends the edges e and the nodes h to
    e' = e + relu(e·W_eij + b_eij + (h_i·W_i)·(h_j·W_j) spread along the features)·W_de + b_de      (edge (i, j))
    h' = h + (Σ_j (e'_(i,j)·W_dv1 + b_dv1))·W_dv2 + b_dv2                                               (node i)
  The reference computes each step on the whole arrays by host operations. The kernel program encodes the nodes on the host
  and the edges in a first kernel region over blocks of 12288 edge rows, and takes each step in a kernel region over blocks
  of 8 nodes and their 8·768 edge rows, every product in the matrix unit on operands cut to a shorter float format. At the
  ideal values a change of format is the identity and a product is the textbook sum, so a block's values are the whole
  step's at the block's rows, the blocks tile the arrays, and the results of the two programs are the same three steps from
  the same encodings, element by element. No arithmetic law beyond this is used: the two sides are the same sums.

  The three frames: each kernel program's run is followed through its four stretches of host operations and four regions
  (the node array of a step's region is read through two windows, each holding half of it), ending with every buffer at
  its computed contents, the arguments never written; the reference is a straight line of host operations, read one step at
  a time. The idealization rewrote no operation of the kernel program, so it is the program's own text at the ideal values.
-/
import proofs.«143411_j23983097381472_2_alg».proof.Defs
import proofs.«143411_j23983097381472_2_alg».proof.Proof.Gen.Kernel
import proofs.«143411_j23983097381472_2_alg».proof.Proof.Gen.KernelIdeal
import proofs.«143411_j23983097381472_2_alg».proof.Proof.Gen.ReferenceIdeal
import proofs.«143411_j23983097381472_2_alg».proof.Proof.Gen.Pre_finite_inputs
import proofs.«143411_j23983097381472_2_alg».proof.Proof.K.Run
import proofs.«143411_j23983097381472_2_alg».proof.Proof.KI.Chain
import proofs.«143411_j23983097381472_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ =>
  (θ_run (Cert.Kernel.defs (F := Bits)) _ _).mono (fun r h c =>
    ⟨(h c _ (Cert.Kernel.Run.mem_uc Cert.Kernel.main_arg0 (by decide))).trans (Cert.Kernel.Run.W8_main_arg0 m c),
      (h c _ (Cert.Kernel.Run.mem_uc Cert.Kernel.main_arg1 (by decide))).trans (Cert.Kernel.Run.W8_main_arg1 m c),
      (h c _ (Cert.Kernel.Run.mem_uc Cert.Kernel.main_arg2 (by decide))).trans (Cert.Kernel.Run.W8_main_arg2 m c),
      (h c _ (Cert.Kernel.Run.mem_uc Cert.Kernel.main_arg3 (by decide))).trans (Cert.Kernel.Run.W8_main_arg3 m c),
      (h c _ (Cert.Kernel.Run.mem_uc Cert.Kernel.main_arg4 (by decide))).trans (Cert.Kernel.Run.W8_main_arg4 m c),
      (h c _ (Cert.Kernel.Run.mem_uc Cert.Kernel.main_arg5 (by decide))).trans (Cert.Kernel.Run.W8_main_arg5 m c),
      (h c _ (Cert.Kernel.Run.mem_uc Cert.Kernel.main_arg6 (by decide))).trans (Cert.Kernel.Run.W8_main_arg6 m c),
      (h c _ (Cert.Kernel.Run.mem_uc Cert.Kernel.main_arg7 (by decide))).trans (Cert.Kernel.Run.W8_main_arg7 m c),
      (h c _ (Cert.Kernel.Run.mem_uc Cert.Kernel.main_arg8 (by decide))).trans (Cert.Kernel.Run.W8_main_arg8 m c),
      (h c _ (Cert.Kernel.Run.mem_uc Cert.Kernel.main_arg9 (by decide))).trans (Cert.Kernel.Run.W8_main_arg9 m c),
      (h c _ (Cert.Kernel.Run.mem_uc Cert.Kernel.main_arg10 (by decide))).trans (Cert.Kernel.Run.W8_main_arg10 m c),
      (h c _ (Cert.Kernel.Run.mem_uc Cert.Kernel.main_arg11 (by decide))).trans (Cert.Kernel.Run.W8_main_arg11 m c),
      (h c _ (Cert.Kernel.Run.mem_uc Cert.Kernel.main_arg12 (by decide))).trans (Cert.Kernel.Run.W8_main_arg12 m c),
      (h c _ (Cert.Kernel.Run.mem_uc Cert.Kernel.main_arg13 (by decide))).trans (Cert.Kernel.Run.W8_main_arg13 m c),
      (h c _ (Cert.Kernel.Run.mem_uc Cert.Kernel.main_arg14 (by decide))).trans (Cert.Kernel.Run.W8_main_arg14 m c),
      (h c _ (Cert.Kernel.Run.mem_uc Cert.Kernel.main_arg15 (by decide))).trans (Cert.Kernel.Run.W8_main_arg15 m c)⟩)
    (Cert.Kernel.Run.run_main (F := Bits) m ρ)

/-- So does its reading at the ideal values. -/
theorem frame_ki : Cert.frame_KernelIdeal := fun m ρ _ =>
  (θ_run (Cert.KernelIdeal.defs (F := Ideal)) _ _).mono (fun r h c =>
    ⟨(h c _ (Cert.KernelIdeal.Run.mem_uc Cert.KernelIdeal.main_arg0 (by decide))).trans (Cert.KernelIdeal.Run.W8_main_arg0 m c),
      (h c _ (Cert.KernelIdeal.Run.mem_uc Cert.KernelIdeal.main_arg1 (by decide))).trans (Cert.KernelIdeal.Run.W8_main_arg1 m c),
      (h c _ (Cert.KernelIdeal.Run.mem_uc Cert.KernelIdeal.main_arg2 (by decide))).trans (Cert.KernelIdeal.Run.W8_main_arg2 m c),
      (h c _ (Cert.KernelIdeal.Run.mem_uc Cert.KernelIdeal.main_arg3 (by decide))).trans (Cert.KernelIdeal.Run.W8_main_arg3 m c),
      (h c _ (Cert.KernelIdeal.Run.mem_uc Cert.KernelIdeal.main_arg4 (by decide))).trans (Cert.KernelIdeal.Run.W8_main_arg4 m c),
      (h c _ (Cert.KernelIdeal.Run.mem_uc Cert.KernelIdeal.main_arg5 (by decide))).trans (Cert.KernelIdeal.Run.W8_main_arg5 m c),
      (h c _ (Cert.KernelIdeal.Run.mem_uc Cert.KernelIdeal.main_arg6 (by decide))).trans (Cert.KernelIdeal.Run.W8_main_arg6 m c),
      (h c _ (Cert.KernelIdeal.Run.mem_uc Cert.KernelIdeal.main_arg7 (by decide))).trans (Cert.KernelIdeal.Run.W8_main_arg7 m c),
      (h c _ (Cert.KernelIdeal.Run.mem_uc Cert.KernelIdeal.main_arg8 (by decide))).trans (Cert.KernelIdeal.Run.W8_main_arg8 m c),
      (h c _ (Cert.KernelIdeal.Run.mem_uc Cert.KernelIdeal.main_arg9 (by decide))).trans (Cert.KernelIdeal.Run.W8_main_arg9 m c),
      (h c _ (Cert.KernelIdeal.Run.mem_uc Cert.KernelIdeal.main_arg10 (by decide))).trans (Cert.KernelIdeal.Run.W8_main_arg10 m c),
      (h c _ (Cert.KernelIdeal.Run.mem_uc Cert.KernelIdeal.main_arg11 (by decide))).trans (Cert.KernelIdeal.Run.W8_main_arg11 m c),
      (h c _ (Cert.KernelIdeal.Run.mem_uc Cert.KernelIdeal.main_arg12 (by decide))).trans (Cert.KernelIdeal.Run.W8_main_arg12 m c),
      (h c _ (Cert.KernelIdeal.Run.mem_uc Cert.KernelIdeal.main_arg13 (by decide))).trans (Cert.KernelIdeal.Run.W8_main_arg13 m c),
      (h c _ (Cert.KernelIdeal.Run.mem_uc Cert.KernelIdeal.main_arg14 (by decide))).trans (Cert.KernelIdeal.Run.W8_main_arg14 m c),
      (h c _ (Cert.KernelIdeal.Run.mem_uc Cert.KernelIdeal.main_arg15 (by decide))).trans (Cert.KernelIdeal.Run.W8_main_arg15 m c)⟩)
    (Cert.KernelIdeal.Run.run_main (F := Ideal) m ρ)

/-- The reference is a straight line of host operations: its run with what it says of the results dropped. -/
theorem frame_ri : Cert.frame_ReferenceIdeal := fun m ρ _ =>
  (θ_run (Cert.ReferenceIdeal.defs (F := Ideal)) _ _).mono (fun _ h c => (h c).2.2) (Cert.ReferenceIdeal.HandRun.run (F := Ideal) m ρ)

/-- The idealization rewrote nothing. -/
theorem preserves : Cert.preserves_Kernel_KernelIdeal := trivial

/-- From arguments that agree, the reference's three steps from its encodings are the kernel program's. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.HandRun.H3 m' c = Cert.KernelIdeal.Chain.H3 m c ∧ Cert.ReferenceIdeal.HandRun.E3 m' c = Cert.KernelIdeal.Chain.E3 m c := by
  unfold Cert.ReferenceIdeal.HandRun.H3 Cert.ReferenceIdeal.HandRun.E3 Cert.ReferenceIdeal.HandRun.H2 Cert.ReferenceIdeal.HandRun.E2
    Cert.ReferenceIdeal.HandRun.H1 Cert.ReferenceIdeal.HandRun.E1 Cert.ReferenceIdeal.HandRun.H0 Cert.ReferenceIdeal.HandRun.E0
  rw [h0, h1, h2, h3, h4, h5, h6, h7, h8, h9, h10, h11, h12, h13, h14, h15]
  exact ⟨rfl, rfl⟩

/-- At the ideal values the two programs, run from memories that agree on the arguments, end with equal results. -/
theorem algebraic : Cert.algebraic_KernelIdeal_ReferenceIdeal := by
  intro m ρ m' ρ' _ hagree
  refine ⟨fun c => Cert.KernelIdeal.Chain.H3 m c, fun c => Cert.KernelIdeal.Chain.E3 m c, ?_, ?_⟩
  · exact (θ_run (Cert.KernelIdeal.defs (F := Ideal)) _ _).mono (fun r h c =>
      ⟨(h c _ (Cert.KernelIdeal.Run.mem_uc Cert.KernelIdeal.main_v20_1 (by decide))).trans (Cert.KernelIdeal.Chain.nodes3 m c),
       (h c _ (Cert.KernelIdeal.Run.mem_uc Cert.KernelIdeal.main_v20_0 (by decide))).trans (Cert.KernelIdeal.Chain.edges3 m c),
      (h c _ (Cert.KernelIdeal.Run.mem_uc Cert.KernelIdeal.main_arg0 (by decide))).trans (Cert.KernelIdeal.Run.W8_main_arg0 m c),
      (h c _ (Cert.KernelIdeal.Run.mem_uc Cert.KernelIdeal.main_arg1 (by decide))).trans (Cert.KernelIdeal.Run.W8_main_arg1 m c),
      (h c _ (Cert.KernelIdeal.Run.mem_uc Cert.KernelIdeal.main_arg2 (by decide))).trans (Cert.KernelIdeal.Run.W8_main_arg2 m c),
      (h c _ (Cert.KernelIdeal.Run.mem_uc Cert.KernelIdeal.main_arg3 (by decide))).trans (Cert.KernelIdeal.Run.W8_main_arg3 m c),
      (h c _ (Cert.KernelIdeal.Run.mem_uc Cert.KernelIdeal.main_arg4 (by decide))).trans (Cert.KernelIdeal.Run.W8_main_arg4 m c),
      (h c _ (Cert.KernelIdeal.Run.mem_uc Cert.KernelIdeal.main_arg5 (by decide))).trans (Cert.KernelIdeal.Run.W8_main_arg5 m c),
      (h c _ (Cert.KernelIdeal.Run.mem_uc Cert.KernelIdeal.main_arg6 (by decide))).trans (Cert.KernelIdeal.Run.W8_main_arg6 m c),
      (h c _ (Cert.KernelIdeal.Run.mem_uc Cert.KernelIdeal.main_arg7 (by decide))).trans (Cert.KernelIdeal.Run.W8_main_arg7 m c),
      (h c _ (Cert.KernelIdeal.Run.mem_uc Cert.KernelIdeal.main_arg8 (by decide))).trans (Cert.KernelIdeal.Run.W8_main_arg8 m c),
      (h c _ (Cert.KernelIdeal.Run.mem_uc Cert.KernelIdeal.main_arg9 (by decide))).trans (Cert.KernelIdeal.Run.W8_main_arg9 m c),
      (h c _ (Cert.KernelIdeal.Run.mem_uc Cert.KernelIdeal.main_arg10 (by decide))).trans (Cert.KernelIdeal.Run.W8_main_arg10 m c),
      (h c _ (Cert.KernelIdeal.Run.mem_uc Cert.KernelIdeal.main_arg11 (by decide))).trans (Cert.KernelIdeal.Run.W8_main_arg11 m c),
      (h c _ (Cert.KernelIdeal.Run.mem_uc Cert.KernelIdeal.main_arg12 (by decide))).trans (Cert.KernelIdeal.Run.W8_main_arg12 m c),
      (h c _ (Cert.KernelIdeal.Run.mem_uc Cert.KernelIdeal.main_arg13 (by decide))).trans (Cert.KernelIdeal.Run.W8_main_arg13 m c),
      (h c _ (Cert.KernelIdeal.Run.mem_uc Cert.KernelIdeal.main_arg14 (by decide))).trans (Cert.KernelIdeal.Run.W8_main_arg14 m c),
      (h c _ (Cert.KernelIdeal.Run.mem_uc Cert.KernelIdeal.main_arg15 (by decide))).trans (Cert.KernelIdeal.Run.W8_main_arg15 m c)⟩)
      (Cert.KernelIdeal.Run.run_main (F := Ideal) m ρ)
  · refine (θ_run (Cert.ReferenceIdeal.defs (F := Ideal)) _ _).mono (fun r h c => ?_) (Cert.ReferenceIdeal.HandRun.run (F := Ideal) m' ρ')
    have he := results_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2
    exact ⟨(h c).1.trans he.1, (h c).2.1.trans he.2, (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
